-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v130_0)) (v2 : (c : Dev Cert.KernelIdeal.nD) → Buf (Elt Ideal) ((c.tc : Thread Cert.KernelIdeal.nD Cert.KernelIdeal.τ).loc Cert.KernelIdeal.main_v131)) (v3 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v130_0) = v1 c
          ∧ r.2.mem ((c.tc : Thread Cert.KernelIdeal.nD Cert.KernelIdeal.τ).loc Cert.KernelIdeal.main_v131) = v2 c
          ∧ r.2.mem ((c.tc : Thread Cert.KernelIdeal.nD Cert.KernelIdeal.τ).loc Cert.KernelIdeal.main_v132) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S1x128 : S_.BroadcastsInDim S1x128 (![] : Fin 0 → Fin S1x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def fn_part15 {F : FTy → Type} [FloatOps F] (main_v181 : IVec S_ 1) (main_v279 : FVec F S50000x128 .f32) : IVec S_ 1 :=
  let main_cst_78 : FVec F S_ .f32 := constant S_ .f32 0x00000000#32
  let main_v280 : FVec F S128 .f32 := (fun x v => Host.reduceAdd x v reducesTo_S50000x128_S128_d0 h_S_) main_v279 main_cst_78
  let main_v281 : FVec F S1x128 .f32 := broadcastInDim S1x128 ![1] bcast_S128_S1x128_1 main_v280
  let main_cst_79 : FVec F S_ .f32 := constant S_ .f32 0x47435000#32
  let main_v282 : FVec F S1x128 .f32 := broadcastInDim S1x128 ![] bcast_S_S1x128 main_cst_79
  let main_v283 : FVec F S1x128 .f32 := Host.divf main_v281 main_v282
  let main_v284 : FVec F S50000x128 .f32 := broadcastInDim S50000x128 ![0, 1] bcast_S1x128_S50000x128_0_1 main_v283
  let main_v285 : FVec F S50000x128 .f32 := subf main_v279 main_v284
  let main_v286 : FVec F S50000x128 .f32 := mulf main_v285 main_v285
  let main_cst_80 : FVec F S_ .f32 := constant S_ .f32 0x00000000#32
  let main_v287 : FVec F S128 .f32 := (fun x v => Host.reduceAdd x v reducesTo_S50000x128_S128_d0 h_S_) main_v286 main_cst_80
  let main_cst_81 : FVec F S_ .f32 := constant S_ .f32 0x47434F00#32
  let main_v288 : FVec F S128 .f32 := broadcastInDim S128 ![] bcast_S_S128 main_cst_81
  let main_v289 : FVec F S128 .f32 := Host.divf main_v287 main_v288
  let main_v290 : FVec F S128 .f32 := Host.sqrt main_v289
  let main_cst_82 : FVec F S_ .f32 := constant S_ .f32 0x00000000#32
  let main_v291 : FVec F S128 .f32 := broadcastInDim S128 ![] bcast_S_S128 main_cst_82
  let main_v292 : IVec S128 1 := cmpf .ogt main_v290 main_v291
  let main_c_83 : IVec S_ 1 := constantI S_ 1 1#1
  let main_v293 : IVec S_ 1 := (fun x v => Host.reduce IntOp.andi x v reducesTo_S128_S_d0 h_S_) main_v292 main_c_83
  let main_v294 : IVec S_ 1 := andi main_v181 main_v293
  main_v294

def fn_part14 {F : FTy → Type} [FloatOps F] (main_arg6 : IVec S600000 32) (main_arg13 : FVec F S128 .f32) (main_arg14 : FVec F S128x128 .f32) (main_arg15 : FVec F S128 .f32) (main_v181 : IVec S_ 1) (main_v203 : FVec F S50000x1 .f32) (main_v254 : FVec F S50000x128 .f32) (main_v255 : FVec F S50000x128 .f32) (main_v256 : IVec S600000x1 32) (main_v258 : IVec S600000 1) : IVec S_ 1 :=
  let main_c_75 : IVec S_ 32 := constantI S_ 32 50000#32
  let main_v259 : IVec S600000 32 := broadcastInDim S600000 ![] bcast_S_S600000 main_c_75
  let main_v260 : IVec S600000 32 := addi main_arg6 main_v259
  let main_v261 : IVec S600000 32 := select main_v258 main_v260 main_arg6
  let main_v262 : IVec S600000x1 32 := broadcastInDim S600000x1 ![0] bcast_S600000_S600000x1_0 main_v261
  let main_v263 : FVec F S600000x128 .f32 := (fun x i => Host.gather gather_S50000x128_S600000x1_S600000x128_1_0_n_n_0_1_1128 x i) main_v254 main_v262
  let main_v264 : FVec F S50000x128 .f32 := (fun x i u => Host.scatterAdd scatter_S50000x128_S600000x1_S600000x128_1_0_0_1 x i u) main_v255 main_v256 main_v263
  let main_v265 : FVec F S50000x128 .f32 := broadcastInDim S50000x128 ![0, 1] bcast_S50000x1_S50000x128_0_1 main_v203
  let main_v266 : FVec F S50000x128 .f32 := mulf main_v264 main_v265
  let main_v267 : FVec F S1x128 .f32 := broadcastInDim S1x128 ![1] bcast_S128_S1x128_1 main_arg13
  let main_v268 : FVec F S50000x128 .f32 := broadcastInDim S50000x128 ![0, 1] bcast_S1x128_S50000x128_0_1 main_v267
  let main_v269 : FVec F S50000x128 .f32 := addf main_v266 main_v268
  let main_cst_76 : FVec F S_ .f32 := constant S_ .f32 0x00000000#32
  let main_v270 : FVec F S50000x128 .f32 := broadcastInDim S50000x128 ![] bcast_S_S50000x128 main_cst_76
  let main_v271 : IVec S50000x128 1 := cmpf .ogt main_v269 main_v270
  let main_cst_77 : FVec F S_ .f32 := constant S_ .f32 0x00000000#32
  let main_v272 : FVec F S50000x128 .f32 := broadcastInDim S50000x128 ![] bcast_S_S50000x128 main_cst_77
  let main_v273 : FVec F S50000x128 .f32 := select main_v271 main_v272 main_v269
  let main_v274 : FVec F S50000x128 .f32 := Host.expm1 main_v273
  let main_v275 : FVec F S50000x128 .f32 := select main_v271 main_v269 main_v274
  let main_v276 : FVec F S50000x128 .f32 := (fun l r => Host.dotGeneral dot_S50000x128_S128x128_S50000x128_1_0_0_1_n_n none l r) main_v275 main_arg14
  let main_v277 : FVec F S1x128 .f32 := broadcastInDim S1x128 ![1] bcast_S128_S1x128_1 main_arg15
  let main_v278 : FVec F S50000x128 .f32 := broadcastInDim S50000x128 ![0, 1] bcast_S1x128_S50000x128_0_1 main_v277
  let main_v279 : FVec F S50000x128 .f32 := addf main_v276 main_v278
  fn_part15 (F := F) main_v181 main_v279

def fn_part13 {F : FTy → Type} [FloatOps F] (main_arg6 : IVec S600000 32) (main_arg7 : IVec S600000 32) (main_arg11 : FVec F S128 .f32) (main_arg12 : FVec F S128x128 .f32) (main_arg13 : FVec F S128 .f32) (main_arg14 : FVec F S128x128 .f32) (main_arg15 : FVec F S128 .f32) (main_v181 : IVec S_ 1) (main_v199 : FVec F S50000x1 .f32) (main_v203 : FVec F S50000x1 .f32) (main_v230 : FVec F S50000x128 .f32) (main_v231 : FVec F S50000x128 .f32) (main_v232 : IVec S600000x1 32) (main_v238 : IVec S600000x1 32) : IVec S_ 1 :=
  let main_v239 : FVec F S600000x128 .f32 := (fun x i => Host.gather gather_S50000x128_S600000x1_S600000x128_1_0_n_n_0_1_1128 x i) main_v230 main_v238
  let main_v240 : FVec F S50000x128 .f32 := (fun x i u => Host.scatterAdd scatter_S50000x128_S600000x1_S600000x128_1_0_0_1 x i u) main_v231 main_v232 main_v239
  let main_v241 : FVec F S50000x128 .f32 := broadcastInDim S50000x128 ![0, 1] bcast_S50000x1_S50000x128_0_1 main_v203
  let main_v242 : FVec F S50000x128 .f32 := mulf main_v240 main_v241
  let main_v243 : FVec F S1x128 .f32 := broadcastInDim S1x128 ![1] bcast_S128_S1x128_1 main_arg11
  let main_v244 : FVec F S50000x128 .f32 := broadcastInDim S50000x128 ![0, 1] bcast_S1x128_S50000x128_0_1 main_v243
  let main_v245 : FVec F S50000x128 .f32 := addf main_v242 main_v244
  let main_cst_71 : FVec F S_ .f32 := constant S_ .f32 0x00000000#32
  let main_v246 : FVec F S50000x128 .f32 := broadcastInDim S50000x128 ![] bcast_S_S50000x128 main_cst_71
  let main_v247 : IVec S50000x128 1 := cmpf .ogt main_v245 main_v246
  let main_cst_72 : FVec F S_ .f32 := constant S_ .f32 0x00000000#32
  let main_v248 : FVec F S50000x128 .f32 := broadcastInDim S50000x128 ![] bcast_S_S50000x128 main_cst_72
  let main_v249 : FVec F S50000x128 .f32 := select main_v247 main_v248 main_v245
  let main_v250 : FVec F S50000x128 .f32 := Host.expm1 main_v249
  let main_v251 : FVec F S50000x128 .f32 := select main_v247 main_v245 main_v250
  let main_v252 : FVec F S50000x128 .f32 := broadcastInDim S50000x128 ![0, 1] bcast_S50000x1_S50000x128_0_1 main_v199
  let main_v253 : FVec F S50000x128 .f32 := mulf main_v251 main_v252
  let main_v254 : FVec F S50000x128 .f32 := (fun l r => Host.dotGeneral dot_S50000x128_S128x128_S50000x128_1_0_0_1_n_n none l r) main_v253 main_arg12
  let main_cst_73 : FVec F S_ .f32 := constant S_ .f32 0x00000000#32
  let main_v255 : FVec F S50000x128 .f32 := broadcastInDim S50000x128 ![] bcast_S_S50000x128 main_cst_73
  let main_v256 : IVec S600000x1 32 := broadcastInDim S600000x1 ![0] bcast_S600000_S600000x1_0 main_arg7
  let main_c_74 : IVec S_ 32 := constantI S_ 32 0#32
  let main_v257 : IVec S600000 32 := broadcastInDim S600000 ![] bcast_S_S600000 main_c_74
  let main_v258 : IVec S600000 1 := cmpi .slt main_arg6 main_v257
  fn_part14 (F := F) main_arg6 main_arg13 main_arg14 main_arg15 main_v181 main_v203 main_v254 main_v255 main_v256 main_v258

def fn_part12 {F : FTy → Type} [FloatOps F] (main_arg6 : IVec S600000 32) (main_arg7 : IVec S600000 32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v181 : IVec S_ 1) (main_v199 : FVec F S50000x1 .f32) (main_v203 : FVec F S50000x1 .f32) (main_v218 : FVec F S50000x128 .f32) (main_v219 : FVec F S1x128 .f32) : IVec S_ 1 :=
  let main_v220 : FVec F S50000x128 .f32 := broadcastInDim S50000x128 ![0, 1] bcast_S1x128_S50000x128_0_1 main_v219
  let main_v221 : FVec F S50000x128 .f32 := addf main_v218 main_v220
  let main_cst_66 : FVec F S_ .f32 := constant S_ .f32 0x00000000#32
  let main_v222 : FVec F S50000x128 .f32 := broadcastInDim S50000x128 ![] bcast_S_S50000x128 main_cst_66
  let main_v223 : IVec S50000x128 1 := cmpf .ogt main_v221 main_v222
  let main_cst_67 : FVec F S_ .f32 := constant S_ .f32 0x00000000#32
  let main_v224 : FVec F S50000x128 .f32 := broadcastInDim S50000x128 ![] bcast_S_S50000x128 main_cst_67
  let main_v225 : FVec F S50000x128 .f32 := select main_v223 main_v224 main_v221
  let main_v226 : FVec F S50000x128 .f32 := Host.expm1 main_v225
  let main_v227 : FVec F S50000x128 .f32 := select main_v223 main_v221 main_v226
  let main_v228 : FVec F S50000x128 .f32 := broadcastInDim S50000x128 ![0, 1] bcast_S50000x1_S50000x128_0_1 main_v199
  let main_v229 : FVec F S50000x128 .f32 := mulf main_v227 main_v228
  let main_v230 : FVec F S50000x128 .f32 := (fun l r => Host.dotGeneral dot_S50000x128_S128x128_S50000x128_1_0_0_1_n_n none l r) main_v229 main_arg10
  let main_cst_68 : FVec F S_ .f32 := constant S_ .f32 0x00000000#32
  let main_v231 : FVec F S50000x128 .f32 := broadcastInDim S50000x128 ![] bcast_S_S50000x128 main_cst_68
  let main_v232 : IVec S600000x1 32 := broadcastInDim S600000x1 ![0] bcast_S600000_S600000x1_0 main_arg7
  let main_c_69 : IVec S_ 32 := constantI S_ 32 0#32
  let main_v233 : IVec S600000 32 := broadcastInDim S600000 ![] bcast_S_S600000 main_c_69
  let main_v234 : IVec S600000 1 := cmpi .slt main_arg6 main_v233
  let main_c_70 : IVec S_ 32 := constantI S_ 32 50000#32
  let main_v235 : IVec S600000 32 := broadcastInDim S600000 ![] bcast_S_S600000 main_c_70
  let main_v236 : IVec S600000 32 := addi main_arg6 main_v235
  let main_v237 : IVec S600000 32 := select main_v234 main_v236 main_arg6
  let main_v238 : IVec S600000x1 32 := broadcastInDim S600000x1 ![0] bcast_S600000_S600000x1_0 main_v237
  fn_part13 (F := F) main_arg6 main_arg7 main_arg11 main_arg12 main_arg13 main_arg14 main_arg15 main_v181 main_v199 main_v203 main_v230 main_v231 main_v232 main_v238

def fn_part11 {F : FTy → Type} [FloatOps F] (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v181 : IVec S_ 1) (main_v187 : FVec F S50000x128 .f32) (main_v195 : FVec F S50000 .f32) (main_v199 : FVec F S50000x1 .f32) : IVec S_ 1 :=
  let main_cst_62 : FVec F S_ .f32 := constant S_ .f32 0x3F800000#32
  let main_v200 : FVec F S50000 .f32 := broadcastInDim S50000 ![] bcast_S_S50000 main_cst_62
  let main_v201 : FVec F S50000 .f32 := maximumf main_v195 main_v200
  let main_v202 : FVec F S50000 .f32 := Host.rsqrt main_v201
  let main_v203 : FVec F S50000x1 .f32 := broadcastInDim S50000x1 ![0] bcast_S50000_S50000x1_0 main_v202
  let main_v204 : FVec F S50000x128 .f32 := broadcastInDim S50000x128 ![0, 1] bcast_S50000x1_S50000x128_0_1 main_v199
  let main_v205 : FVec F S50000x128 .f32 := mulf main_v187 main_v204
  let main_v206 : FVec F S50000x128 .f32 := (fun l r => Host.dotGeneral dot_S50000x128_S128x128_S50000x128_1_0_0_1_n_n none l r) main_v205 main_arg8
  let main_cst_63 : FVec F S_ .f32 := constant S_ .f32 0x00000000#32
  let main_v207 : FVec F S50000x128 .f32 := broadcastInDim S50000x128 ![] bcast_S_S50000x128 main_cst_63
  let main_v208 : IVec S600000x1 32 := broadcastInDim S600000x1 ![0] bcast_S600000_S600000x1_0 main_arg7
  let main_c_64 : IVec S_ 32 := constantI S_ 32 0#32
  let main_v209 : IVec S600000 32 := broadcastInDim S600000 ![] bcast_S_S600000 main_c_64
  let main_v210 : IVec S600000 1 := cmpi .slt main_arg6 main_v209
  let main_c_65 : IVec S_ 32 := constantI S_ 32 50000#32
  let main_v211 : IVec S600000 32 := broadcastInDim S600000 ![] bcast_S_S600000 main_c_65
  let main_v212 : IVec S600000 32 := addi main_arg6 main_v211
  let main_v213 : IVec S600000 32 := select main_v210 main_v212 main_arg6
  let main_v214 : IVec S600000x1 32 := broadcastInDim S600000x1 ![0] bcast_S600000_S600000x1_0 main_v213
  let main_v215 : FVec F S600000x128 .f32 := (fun x i => Host.gather gather_S50000x128_S600000x1_S600000x128_1_0_n_n_0_1_1128 x i) main_v206 main_v214
  let main_v216 : FVec F S50000x128 .f32 := (fun x i u => Host.scatterAdd scatter_S50000x128_S600000x1_S600000x128_1_0_0_1 x i u) main_v207 main_v208 main_v215
  let main_v217 : FVec F S50000x128 .f32 := broadcastInDim S50000x128 ![0, 1] bcast_S50000x1_S50000x128_0_1 main_v203
  let main_v218 : FVec F S50000x128 .f32 := mulf main_v216 main_v217
  let main_v219 : FVec F S1x128 .f32 := broadcastInDim S1x128 ![1] bcast_S128_S1x128_1 main_arg9
  fn_part12 (F := F) main_arg6 main_arg7 main_arg10 main_arg11 main_arg12 main_arg13 main_arg14 main_arg15 main_v181 main_v199 main_v203 main_v218 main_v219

def fn_part10 {F : FTy → Type} [FloatOps F] (main_arg1 : FVec F S50000x128 .f32) (main_arg3 : FVec F S50000x128 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v181 : IVec S_ 1) (main_cst_55 : FVec F S_ .f32) : IVec S_ 1 :=
  let main_v182 : FVec F S50000x128 .f32 := broadcastInDim S50000x128 ![] bcast_S_S50000x128 main_cst_55
  let main_v183 : IVec S50000x128 1 := cmpf .ogt main_arg3 main_v182
  let main_v184 : FVec F S50000x128 .f32 := uitofp .f32 main_v183
  let main_v185 : FVec F S50000x128 .f32 := mulf main_arg1 main_v184
  let main_cst_56 : FVec F S_ .f32 := constant S_ .f32 0x3FA00000#32
  let main_v186 : FVec F S50000x128 .f32 := broadcastInDim S50000x128 ![] bcast_S_S50000x128 main_cst_56
  let main_v187 : FVec F S50000x128 .f32 := mulf main_v185 main_v186
  let main_cst_57 : FVec F S_ .f32 := constant S_ .f32 0x3F800000#32
  let main_v188 : FVec F S600000 .f32 := broadcastInDim S600000 ![] bcast_S_S600000 main_cst_57
  let main_cst_58 : FVec F S_ .f32 := constant S_ .f32 0x00000000#32
  let main_v189 : FVec F S50000 .f32 := broadcastInDim S50000 ![] bcast_S_S50000 main_cst_58
  let main_v190 : IVec S600000x1 32 := broadcastInDim S600000x1 ![0] bcast_S600000_S600000x1_0 main_arg6
  let main_v191 : FVec F S50000 .f32 := (fun x i u => Host.scatterAdd scatter_S50000_S600000x1_S600000_n_0_0_1 x i u) main_v189 main_v190 main_v188
  let main_cst_59 : FVec F S_ .f32 := constant S_ .f32 0x3F800000#32
  let main_v192 : FVec F S600000 .f32 := broadcastInDim S600000 ![] bcast_S_S600000 main_cst_59
  let main_cst_60 : FVec F S_ .f32 := constant S_ .f32 0x00000000#32
  let main_v193 : FVec F S50000 .f32 := broadcastInDim S50000 ![] bcast_S_S50000 main_cst_60
  let main_v194 : IVec S600000x1 32 := broadcastInDim S600000x1 ![0] bcast_S600000_S600000x1_0 main_arg7
  let main_v195 : FVec F S50000 .f32 := (fun x i u => Host.scatterAdd scatter_S50000_S600000x1_S600000_n_0_0_1 x i u) main_v193 main_v194 main_v192
  let main_cst_61 : FVec F S_ .f32 := constant S_ .f32 0x3F800000#32
  let main_v196 : FVec F S50000 .f32 := broadcastInDim S50000 ![] bcast_S_S50000 main_cst_61
  let main_v197 : FVec F S50000 .f32 := maximumf main_v191 main_v196
  let main_v198 : FVec F S50000 .f32 := Host.rsqrt main_v197
  let main_v199 : FVec F S50000x1 .f32 := broadcastInDim S50000x1 ![0] bcast_S50000_S50000x1_0 main_v198
  fn_part11 (F := F) main_arg6 main_arg7 main_arg8 main_arg9 main_arg10 main_arg11 main_arg12 main_arg13 main_arg14 main_arg15 main_v181 main_v187 main_v195 main_v199

def fn_part9 {F : FTy → Type} [FloatOps F] (main_arg1 : FVec F S50000x128 .f32) (main_arg3 : FVec F S50000x128 .f32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v163 : FVec F S50000x128 .f32) (main_v164 : FVec F S1x128 .f32) : IVec S_ 1 :=
  let main_v165 : FVec F S50000x128 .f32 := broadcastInDim S50000x128 ![0, 1] bcast_S1x128_S50000x128_0_1 main_v164
  let main_v166 : FVec F S50000x128 .f32 := addf main_v163 main_v165
  let main_cst_49 : FVec F S_ .f32 := constant S_ .f32 0x00000000#32
  let main_v167 : FVec F S128 .f32 := (fun x v => Host.reduceAdd x v reducesTo_S50000x128_S128_d0 h_S_) main_v166 main_cst_49
  let main_v168 : FVec F S1x128 .f32 := broadcastInDim S1x128 ![1] bcast_S128_S1x128_1 main_v167
  let main_cst_50 : FVec F S_ .f32 := constant S_ .f32 0x47435000#32
  let main_v169 : FVec F S1x128 .f32 := broadcastInDim S1x128 ![] bcast_S_S1x128 main_cst_50
  let main_v170 : FVec F S1x128 .f32 := Host.divf main_v168 main_v169
  let main_v171 : FVec F S50000x128 .f32 := broadcastInDim S50000x128 ![0, 1] bcast_S1x128_S50000x128_0_1 main_v170
  let main_v172 : FVec F S50000x128 .f32 := subf main_v166 main_v171
  let main_v173 : FVec F S50000x128 .f32 := mulf main_v172 main_v172
  let main_cst_51 : FVec F S_ .f32 := constant S_ .f32 0x00000000#32
  let main_v174 : FVec F S128 .f32 := (fun x v => Host.reduceAdd x v reducesTo_S50000x128_S128_d0 h_S_) main_v173 main_cst_51
  let main_cst_52 : FVec F S_ .f32 := constant S_ .f32 0x47434F00#32
  let main_v175 : FVec F S128 .f32 := broadcastInDim S128 ![] bcast_S_S128 main_cst_52
  let main_v176 : FVec F S128 .f32 := Host.divf main_v174 main_v175
  let main_v177 : FVec F S128 .f32 := Host.sqrt main_v176
  let main_cst_53 : FVec F S_ .f32 := constant S_ .f32 0x00000000#32
  let main_v178 : FVec F S128 .f32 := broadcastInDim S128 ![] bcast_S_S128 main_cst_53
  let main_v179 : IVec S128 1 := cmpf .ogt main_v177 main_v178
  let main_c_54 : IVec S_ 1 := constantI S_ 1 1#1
  let main_v180 : IVec S_ 1 := (fun x v => Host.reduce IntOp.andi x v reducesTo_S128_S_d0 h_S_) main_v179 main_c_54
  let main_v181 : IVec S_ 1 := andi main_v68 main_v180
  let main_cst_55 : FVec F S_ .f32 := constant S_ .f32 0x3E4CCCCD#32
  fn_part10 (F := F) main_arg1 main_arg3 main_arg6 main_arg7 main_arg8 main_arg9 main_arg10 main_arg11 main_arg12 main_arg13 main_arg14 main_arg15 main_v181 main_cst_55

def fn_part8 {F : FTy → Type} [FloatOps F] (main_arg1 : FVec F S50000x128 .f32) (main_arg3 : FVec F S50000x128 .f32) (main_arg4 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v90 : FVec F S50000x1 .f32) (main_v141 : FVec F S50000x128 .f32) (main_v142 : FVec F S50000x128 .f32) (main_v143 : IVec S600000x1 32) (main_c_45 : IVec S_ 32) : IVec S_ 1 :=
  let main_v144 : IVec S600000 32 := broadcastInDim S600000 ![] bcast_S_S600000 main_c_45
  let main_v145 : IVec S600000 1 := cmpi .slt main_arg4 main_v144
  let main_c_46 : IVec S_ 32 := constantI S_ 32 50000#32
  let main_v146 : IVec S600000 32 := broadcastInDim S600000 ![] bcast_S_S600000 main_c_46
  let main_v147 : IVec S600000 32 := addi main_arg4 main_v146
  let main_v148 : IVec S600000 32 := select main_v145 main_v147 main_arg4
  let main_v149 : IVec S600000x1 32 := broadcastInDim S600000x1 ![0] bcast_S600000_S600000x1_0 main_v148
  let main_v150 : FVec F S600000x128 .f32 := (fun x i => Host.gather gather_S50000x128_S600000x1_S600000x128_1_0_n_n_0_1_1128 x i) main_v141 main_v149
  let main_v151 : FVec F S50000x128 .f32 := (fun x i u => Host.scatterAdd scatter_S50000x128_S600000x1_S600000x128_1_0_0_1 x i u) main_v142 main_v143 main_v150
  let main_v152 : FVec F S50000x128 .f32 := broadcastInDim S50000x128 ![0, 1] bcast_S50000x1_S50000x128_0_1 main_v90
  let main_v153 : FVec F S50000x128 .f32 := mulf main_v151 main_v152
  let main_v154 : FVec F S1x128 .f32 := broadcastInDim S1x128 ![1] bcast_S128_S1x128_1 main_arg13
  let main_v155 : FVec F S50000x128 .f32 := broadcastInDim S50000x128 ![0, 1] bcast_S1x128_S50000x128_0_1 main_v154
  let main_v156 : FVec F S50000x128 .f32 := addf main_v153 main_v155
  let main_cst_47 : FVec F S_ .f32 := constant S_ .f32 0x00000000#32
  let main_v157 : FVec F S50000x128 .f32 := broadcastInDim S50000x128 ![] bcast_S_S50000x128 main_cst_47
  let main_v158 : IVec S50000x128 1 := cmpf .ogt main_v156 main_v157
  let main_cst_48 : FVec F S_ .f32 := constant S_ .f32 0x00000000#32
  let main_v159 : FVec F S50000x128 .f32 := broadcastInDim S50000x128 ![] bcast_S_S50000x128 main_cst_48
  let main_v160 : FVec F S50000x128 .f32 := select main_v158 main_v159 main_v156
  let main_v161 : FVec F S50000x128 .f32 := Host.expm1 main_v160
  let main_v162 : FVec F S50000x128 .f32 := select main_v158 main_v156 main_v161
  let main_v163 : FVec F S50000x128 .f32 := (fun l r => Host.dotGeneral dot_S50000x128_S128x128_S50000x128_1_0_0_1_n_n none l r) main_v162 main_arg14
  let main_v164 : FVec F S1x128 .f32 := broadcastInDim S1x128 ![1] bcast_S128_S1x128_1 main_arg15
  fn_part9 (F := F) main_arg1 main_arg3 main_arg6 main_arg7 main_arg8 main_arg9 main_arg10 main_arg11 main_arg12 main_arg13 main_arg14 main_arg15 main_v68 main_v163 main_v164

def fn_part7 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v86 : FVec F S50000x1 .f32) (main_v90 : FVec F S50000x1 .f32) (main_v117 : FVec F S50000x128 .f32) (main_v118 : FVec F S50000x128 .f32) (main_v119 : IVec S600000x1 32) (main_v121 : IVec S600000 1) (main_v123 : IVec S600000 32) : IVec S_ 1 :=
  let main_v124 : IVec S600000 32 := select main_v121 main_v123 main_arg4
  let main_v125 : IVec S600000x1 32 := broadcastInDim S600000x1 ![0] bcast_S600000_S600000x1_0 main_v124
  let main_v126 : FVec F S600000x128 .f32 := (fun x i => Host.gather gather_S50000x128_S600000x1_S600000x128_1_0_n_n_0_1_1128 x i) main_v117 main_v125
  let main_v127 : FVec F S50000x128 .f32 := (fun x i u => Host.scatterAdd scatter_S50000x128_S600000x1_S600000x128_1_0_0_1 x i u) main_v118 main_v119 main_v126
  let main_v128 : FVec F S50000x128 .f32 := broadcastInDim S50000x128 ![0, 1] bcast_S50000x1_S50000x128_0_1 main_v90
  let main_v129 : FVec F S50000x128 .f32 := mulf main_v127 main_v128
  let main_v130 : FVec F S1x128 .f32 := broadcastInDim S1x128 ![1] bcast_S128_S1x128_1 main_arg11
  let main_v131 : FVec F S50000x128 .f32 := broadcastInDim S50000x128 ![0, 1] bcast_S1x128_S50000x128_0_1 main_v130
  let main_v132 : FVec F S50000x128 .f32 := addf main_v129 main_v131
  let main_cst_42 : FVec F S_ .f32 := constant S_ .f32 0x00000000#32
  let main_v133 : FVec F S50000x128 .f32 := broadcastInDim S50000x128 ![] bcast_S_S50000x128 main_cst_42
  let main_v134 : IVec S50000x128 1 := cmpf .ogt main_v132 main_v133
  let main_cst_43 : FVec F S_ .f32 := constant S_ .f32 0x00000000#32
  let main_v135 : FVec F S50000x128 .f32 := broadcastInDim S50000x128 ![] bcast_S_S50000x128 main_cst_43
  let main_v136 : FVec F S50000x128 .f32 := select main_v134 main_v135 main_v132
  let main_v137 : FVec F S50000x128 .f32 := Host.expm1 main_v136
  let main_v138 : FVec F S50000x128 .f32 := select main_v134 main_v132 main_v137
  let main_v139 : FVec F S50000x128 .f32 := broadcastInDim S50000x128 ![0, 1] bcast_S50000x1_S50000x128_0_1 main_v86
  let main_v140 : FVec F S50000x128 .f32 := mulf main_v138 main_v139
  let main_v141 : FVec F S50000x128 .f32 := (fun l r => Host.dotGeneral dot_S50000x128_S128x128_S50000x128_1_0_0_1_n_n none l r) main_v140 main_arg12
  let main_cst_44 : FVec F S_ .f32 := constant S_ .f32 0x00000000#32
  let main_v142 : FVec F S50000x128 .f32 := broadcastInDim S50000x128 ![] bcast_S_S50000x128 main_cst_44
  let main_v143 : IVec S600000x1 32 := broadcastInDim S600000x1 ![0] bcast_S600000_S600000x1_0 main_arg5
  let main_c_45 : IVec S_ 32 := constantI S_ 32 0#32
  fn_part8 (F := F) main_arg1 main_arg3 main_arg4 main_arg6 main_arg7 main_arg8 main_arg9 main_arg10 main_arg11 main_arg12 main_arg13 main_arg14 main_arg15 main_v68 main_v90 main_v141 main_v142 main_v143 main_c_45

def fn_part6 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v86 : FVec F S50000x1 .f32) (main_v90 : FVec F S50000x1 .f32) (main_v103 : FVec F S50000x128 .f32) (main_v104 : FVec F S50000x128 .f32) : IVec S_ 1 :=
  let main_v105 : FVec F S50000x128 .f32 := mulf main_v103 main_v104
  let main_v106 : FVec F S1x128 .f32 := broadcastInDim S1x128 ![1] bcast_S128_S1x128_1 main_arg9
  let main_v107 : FVec F S50000x128 .f32 := broadcastInDim S50000x128 ![0, 1] bcast_S1x128_S50000x128_0_1 main_v106
  let main_v108 : FVec F S50000x128 .f32 := addf main_v105 main_v107
  let main_cst_37 : FVec F S_ .f32 := constant S_ .f32 0x00000000#32
  let main_v109 : FVec F S50000x128 .f32 := broadcastInDim S50000x128 ![] bcast_S_S50000x128 main_cst_37
  let main_v110 : IVec S50000x128 1 := cmpf .ogt main_v108 main_v109
  let main_cst_38 : FVec F S_ .f32 := constant S_ .f32 0x00000000#32
  let main_v111 : FVec F S50000x128 .f32 := broadcastInDim S50000x128 ![] bcast_S_S50000x128 main_cst_38
  let main_v112 : FVec F S50000x128 .f32 := select main_v110 main_v111 main_v108
  let main_v113 : FVec F S50000x128 .f32 := Host.expm1 main_v112
  let main_v114 : FVec F S50000x128 .f32 := select main_v110 main_v108 main_v113
  let main_v115 : FVec F S50000x128 .f32 := broadcastInDim S50000x128 ![0, 1] bcast_S50000x1_S50000x128_0_1 main_v86
  let main_v116 : FVec F S50000x128 .f32 := mulf main_v114 main_v115
  let main_v117 : FVec F S50000x128 .f32 := (fun l r => Host.dotGeneral dot_S50000x128_S128x128_S50000x128_1_0_0_1_n_n none l r) main_v116 main_arg10
  let main_cst_39 : FVec F S_ .f32 := constant S_ .f32 0x00000000#32
  let main_v118 : FVec F S50000x128 .f32 := broadcastInDim S50000x128 ![] bcast_S_S50000x128 main_cst_39
  let main_v119 : IVec S600000x1 32 := broadcastInDim S600000x1 ![0] bcast_S600000_S600000x1_0 main_arg5
  let main_c_40 : IVec S_ 32 := constantI S_ 32 0#32
  let main_v120 : IVec S600000 32 := broadcastInDim S600000 ![] bcast_S_S600000 main_c_40
  let main_v121 : IVec S600000 1 := cmpi .slt main_arg4 main_v120
  let main_c_41 : IVec S_ 32 := constantI S_ 32 50000#32
  let main_v122 : IVec S600000 32 := broadcastInDim S600000 ![] bcast_S_S600000 main_c_41
  let main_v123 : IVec S600000 32 := addi main_arg4 main_v122
  fn_part7 (F := F) main_arg1 main_arg3 main_arg4 main_arg5 main_arg6 main_arg7 main_arg8 main_arg9 main_arg10 main_arg11 main_arg12 main_arg13 main_arg14 main_arg15 main_v68 main_v86 main_v90 main_v117 main_v118 main_v119 main_v121 main_v123

def fn_part5 {F : FTy → Type} [FloatOps F] (main_arg1 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v68 : IVec S_ 1) (main_v74 : FVec F S50000x128 .f32) (main_v82 : FVec F S50000 .f32) (main_v84 : FVec F S50000 .f32) : IVec S_ 1 :=
  let main_v85 : FVec F S50000 .f32 := Host.rsqrt main_v84
  let main_v86 : FVec F S50000x1 .f32 := broadcastInDim S50000x1 ![0] bcast_S50000_S50000x1_0 main_v85
  let main_cst_33 : FVec F S_ .f32 := constant S_ .f32 0x3F800000#32
  let main_v87 : FVec F S50000 .f32 := broadcastInDim S50000 ![] bcast_S_S50000 main_cst_33
  let main_v88 : FVec F S50000 .f32 := maximumf main_v82 main_v87
  let main_v89 : FVec F S50000 .f32 := Host.rsqrt main_v88
  let main_v90 : FVec F S50000x1 .f32 := broadcastInDim S50000x1 ![0] bcast_S50000_S50000x1_0 main_v89
  let main_v91 : FVec F S50000x128 .f32 := broadcastInDim S50000x128 ![0, 1] bcast_S50000x1_S50000x128_0_1 main_v86
  let main_v92 : FVec F S50000x128 .f32 := mulf main_v74 main_v91
  let main_v93 : FVec F S50000x128 .f32 := (fun l r => Host.dotGeneral dot_S50000x128_S128x128_S50000x128_1_0_0_1_n_n none l r) main_v92 main_arg8
  let main_cst_34 : FVec F S_ .f32 := constant S_ .f32 0x00000000#32
  let main_v94 : FVec F S50000x128 .f32 := broadcastInDim S50000x128 ![] bcast_S_S50000x128 main_cst_34
  let main_v95 : IVec S600000x1 32 := broadcastInDim S600000x1 ![0] bcast_S600000_S600000x1_0 main_arg5
  let main_c_35 : IVec S_ 32 := constantI S_ 32 0#32
  let main_v96 : IVec S600000 32 := broadcastInDim S600000 ![] bcast_S_S600000 main_c_35
  let main_v97 : IVec S600000 1 := cmpi .slt main_arg4 main_v96
  let main_c_36 : IVec S_ 32 := constantI S_ 32 50000#32
  let main_v98 : IVec S600000 32 := broadcastInDim S600000 ![] bcast_S_S600000 main_c_36
  let main_v99 : IVec S600000 32 := addi main_arg4 main_v98
  let main_v100 : IVec S600000 32 := select main_v97 main_v99 main_arg4
  let main_v101 : IVec S600000x1 32 := broadcastInDim S600000x1 ![0] bcast_S600000_S600000x1_0 main_v100
  let main_v102 : FVec F S600000x128 .f32 := (fun x i => Host.gather gather_S50000x128_S600000x1_S600000x128_1_0_n_n_0_1_1128 x i) main_v93 main_v101
  let main_v103 : FVec F S50000x128 .f32 := (fun x i u => Host.scatterAdd scatter_S50000x128_S600000x1_S600000x128_1_0_0_1 x i u) main_v94 main_v95 main_v102
  let main_v104 : FVec F S50000x128 .f32 := broadcastInDim S50000x128 ![0, 1] bcast_S50000x1_S50000x128_0_1 main_v90
  fn_part6 (F := F) main_arg1 main_arg3 main_arg4 main_arg5 main_arg6 main_arg7 main_arg8 main_arg9 main_arg10 main_arg11 main_arg12 main_arg13 main_arg14 main_arg15 main_v68 main_v86 main_v90 main_v103 main_v104

def fn_part4 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v63 : IVec S_ 1) (main_v67 : IVec S_ 1) : IVec S_ 1 :=
  let main_v68 : IVec S_ 1 := andi main_v63 main_v67
  let main_cst_26 : FVec F S_ .f32 := constant S_ .f32 0x3E4CCCCD#32
  let main_v69 : FVec F S50000x128 .f32 := broadcastInDim S50000x128 ![] bcast_S_S50000x128 main_cst_26
  let main_v70 : IVec S50000x128 1 := cmpf .ogt main_arg2 main_v69
  let main_v71 : FVec F S50000x128 .f32 := uitofp .f32 main_v70
  let main_v72 : FVec F S50000x128 .f32 := mulf main_arg0 main_v71
  let main_cst_27 : FVec F S_ .f32 := constant S_ .f32 0x3FA00000#32
  let main_v73 : FVec F S50000x128 .f32 := broadcastInDim S50000x128 ![] bcast_S_S50000x128 main_cst_27
  let main_v74 : FVec F S50000x128 .f32 := mulf main_v72 main_v73
  let main_cst_28 : FVec F S_ .f32 := constant S_ .f32 0x3F800000#32
  let main_v75 : FVec F S600000 .f32 := broadcastInDim S600000 ![] bcast_S_S600000 main_cst_28
  let main_cst_29 : FVec F S_ .f32 := constant S_ .f32 0x00000000#32
  let main_v76 : FVec F S50000 .f32 := broadcastInDim S50000 ![] bcast_S_S50000 main_cst_29
  let main_v77 : IVec S600000x1 32 := broadcastInDim S600000x1 ![0] bcast_S600000_S600000x1_0 main_arg4
  let main_v78 : FVec F S50000 .f32 := (fun x i u => Host.scatterAdd scatter_S50000_S600000x1_S600000_n_0_0_1 x i u) main_v76 main_v77 main_v75
  let main_cst_30 : FVec F S_ .f32 := constant S_ .f32 0x3F800000#32
  let main_v79 : FVec F S600000 .f32 := broadcastInDim S600000 ![] bcast_S_S600000 main_cst_30
  let main_cst_31 : FVec F S_ .f32 := constant S_ .f32 0x00000000#32
  let main_v80 : FVec F S50000 .f32 := broadcastInDim S50000 ![] bcast_S_S50000 main_cst_31
  let main_v81 : IVec S600000x1 32 := broadcastInDim S600000x1 ![0] bcast_S600000_S600000x1_0 main_arg5
  let main_v82 : FVec F S50000 .f32 := (fun x i u => Host.scatterAdd scatter_S50000_S600000x1_S600000_n_0_0_1 x i u) main_v80 main_v81 main_v79
  let main_cst_32 : FVec F S_ .f32 := constant S_ .f32 0x3F800000#32
  let main_v83 : FVec F S50000 .f32 := broadcastInDim S50000 ![] bcast_S_S50000 main_cst_32
  let main_v84 : FVec F S50000 .f32 := maximumf main_v78 main_v83
  fn_part5 (F := F) main_arg1 main_arg3 main_arg4 main_arg5 main_arg6 main_arg7 main_arg8 main_arg9 main_arg10 main_arg11 main_arg12 main_arg13 main_arg14 main_arg15 main_v68 main_v74 main_v82 main_v84

def fn_part3 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg16
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg0 main_arg1 main_arg2 main_arg3 main_arg4 main_arg5 main_arg6 main_arg7 main_arg8 main_arg9 main_arg10 main_arg11 main_arg12 main_arg13 main_arg14 main_arg15 main_v63 main_v67

def fn_part2 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg0 main_arg1 main_arg2 main_arg3 main_arg4 main_arg5 main_arg6 main_arg7 main_arg8 main_arg9 main_arg10 main_arg11 main_arg12 main_arg13 main_arg14 main_arg15 main_arg16 main_arg17 main_v48 main_v49 main_v50

def fn_part1 {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S600000 32) (main_arg5 : IVec S600000 32) (main_arg6 : IVec S600000 32) (main_arg7 : IVec S600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x2 .f32) (main_arg17 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩
abbrev S600000x128 : Shape := ⟨2, ![600000, 128]⟩
abbrev S128x126 : Shape := ⟨2, ![128, 126]⟩
abbrev S126 : Shape := ⟨1, ![126]⟩
abbrev S50000x2 : Shape := ⟨2, ![50000, 2]⟩

abbrev nBuf : Space → Nat
  | .hbm => 189
  | .vmem => 106
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S50000x1, .f32⟩
  | 33 => ⟨S_, .f32⟩
  | 34 => ⟨S50000, .f32⟩
  | 35 => ⟨S50000, .f32⟩
  | 36 => ⟨S50000, .f32⟩
  | 37 => ⟨S50000x1, .f32⟩
  | 38 => ⟨S1x128, .f32⟩
  | 39 => ⟨S1x128, .f32⟩
  | 40 => ⟨S1x128, .f32⟩
  | 41 => ⟨S1x128, .f32⟩
  | 42 => ⟨S50000x128, .bf16⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .bf16⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000x128, .bf16⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .bf16⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S50000x128, .bf16⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000x128, .bf16⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S50000x128, .f32⟩
  | 88 => ⟨S1x128, .f32⟩
  | 89 => ⟨S_, .f32⟩
  | 90 => ⟨S600000, .f32⟩
  | 91 => ⟨S_, .f32⟩
  | 92 => ⟨S50000, .f32⟩
  | 93 => ⟨S600000x1, .i32⟩
  | 94 => ⟨S50000, .f32⟩
  | 95 => ⟨S_, .f32⟩
  | 96 => ⟨S50000, .f32⟩
  | 97 => ⟨S600000x1, .i32⟩
  | 98 => ⟨S50000, .f32⟩
  | 99 => ⟨S_, .f32⟩
  | 100 => ⟨S50000, .f32⟩
  | 101 => ⟨S50000, .f32⟩
  | 102 => ⟨S50000, .f32⟩
  | 103 => ⟨S50000x1, .f32⟩
  | 104 => ⟨S_, .f32⟩
  | 105 => ⟨S50000, .f32⟩
  | 106 => ⟨S50000, .f32⟩
  | 107 => ⟨S50000, .f32⟩
  | 108 => ⟨S50000x1, .f32⟩
  | 109 => ⟨S1x128, .f32⟩
  | 110 => ⟨S1x128, .f32⟩
  | 111 => ⟨S1x128, .f32⟩
  | 112 => ⟨S1x128, .f32⟩
  | 113 => ⟨S50000x128, .bf16⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .bf16⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S50000x128, .bf16⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .bf16⟩
  | 10 => ⟨S600000x128, .f32⟩
  | 11 => ⟨S_, .f32⟩
  | 12 => ⟨S50000x128, .f32⟩
  | 13 => ⟨S600000x1, .i32⟩
  | 14 => ⟨S50000x128, .f32⟩
  | 15 => ⟨S50000x128, .bf16⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .bf16⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S_, .f32⟩
  | 49 => ⟨S128x126, .f32⟩
  | 50 => ⟨S128x128, .f32⟩
  | 51 => ⟨S_, .f32⟩
  | 52 => ⟨S126, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S50000x128, .f32⟩
  | 59 => ⟨S50000x2, .f32⟩
  | 60 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S1x128, .f32⟩
  | .local _ .vmem, ⟨24, _⟩ => ⟨S2000x1, .f32⟩
  | .local _ .vmem, ⟨25, _⟩ => ⟨S2000x1, .f32⟩
  | .local _ .vmem, ⟨26, _⟩ => ⟨S128x128, .f32⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x1, .f32⟩
  | .local _ .vmem, ⟨44, _⟩ => ⟨S2000x1, .f32⟩
  | .local _ .vmem, ⟨45, _⟩ => ⟨S128x128, .f32⟩
  | .local _ .vmem, ⟨46, _⟩ => ⟨S2000x128, .bf16⟩
  | .local _ .vmem, ⟨47, _⟩ => ⟨S2000x128, .bf16⟩
  | .local _ .vmem, ⟨48, _⟩ => ⟨S2000x128, .f32⟩
  | .local _ .vmem, ⟨49, _⟩ => ⟨S2000x128, .f32⟩
  | .local _ .vmem, ⟨50, _⟩ => ⟨S2000x1, .f32⟩
  | .local _ .vmem, ⟨51, _⟩ => ⟨S2000x1, .f32⟩
  | .local _ .vmem, ⟨52, _⟩ => ⟨S1x128, .f32⟩
  | .local _ .vmem, ⟨53, _⟩ => ⟨S2000x1, .f32⟩
  | .local _ .vmem, ⟨54, _⟩ => ⟨S2000x1, .f32⟩
  | .local _ .vmem, ⟨55, _⟩ => ⟨S128x128, .f32⟩
  | .local _ .vmem, ⟨56, _⟩ => ⟨S2000x128, .bf16⟩
  | .local _ .vmem, ⟨57, _⟩ => ⟨S2000x128, .bf16⟩
  | .local _ .vmem, ⟨58, _⟩ => ⟨S2000x128, .f32⟩
  | .local _ .vmem, ⟨59, _⟩ => ⟨S2000x128, .f32⟩
  | .local _ .vmem, ⟨60, _⟩ => ⟨S2000x1, .f32⟩
  | .local _ .vmem, ⟨61, _⟩ => ⟨S2000x1, .f32⟩
  | .local _ .vmem, ⟨62, _⟩ => ⟨S1x128, .f32⟩
  | .local _ .vmem, ⟨63, _⟩ => ⟨S2000x1, .f32⟩
  | .local _ .vmem, ⟨64, _⟩ => ⟨S2000x1, .f32⟩
  | .local _ .vmem, ⟨65, _⟩ => ⟨S128x128, .f32⟩
  | .local _ .vmem, ⟨66, _⟩ => ⟨S2000x128, .bf16⟩
  | .local _ .vmem, ⟨67, _⟩ => ⟨S2000x128, .bf16⟩
  | .local _ .vmem, ⟨68, _⟩ => ⟨S2000x128, .f32⟩
  | .local _ .vmem, ⟨69, _⟩ => ⟨S2000x128, .f32⟩
  | .local _ .vmem, ⟨70, _⟩ => ⟨S2000x1, .f32⟩
  | .local _ .vmem, ⟨71, _⟩ => ⟨S2000x1, .f32⟩
  | .local _ .vmem, ⟨72, _⟩ => ⟨S1x128, .f32⟩
  | .local _ .vmem, ⟨73, _⟩ => ⟨S128x128, .f32⟩
  | .local _ .vmem, ⟨74, _⟩ => ⟨S1x128, .f32⟩
  | .local _ .vmem, ⟨75, _⟩ => ⟨S2000x128, .f32⟩
  | .local _ .vmem, ⟨76, _⟩ => ⟨S2000x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S1x128, .f32⟩
  | .local _ .vmem, ⟨81, _⟩ => ⟨S1x128, .f32⟩
  | .local _ .vmem, ⟨82, _⟩ => ⟨S2000x128, .f32⟩
  | .local _ .vmem, ⟨83, _⟩ => ⟨S2000x128, .f32⟩
  | .local _ .vmem, ⟨84, _⟩ => ⟨S1x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S1x128, .f32⟩
  | .local _ .vmem, ⟨89, _⟩ => ⟨S1x128, .f32⟩
  | .local _ .vmem, ⟨90, _⟩ => ⟨S128x128, .f32⟩
  | .local _ .vmem, ⟨91, _⟩ => ⟨S1x128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S2000x128, .f32⟩
  | .local _ .vmem, ⟨97, _⟩ => ⟨S2000x128, .f32⟩
  | .local _ .vmem, ⟨98, _⟩ => ⟨S1x128, .f32⟩
  | .local _ .vmem, ⟨99, _⟩ => ⟨S1x128, .f32⟩
  | .local _ .vmem, ⟨100, _⟩ => ⟨S128x128, .f32⟩
  | .local _ .vmem, ⟨101, _⟩ => ⟨S1x128, .f32⟩
  | .local _ .vmem, ⟨102, _⟩ => ⟨S2000x128, .f32⟩
  | .local _ .vmem, ⟨103, _⟩ => ⟨S2000x128, .f32⟩
  | .local _ .vmem, ⟨104, _⟩ => ⟨S2000x128, .f32⟩
  | .local _ .vmem, ⟨105, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55_0 : Ref sig .tc := ⟨.hbm, 87, rfl⟩
abbrev main_v55_1 : Ref sig .tc := ⟨.hbm, 88, rfl⟩
abbrev main_cst_12 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_c_18 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_20 : Ref sig .tc := ⟨.hbm, 129, rfl⟩
abbrev main_v88 : Ref sig .tc := ⟨.hbm, 130, rfl⟩
abbrev main_v89 : Ref sig .tc := ⟨.hbm, 131, rfl⟩
abbrev main_c_21 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_23 : Ref sig .tc := ⟨.hbm, 144, rfl⟩
abbrev main_v100 : Ref sig .tc := ⟨.hbm, 145, rfl⟩
abbrev main_v101 : Ref sig .tc := ⟨.hbm, 146, rfl⟩
abbrev main_c_24 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111_0 : Ref sig .tc := ⟨.hbm, 158, rfl⟩
abbrev main_v111_1 : Ref sig .tc := ⟨.hbm, 159, rfl⟩
abbrev main_cst_26 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_27 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_28 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_29 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_30 : Ref sig .tc := ⟨.hbm, 176, rfl⟩
abbrev main_v124 : Ref sig .tc := ⟨.hbm, 177, rfl⟩
abbrev main_v125 : Ref sig .tc := ⟨.hbm, 178, rfl⟩
abbrev main_cst_31 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129_0 : Ref sig .tc := ⟨.hbm, 183, rfl⟩
abbrev main_v129_1 : Ref sig .tc := ⟨.hbm, 184, rfl⟩
abbrev main_v130_0 : Ref sig .tc := ⟨.hbm, 185, rfl⟩
abbrev main_v130_1 : Ref sig .tc := ⟨.hbm, 186, rfl⟩
abbrev main_v131 : Ref sig .tc := ⟨.hbm, 187, rfl⟩
abbrev main_v132 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg3_1 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg5_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg5_1 : Ref sig .tc := ⟨.vmem, 76, rfl⟩
abbrev cc7_stg6_0 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg2_0 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg4_0 : Ref sig .tc := ⟨.vmem, 91, rfl⟩
abbrev cc10_stg5_0 : Ref sig .tc := ⟨.vmem, 92, rfl⟩
abbrev cc10_stg5_1 : Ref sig .tc := ⟨.vmem, 93, rfl⟩
abbrev cc10_stg6_0 : Ref sig .tc := ⟨.vmem, 94, rfl⟩
abbrev cc10_stg6_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg4_0 : Ref sig .tc := ⟨.vmem, 101, rfl⟩
abbrev cc11_stg5_0 : Ref sig .tc := ⟨.vmem, 102, rfl⟩
abbrev cc11_stg5_1 : Ref sig .tc := ⟨.vmem, 103, rfl⟩
abbrev cc11_stg6_0 : Ref sig .tc := ⟨.vmem, 104, rfl⟩
abbrev cc11_stg6_1 : Ref sig .tc := ⟨.vmem, 105, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem3_1 : DmaSem sig := 54
abbrev cc5_sem4_0 : DmaSem sig := 55
abbrev cc5_sem5_0 : DmaSem sig := 56
abbrev cc5_sem5_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem3_1 : DmaSem sig := 64
abbrev cc6_sem4_0 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76
abbrev cc7_sem6_0 : DmaSem sig := 77
abbrev cc8_sem0_0 : DmaSem sig := 78
abbrev cc8_sem0_1 : DmaSem sig := 79
abbrev cc8_sem1_0 : DmaSem sig := 80
abbrev cc8_sem2_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc10_sem0_0 : DmaSem sig := 86
abbrev cc10_sem0_1 : DmaSem sig := 87
abbrev cc10_sem1_0 : DmaSem sig := 88
abbrev cc10_sem2_0 : DmaSem sig := 89
abbrev cc10_sem3_0 : DmaSem sig := 90
abbrev cc10_sem4_0 : DmaSem sig := 91
abbrev cc10_sem5_0 : DmaSem sig := 92
abbrev cc10_sem5_1 : DmaSem sig := 93
abbrev cc10_sem6_0 : DmaSem sig := 94
abbrev cc10_sem6_1 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem4_0 : DmaSem sig := 101
abbrev cc11_sem5_0 : DmaSem sig := 102
abbrev cc11_sem5_1 : DmaSem sig := 103
abbrev cc11_sem6_0 : DmaSem sig := 104
abbrev cc11_sem6_1 : DmaSem sig := 105

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S2000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S2000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  natLt_1_32 : 1 < 32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  bcast_S_S128x126 : S_.BroadcastsInDim S128x126 (![] : Fin 0 → Fin S128x126.rank)
  concatenates_S128x2_S128x126_S128x128_d1 : Shape.Concatenates [S128x2, S128x126] S128x128 1
  bcast_S_S126 : S_.BroadcastsInDim S126 (![] : Fin 0 → Fin S126.rank)
  concatenates_S2_S126_S128_d0 : Shape.Concatenates [S2, S126] S128 0
  shapeCasts_S128x128_S128x128 : S128x128.ShapeCasts S128x128
  slices_S50000x128_S50000x2_0_0 : S50000x128.Slices ![0, 0] S50000x2
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .bf16 = 32 ∨ (Rect.block (s := S50000x128) S2000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .bf16 = 32 ∨ (Rect.block (s := S50000x128) S2000x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .bf16 = 32 ∨ (Rect.block (s := S50000x128) S2000x128.size (cc5_transform_5 i) (hinb5_5 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .f32 = 32 ∨ (Rect.block (s := S50000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .f32 = 32 ∨ (Rect.block (s := S50000x1) S2000x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S50000x128.size a
  hwx6_5 : ∀ i : grid6.Coords, EltTy.bits .bf16 = 32 ∨ (Rect.block (s := S50000x128) S2000x128.size (cc6_transform_5 i) (hinb6_5 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S50000x128.size a
  hwx10_5 : ∀ i : grid10.Coords, EltTy.bits .f32 = 32 ∨ (Rect.block (s := S50000x128) S2000x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S2000x128.size a ≤ S50000x128.size a
  hwx10_6 : ∀ i : grid10.Coords, EltTy.bits .f32 = 32 ∨ (Rect.block (s := S50000x128) S2000x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S50000x128.size a
  hwx11_5 : ∀ i : grid11.Coords, EltTy.bits .f32 = 32 ∨ (Rect.block (s := S50000x128) S2000x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x128.size a ≤ S50000x128.size a
  hwx11_6 : ∀ i : grid11.Coords, EltTy.bits .f32 = 32 ∨ (Rect.block (s := S50000x128) S2000x128.size (cc11_transform_6 i) (hinb11_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v55_1) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg1) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v86) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v98) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v70) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S2000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg12) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v99) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v110) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg14) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v74) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111_0) S2000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v111_1) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v55_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v113) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v114) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v111_0) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v119) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v120) S1x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v55_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v113) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v117) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v125) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v128) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v129_0) S2000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v129_1) S2000x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v111_0) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v119) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v123) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v125) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v128) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v130_0) S2000x128.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v130_1) S2000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 376
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S600000, .i32⟩
  | 5 => ⟨S600000, .i32⟩
  | 6 => ⟨S600000, .i32⟩
  | 7 => ⟨S600000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x2, .f32⟩
  | 17 => ⟨S2, .f32⟩
  | 18 => ⟨S_, .f32⟩
  | 19 => ⟨S50000x128, .f32⟩
  | 20 => ⟨S50000x128, .i1⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .f32⟩
  | 27 => ⟨S50000x128, .f32⟩
  | 28 => ⟨S50000x128, .i1⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S_, .f32⟩
  | 35 => ⟨S600000, .f32⟩
  | 36 => ⟨S_, .f32⟩
  | 37 => ⟨S50000, .f32⟩
  | 38 => ⟨S600000x1, .i32⟩
  | 39 => ⟨S50000, .f32⟩
  | 40 => ⟨S_, .f32⟩
  | 41 => ⟨S50000, .f32⟩
  | 42 => ⟨S600000x1, .i32⟩
  | 43 => ⟨S50000, .f32⟩
  | 44 => ⟨S_, .f32⟩
  | 45 => ⟨S50000, .f32⟩
  | 46 => ⟨S50000, .f32⟩
  | 47 => ⟨S50000, .f32⟩
  | 48 => ⟨S50000x1, .f32⟩
  | 49 => ⟨S_, .f32⟩
  | 50 => ⟨S50000, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .i1⟩
  | 78 => ⟨S_, .f32⟩
  | 79 => ⟨S50000x128, .f32⟩
  | 80 => ⟨S50000x128, .i1⟩
  | 81 => ⟨S_, .f32⟩
  | 82 => ⟨S_, .f32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .i1⟩
  | 114 => ⟨S_, .f32⟩
  | 115 => ⟨S50000x128, .f32⟩
  | 116 => ⟨S50000x128, .i1⟩
  | 117 => ⟨S_, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .i1⟩
  | 25 => ⟨S_, .f32⟩
  | 26 => ⟨S_, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S600000, .f32⟩
  | 40 => ⟨S_, .f32⟩
  | 41 => ⟨S50000, .f32⟩
  | 42 => ⟨S600000x1, .i32⟩
  | 43 => ⟨S50000, .f32⟩
  | 44 => ⟨S_, .f32⟩
  | 45 => ⟨S50000, .f32⟩
  | 46 => ⟨S600000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S50000x1, .f32⟩
  | 53 => ⟨S_, .f32⟩
  | 54 => ⟨S50000, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S50000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .i1⟩
  | 85 => ⟨S_, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .i1⟩
  | 121 => ⟨S_, .f32⟩
  | 122 => ⟨S_, .f32⟩
  | 123 => ⟨S50000x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S50000x128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .i1⟩
  | 26 => ⟨S_, .f32⟩
  | 27 => ⟨S50000x128, .f32⟩
  | 28 => ⟨S50000x128, .i1⟩
  | 29 => ⟨S_, .f32⟩
  | 30 => ⟨S_, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S50000x2, .f32⟩
  | 113 => ⟨S1x2, .f32⟩
  | 114 => ⟨S50000x2, .f32⟩
  | 115 => ⟨S50000x2, .f32⟩
  | 116 => ⟨S50000x2, .f32⟩
  | 117 => ⟨S1x2, .f32⟩
  | 118 => ⟨S50000x2, .f32⟩
  | 119 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_6 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_10 : Ref sig .tc := ⟨.hbm, 93, rfl⟩
abbrev main_v49 : Ref sig .tc := ⟨.hbm, 94, rfl⟩
abbrev main_v50 : Ref sig .tc := ⟨.hbm, 95, rfl⟩
abbrev main_c_11 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_12 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_cst_1 : Ref sig .tc := ⟨.hbm, 117, rfl⟩
abbrev main_call1_call0_v0 : Ref sig .tc := ⟨.hbm, 118, rfl⟩
abbrev main_call1_call0_v1 : Ref sig .tc := ⟨.hbm, 119, rfl⟩
abbrev main_call1_v4 : Ref sig .tc := ⟨.hbm, 120, rfl⟩
abbrev main_call1_v5 : Ref sig .tc := ⟨.hbm, 121, rfl⟩
abbrev main_call1_cst_2 : Ref sig .tc := ⟨.hbm, 122, rfl⟩
abbrev main_call1_v6 : Ref sig .tc := ⟨.hbm, 123, rfl⟩
abbrev main_call1_v7 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_13 : Ref sig .tc := ⟨.hbm, 129, rfl⟩
abbrev main_v68 : Ref sig .tc := ⟨.hbm, 130, rfl⟩
abbrev main_v69 : Ref sig .tc := ⟨.hbm, 131, rfl⟩
abbrev main_c_14 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_cst_15 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_cst_1 : Ref sig .tc := ⟨.hbm, 153, rfl⟩
abbrev main_call2_call0_v0 : Ref sig .tc := ⟨.hbm, 154, rfl⟩
abbrev main_call2_call0_v1 : Ref sig .tc := ⟨.hbm, 155, rfl⟩
abbrev main_call2_v4 : Ref sig .tc := ⟨.hbm, 156, rfl⟩
abbrev main_call2_v5 : Ref sig .tc := ⟨.hbm, 157, rfl⟩
abbrev main_call2_cst_2 : Ref sig .tc := ⟨.hbm, 158, rfl⟩
abbrev main_call2_v6 : Ref sig .tc := ⟨.hbm, 159, rfl⟩
abbrev main_call2_v7 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_16 : Ref sig .tc := ⟨.hbm, 166, rfl⟩
abbrev main_v88 : Ref sig .tc := ⟨.hbm, 167, rfl⟩
abbrev main_cst_17 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_18 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_cst_19 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_20 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_c_21 : Ref sig .tc := ⟨.hbm, 189, rfl⟩
abbrev main_v106 : Ref sig .tc := ⟨.hbm, 190, rfl⟩
abbrev main_v107 : Ref sig .tc := ⟨.hbm, 191, rfl⟩
abbrev main_c_22 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_cst_23 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_cst_0 : Ref sig .tc := ⟨.hbm, 210, rfl⟩
abbrev main_call3_v2 : Ref sig .tc := ⟨.hbm, 211, rfl⟩
abbrev main_call3_v3 : Ref sig .tc := ⟨.hbm, 212, rfl⟩
abbrev main_call3_cst_1 : Ref sig .tc := ⟨.hbm, 213, rfl⟩
abbrev main_call3_call0_v0 : Ref sig .tc := ⟨.hbm, 214, rfl⟩
abbrev main_call3_call0_v1 : Ref sig .tc := ⟨.hbm, 215, rfl⟩
abbrev main_call3_v4 : Ref sig .tc := ⟨.hbm, 216, rfl⟩
abbrev main_call3_v5 : Ref sig .tc := ⟨.hbm, 217, rfl⟩
abbrev main_call3_cst_2 : Ref sig .tc := ⟨.hbm, 218, rfl⟩
abbrev main_call3_v6 : Ref sig .tc := ⟨.hbm, 219, rfl⟩
abbrev main_call3_v7 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_c_24 : Ref sig .tc := ⟨.hbm, 225, rfl⟩
abbrev main_v125 : Ref sig .tc := ⟨.hbm, 226, rfl⟩
abbrev main_v126 : Ref sig .tc := ⟨.hbm, 227, rfl⟩
abbrev main_c_25 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_cst_26 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_call4_cst : Ref sig .tc := ⟨.hbm, 243, rfl⟩
abbrev main_call4_v0 : Ref sig .tc := ⟨.hbm, 244, rfl⟩
abbrev main_call4_v1 : Ref sig .tc := ⟨.hbm, 245, rfl⟩
abbrev main_call4_cst_0 : Ref sig .tc := ⟨.hbm, 246, rfl⟩
abbrev main_call4_v2 : Ref sig .tc := ⟨.hbm, 247, rfl⟩
abbrev main_call4_v3 : Ref sig .tc := ⟨.hbm, 248, rfl⟩
abbrev main_call4_cst_1 : Ref sig .tc := ⟨.hbm, 249, rfl⟩
abbrev main_call4_call0_v0 : Ref sig .tc := ⟨.hbm, 250, rfl⟩
abbrev main_call4_call0_v1 : Ref sig .tc := ⟨.hbm, 251, rfl⟩
abbrev main_call4_v4 : Ref sig .tc := ⟨.hbm, 252, rfl⟩
abbrev main_call4_v5 : Ref sig .tc := ⟨.hbm, 253, rfl⟩
abbrev main_call4_cst_2 : Ref sig .tc := ⟨.hbm, 254, rfl⟩
abbrev main_call4_v6 : Ref sig .tc := ⟨.hbm, 255, rfl⟩
abbrev main_call4_v7 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_c_27 : Ref sig .tc := ⟨.hbm, 261, rfl⟩
abbrev main_v144 : Ref sig .tc := ⟨.hbm, 262, rfl⟩
abbrev main_v145 : Ref sig .tc := ⟨.hbm, 263, rfl⟩
abbrev main_c_28 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_cst_29 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_call5_cst : Ref sig .tc := ⟨.hbm, 279, rfl⟩
abbrev main_call5_v0 : Ref sig .tc := ⟨.hbm, 280, rfl⟩
abbrev main_call5_v1 : Ref sig .tc := ⟨.hbm, 281, rfl⟩
abbrev main_call5_cst_0 : Ref sig .tc := ⟨.hbm, 282, rfl⟩
abbrev main_call5_v2 : Ref sig .tc := ⟨.hbm, 283, rfl⟩
abbrev main_call5_v3 : Ref sig .tc := ⟨.hbm, 284, rfl⟩
abbrev main_call5_cst_1 : Ref sig .tc := ⟨.hbm, 285, rfl⟩
abbrev main_call5_call0_v0 : Ref sig .tc := ⟨.hbm, 286, rfl⟩
abbrev main_call5_call0_v1 : Ref sig .tc := ⟨.hbm, 287, rfl⟩
abbrev main_call5_v4 : Ref sig .tc := ⟨.hbm, 288, rfl⟩
abbrev main_call5_v5 : Ref sig .tc := ⟨.hbm, 289, rfl⟩
abbrev main_call5_cst_2 : Ref sig .tc := ⟨.hbm, 290, rfl⟩
abbrev main_call5_v6 : Ref sig .tc := ⟨.hbm, 291, rfl⟩
abbrev main_call5_v7 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_30 : Ref sig .tc := ⟨.hbm, 298, rfl⟩
abbrev main_v164 : Ref sig .tc := ⟨.hbm, 299, rfl⟩
abbrev main_cst_31 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_c_32 : Ref sig .tc := ⟨.hbm, 306, rfl⟩
abbrev main_call6_call0_cst : Ref sig .tc := ⟨.hbm, 307, rfl⟩
abbrev main_call6_call0_v0 : Ref sig .tc := ⟨.hbm, 308, rfl⟩
abbrev main_call6_call0_v1 : Ref sig .tc := ⟨.hbm, 309, rfl⟩
abbrev main_call6_call0_cst_0 : Ref sig .tc := ⟨.hbm, 310, rfl⟩
abbrev main_call6_call0_v2 : Ref sig .tc := ⟨.hbm, 311, rfl⟩
abbrev main_call6_call0_v3 : Ref sig .tc := ⟨.hbm, 312, rfl⟩
abbrev main_call6_call0_v4 : Ref sig .tc := ⟨.hbm, 313, rfl⟩
abbrev main_call6_call0_v5 : Ref sig .tc := ⟨.hbm, 314, rfl⟩
abbrev main_call6_call0_v6 : Ref sig .tc := ⟨.hbm, 315, rfl⟩
abbrev main_call6_call0_v7 : Ref sig .tc := ⟨.hbm, 316, rfl⟩
abbrev main_call6_call0_cst_1 : Ref sig .tc := ⟨.hbm, 317, rfl⟩
abbrev main_call6_call0_v8 : Ref sig .tc := ⟨.hbm, 318, rfl⟩
abbrev main_call6_call0_cst_2 : Ref sig .tc := ⟨.hbm, 319, rfl⟩
abbrev main_call6_call0_v9 : Ref sig .tc := ⟨.hbm, 320, rfl⟩
abbrev main_call6_call0_v10 : Ref sig .tc := ⟨.hbm, 321, rfl⟩
abbrev main_call6_call0_v11 : Ref sig .tc := ⟨.hbm, 322, rfl⟩
abbrev main_call6_call0_cst_3 : Ref sig .tc := ⟨.hbm, 323, rfl⟩
abbrev main_call6_call0_v12 : Ref sig .tc := ⟨.hbm, 324, rfl⟩
abbrev main_call6_call0_cst_4 : Ref sig .tc := ⟨.hbm, 325, rfl⟩
abbrev main_call6_call0_call0_v0 : Ref sig .tc := ⟨.hbm, 326, rfl⟩
abbrev main_call6_call0_call0_v1 : Ref sig .tc := ⟨.hbm, 327, rfl⟩
abbrev main_call6_v0 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_cst_33 : Ref sig .tc := ⟨.hbm, 333, rfl⟩
abbrev main_v174 : Ref sig .tc := ⟨.hbm, 334, rfl⟩
abbrev main_cst_34 : Ref sig .tc := ⟨.hbm, 335, rfl⟩
abbrev main_v175 : Ref sig .tc := ⟨.hbm, 336, rfl⟩
abbrev main_v176 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_c_35 : Ref sig .tc := ⟨.hbm, 341, rfl⟩
abbrev main_call7_call0_cst : Ref sig .tc := ⟨.hbm, 342, rfl⟩
abbrev main_call7_call0_v0 : Ref sig .tc := ⟨.hbm, 343, rfl⟩
abbrev main_call7_call0_v1 : Ref sig .tc := ⟨.hbm, 344, rfl⟩
abbrev main_call7_call0_cst_0 : Ref sig .tc := ⟨.hbm, 345, rfl⟩
abbrev main_call7_call0_v2 : Ref sig .tc := ⟨.hbm, 346, rfl⟩
abbrev main_call7_call0_v3 : Ref sig .tc := ⟨.hbm, 347, rfl⟩
abbrev main_call7_call0_v4 : Ref sig .tc := ⟨.hbm, 348, rfl⟩
abbrev main_call7_call0_v5 : Ref sig .tc := ⟨.hbm, 349, rfl⟩
abbrev main_call7_call0_v6 : Ref sig .tc := ⟨.hbm, 350, rfl⟩
abbrev main_call7_call0_v7 : Ref sig .tc := ⟨.hbm, 351, rfl⟩
abbrev main_call7_call0_cst_1 : Ref sig .tc := ⟨.hbm, 352, rfl⟩
abbrev main_call7_call0_v8 : Ref sig .tc := ⟨.hbm, 353, rfl⟩
abbrev main_call7_call0_cst_2 : Ref sig .tc := ⟨.hbm, 354, rfl⟩
abbrev main_call7_call0_v9 : Ref sig .tc := ⟨.hbm, 355, rfl⟩
abbrev main_call7_call0_v10 : Ref sig .tc := ⟨.hbm, 356, rfl⟩
abbrev main_call7_call0_v11 : Ref sig .tc := ⟨.hbm, 357, rfl⟩
abbrev main_call7_call0_cst_3 : Ref sig .tc := ⟨.hbm, 358, rfl⟩
abbrev main_call7_call0_v12 : Ref sig .tc := ⟨.hbm, 359, rfl⟩
abbrev main_call7_call0_cst_4 : Ref sig .tc := ⟨.hbm, 360, rfl⟩
abbrev main_call7_call0_call0_v0 : Ref sig .tc := ⟨.hbm, 361, rfl⟩
abbrev main_call7_call0_call0_v1 : Ref sig .tc := ⟨.hbm, 362, rfl⟩
abbrev main_call7_v0 : Ref sig .tc := ⟨.hbm, 363, rfl⟩
abbrev main_v180 : Ref sig .tc := ⟨.hbm, 364, rfl⟩
abbrev main_v181 : Ref sig .tc := ⟨.hbm, 365, rfl⟩
abbrev main_v182 : Ref sig .tc := ⟨.hbm, 366, rfl⟩
abbrev main_v183 : Ref sig .tc := ⟨.hbm, 367, rfl⟩
abbrev main_v184 : Ref sig .tc := ⟨.hbm, 368, rfl⟩
abbrev main_v185 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_v190 : Ref sig .tc := ⟨.hbm, 374, rfl⟩
abbrev main_v191 : Ref sig .tc := ⟨.hbm, 375, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x2_S50000x2_1_0_0_1_n_n_wf : DotDims.WF S50000x128 S128x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.RefPart0.lean ====
/-
  Window 0 of the reference program as a list of its host operations, in order: the dropout of both graphs, the first graph's degree normalisers, its first layer (product, gather along the edges, scatter-add at the targets, normalise, bias) and the first ELU.
  A function the program calls (ELU, the selections it is built from, the variance and the standard deviation) is
  listed at its call site, operation by operation, over the buffers of that call. The window run as a program is
  the list run in order; every operation reads and writes TensorCore buffers only and allocates nothing.
-/
import proofs.«148151_j29411936043366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 74 operations, in order. -/
abbrev ops0 : List (HloOp τ sig (Elt F)) :=
  [ StableHlo.nullary main_cst (constant S_ .f32 0x3E4CCCCD#32),
    StableHlo.unary main_cst main_v0 (broadcastInDim S50000x128 ![] bcast_S_S50000x128 : (⟨S_, .f32⟩ : BufTy).Contents (Elt F) → (⟨S50000x128, .f32⟩ : BufTy).Contents (Elt F)),
    StableHlo.binary main_arg2 main_v0 main_v1 (cmpf .ogt : (⟨S50000x128, .f32⟩ : BufTy).Contents (Elt F) → (⟨S50000x128, .f32⟩ : BufTy).Contents (Elt F) → (⟨S50000x128, .i1⟩ : BufTy).Contents (Elt F)),
    StableHlo.unary main_v1 main_v2 (uitofp .f32 : (⟨S50000x128, .i1⟩ : BufTy).Contents (Elt F) → (⟨S50000x128, .f32⟩ : BufTy).Contents (Elt F)),
    StableHlo.binary main_arg0 main_v2 main_v3 (mulf : (⟨S50000x128, .f32⟩ : BufTy).Contents (Elt F) → (⟨S50000x128, .f32⟩ : BufTy).Contents (Elt F) → (⟨S50000x128, .f32⟩ : BufTy).Contents (Elt F)),
    StableHlo.nullary main_cst_0 (constant S_ .f32 0x3FA00000#32),
    StableHlo.unary main_cst_0 main_v4 (broadcastInDim S50000x128 ![] bcast_S_S50000x128 : (⟨S_, .f32⟩ : BufTy).Contents (Elt F) → (⟨S50000x128, .f32⟩ : BufTy).Contents (Elt F)),
    StableHlo.binary main_v3 main_v4 main_v5 (mulf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3E4CCCCD#32),
    StableHlo.unary main_cst_1 main_v6 (broadcastInDim S50000x128 ![] bcast_S_S50000x128 : (⟨S_, .f32⟩ : BufTy).Contents (Elt F) → (⟨S50000x128, .f32⟩ : BufTy).Contents (Elt F)),
    StableHlo.binary main_arg3 main_v6 main_v7 (cmpf .ogt : (⟨S50000x128, .f32⟩ : BufTy).Contents (Elt F) → (⟨S50000x128, .f32⟩ : BufTy).Contents (Elt F) → (⟨S50000x128, .i1⟩ : BufTy).Contents (Elt F)),
    StableHlo.unary main_v7 main_v8 (uitofp .f32 : (⟨S50000x128, .i1⟩ : BufTy).Contents (Elt F) → (⟨S50000x128, .f32⟩ : BufTy).Contents (Elt F)),
    StableHlo.binary main_arg1 main_v8 main_v9 (mulf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x3FA00000#32),
    StableHlo.unary main_cst_2 main_v10 (broadcastInDim S50000x128 ![] bcast_S_S50000x128 : (⟨S_, .f32⟩ : BufTy).Contents (Elt F) → (⟨S50000x128, .f32⟩ : BufTy).Contents (Elt F)),
    StableHlo.binary main_v9 main_v10 main_v11 (mulf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x3F800000#32),
    StableHlo.unary main_cst_3 main_v12 (broadcastInDim S600000 ![] bcast_S_S600000 : (⟨S_, .f32⟩ : BufTy).Contents (Elt F) → (⟨S600000, .f32⟩ : BufTy).Contents (Elt F)),
    StableHlo.nullary main_cst_4 (constant S_ .f32 0x00000000#32),
    StableHlo.unary main_cst_4 main_v13 (broadcastInDim S50000 ![] bcast_S_S50000 : (⟨S_, .f32⟩ : BufTy).Contents (Elt F) → (⟨S50000, .f32⟩ : BufTy).Contents (Elt F)),
    StableHlo.unary main_arg4 main_v14 (broadcastInDim S600000x1 ![0] bcast_S600000_S600000x1_0 : (⟨S600000, .i32⟩ : BufTy).Contents (Elt F) → (⟨S600000x1, .i32⟩ : BufTy).Contents (Elt F)),
    StableHlo.ternary main_v13 main_v14 main_v12 main_v15 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_5 (constant S_ .f32 0x00000000#32),
    StableHlo.unary main_cst_5 main_v16 (broadcastInDim S50000 ![] bcast_S_S50000 : (⟨S_, .f32⟩ : BufTy).Contents (Elt F) → (⟨S50000, .f32⟩ : BufTy).Contents (Elt F)),
    StableHlo.unary main_arg5 main_v17 (broadcastInDim S600000x1 ![0] bcast_S600000_S600000x1_0 : (⟨S600000, .i32⟩ : BufTy).Contents (Elt F) → (⟨S600000x1, .i32⟩ : BufTy).Contents (Elt F)),
    StableHlo.ternary main_v16 main_v17 main_v12 main_v18 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_6 (constant S_ .f32 0x3F800000#32),
    StableHlo.unary main_cst_6 main_v19 (broadcastInDim S50000 ![] bcast_S_S50000 : (⟨S_, .f32⟩ : BufTy).Contents (Elt F) → (⟨S50000, .f32⟩ : BufTy).Contents (Elt F)),
    StableHlo.binary main_v15 main_v19 main_v20 (maximumf : (⟨S50000, .f32⟩ : BufTy).Contents (Elt F) → (⟨S50000, .f32⟩ : BufTy).Contents (Elt F) → (⟨S50000, .f32⟩ : BufTy).Contents (Elt F)),
    StableHlo.unary main_v20 main_v21 (Host.rsqrt : (⟨S50000, .f32⟩ : BufTy).Contents (Elt F) → (⟨S50000, .f32⟩ : BufTy).Contents (Elt F)),
    StableHlo.unary main_v21 main_v22 (broadcastInDim S50000x1 ![0] bcast_S50000_S50000x1_0 : (⟨S50000, .f32⟩ : BufTy).Contents (Elt F) → (⟨S50000x1, .f32⟩ : BufTy).Contents (Elt F)),
    StableHlo.nullary main_cst_7 (constant S_ .f32 0x3F800000#32),
    StableHlo.unary main_cst_7 main_v23 (broadcastInDim S50000 ![] bcast_S_S50000 : (⟨S_, .f32⟩ : BufTy).Contents (Elt F) → (⟨S50000, .f32⟩ : BufTy).Contents (Elt F)),
    StableHlo.binary main_v18 main_v23 main_v24 (maximumf : (⟨S50000, .f32⟩ : BufTy).Contents (Elt F) → (⟨S50000, .f32⟩ : BufTy).Contents (Elt F) → (⟨S50000, .f32⟩ : BufTy).Contents (Elt F)),
    StableHlo.unary main_v24 main_v25 (Host.rsqrt : (⟨S50000, .f32⟩ : BufTy).Contents (Elt F) → (⟨S50000, .f32⟩ : BufTy).Contents (Elt F)),
    StableHlo.unary main_v25 main_v26 (broadcastInDim S50000x1 ![0] bcast_S50000_S50000x1_0 : (⟨S50000, .f32⟩ : BufTy).Contents (Elt F) → (⟨S50000x1, .f32⟩ : BufTy).Contents (Elt F)),
    StableHlo.unary main_v22 main_v27 (broadcastInDim S50000x128 ![0, 1] bcast_S50000x1_S50000x128_0_1 : (⟨S50000x1, .f32⟩ : BufTy).Contents (Elt F) → (⟨S50000x128, .f32⟩ : BufTy).Contents (Elt F)),
    StableHlo.binary main_v5 main_v27 main_v28 (mulf : (⟨S50000x128, .f32⟩ : BufTy).Contents (Elt F) → (⟨S50000x128, .f32⟩ : BufTy).Contents (Elt F) → (⟨S50000x128, .f32⟩ : BufTy).Contents (Elt F)),
    StableHlo.binary main_v28 main_arg8 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v30 (broadcastInDim S600000 ![] bcast_S_S600000 : (⟨S_, .i32⟩ : BufTy).Contents (Elt F) → (⟨S600000, .i32⟩ : BufTy).Contents (Elt F)),
    StableHlo.binary main_arg4 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_8 (constantI S_ 32 50000#32),
    StableHlo.unary main_c_8 main_v32 (broadcastInDim S600000 ![] bcast_S_S600000 : (⟨S_, .i32⟩ : BufTy).Contents (Elt F) → (⟨S600000, .i32⟩ : BufTy).Contents (Elt F)),
    StableHlo.binary main_arg4 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_arg4 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_v29 main_v35 main_v36 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_9 (constant S_ .f32 0x00000000#32),
    StableHlo.unary main_cst_9 main_v37 (broadcastInDim S50000x128 ![] bcast_S_S50000x128 : (⟨S_, .f32⟩ : BufTy).Contents (Elt F) → (⟨S50000x128, .f32⟩ : BufTy).Contents (Elt F)),
    StableHlo.unary main_arg5 main_v38 (broadcastInDim S600000x1 ![0] bcast_S600000_S600000x1_0 : (⟨S600000, .i32⟩ : BufTy).Contents (Elt F) → (⟨S600000x1, .i32⟩ : BufTy).Contents (Elt F)),
    StableHlo.ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v26 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v39 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_arg9 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v44) main_call0.v0 main_call0.v1 (cmpf .ogt),
    StableHlo.TRef.nullary main_call0.cst_0 (constant S_ .f32 0x00000000#32),
    StableHlo.TRef.unary main_call0.cst_0 main_call0.v2 (broadcastInDim S50000x128 ![] bcast_S_S50000x128),
    StableHlo.TRef.binary (.of main_v44) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x128 ![] bcast_S_S50000x128),
    StableHlo.TRef.ternary main_call0.v3 main_call0.call0.v1 (.of main_v44) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x128 ![] bcast_S_S50000x128),
    StableHlo.TRef.binary main_call0.v6 main_call0.v5 main_call0.v7 mulf,
    StableHlo.TRef.ternary main_call0.v1 (.of main_v44) main_call0.v7 main_call0.call1.v0 select,
    StableHlo.unary main_v22 main_v46 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v46 main_v47 (mulf : (⟨S50000x128, .f32⟩ : BufTy).Contents (Elt F) → (⟨S50000x128, .f32⟩ : BufTy).Contents (Elt F) → (⟨S50000x128, .f32⟩ : BufTy).Contents (Elt F)) ]

set_option maxRecDepth 8192 in
/-- The window is that straight line: the called functions unfolded at their calls, sequencing reassociated. -/
theorem part0_eq (c : Dev nD) : main_part0 (F := F) c = seq ops0 := by
  simp only [main_part0, fn_elu.body, fn_where.body, fn_where_0.body, fn_where_1.body, fn_var.body, fn_std.body, seq,
    bind_assoc, pure_bind] <;> rfl

/-- Every operation of the window touches TensorCore buffers only. -/
theorem ops0_sub : (ops0 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub ..⟩

/-- No operation of the window allocates a buffer. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefPart1.lean ====
/-
  Window 1 of the reference program as a list of its host operations, in order: the first graph's second and third layers with their ELUs, and its head product.
  A function the program calls (ELU, the selections it is built from, the variance and the standard deviation) is
  listed at its call site, operation by operation, over the buffers of that call. The window run as a program is
  the list run in order; every operation reads and writes TensorCore buffers only and allocates nothing.
-/
import proofs.«148151_j29411936043366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 88 operations, in order. -/
abbrev ops1 : List (HloOp τ sig (Elt F)) :=
  [ StableHlo.binary main_v47 main_arg10 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_10 (constantI S_ 32 0#32),
    StableHlo.unary main_c_10 main_v49 (broadcastInDim S600000 ![] bcast_S_S600000 : (⟨S_, .i32⟩ : BufTy).Contents (Elt F) → (⟨S600000, .i32⟩ : BufTy).Contents (Elt F)),
    StableHlo.binary main_arg4 main_v49 main_v50 (cmpi .slt : (⟨S600000, .i32⟩ : BufTy).Contents (Elt F) → (⟨S600000, .i32⟩ : BufTy).Contents (Elt F) → (⟨S600000, .i1⟩ : BufTy).Contents (Elt F)),
    StableHlo.nullary main_c_11 (constantI S_ 32 50000#32),
    StableHlo.unary main_c_11 main_v51 (broadcastInDim S600000 ![] bcast_S_S600000 : (⟨S_, .i32⟩ : BufTy).Contents (Elt F) → (⟨S600000, .i32⟩ : BufTy).Contents (Elt F)),
    StableHlo.binary main_arg4 main_v51 main_v52 (addi : (⟨S600000, .i32⟩ : BufTy).Contents (Elt F) → (⟨S600000, .i32⟩ : BufTy).Contents (Elt F) → (⟨S600000, .i32⟩ : BufTy).Contents (Elt F)),
    StableHlo.ternary main_v50 main_v52 main_arg4 main_v53 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v53 main_v54 (broadcastInDim S600000x1 ![0] bcast_S600000_S600000x1_0 : (⟨S600000, .i32⟩ : BufTy).Contents (Elt F) → (⟨S600000x1, .i32⟩ : BufTy).Contents (Elt F)),
    StableHlo.binary main_v48 main_v54 main_v55 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_12 (constant S_ .f32 0x00000000#32),
    StableHlo.unary main_cst_12 main_v56 (broadcastInDim S50000x128 ![] bcast_S_S50000x128 : (⟨S_, .f32⟩ : BufTy).Contents (Elt F) → (⟨S50000x128, .f32⟩ : BufTy).Contents (Elt F)),
    StableHlo.unary main_arg5 main_v57 (broadcastInDim S600000x1 ![0] bcast_S600000_S600000x1_0 : (⟨S600000, .i32⟩ : BufTy).Contents (Elt F) → (⟨S600000x1, .i32⟩ : BufTy).Contents (Elt F)),
    StableHlo.ternary main_v56 main_v57 main_v55 main_v58 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v26 main_v59 (broadcastInDim S50000x128 ![0, 1] bcast_S50000x1_S50000x128_0_1 : (⟨S50000x1, .f32⟩ : BufTy).Contents (Elt F) → (⟨S50000x128, .f32⟩ : BufTy).Contents (Elt F)),
    StableHlo.binary main_v58 main_v59 main_v60 (mulf : (⟨S50000x128, .f32⟩ : BufTy).Contents (Elt F) → (⟨S50000x128, .f32⟩ : BufTy).Contents (Elt F) → (⟨S50000x128, .f32⟩ : BufTy).Contents (Elt F)),
    StableHlo.unary main_arg11 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v63) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v63) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v63) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v63) main_call1.v7 main_call1.call1.v0 select,
    StableHlo.unary main_v22 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v65 main_v66 (mulf : (⟨S50000x128, .f32⟩ : BufTy).Contents (Elt F) → (⟨S50000x128, .f32⟩ : BufTy).Contents (Elt F) → (⟨S50000x128, .f32⟩ : BufTy).Contents (Elt F)),
    StableHlo.binary main_v66 main_arg12 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v68 (broadcastInDim S600000 ![] bcast_S_S600000 : (⟨S_, .i32⟩ : BufTy).Contents (Elt F) → (⟨S600000, .i32⟩ : BufTy).Contents (Elt F)),
    StableHlo.binary main_arg4 main_v68 main_v69 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v70 (broadcastInDim S600000 ![] bcast_S_S600000 : (⟨S_, .i32⟩ : BufTy).Contents (Elt F) → (⟨S600000, .i32⟩ : BufTy).Contents (Elt F)),
    StableHlo.binary main_arg4 main_v70 main_v71 (addi : (⟨S600000, .i32⟩ : BufTy).Contents (Elt F) → (⟨S600000, .i32⟩ : BufTy).Contents (Elt F) → (⟨S600000, .i32⟩ : BufTy).Contents (Elt F)),
    StableHlo.ternary main_v69 main_v71 main_arg4 main_v72 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v72 main_v73 (broadcastInDim S600000x1 ![0] bcast_S600000_S600000x1_0 : (⟨S600000, .i32⟩ : BufTy).Contents (Elt F) → (⟨S600000x1, .i32⟩ : BufTy).Contents (Elt F)),
    StableHlo.binary main_v67 main_v73 main_v74 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_15 (constant S_ .f32 0x00000000#32),
    StableHlo.unary main_cst_15 main_v75 (broadcastInDim S50000x128 ![] bcast_S_S50000x128 : (⟨S_, .f32⟩ : BufTy).Contents (Elt F) → (⟨S50000x128, .f32⟩ : BufTy).Contents (Elt F)),
    StableHlo.unary main_arg5 main_v76 (broadcastInDim S600000x1 ![0] bcast_S600000_S600000x1_0 : (⟨S600000, .i32⟩ : BufTy).Contents (Elt F) → (⟨S600000x1, .i32⟩ : BufTy).Contents (Elt F)),
    StableHlo.ternary main_v75 main_v76 main_v74 main_v77 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v26 main_v78 (broadcastInDim S50000x128 ![0, 1] bcast_S50000x1_S50000x128_0_1 : (⟨S50000x1, .f32⟩ : BufTy).Contents (Elt F) → (⟨S50000x128, .f32⟩ : BufTy).Contents (Elt F)),
    StableHlo.binary main_v77 main_v78 main_v79 (mulf : (⟨S50000x128, .f32⟩ : BufTy).Contents (Elt F) → (⟨S50000x128, .f32⟩ : BufTy).Contents (Elt F) → (⟨S50000x128, .f32⟩ : BufTy).Contents (Elt F)),
    StableHlo.unary main_arg13 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v82) main_call2.v0 main_call2.v1 (cmpf .ogt),
    StableHlo.TRef.nullary main_call2.cst_0 (constant S_ .f32 0x00000000#32),
    StableHlo.TRef.unary main_call2.cst_0 main_call2.v2 (broadcastInDim S50000x128 ![] bcast_S_S50000x128),
    StableHlo.TRef.binary (.of main_v82) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x128 ![] bcast_S_S50000x128),
    StableHlo.TRef.ternary main_call2.v3 main_call2.call0.v1 (.of main_v82) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x128 ![] bcast_S_S50000x128),
    StableHlo.TRef.binary main_call2.v6 main_call2.v5 main_call2.v7 mulf,
    StableHlo.TRef.ternary main_call2.v1 (.of main_v82) main_call2.v7 main_call2.call1.v0 select,
    StableHlo.binary main_v83 main_arg14 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3F800000#32),
    StableHlo.unary main_cst_16 main_v88 (broadcastInDim S600000 ![] bcast_S_S600000 : (⟨S_, .f32⟩ : BufTy).Contents (Elt F) → (⟨S600000, .f32⟩ : BufTy).Contents (Elt F)),
    StableHlo.nullary main_cst_17 (constant S_ .f32 0x00000000#32),
    StableHlo.unary main_cst_17 main_v89 (broadcastInDim S50000 ![] bcast_S_S50000 : (⟨S_, .f32⟩ : BufTy).Contents (Elt F) → (⟨S50000, .f32⟩ : BufTy).Contents (Elt F)),
    StableHlo.unary main_arg6 main_v90 (broadcastInDim S600000x1 ![0] bcast_S600000_S600000x1_0 : (⟨S600000, .i32⟩ : BufTy).Contents (Elt F) → (⟨S600000x1, .i32⟩ : BufTy).Contents (Elt F)),
    StableHlo.ternary main_v89 main_v90 main_v88 main_v91 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_18 (constant S_ .f32 0x00000000#32),
    StableHlo.unary main_cst_18 main_v92 (broadcastInDim S50000 ![] bcast_S_S50000 : (⟨S_, .f32⟩ : BufTy).Contents (Elt F) → (⟨S50000, .f32⟩ : BufTy).Contents (Elt F)),
    StableHlo.unary main_arg7 main_v93 (broadcastInDim S600000x1 ![0] bcast_S600000_S600000x1_0 : (⟨S600000, .i32⟩ : BufTy).Contents (Elt F) → (⟨S600000x1, .i32⟩ : BufTy).Contents (Elt F)),
    StableHlo.ternary main_v92 main_v93 main_v88 main_v94 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_19 (constant S_ .f32 0x3F800000#32),
    StableHlo.unary main_cst_19 main_v95 (broadcastInDim S50000 ![] bcast_S_S50000 : (⟨S_, .f32⟩ : BufTy).Contents (Elt F) → (⟨S50000, .f32⟩ : BufTy).Contents (Elt F)),
    StableHlo.binary main_v91 main_v95 main_v96 (maximumf : (⟨S50000, .f32⟩ : BufTy).Contents (Elt F) → (⟨S50000, .f32⟩ : BufTy).Contents (Elt F) → (⟨S50000, .f32⟩ : BufTy).Contents (Elt F)),
    StableHlo.unary main_v96 main_v97 (Host.rsqrt : (⟨S50000, .f32⟩ : BufTy).Contents (Elt F) → (⟨S50000, .f32⟩ : BufTy).Contents (Elt F)) ]

set_option maxRecDepth 8192 in
/-- The window is that straight line: the called functions unfolded at their calls, sequencing reassociated. -/
theorem part1_eq (c : Dev nD) : main_part1 (F := F) c = seq ops1 := by
  simp only [main_part1, fn_elu.body, fn_where.body, fn_where_0.body, fn_where_1.body, fn_var.body, fn_std.body, seq,
    bind_assoc, pure_bind] <;> rfl

/-- Every operation of the window touches TensorCore buffers only. -/
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub ..⟩

/-- No operation of the window allocates a buffer. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefPart2.lean ====
/-
  Window 2 of the reference program as a list of its host operations, in order: the second graph's degree normalisers and its three layers.
  A function the program calls (ELU, the selections it is built from, the variance and the standard deviation) is
  listed at its call site, operation by operation, over the buffers of that call. The window run as a program is
  the list run in order; every operation reads and writes TensorCore buffers only and allocates nothing.
-/
import proofs.«148151_j29411936043366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 88 operations, in order. -/
abbrev ops2 : List (HloOp τ sig (Elt F)) :=
  [ StableHlo.unary main_v97 main_v98 (broadcastInDim S50000x1 ![0] bcast_S50000_S50000x1_0 : (⟨S50000, .f32⟩ : BufTy).Contents (Elt F) → (⟨S50000x1, .f32⟩ : BufTy).Contents (Elt F)),
    StableHlo.nullary main_cst_20 (constant S_ .f32 0x3F800000#32),
    StableHlo.unary main_cst_20 main_v99 (broadcastInDim S50000 ![] bcast_S_S50000 : (⟨S_, .f32⟩ : BufTy).Contents (Elt F) → (⟨S50000, .f32⟩ : BufTy).Contents (Elt F)),
    StableHlo.binary main_v94 main_v99 main_v100 (maximumf : (⟨S50000, .f32⟩ : BufTy).Contents (Elt F) → (⟨S50000, .f32⟩ : BufTy).Contents (Elt F) → (⟨S50000, .f32⟩ : BufTy).Contents (Elt F)),
    StableHlo.unary main_v100 main_v101 (Host.rsqrt : (⟨S50000, .f32⟩ : BufTy).Contents (Elt F) → (⟨S50000, .f32⟩ : BufTy).Contents (Elt F)),
    StableHlo.unary main_v101 main_v102 (broadcastInDim S50000x1 ![0] bcast_S50000_S50000x1_0 : (⟨S50000, .f32⟩ : BufTy).Contents (Elt F) → (⟨S50000x1, .f32⟩ : BufTy).Contents (Elt F)),
    StableHlo.unary main_v98 main_v103 (broadcastInDim S50000x128 ![0, 1] bcast_S50000x1_S50000x128_0_1 : (⟨S50000x1, .f32⟩ : BufTy).Contents (Elt F) → (⟨S50000x128, .f32⟩ : BufTy).Contents (Elt F)),
    StableHlo.binary main_v11 main_v103 main_v104 (mulf : (⟨S50000x128, .f32⟩ : BufTy).Contents (Elt F) → (⟨S50000x128, .f32⟩ : BufTy).Contents (Elt F) → (⟨S50000x128, .f32⟩ : BufTy).Contents (Elt F)),
    StableHlo.binary main_v104 main_arg8 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_21 (constantI S_ 32 0#32),
    StableHlo.unary main_c_21 main_v106 (broadcastInDim S600000 ![] bcast_S_S600000 : (⟨S_, .i32⟩ : BufTy).Contents (Elt F) → (⟨S600000, .i32⟩ : BufTy).Contents (Elt F)),
    StableHlo.binary main_arg6 main_v106 main_v107 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 50000#32),
    StableHlo.unary main_c_22 main_v108 (broadcastInDim S600000 ![] bcast_S_S600000 : (⟨S_, .i32⟩ : BufTy).Contents (Elt F) → (⟨S600000, .i32⟩ : BufTy).Contents (Elt F)),
    StableHlo.binary main_arg6 main_v108 main_v109 (addi : (⟨S600000, .i32⟩ : BufTy).Contents (Elt F) → (⟨S600000, .i32⟩ : BufTy).Contents (Elt F) → (⟨S600000, .i32⟩ : BufTy).Contents (Elt F)),
    StableHlo.ternary main_v107 main_v109 main_arg6 main_v110 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v110 main_v111 (broadcastInDim S600000x1 ![0] bcast_S600000_S600000x1_0 : (⟨S600000, .i32⟩ : BufTy).Contents (Elt F) → (⟨S600000x1, .i32⟩ : BufTy).Contents (Elt F)),
    StableHlo.binary main_v105 main_v111 main_v112 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_23 (constant S_ .f32 0x00000000#32),
    StableHlo.unary main_cst_23 main_v113 (broadcastInDim S50000x128 ![] bcast_S_S50000x128 : (⟨S_, .f32⟩ : BufTy).Contents (Elt F) → (⟨S50000x128, .f32⟩ : BufTy).Contents (Elt F)),
    StableHlo.unary main_arg7 main_v114 (broadcastInDim S600000x1 ![0] bcast_S600000_S600000x1_0 : (⟨S600000, .i32⟩ : BufTy).Contents (Elt F) → (⟨S600000x1, .i32⟩ : BufTy).Contents (Elt F)),
    StableHlo.ternary main_v113 main_v114 main_v112 main_v115 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v102 main_v116 (broadcastInDim S50000x128 ![0, 1] bcast_S50000x1_S50000x128_0_1 : (⟨S50000x1, .f32⟩ : BufTy).Contents (Elt F) → (⟨S50000x128, .f32⟩ : BufTy).Contents (Elt F)),
    StableHlo.binary main_v115 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_arg9 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v120) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v120) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v120) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v120) main_call3.v7 main_call3.call1.v0 select,
    StableHlo.unary main_v98 main_v122 (broadcastInDim S50000x128 ![0, 1] bcast_S50000x1_S50000x128_0_1 : (⟨S50000x1, .f32⟩ : BufTy).Contents (Elt F) → (⟨S50000x128, .f32⟩ : BufTy).Contents (Elt F)),
    StableHlo.binary main_v121 main_v122 main_v123 (mulf : (⟨S50000x128, .f32⟩ : BufTy).Contents (Elt F) → (⟨S50000x128, .f32⟩ : BufTy).Contents (Elt F) → (⟨S50000x128, .f32⟩ : BufTy).Contents (Elt F)),
    StableHlo.binary main_v123 main_arg10 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_24 (constantI S_ 32 0#32),
    StableHlo.unary main_c_24 main_v125 (broadcastInDim S600000 ![] bcast_S_S600000 : (⟨S_, .i32⟩ : BufTy).Contents (Elt F) → (⟨S600000, .i32⟩ : BufTy).Contents (Elt F)),
    StableHlo.binary main_arg6 main_v125 main_v126 (cmpi .slt : (⟨S600000, .i32⟩ : BufTy).Contents (Elt F) → (⟨S600000, .i32⟩ : BufTy).Contents (Elt F) → (⟨S600000, .i1⟩ : BufTy).Contents (Elt F)),
    StableHlo.nullary main_c_25 (constantI S_ 32 50000#32),
    StableHlo.unary main_c_25 main_v127 (broadcastInDim S600000 ![] bcast_S_S600000 : (⟨S_, .i32⟩ : BufTy).Contents (Elt F) → (⟨S600000, .i32⟩ : BufTy).Contents (Elt F)),
    StableHlo.binary main_arg6 main_v127 main_v128 (addi : (⟨S600000, .i32⟩ : BufTy).Contents (Elt F) → (⟨S600000, .i32⟩ : BufTy).Contents (Elt F) → (⟨S600000, .i32⟩ : BufTy).Contents (Elt F)),
    StableHlo.ternary main_v126 main_v128 main_arg6 main_v129 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v129 main_v130 (broadcastInDim S600000x1 ![0] bcast_S600000_S600000x1_0 : (⟨S600000, .i32⟩ : BufTy).Contents (Elt F) → (⟨S600000x1, .i32⟩ : BufTy).Contents (Elt F)),
    StableHlo.binary main_v124 main_v130 main_v131 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_26 (constant S_ .f32 0x00000000#32),
    StableHlo.unary main_cst_26 main_v132 (broadcastInDim S50000x128 ![] bcast_S_S50000x128 : (⟨S_, .f32⟩ : BufTy).Contents (Elt F) → (⟨S50000x128, .f32⟩ : BufTy).Contents (Elt F)),
    StableHlo.unary main_arg7 main_v133 (broadcastInDim S600000x1 ![0] bcast_S600000_S600000x1_0 : (⟨S600000, .i32⟩ : BufTy).Contents (Elt F) → (⟨S600000x1, .i32⟩ : BufTy).Contents (Elt F)),
    StableHlo.ternary main_v132 main_v133 main_v131 main_v134 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v102 main_v135 (broadcastInDim S50000x128 ![0, 1] bcast_S50000x1_S50000x128_0_1 : (⟨S50000x1, .f32⟩ : BufTy).Contents (Elt F) → (⟨S50000x128, .f32⟩ : BufTy).Contents (Elt F)),
    StableHlo.binary main_v134 main_v135 main_v136 (mulf : (⟨S50000x128, .f32⟩ : BufTy).Contents (Elt F) → (⟨S50000x128, .f32⟩ : BufTy).Contents (Elt F) → (⟨S50000x128, .f32⟩ : BufTy).Contents (Elt F)),
    StableHlo.unary main_arg11 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v139) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v139) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v139) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v139) main_call4.v7 main_call4.call1.v0 select,
    StableHlo.unary main_v98 main_v141 (broadcastInDim S50000x128 ![0, 1] bcast_S50000x1_S50000x128_0_1 : (⟨S50000x1, .f32⟩ : BufTy).Contents (Elt F) → (⟨S50000x128, .f32⟩ : BufTy).Contents (Elt F)),
    StableHlo.binary main_v140 main_v141 main_v142 (mulf : (⟨S50000x128, .f32⟩ : BufTy).Contents (Elt F) → (⟨S50000x128, .f32⟩ : BufTy).Contents (Elt F) → (⟨S50000x128, .f32⟩ : BufTy).Contents (Elt F)),
    StableHlo.binary main_v142 main_arg12 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_27 (constantI S_ 32 0#32),
    StableHlo.unary main_c_27 main_v144 (broadcastInDim S600000 ![] bcast_S_S600000 : (⟨S_, .i32⟩ : BufTy).Contents (Elt F) → (⟨S600000, .i32⟩ : BufTy).Contents (Elt F)),
    StableHlo.binary main_arg6 main_v144 main_v145 (cmpi .slt : (⟨S600000, .i32⟩ : BufTy).Contents (Elt F) → (⟨S600000, .i32⟩ : BufTy).Contents (Elt F) → (⟨S600000, .i1⟩ : BufTy).Contents (Elt F)),
    StableHlo.nullary main_c_28 (constantI S_ 32 50000#32),
    StableHlo.unary main_c_28 main_v146 (broadcastInDim S600000 ![] bcast_S_S600000 : (⟨S_, .i32⟩ : BufTy).Contents (Elt F) → (⟨S600000, .i32⟩ : BufTy).Contents (Elt F)),
    StableHlo.binary main_arg6 main_v146 main_v147 (addi : (⟨S600000, .i32⟩ : BufTy).Contents (Elt F) → (⟨S600000, .i32⟩ : BufTy).Contents (Elt F) → (⟨S600000, .i32⟩ : BufTy).Contents (Elt F)),
    StableHlo.ternary main_v145 main_v147 main_arg6 main_v148 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ]

set_option maxRecDepth 8192 in
/-- The window is that straight line: the called functions unfolded at their calls, sequencing reassociated. -/
theorem part2_eq (c : Dev nD) : main_part2 (F := F) c = seq ops2 := by
  simp only [main_part2, fn_elu.body, fn_where.body, fn_where_0.body, fn_where_1.body, fn_var.body, fn_std.body, seq,
    bind_assoc, pure_bind] <;> rfl

/-- Every operation of the window touches TensorCore buffers only. -/
theorem ops2_sub : (ops2 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

/-- No operation of the window allocates a buffer. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefPart3.lean ====
/-
  Window 3 of the reference program as a list of its host operations, in order: the second graph's head product, both column standardizations (mean, unbiased variance, square root, quotient) and both classifiers.
  A function the program calls (ELU, the selections it is built from, the variance and the standard deviation) is
  listed at its call site, operation by operation, over the buffers of that call. The window run as a program is
  the list run in order; every operation reads and writes TensorCore buffers only and allocates nothing.
-/
import proofs.«148151_j29411936043366_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 108 operations, in order. -/
abbrev ops3 : List (HloOp τ sig (Elt F)) :=
  [ StableHlo.unary main_v148 main_v149 (broadcastInDim S600000x1 ![0] bcast_S600000_S600000x1_0 : (⟨S600000, .i32⟩ : BufTy).Contents (Elt F) → (⟨S600000x1, .i32⟩ : BufTy).Contents (Elt F)),
    StableHlo.binary main_v143 main_v149 main_v150 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_29 (constant S_ .f32 0x00000000#32),
    StableHlo.unary main_cst_29 main_v151 (broadcastInDim S50000x128 ![] bcast_S_S50000x128 : (⟨S_, .f32⟩ : BufTy).Contents (Elt F) → (⟨S50000x128, .f32⟩ : BufTy).Contents (Elt F)),
    StableHlo.unary main_arg7 main_v152 (broadcastInDim S600000x1 ![0] bcast_S600000_S600000x1_0 : (⟨S600000, .i32⟩ : BufTy).Contents (Elt F) → (⟨S600000x1, .i32⟩ : BufTy).Contents (Elt F)),
    StableHlo.ternary main_v151 main_v152 main_v150 main_v153 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_v102 main_v154 (broadcastInDim S50000x128 ![0, 1] bcast_S50000x1_S50000x128_0_1 : (⟨S50000x1, .f32⟩ : BufTy).Contents (Elt F) → (⟨S50000x128, .f32⟩ : BufTy).Contents (Elt F)),
    StableHlo.binary main_v153 main_v154 main_v155 (mulf : (⟨S50000x128, .f32⟩ : BufTy).Contents (Elt F) → (⟨S50000x128, .f32⟩ : BufTy).Contents (Elt F) → (⟨S50000x128, .f32⟩ : BufTy).Contents (Elt F)),
    StableHlo.unary main_arg13 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v155 main_v157 main_v158 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v158) main_call5.v0 main_call5.v1 (cmpf .ogt),
    StableHlo.TRef.nullary main_call5.cst_0 (constant S_ .f32 0x00000000#32),
    StableHlo.TRef.unary main_call5.cst_0 main_call5.v2 (broadcastInDim S50000x128 ![] bcast_S_S50000x128),
    StableHlo.TRef.binary (.of main_v158) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S50000x128 ![] bcast_S_S50000x128),
    StableHlo.TRef.ternary main_call5.v3 main_call5.call0.v1 (.of main_v158) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S50000x128 ![] bcast_S_S50000x128),
    StableHlo.TRef.binary main_call5.v6 main_call5.v5 main_call5.v7 mulf,
    StableHlo.TRef.ternary main_call5.v1 (.of main_v158) main_call5.v7 main_call5.call1.v0 select,
    StableHlo.binary main_v159 main_arg14 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v162 main_v163 (addf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x00000000#32),
    StableHlo.binary main_v87 main_cst_30 main_v164 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v165 (broadcastInDim S128 ![] bcast_S_S128 : (⟨S_, .f32⟩ : BufTy).Contents (Elt F) → (⟨S128, .f32⟩ : BufTy).Contents (Elt F)),
    StableHlo.binary main_v164 main_v165 main_v166 (Host.divf : (⟨S128, .f32⟩ : BufTy).Contents (Elt F) → (⟨S128, .f32⟩ : BufTy).Contents (Elt F) → (⟨S128, .f32⟩ : BufTy).Contents (Elt F)),
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v168 main_v169 (subf : (⟨S50000x128, .f32⟩ : BufTy).Contents (Elt F) → (⟨S50000x128, .f32⟩ : BufTy).Contents (Elt F) → (⟨S50000x128, .f32⟩ : BufTy).Contents (Elt F)),
    StableHlo.nullary main_c_32 (constantI S_ 32 1#32),
    StableHlo.TRef.nullary main_call6.call0.cst (constant S_ .f32 0x00000000#32),
    StableHlo.TRef.binary (.of main_v87) main_call6.call0.cst main_call6.call0.v0 (fun x v => Host.reduceAdd x v reducesTo_S50000x128_S128_d0 h_S_),
    StableHlo.TRef.unary main_call6.call0.v0 main_call6.call0.v1 (broadcastInDim S1x128 ![1] bcast_S128_S1x128_1),
    StableHlo.TRef.nullary main_call6.call0.cst_0 (constant S_ .f32 0x47435000#32),
    StableHlo.TRef.unary main_call6.call0.cst_0 main_call6.call0.v2 (broadcastInDim S1x128 ![] bcast_S_S1x128),
    StableHlo.TRef.binary main_call6.call0.v1 main_call6.call0.v2 main_call6.call0.v3 Host.divf,
    StableHlo.TRef.unary main_call6.call0.v3 main_call6.call0.v4 (broadcastInDim S50000x128 ![0, 1] bcast_S1x128_S50000x128_0_1),
    StableHlo.TRef.binary (.of main_v87) main_call6.call0.v4 main_call6.call0.v5 subf,
    StableHlo.TRef.binary main_call6.call0.v5 main_call6.call0.v5 main_call6.call0.v6 mulf,
    StableHlo.TRef.unary (.of main_c_32) main_call6.call0.v7 (sitofp .f32),
    StableHlo.TRef.nullary main_call6.call0.cst_1 (constant S_ .f32 0x47435000#32),
    StableHlo.TRef.binary main_call6.call0.cst_1 main_call6.call0.v7 main_call6.call0.v8 subf,
    StableHlo.TRef.nullary main_call6.call0.cst_2 (constant S_ .f32 0x00000000#32),
    StableHlo.TRef.binary main_call6.call0.v6 main_call6.call0.cst_2 main_call6.call0.v9 (fun x v => Host.reduceAdd x v reducesTo_S50000x128_S128_d0 h_S_),
    StableHlo.TRef.unary main_call6.call0.v8 main_call6.call0.v10 (broadcastInDim S128 ![] bcast_S_S128),
    StableHlo.TRef.binary main_call6.call0.v9 main_call6.call0.v10 main_call6.call0.v11 Host.divf,
    StableHlo.TRef.nullary main_call6.call0.cst_3 (constant S_ .f32 0x00000000#32),
    StableHlo.TRef.binary main_call6.call0.v8 main_call6.call0.cst_3 main_call6.call0.v12 (cmpf .ogt),
    StableHlo.TRef.nullary main_call6.call0.cst_4 (constant S_ .f32 0x7FC00000#32),
    StableHlo.TRef.unary main_call6.call0.cst_4 main_call6.call0.call0.v0 id,
    StableHlo.TRef.unary main_call6.call0.call0.v0 main_call6.call0.call0.v1 (broadcastInDim S128 ![] bcast_S_S128),
    StableHlo.TRef.ternary main_call6.call0.v12 main_call6.call0.v11 main_call6.call0.call0.v1 main_call6.call0.call0.v2 (fun p a b => select (broadcastInDim S128 ![] bcast_S_S128 p) a b),
    StableHlo.TRef.unary main_call6.call0.call0.v2 main_call6.v1 Host.sqrt,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v172 main_v173 (Host.divf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x00000000#32),
    StableHlo.binary main_v163 main_cst_33 main_v174 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_34 (constant S_ .f32 0x47435000#32),
    StableHlo.unary main_cst_34 main_v175 (broadcastInDim S128 ![] bcast_S_S128 : (⟨S_, .f32⟩ : BufTy).Contents (Elt F) → (⟨S128, .f32⟩ : BufTy).Contents (Elt F)),
    StableHlo.binary main_v174 main_v175 main_v176 (Host.divf : (⟨S128, .f32⟩ : BufTy).Contents (Elt F) → (⟨S128, .f32⟩ : BufTy).Contents (Elt F) → (⟨S128, .f32⟩ : BufTy).Contents (Elt F)),
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v178 main_v179 (subf : (⟨S50000x128, .f32⟩ : BufTy).Contents (Elt F) → (⟨S50000x128, .f32⟩ : BufTy).Contents (Elt F) → (⟨S50000x128, .f32⟩ : BufTy).Contents (Elt F)),
    StableHlo.nullary main_c_35 (constantI S_ 32 1#32),
    StableHlo.TRef.nullary main_call7.call0.cst (constant S_ .f32 0x00000000#32),
    StableHlo.TRef.binary (.of main_v163) main_call7.call0.cst main_call7.call0.v0 (fun x v => Host.reduceAdd x v reducesTo_S50000x128_S128_d0 h_S_),
    StableHlo.TRef.unary main_call7.call0.v0 main_call7.call0.v1 (broadcastInDim S1x128 ![1] bcast_S128_S1x128_1),
    StableHlo.TRef.nullary main_call7.call0.cst_0 (constant S_ .f32 0x47435000#32),
    StableHlo.TRef.unary main_call7.call0.cst_0 main_call7.call0.v2 (broadcastInDim S1x128 ![] bcast_S_S1x128),
    StableHlo.TRef.binary main_call7.call0.v1 main_call7.call0.v2 main_call7.call0.v3 Host.divf,
    StableHlo.TRef.unary main_call7.call0.v3 main_call7.call0.v4 (broadcastInDim S50000x128 ![0, 1] bcast_S1x128_S50000x128_0_1),
    StableHlo.TRef.binary (.of main_v163) main_call7.call0.v4 main_call7.call0.v5 subf,
    StableHlo.TRef.binary main_call7.call0.v5 main_call7.call0.v5 main_call7.call0.v6 mulf,
    StableHlo.TRef.unary (.of main_c_35) main_call7.call0.v7 (sitofp .f32),
    StableHlo.TRef.nullary main_call7.call0.cst_1 (constant S_ .f32 0x47435000#32),
    StableHlo.TRef.binary main_call7.call0.cst_1 main_call7.call0.v7 main_call7.call0.v8 subf,
    StableHlo.TRef.nullary main_call7.call0.cst_2 (constant S_ .f32 0x00000000#32),
    StableHlo.TRef.binary main_call7.call0.v6 main_call7.call0.cst_2 main_call7.call0.v9 (fun x v => Host.reduceAdd x v reducesTo_S50000x128_S128_d0 h_S_),
    StableHlo.TRef.unary main_call7.call0.v8 main_call7.call0.v10 (broadcastInDim S128 ![] bcast_S_S128),
    StableHlo.TRef.binary main_call7.call0.v9 main_call7.call0.v10 main_call7.call0.v11 Host.divf,
    StableHlo.TRef.nullary main_call7.call0.cst_3 (constant S_ .f32 0x00000000#32),
    StableHlo.TRef.binary main_call7.call0.v8 main_call7.call0.cst_3 main_call7.call0.v12 (cmpf .ogt),
    StableHlo.TRef.nullary main_call7.call0.cst_4 (constant S_ .f32 0x7FC00000#32),
    StableHlo.TRef.unary main_call7.call0.cst_4 main_call7.call0.call0.v0 id,
    StableHlo.TRef.unary main_call7.call0.call0.v0 main_call7.call0.call0.v1 (broadcastInDim S128 ![] bcast_S_S128),
    StableHlo.TRef.ternary main_call7.call0.v12 main_call7.call0.v11 main_call7.call0.call0.v1 main_call7.call0.call0.v2 (fun p a b => select (broadcastInDim S128 ![] bcast_S_S128 p) a b),
    StableHlo.TRef.unary main_call7.call0.call0.v2 main_call7.v1 Host.sqrt,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v182 main_v183 (Host.divf : (⟨S50000x128, .f32⟩ : BufTy).Contents (Elt F) → (⟨S50000x128, .f32⟩ : BufTy).Contents (Elt F) → (⟨S50000x128, .f32⟩ : BufTy).Contents (Elt F)),
    StableHlo.binary main_v173 main_arg16 main_v184 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg17 main_v185 (broadcastInDim S1x2 ![1] bcast_S2_S1x2_1 : (⟨S2, .f32⟩ : BufTy).Contents (Elt F) → (⟨S1x2, .f32⟩ : BufTy).Contents (Elt F)),
    StableHlo.unary main_v185 main_v186 (broadcastInDim S50000x2 ![0, 1] bcast_S1x2_S50000x2_0_1 : (⟨S1x2, .f32⟩ : BufTy).Contents (Elt F) → (⟨S50000x2, .f32⟩ : BufTy).Contents (Elt F)),
    StableHlo.binary main_v184 main_v186 main_v187 (addf : (⟨S50000x2, .f32⟩ : BufTy).Contents (Elt F) → (⟨S50000x2, .f32⟩ : BufTy).Contents (Elt F) → (⟨S50000x2, .f32⟩ : BufTy).Contents (Elt F)),
    StableHlo.binary main_v183 main_arg16 main_v188 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg17 main_v189 (broadcastInDim S1x2 ![1] bcast_S2_S1x2_1 : (⟨S2, .f32⟩ : BufTy).Contents (Elt F) → (⟨S1x2, .f32⟩ : BufTy).Contents (Elt F)),
    StableHlo.unary main_v189 main_v190 (broadcastInDim S50000x2 ![0, 1] bcast_S1x2_S50000x2_0_1 : (⟨S1x2, .f32⟩ : BufTy).Contents (Elt F) → (⟨S50000x2, .f32⟩ : BufTy).Contents (Elt F)),
    StableHlo.binary main_v188 main_v190 main_v191 (addf : (⟨S50000x2, .f32⟩ : BufTy).Contents (Elt F) → (⟨S50000x2, .f32⟩ : BufTy).Contents (Elt F) → (⟨S50000x2, .f32⟩ : BufTy).Contents (Elt F)) ]

set_option maxRecDepth 8192 in
/-- The window is that straight line: the called functions unfolded at their calls, sequencing reassociated. -/
theorem part3_eq (c : Dev nD) : main_part3 (F := F) c = seq ops3 := by
  simp only [main_part3, fn_elu.body, fn_where.body, fn_where_0.body, fn_where_1.body, fn_var.body, fn_std.body, seq,
    bind_assoc, pure_bind] <;> rfl

/-- Every operation of the window touches TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- No operation of the window allocates a buffer. -/
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefRun.lean ====
/-
  The reference program's run, read back. Its @main is four windows run one after the other, each a straight line
  of host operations, so the whole program is the concatenated line; a straight line of operations on TensorCore
  buffers that allocates nothing terminates on every weakly fair execution, and leaves every buffer at the fold of
  the operations over the launch contents. Concatenation folds window by window: the contents after two lines run in
  order are the second line's fold over the first's.
-/
import proofs.«148151_j29411936043366_2_alg».proof.Proof.RefPart0
import proofs.«148151_j29411936043366_2_alg».proof.Proof.RefPart1
import proofs.«148151_j29411936043366_2_alg».proof.Proof.RefPart2
import proofs.«148151_j29411936043366_2_alg».proof.Proof.RefPart3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the four windows' lines concatenated. -/
abbrev ops : List (HloOp τ sig (Elt F)) := ops0 ++ (ops1 ++ (ops2 ++ ops3))

/-- @main is the concatenated line. -/
theorem main_eq (c : Dev nD) : main (F := F) c = seq ops := by
  simp only [main, ops, seq_append, part0_eq, part1_eq, part2_eq, part3_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    · exact List.forall_iff_forall_mem.mp ops0_sub op h
    · exact List.forall_iff_forall_mem.mp ops1_sub op h
    · exact List.forall_iff_forall_mem.mp ops2_sub op h
    · exact List.forall_iff_forall_mem.mp ops3_sub op h

theorem ops_fresh : ∀ op ∈ (ops : List (HloOp τ sig (Elt F))), op.fresh = ∅ := fun op h => by
  simp only [ops, List.mem_append] at h
  rcases h with h | h | h | h
  · exact ops0_fresh op h
  · exact ops1_fresh op h
  · exact ops2_fresh op h
  · exact ops3_fresh op h

/-- The contents after two lines run in order: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after the whole program, window by window. -/
theorem after_ops (V : Valuation τ sig (Elt F)) :
    after ops V = after ops3 (after ops2 (after ops1 (after ops0 V))) := by
  simp only [ops, after_append]

/-- At the compiled mesh, from any memory with zero counters: every weakly fair execution of @main terminates, and
    every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKept0.lean ====
/-
  No operation of window 0 of the reference program writes an argument buffer: each operation writes exactly one
  buffer, its result's, and none of those is an argument's. So the fold of the window's operations leaves every
  argument buffer as it found it.
-/
import proofs.«148151_j29411936043366_2_alg».proof.Proof.RefPart0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept0_main_arg0 (V : Valuation τ sig (Elt F)) :
    after ops0 V (Proc.devRef .tc main_arg0) = V (Proc.devRef .tc main_arg0) :=
  after_of_forall_not_mem (b := Proc.devRef .tc main_arg0) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg1 (V : Valuation τ sig (Elt F)) :
    after ops0 V (Proc.devRef .tc main_arg1) = V (Proc.devRef .tc main_arg1) :=
  after_of_forall_not_mem (b := Proc.devRef .tc main_arg1) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg2 (V : Valuation τ sig (Elt F)) :
    after ops0 V (Proc.devRef .tc main_arg2) = V (Proc.devRef .tc main_arg2) :=
  after_of_forall_not_mem (b := Proc.devRef .tc main_arg2) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg3 (V : Valuation τ sig (Elt F)) :
    after ops0 V (Proc.devRef .tc main_arg3) = V (Proc.devRef .tc main_arg3) :=
  after_of_forall_not_mem (b := Proc.devRef .tc main_arg3) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg4 (V : Valuation τ sig (Elt F)) :
    after ops0 V (Proc.devRef .tc main_arg4) = V (Proc.devRef .tc main_arg4) :=
  after_of_forall_not_mem (b := Proc.devRef .tc main_arg4) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg5 (V : Valuation τ sig (Elt F)) :
    after ops0 V (Proc.devRef .tc main_arg5) = V (Proc.devRef .tc main_arg5) :=
  after_of_forall_not_mem (b := Proc.devRef .tc main_arg5) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg6 (V : Valuation τ sig (Elt F)) :
    after ops0 V (Proc.devRef .tc main_arg6) = V (Proc.devRef .tc main_arg6) :=
  after_of_forall_not_mem (b := Proc.devRef .tc main_arg6) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg7 (V : Valuation τ sig (Elt F)) :
    after ops0 V (Proc.devRef .tc main_arg7) = V (Proc.devRef .tc main_arg7) :=
  after_of_forall_not_mem (b := Proc.devRef .tc main_arg7) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg8 (V : Valuation τ sig (Elt F)) :
    after ops0 V (Proc.devRef .tc main_arg8) = V (Proc.devRef .tc main_arg8) :=
  after_of_forall_not_mem (b := Proc.devRef .tc main_arg8) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg9 (V : Valuation τ sig (Elt F)) :
    after ops0 V (Proc.devRef .tc main_arg9) = V (Proc.devRef .tc main_arg9) :=
  after_of_forall_not_mem (b := Proc.devRef .tc main_arg9) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg10 (V : Valuation τ sig (Elt F)) :
    after ops0 V (Proc.devRef .tc main_arg10) = V (Proc.devRef .tc main_arg10) :=
  after_of_forall_not_mem (b := Proc.devRef .tc main_arg10) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg11 (V : Valuation τ sig (Elt F)) :
    after ops0 V (Proc.devRef .tc main_arg11) = V (Proc.devRef .tc main_arg11) :=
  after_of_forall_not_mem (b := Proc.devRef .tc main_arg11) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg12 (V : Valuation τ sig (Elt F)) :
    after ops0 V (Proc.devRef .tc main_arg12) = V (Proc.devRef .tc main_arg12) :=
  after_of_forall_not_mem (b := Proc.devRef .tc main_arg12) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg13 (V : Valuation τ sig (Elt F)) :
    after ops0 V (Proc.devRef .tc main_arg13) = V (Proc.devRef .tc main_arg13) :=
  after_of_forall_not_mem (b := Proc.devRef .tc main_arg13) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg14 (V : Valuation τ sig (Elt F)) :
    after ops0 V (Proc.devRef .tc main_arg14) = V (Proc.devRef .tc main_arg14) :=
  after_of_forall_not_mem (b := Proc.devRef .tc main_arg14) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg15 (V : Valuation τ sig (Elt F)) :
    after ops0 V (Proc.devRef .tc main_arg15) = V (Proc.devRef .tc main_arg15) :=
  after_of_forall_not_mem (b := Proc.devRef .tc main_arg15) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg16 (V : Valuation τ sig (Elt F)) :
    after ops0 V (Proc.devRef .tc main_arg16) = V (Proc.devRef .tc main_arg16) :=
  after_of_forall_not_mem (b := Proc.devRef .tc main_arg16) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

theorem kept0_main_arg17 (V : Valuation τ sig (Elt F)) :
    after ops0 V (Proc.devRef .tc main_arg17) = V (Proc.devRef .tc main_arg17) :=
  after_of_forall_not_mem (b := Proc.devRef .tc main_arg17) _ _ (List.forall_iff_forall_mem.mp (by
    simp only [ops0, List.Forall, TRef.nullary, TRef.unary, TRef.binary, TRef.ternary, nullary_writes, unary_writes,
      binary_writes, ternary_writes, Finset.mem_singleton]
    repeat' apply And.intro
    all_goals exact devRef_ne_of_ne (by decide)))

end Cert.ReferenceIdeal.RefRun

end
-- ==== Proof.RefKept1.lean ====
/-
  No operation of window 1 of the reference program writes an argument buffer: each operation writes exactly one
  buffer, its result's, and none of those is an argument's. So the fold of the window's operations leaves every
  argument buffer as it found it.
-/
import proofs.«148151_j29411936043366_2_alg».proof.Proof.RefPart1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept1_main_arg0 (V : Valuation τ sig (Elt F)) :
    after ops1 V (Proc.devRef .tc main_arg0) = V (Proc.devRef .tc main_arg0) :=
  after_of_forall_not_mem (b := Proc.devRef .tc main_arg0) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg1 (V : Valuation τ sig (Elt F)) :
    after ops1 V (Proc.devRef .tc main_arg1) = V (Proc.devRef .tc main_arg1) :=
  after_of_forall_not_mem (b := Proc.devRef .tc main_arg1) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg2 (V : Valuation τ sig (Elt F)) :
    after ops1 V (Proc.devRef .tc main_arg2) = V (Proc.devRef .tc main_arg2) :=
  after_of_forall_not_mem (b := Proc.devRef .tc main_arg2) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg3 (V : Valuation τ sig (Elt F)) :
    after ops1 V (Proc.devRef .tc main_arg3) = V (Proc.devRef .tc main_arg3) :=
  after_of_forall_not_mem (b := Proc.devRef .tc main_arg3) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg4 (V : Valuation τ sig (Elt F)) :
    after ops1 V (Proc.devRef .tc main_arg4) = V (Proc.devRef .tc main_arg4) :=
  after_of_forall_not_mem (b := Proc.devRef .tc main_arg4) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg5 (V : Valuation τ sig (Elt F)) :
    after ops1 V (Proc.devRef .tc main_arg5) = V (Proc.devRef .tc main_arg5) :=
  after_of_forall_not_mem (b := Proc.devRef .tc main_arg5) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg6 (V : Valuation τ sig (Elt F)) :
    after ops1 V (Proc.devRef .tc main_arg6) = V (Proc.devRef .tc main_arg6) :=
  after_of_forall_not_mem (b := Proc.devRef .tc main_arg6) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg7 (V : Valuation τ sig (Elt F)) :
    after ops1 V (Proc.devRef .tc main_arg7) = V (Proc.devRef .tc main_arg7) :=
  after_of_forall_not_mem (b := Proc.devRef .tc main_arg7) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg8 (V : Valuation τ sig (Elt F)) :
    after ops1 V (Proc.devRef .tc main_arg8) = V (Proc.devRef .tc main_arg8) :=
  after_of_forall_not_mem (b := Proc.devRef .tc main_arg8) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg9 (V : Valuation τ sig (Elt F)) :
    after ops1 V (Proc.devRef .tc main_arg9) = V (Proc.devRef .tc main_arg9) :=
  after_of_forall_not_mem (b := Proc.devRef .tc main_arg9) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg10 (V : Valuation τ sig (Elt F)) :
    after ops1 V (Proc.devRef .tc main_arg10) = V (Proc.devRef .tc main_arg10) :=
  after_of_forall_not_mem (b := Proc.devRef .tc main_arg10) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg11 (V : Valuation τ sig (Elt F)) :
    after ops1 V (Proc.devRef .tc main_arg11) = V (Proc.devRef .tc main_arg11) :=
  after_of_forall_not_mem (b := Proc.devRef .tc main_arg11) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg12 (V : Valuation τ sig (Elt F)) :
    after ops1 V (Proc.devRef .tc main_arg12) = V (Proc.devRef .tc main_arg12) :=
  after_of_forall_not_mem (b := Proc.devRef .tc main_arg12) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg13 (V : Valuation τ sig (Elt F)) :
    after ops1 V (Proc.devRef .tc main_arg13) = V (Proc.devRef .tc main_arg13) :=
  after_of_forall_not_mem (b := Proc.devRef .tc main_arg13) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg14 (V : Valuation τ sig (Elt F)) :
    after ops1 V (Proc.devRef .tc main_arg14) = V (Proc.devRef .tc main_arg14) :=
  after_of_forall_not_mem (b := Proc.devRef .tc main_arg14) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg15 (V : Valuation τ sig (Elt F)) :
    after ops1 V (Proc.devRef .tc main_arg15) = V (Proc.devRef .tc main_arg15) :=
  after_of_forall_not_mem (b := Proc.devRef .tc main_arg15) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg16 (V : Valuation τ sig (Elt F)) :
    after ops1 V (Proc.devRef .tc main_arg16) = V (Proc.devRef .tc main_arg16) :=
  after_of_forall_not_mem (b := Proc.devRef .tc main_arg16) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

theorem kept1_main_arg17 (V : Valuation τ sig (Elt F)) :
    after ops1 V (Proc.devRef .tc main_arg17) = V (Proc.devRef .tc main_arg17) :=
  after_of_forall_not_mem (b := Proc.devRef .tc main_arg17) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

end Cert.ReferenceIdeal.RefRun

end
-- ==== Proof.RefKept2.lean ====
/-
  No operation of window 2 of the reference program writes an argument buffer: each operation writes exactly one
  buffer, its result's, and none of those is an argument's. So the fold of the window's operations leaves every
  argument buffer as it found it.
-/
import proofs.«148151_j29411936043366_2_alg».proof.Proof.RefPart2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept2_main_arg0 (V : Valuation τ sig (Elt F)) :
    after ops2 V (Proc.devRef .tc main_arg0) = V (Proc.devRef .tc main_arg0) :=
  after_of_forall_not_mem (b := Proc.devRef .tc main_arg0) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg1 (V : Valuation τ sig (Elt F)) :
    after ops2 V (Proc.devRef .tc main_arg1) = V (Proc.devRef .tc main_arg1) :=
  after_of_forall_not_mem (b := Proc.devRef .tc main_arg1) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg2 (V : Valuation τ sig (Elt F)) :
    after ops2 V (Proc.devRef .tc main_arg2) = V (Proc.devRef .tc main_arg2) :=
  after_of_forall_not_mem (b := Proc.devRef .tc main_arg2) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg3 (V : Valuation τ sig (Elt F)) :
    after ops2 V (Proc.devRef .tc main_arg3) = V (Proc.devRef .tc main_arg3) :=
  after_of_forall_not_mem (b := Proc.devRef .tc main_arg3) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg4 (V : Valuation τ sig (Elt F)) :
    after ops2 V (Proc.devRef .tc main_arg4) = V (Proc.devRef .tc main_arg4) :=
  after_of_forall_not_mem (b := Proc.devRef .tc main_arg4) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg5 (V : Valuation τ sig (Elt F)) :
    after ops2 V (Proc.devRef .tc main_arg5) = V (Proc.devRef .tc main_arg5) :=
  after_of_forall_not_mem (b := Proc.devRef .tc main_arg5) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg6 (V : Valuation τ sig (Elt F)) :
    after ops2 V (Proc.devRef .tc main_arg6) = V (Proc.devRef .tc main_arg6) :=
  after_of_forall_not_mem (b := Proc.devRef .tc main_arg6) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg7 (V : Valuation τ sig (Elt F)) :
    after ops2 V (Proc.devRef .tc main_arg7) = V (Proc.devRef .tc main_arg7) :=
  after_of_forall_not_mem (b := Proc.devRef .tc main_arg7) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg8 (V : Valuation τ sig (Elt F)) :
    after ops2 V (Proc.devRef .tc main_arg8) = V (Proc.devRef .tc main_arg8) :=
  after_of_forall_not_mem (b := Proc.devRef .tc main_arg8) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg9 (V : Valuation τ sig (Elt F)) :
    after ops2 V (Proc.devRef .tc main_arg9) = V (Proc.devRef .tc main_arg9) :=
  after_of_forall_not_mem (b := Proc.devRef .tc main_arg9) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg10 (V : Valuation τ sig (Elt F)) :
    after ops2 V (Proc.devRef .tc main_arg10) = V (Proc.devRef .tc main_arg10) :=
  after_of_forall_not_mem (b := Proc.devRef .tc main_arg10) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg11 (V : Valuation τ sig (Elt F)) :
    after ops2 V (Proc.devRef .tc main_arg11) = V (Proc.devRef .tc main_arg11) :=
  after_of_forall_not_mem (b := Proc.devRef .tc main_arg11) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg12 (V : Valuation τ sig (Elt F)) :
    after ops2 V (Proc.devRef .tc main_arg12) = V (Proc.devRef .tc main_arg12) :=
  after_of_forall_not_mem (b := Proc.devRef .tc main_arg12) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg13 (V : Valuation τ sig (Elt F)) :
    after ops2 V (Proc.devRef .tc main_arg13) = V (Proc.devRef .tc main_arg13) :=
  after_of_forall_not_mem (b := Proc.devRef .tc main_arg13) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg14 (V : Valuation τ sig (Elt F)) :
    after ops2 V (Proc.devRef .tc main_arg14) = V (Proc.devRef .tc main_arg14) :=
  after_of_forall_not_mem (b := Proc.devRef .tc main_arg14) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg15 (V : Valuation τ sig (Elt F)) :
    after ops2 V (Proc.devRef .tc main_arg15) = V (Proc.devRef .tc main_arg15) :=
  after_of_forall_not_mem (b := Proc.devRef .tc main_arg15) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg16 (V : Valuation τ sig (Elt F)) :
    after ops2 V (Proc.devRef .tc main_arg16) = V (Proc.devRef .tc main_arg16) :=
  after_of_forall_not_mem (b := Proc.devRef .tc main_arg16) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem kept2_main_arg17 (V : Valuation τ sig (Elt F)) :
    after ops2 V (Proc.devRef .tc main_arg17) = V (Proc.devRef .tc main_arg17) :=
  after_of_forall_not_mem (b := Proc.devRef .tc main_arg17) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

end Cert.ReferenceIdeal.RefRun

end
-- ==== Proof.RefKept3.lean ====
/-
  No operation of window 3 of the reference program writes an argument buffer: each operation writes exactly one
  buffer, its result's, and none of those is an argument's. So the fold of the window's operations leaves every
  argument buffer as it found it.
-/
import proofs.«148151_j29411936043366_2_alg».proof.Proof.RefPart3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept3_main_arg0 (V : Valuation τ sig (Elt F)) :
    after ops3 V (Proc.devRef .tc main_arg0) = V (Proc.devRef .tc main_arg0) :=
  after_of_forall_not_mem (b := Proc.devRef .tc main_arg0) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg1 (V : Valuation τ sig (Elt F)) :
    after ops3 V (Proc.devRef .tc main_arg1) = V (Proc.devRef .tc main_arg1) :=
  after_of_forall_not_mem (b := Proc.devRef .tc main_arg1) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg2 (V : Valuation τ sig (Elt F)) :
    after ops3 V (Proc.devRef .tc main_arg2) = V (Proc.devRef .tc main_arg2) :=
  after_of_forall_not_mem (b := Proc.devRef .tc main_arg2) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg3 (V : Valuation τ sig (Elt F)) :
    after ops3 V (Proc.devRef .tc main_arg3) = V (Proc.devRef .tc main_arg3) :=
  after_of_forall_not_mem (b := Proc.devRef .tc main_arg3) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg4 (V : Valuation τ sig (Elt F)) :
    after ops3 V (Proc.devRef .tc main_arg4) = V (Proc.devRef .tc main_arg4) :=
  after_of_forall_not_mem (b := Proc.devRef .tc main_arg4) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg5 (V : Valuation τ sig (Elt F)) :
    after ops3 V (Proc.devRef .tc main_arg5) = V (Proc.devRef .tc main_arg5) :=
  after_of_forall_not_mem (b := Proc.devRef .tc main_arg5) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg6 (V : Valuation τ sig (Elt F)) :
    after ops3 V (Proc.devRef .tc main_arg6) = V (Proc.devRef .tc main_arg6) :=
  after_of_forall_not_mem (b := Proc.devRef .tc main_arg6) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg7 (V : Valuation τ sig (Elt F)) :
    after ops3 V (Proc.devRef .tc main_arg7) = V (Proc.devRef .tc main_arg7) :=
  after_of_forall_not_mem (b := Proc.devRef .tc main_arg7) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg8 (V : Valuation τ sig (Elt F)) :
    after ops3 V (Proc.devRef .tc main_arg8) = V (Proc.devRef .tc main_arg8) :=
  after_of_forall_not_mem (b := Proc.devRef .tc main_arg8) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg9 (V : Valuation τ sig (Elt F)) :
    after ops3 V (Proc.devRef .tc main_arg9) = V (Proc.devRef .tc main_arg9) :=
  after_of_forall_not_mem (b := Proc.devRef .tc main_arg9) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg10 (V : Valuation τ sig (Elt F)) :
    after ops3 V (Proc.devRef .tc main_arg10) = V (Proc.devRef .tc main_arg10) :=
  after_of_forall_not_mem (b := Proc.devRef .tc main_arg10) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg11 (V : Valuation τ sig (Elt F)) :
    after ops3 V (Proc.devRef .tc main_arg11) = V (Proc.devRef .tc main_arg11) :=
  after_of_forall_not_mem (b := Proc.devRef .tc main_arg11) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg12 (V : Valuation τ sig (Elt F)) :
    after ops3 V (Proc.devRef .tc main_arg12) = V (Proc.devRef .tc main_arg12) :=
  after_of_forall_not_mem (b := Proc.devRef .tc main_arg12) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg13 (V : Valuation τ sig (Elt F)) :
    after ops3 V (Proc.devRef .tc main_arg13) = V (Proc.devRef .tc main_arg13) :=
  after_of_forall_not_mem (b := Proc.devRef .tc main_arg13) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg14 (V : Valuation τ sig (Elt F)) :
    after ops3 V (Proc.devRef .tc main_arg14) = V (Proc.devRef .tc main_arg14) :=
  after_of_forall_not_mem (b := Proc.devRef .tc main_arg14) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg15 (V : Valuation τ sig (Elt F)) :
    after ops3 V (Proc.devRef .tc main_arg15) = V (Proc.devRef .tc main_arg15) :=
  after_of_forall_not_mem (b := Proc.devRef .tc main_arg15) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg16 (V : Valuation τ sig (Elt F)) :
    after ops3 V (Proc.devRef .tc main_arg16) = V (Proc.devRef .tc main_arg16) :=
  after_of_forall_not_mem (b := Proc.devRef .tc main_arg16) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

theorem kept3_main_arg17 (V : Valuation τ sig (Elt F)) :
    after ops3 V (Proc.devRef .tc main_arg17) = V (Proc.devRef .tc main_arg17) :=
  after_of_forall_not_mem (b := Proc.devRef .tc main_arg17) _ _ (List.forall_iff_forall_mem.mp (by
    simp only [ops3, List.Forall, TRef.nullary, TRef.unary, TRef.binary, TRef.ternary, nullary_writes, unary_writes,
      binary_writes, ternary_writes, Finset.mem_singleton]
    repeat' apply And.intro
    all_goals exact devRef_ne_of_ne (by decide)))

end Cert.ReferenceIdeal.RefRun

end
-- ==== Proof.RefFrame.lean ====
/-
  The reference program's frame: it runs, and its argument arrays end unchanged. The run leaves every buffer at the
  fold of the four windows' operations over the launch contents; no operation of any window writes an argument
  buffer, so that fold read at an argument is the launch contents.
-/
import proofs.«148151_j29411936043366_2_alg».proof.Proof.RefRun
import proofs.«148151_j29411936043366_2_alg».proof.Proof.RefKept0
import proofs.«148151_j29411936043366_2_alg».proof.Proof.RefKept1
import proofs.«148151_j29411936043366_2_alg».proof.Proof.RefKept2
import proofs.«148151_j29411936043366_2_alg».proof.Proof.RefKept3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Argument 0 is as launched after the whole program. -/
theorem kept_main_arg0 (V : Valuation τ sig (Elt F)) :
    after ops V (Proc.devRef .tc main_arg0) = V (Proc.devRef .tc main_arg0) := by
  rw [after_ops, kept3_main_arg0, kept2_main_arg0, kept1_main_arg0, kept0_main_arg0]

/-- Argument 1 is as launched after the whole program. -/
theorem kept_main_arg1 (V : Valuation τ sig (Elt F)) :
    after ops V (Proc.devRef .tc main_arg1) = V (Proc.devRef .tc main_arg1) := by
  rw [after_ops, kept3_main_arg1, kept2_main_arg1, kept1_main_arg1, kept0_main_arg1]

/-- Argument 2 is as launched after the whole program. -/
theorem kept_main_arg2 (V : Valuation τ sig (Elt F)) :
    after ops V (Proc.devRef .tc main_arg2) = V (Proc.devRef .tc main_arg2) := by
  rw [after_ops, kept3_main_arg2, kept2_main_arg2, kept1_main_arg2, kept0_main_arg2]

/-- Argument 3 is as launched after the whole program. -/
theorem kept_main_arg3 (V : Valuation τ sig (Elt F)) :
    after ops V (Proc.devRef .tc main_arg3) = V (Proc.devRef .tc main_arg3) := by
  rw [after_ops, kept3_main_arg3, kept2_main_arg3, kept1_main_arg3, kept0_main_arg3]

/-- Argument 4 is as launched after the whole program. -/
theorem kept_main_arg4 (V : Valuation τ sig (Elt F)) :
    after ops V (Proc.devRef .tc main_arg4) = V (Proc.devRef .tc main_arg4) := by
  rw [after_ops, kept3_main_arg4, kept2_main_arg4, kept1_main_arg4, kept0_main_arg4]

/-- Argument 5 is as launched after the whole program. -/
theorem kept_main_arg5 (V : Valuation τ sig (Elt F)) :
    after ops V (Proc.devRef .tc main_arg5) = V (Proc.devRef .tc main_arg5) := by
  rw [after_ops, kept3_main_arg5, kept2_main_arg5, kept1_main_arg5, kept0_main_arg5]

/-- Argument 6 is as launched after the whole program. -/
theorem kept_main_arg6 (V : Valuation τ sig (Elt F)) :
    after ops V (Proc.devRef .tc main_arg6) = V (Proc.devRef .tc main_arg6) := by
  rw [after_ops, kept3_main_arg6, kept2_main_arg6, kept1_main_arg6, kept0_main_arg6]

/-- Argument 7 is as launched after the whole program. -/
theorem kept_main_arg7 (V : Valuation τ sig (Elt F)) :
    after ops V (Proc.devRef .tc main_arg7) = V (Proc.devRef .tc main_arg7) := by
  rw [after_ops, kept3_main_arg7, kept2_main_arg7, kept1_main_arg7, kept0_main_arg7]

/-- Argument 8 is as launched after the whole program. -/
theorem kept_main_arg8 (V : Valuation τ sig (Elt F)) :
    after ops V (Proc.devRef .tc main_arg8) = V (Proc.devRef .tc main_arg8) := by
  rw [after_ops, kept3_main_arg8, kept2_main_arg8, kept1_main_arg8, kept0_main_arg8]

/-- Argument 9 is as launched after the whole program. -/
theorem kept_main_arg9 (V : Valuation τ sig (Elt F)) :
    after ops V (Proc.devRef .tc main_arg9) = V (Proc.devRef .tc main_arg9) := by
  rw [after_ops, kept3_main_arg9, kept2_main_arg9, kept1_main_arg9, kept0_main_arg9]

/-- Argument 10 is as launched after the whole program. -/
theorem kept_main_arg10 (V : Valuation τ sig (Elt F)) :
    after ops V (Proc.devRef .tc main_arg10) = V (Proc.devRef .tc main_arg10) := by
  rw [after_ops, kept3_main_arg10, kept2_main_arg10, kept1_main_arg10, kept0_main_arg10]

/-- Argument 11 is as launched after the whole program. -/
theorem kept_main_arg11 (V : Valuation τ sig (Elt F)) :
    after ops V (Proc.devRef .tc main_arg11) = V (Proc.devRef .tc main_arg11) := by
  rw [after_ops, kept3_main_arg11, kept2_main_arg11, kept1_main_arg11, kept0_main_arg11]

/-- Argument 12 is as launched after the whole program. -/
theorem kept_main_arg12 (V : Valuation τ sig (Elt F)) :
    after ops V (Proc.devRef .tc main_arg12) = V (Proc.devRef .tc main_arg12) := by
  rw [after_ops, kept3_main_arg12, kept2_main_arg12, kept1_main_arg12, kept0_main_arg12]

/-- Argument 13 is as launched after the whole program. -/
theorem kept_main_arg13 (V : Valuation τ sig (Elt F)) :
    after ops V (Proc.devRef .tc main_arg13) = V (Proc.devRef .tc main_arg13) := by
  rw [after_ops, kept3_main_arg13, kept2_main_arg13, kept1_main_arg13, kept0_main_arg13]

/-- Argument 14 is as launched after the whole program. -/
theorem kept_main_arg14 (V : Valuation τ sig (Elt F)) :
    after ops V (Proc.devRef .tc main_arg14) = V (Proc.devRef .tc main_arg14) := by
  rw [after_ops, kept3_main_arg14, kept2_main_arg14, kept1_main_arg14, kept0_main_arg14]

/-- Argument 15 is as launched after the whole program. -/
theorem kept_main_arg15 (V : Valuation τ sig (Elt F)) :
    after ops V (Proc.devRef .tc main_arg15) = V (Proc.devRef .tc main_arg15) := by
  rw [after_ops, kept3_main_arg15, kept2_main_arg15, kept1_main_arg15, kept0_main_arg15]

/-- Argument 16 is as launched after the whole program. -/
theorem kept_main_arg16 (V : Valuation τ sig (Elt F)) :
    after ops V (Proc.devRef .tc main_arg16) = V (Proc.devRef .tc main_arg16) := by
  rw [after_ops, kept3_main_arg16, kept2_main_arg16, kept1_main_arg16, kept0_main_arg16]

/-- Argument 17 is as launched after the whole program. -/
theorem kept_main_arg17 (V : Valuation τ sig (Elt F)) :
    after ops V (Proc.devRef .tc main_arg17) = V (Proc.devRef .tc main_arg17) := by
  rw [after_ops, kept3_main_arg17, kept2_main_arg17, kept1_main_arg17, kept0_main_arg17]

/-- The frame's post: every argument buffer ends as launched. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _),
     (h c main_arg6).trans (kept_main_arg6 _),
     (h c main_arg7).trans (kept_main_arg7 _),
     (h c main_arg8).trans (kept_main_arg8 _),
     (h c main_arg9).trans (kept_main_arg9 _),
     (h c main_arg10).trans (kept_main_arg10 _),
     (h c main_arg11).trans (kept_main_arg11 _),
     (h c main_arg12).trans (kept_main_arg12 _),
     (h c main_arg13).trans (kept_main_arg13 _),
     (h c main_arg14).trans (kept_main_arg14 _),
     (h c main_arg15).trans (kept_main_arg15 _),
     (h c main_arg16).trans (kept_main_arg16 _),
     (h c main_arg17).trans (kept_main_arg17 _)⟩)
    (run_all m ρ)

end Cert.ReferenceIdeal.RefRun

end
-- ==== Proof.KRun.lean ====
/-
  The idealized kernel program's run with its four results named. The program is twenty-four segments — host
  stretches and twelve kernel regions in turn — and its run leaves every unscoped buffer at the fold of the segments
  over the launch memory: a host stretch's operations applied in order, a region's arrays at what its grid points
  wrote back and every other buffer as the region found it. Read at the four result buffers and at the eighteen
  argument buffers, that fold is what the program returns and what it leaves of its arguments (no segment writes
  an argument, so each is as launched).
-/
import proofs.«148151_j29411936043366_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; each result buffer ends at the segments' fold
    read at that buffer, and each argument buffer as launched. -/
theorem run_results : θ_run defs (onTc (τ := τ) (main (F := F))) ⟨m, fun _ => 0, ρ⟩ (fun r => ∀ c : Dev nD,
      r.2.mem ((c.tc : Thread nD τ).loc main_v129_0) = W24 m ρ c (Proc.devRef .tc main_v129_0)
      ∧ r.2.mem ((c.tc : Thread nD τ).loc main_v130_0) = W24 m ρ c (Proc.devRef .tc main_v130_0)
      ∧ r.2.mem ((c.tc : Thread nD τ).loc main_v131) = W24 m ρ c (Proc.devRef .tc main_v131)
      ∧ r.2.mem ((c.tc : Thread nD τ).loc main_v132) = W24 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v129_0 (by decide)),
       h c _ (mem_uc main_v130_0 (by decide)),
       h c _ (mem_uc main_v131 (by decide)),
       h c _ (mem_uc main_v132 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c)⟩)

end Cert.KernelIdeal.KRun

end
-- ==== Proof.KStage.lean ====
/-
  The host stretches of the idealized kernel program, as functions. Between the kernel regions the program computes,
  on the host: the degree normalisers (a scatter-add of ones over an index array, clamped below at one, reciprocal
  square root, kept as a column); the biases as rows; the aggregation along the edges (gather the rows named by the
  source indices, widen, scatter-add at the target indices); the column means (sums over 50000); the reciprocal
  standard deviations (centred sums of squares over 49999, reciprocal square root); the classifier padded with zeros
  to 128 columns; and the first two columns of the padded scores. Each is named here as one function of its operand
  arrays, and each buffer a stretch produces is that function of the stretch's entry contents.
-/
import proofs.«148151_j29411936043366_2_alg».proof.Proof.Gen.KernelIdeal.Frame
import Idealize.ShloMosaic.Lib.StableHlo.Run

set_option maxRecDepth 16384

noncomputable section

namespace Cert.KernelIdeal.KStage

open Cert.KernelIdeal Cert.KernelIdeal.Gen
open Idealize.ShloMosaic Idealize.ShloMosaic.TcCoe Idealize.SL.Sem Idealize.ShloMosaic.StableHlo

variable {F : FTy → Type} [FloatOps F]

/-- A degree normaliser as a column: the scatter-add of ones at the indices, clamped below at one, reciprocal square root. -/
def normOf (idx : IVec S600000 32) : FVec F S50000x1 .f32 :=
  ((broadcastInDim S50000x1 ![0] bcast_S50000_S50000x1_0) (Host.rsqrt (maximumf ((fun x i u => Host.scatterAdd scatter_S50000_S600000x1_S600000_n_0_0_1 x i u) ((broadcastInDim S50000 ![] bcast_S_S50000) (constant S_ .f32 0x00000000#32)) ((broadcastInDim S600000x1 ![0] bcast_S600000_S600000x1_0) idx) ((broadcastInDim S600000 ![] bcast_S_S600000) (constant S_ .f32 0x3F800000#32))) ((broadcastInDim S50000 ![] bcast_S_S50000) (constant S_ .f32 0x3F800000#32)))))

/-- A bias as a row. -/
def rowOf (b : FVec F S128 .f32) : FVec F S1x128 .f32 :=
  (shapeCast S1x128 b shapeCasts_S128_S1x128)

/-- The aggregation along the edges: the rows the source indices name, widened, scatter-added at the target indices. -/
def aggOf (h : FVec F S50000x128 .bf16) (src dst : IVec S600000 32) : FVec F S50000x128 .f32 :=
  ((fun x i u => Host.scatterAdd scatter_S50000x128_S600000x1_S600000x128_1_0_0_1 x i u) ((broadcastInDim S50000x128 ![] bcast_S_S50000x128) (constant S_ .f32 0x00000000#32)) ((broadcastInDim S600000x1 ![0] bcast_S600000_S600000x1_0) dst) ((extf .f32 · bitsLt_bf16_f32) ((fun x i => Host.gather gather_S50000x128_S600000x1_S600000x128_1_0_n_n_0_1_1128 x i) h ((broadcastInDim S600000x1 ![0] bcast_S600000_S600000x1_0) (select ((cmpi .slt) src ((broadcastInDim S600000 ![] bcast_S_S600000) (constantI S_ 32 0#32))) (addi src ((broadcastInDim S600000 ![] bcast_S_S600000) (constantI S_ 32 50000#32))) src)))))

/-- A row of column sums divided by the number of nodes. -/
def divN (s : FVec F S1x128 .f32) : FVec F S1x128 .f32 :=
  (Host.divf s ((broadcastInDim S1x128 ![] bcast_S_S1x128) (constant S_ .f32 0x47435000#32)))

/-- The reciprocal standard deviations from the centred sums of squares. -/
def invstdOf (s : FVec F S1x128 .f32) : FVec F S1x128 .f32 :=
  (Host.rsqrt (Host.divf s ((broadcastInDim S1x128 ![] bcast_S_S1x128) (constant S_ .f32 0x47434F00#32))))

/-- The classifier's weights padded with zero columns to 128. -/
def wcPad (wc : FVec F S128x2 .f32) : FVec F S128x128 .f32 :=
  ((fun a b => concatenate S128x128 1 [⟨S128x2, a⟩, ⟨S128x126, b⟩] concatenates_S128x2_S128x126_S128x128_d1) wc ((broadcastInDim S128x126 ![] bcast_S_S128x126) (constant S_ .f32 0x00000000#32)))

/-- The classifier's bias padded with zeros to 128, as a row. -/
def bcPad (bc : FVec F S2 .f32) : FVec F S1x128 .f32 :=
  (shapeCast S1x128 ((fun a b => concatenate S128 0 [⟨S2, a⟩, ⟨S126, b⟩] concatenates_S2_S126_S128_d0) bc ((broadcastInDim S126 ![] bcast_S_S126) (constant S_ .f32 0x00000000#32))) shapeCasts_S128_S1x128)

/-- The first two columns of the padded scores. -/
def sliceC (x : FVec F S50000x128 .f32) : FVec F S50000x2 .f32 :=
  ((extractStridedSlice S50000x2 ![0, 0] · slices_S50000x128_S50000x2_0_0) x)

variable (m : (ℓ : Loc nD τ sig) → Buf (Elt F) ℓ) (ρ : Dev nD → PrngReg)

theorem st_main_v10 (c : Dev nD) :
    W1 m ρ c (Proc.devRef .tc main_v10) = normOf (W0 m ρ c (Proc.devRef .tc main_arg4)) := by
  delta W1
  after_results_simp
  try rfl

theorem st_main_v14 (c : Dev nD) :
    W1 m ρ c (Proc.devRef .tc main_v14) = normOf (W0 m ρ c (Proc.devRef .tc main_arg5)) := by
  delta W1
  after_results_simp
  try rfl

theorem st_main_v15 (c : Dev nD) :
    W1 m ρ c (Proc.devRef .tc main_v15) = rowOf (W0 m ρ c (Proc.devRef .tc main_arg9)) := by
  delta W1
  after_results_simp
  try rfl

theorem st_main_v16 (c : Dev nD) :
    W1 m ρ c (Proc.devRef .tc main_v16) = rowOf (W0 m ρ c (Proc.devRef .tc main_arg11)) := by
  delta W1
  after_results_simp
  try rfl

theorem st_main_v17 (c : Dev nD) :
    W1 m ρ c (Proc.devRef .tc main_v17) = rowOf (W0 m ρ c (Proc.devRef .tc main_arg13)) := by
  delta W1
  after_results_simp
  try rfl

theorem st_main_v18 (c : Dev nD) :
    W1 m ρ c (Proc.devRef .tc main_v18) = rowOf (W0 m ρ c (Proc.devRef .tc main_arg15)) := by
  delta W1
  after_results_simp
  try rfl

theorem st_main_v30 (c : Dev nD) :
    W3 m ρ c (Proc.devRef .tc main_v30) = aggOf (W2 m ρ c (Proc.devRef .tc main_v19)) (W2 m ρ c (Proc.devRef .tc main_arg4)) (W2 m ρ c (Proc.devRef .tc main_arg5)) := by
  delta W3
  after_results_simp
  try rfl

theorem st_main_v42 (c : Dev nD) :
    W5 m ρ c (Proc.devRef .tc main_v42) = aggOf (W4 m ρ c (Proc.devRef .tc main_v31)) (W4 m ρ c (Proc.devRef .tc main_arg4)) (W4 m ρ c (Proc.devRef .tc main_arg5)) := by
  delta W5
  after_results_simp
  try rfl

theorem st_main_v54 (c : Dev nD) :
    W7 m ρ c (Proc.devRef .tc main_v54) = aggOf (W6 m ρ c (Proc.devRef .tc main_v43)) (W6 m ρ c (Proc.devRef .tc main_arg4)) (W6 m ρ c (Proc.devRef .tc main_arg5)) := by
  delta W7
  after_results_simp
  try rfl

theorem st_main_v66 (c : Dev nD) :
    W9 m ρ c (Proc.devRef .tc main_v66) = normOf (W8 m ρ c (Proc.devRef .tc main_arg6)) := by
  delta W9
  after_results_simp
  try rfl

theorem st_main_v70 (c : Dev nD) :
    W9 m ρ c (Proc.devRef .tc main_v70) = normOf (W8 m ρ c (Proc.devRef .tc main_arg7)) := by
  delta W9
  after_results_simp
  try rfl

theorem st_main_v71 (c : Dev nD) :
    W9 m ρ c (Proc.devRef .tc main_v71) = rowOf (W8 m ρ c (Proc.devRef .tc main_arg9)) := by
  delta W9
  after_results_simp
  try rfl

theorem st_main_v72 (c : Dev nD) :
    W9 m ρ c (Proc.devRef .tc main_v72) = rowOf (W8 m ρ c (Proc.devRef .tc main_arg11)) := by
  delta W9
  after_results_simp
  try rfl

theorem st_main_v73 (c : Dev nD) :
    W9 m ρ c (Proc.devRef .tc main_v73) = rowOf (W8 m ρ c (Proc.devRef .tc main_arg13)) := by
  delta W9
  after_results_simp
  try rfl

theorem st_main_v74 (c : Dev nD) :
    W9 m ρ c (Proc.devRef .tc main_v74) = rowOf (W8 m ρ c (Proc.devRef .tc main_arg15)) := by
  delta W9
  after_results_simp
  try rfl

theorem st_main_v86 (c : Dev nD) :
    W11 m ρ c (Proc.devRef .tc main_v86) = aggOf (W10 m ρ c (Proc.devRef .tc main_v75)) (W10 m ρ c (Proc.devRef .tc main_arg6)) (W10 m ρ c (Proc.devRef .tc main_arg7)) := by
  delta W11
  after_results_simp
  try rfl

theorem st_main_v98 (c : Dev nD) :
    W13 m ρ c (Proc.devRef .tc main_v98) = aggOf (W12 m ρ c (Proc.devRef .tc main_v87)) (W12 m ρ c (Proc.devRef .tc main_arg6)) (W12 m ρ c (Proc.devRef .tc main_arg7)) := by
  delta W13
  after_results_simp
  try rfl

theorem st_main_v110 (c : Dev nD) :
    W15 m ρ c (Proc.devRef .tc main_v110) = aggOf (W14 m ρ c (Proc.devRef .tc main_v99)) (W14 m ρ c (Proc.devRef .tc main_arg6)) (W14 m ρ c (Proc.devRef .tc main_arg7)) := by
  delta W15
  after_results_simp
  try rfl

theorem st_main_v113 (c : Dev nD) :
    W17 m ρ c (Proc.devRef .tc main_v113) = divN (W16 m ρ c (Proc.devRef .tc main_v55_1)) := by
  delta W17
  after_results_simp
  try rfl

theorem st_main_v117 (c : Dev nD) :
    W19 m ρ c (Proc.devRef .tc main_v117) = invstdOf (W18 m ρ c (Proc.devRef .tc main_v114)) := by
  delta W19
  after_results_simp
  try rfl

theorem st_main_v119 (c : Dev nD) :
    W19 m ρ c (Proc.devRef .tc main_v119) = divN (W18 m ρ c (Proc.devRef .tc main_v111_1)) := by
  delta W19
  after_results_simp
  try rfl

theorem st_main_v123 (c : Dev nD) :
    W21 m ρ c (Proc.devRef .tc main_v123) = invstdOf (W20 m ρ c (Proc.devRef .tc main_v120)) := by
  delta W21
  after_results_simp
  try rfl

theorem st_main_v125 (c : Dev nD) :
    W21 m ρ c (Proc.devRef .tc main_v125) = wcPad (W20 m ρ c (Proc.devRef .tc main_arg16)) := by
  delta W21
  after_results_simp
  try rfl

theorem st_main_v128 (c : Dev nD) :
    W21 m ρ c (Proc.devRef .tc main_v128) = bcPad (W20 m ρ c (Proc.devRef .tc main_arg17)) := by
  delta W21
  after_results_simp
  try rfl

theorem st_main_v131 (c : Dev nD) :
    W24 m ρ c (Proc.devRef .tc main_v131) = sliceC (W23 m ρ c (Proc.devRef .tc main_v129_1)) := by
  delta W24
  after_results_simp
  try rfl

theorem st_main_v132 (c : Dev nD) :
    W24 m ρ c (Proc.devRef .tc main_v132) = sliceC (W23 m ρ c (Proc.devRef .tc main_v130_1)) := by
  delta W24
  after_results_simp
  try rfl

end Cert.KernelIdeal.KStage

end
-- ==== Proof.KKeep0.lean ====
/-
  A buffer no operation of a segment writes is unchanged across it. The idealized kernel program is twenty-four
  segments; segments 0→1 … 5→6 here. A host stretch leaves alone every buffer that is not the
  result of one of its operations; a kernel region changes only the arrays of its output windows (an input window's
  array ends as it was entered, every other buffer is untouched). One statement per segment and per buffer that a
  later segment reads.
-/
import proofs.«148151_j29411936043366_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem step1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg14 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg15 (c : Dev nD) : W1 m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg16 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg17 (c : Dev nD) : W1 m ρ c (Proc.devRef .tc main_arg17) = W0 m ρ c (Proc.devRef .tc main_arg17) :=
  StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step1_main_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step2_main_arg1 (c : Dev nD) : W2 m ρ c (Proc.devRef .tc main_arg1) = W1 m ρ c (Proc.devRef .tc main_arg1) :=
  W2_of_ne m ρ c main_arg1 (by decide)

theorem step2_main_arg10 (c : Dev nD) : W2 m ρ c (Proc.devRef .tc main_arg10) = W1 m ρ c (Proc.devRef .tc main_arg10) :=
  W2_of_ne m ρ c main_arg10 (by decide)

theorem step2_main_arg11 (c : Dev nD) : W2 m ρ c (Proc.devRef .tc main_arg11) = W1 m ρ c (Proc.devRef .tc main_arg11) :=
  W2_of_ne m ρ c main_arg11 (by decide)

theorem step2_main_arg12 (c : Dev nD) : W2 m ρ c (Proc.devRef .tc main_arg12) = W1 m ρ c (Proc.devRef .tc main_arg12) :=
  W2_of_ne m ρ c main_arg12 (by decide)

theorem step2_main_arg13 (c : Dev nD) : W2 m ρ c (Proc.devRef .tc main_arg13) = W1 m ρ c (Proc.devRef .tc main_arg13) :=
  W2_of_ne m ρ c main_arg13 (by decide)

theorem step2_main_arg14 (c : Dev nD) : W2 m ρ c (Proc.devRef .tc main_arg14) = W1 m ρ c (Proc.devRef .tc main_arg14) :=
  W2_of_ne m ρ c main_arg14 (by decide)

theorem step2_main_arg15 (c : Dev nD) : W2 m ρ c (Proc.devRef .tc main_arg15) = W1 m ρ c (Proc.devRef .tc main_arg15) :=
  W2_of_ne m ρ c main_arg15 (by decide)

theorem step2_main_arg16 (c : Dev nD) : W2 m ρ c (Proc.devRef .tc main_arg16) = W1 m ρ c (Proc.devRef .tc main_arg16) :=
  W2_of_ne m ρ c main_arg16 (by decide)

theorem step2_main_arg17 (c : Dev nD) : W2 m ρ c (Proc.devRef .tc main_arg17) = W1 m ρ c (Proc.devRef .tc main_arg17) :=
  W2_of_ne m ρ c main_arg17 (by decide)

theorem step2_main_arg3 (c : Dev nD) : W2 m ρ c (Proc.devRef .tc main_arg3) = W1 m ρ c (Proc.devRef .tc main_arg3) :=
  W2_of_ne m ρ c main_arg3 (by decide)

theorem step2_main_arg4 (c : Dev nD) : W2 m ρ c (Proc.devRef .tc main_arg4) = W1 m ρ c (Proc.devRef .tc main_arg4) :=
  W2_of_ne m ρ c main_arg4 (by decide)

theorem step2_main_arg5 (c : Dev nD) : W2 m ρ c (Proc.devRef .tc main_arg5) = W1 m ρ c (Proc.devRef .tc main_arg5) :=
  W2_of_ne m ρ c main_arg5 (by decide)

theorem step2_main_arg6 (c : Dev nD) : W2 m ρ c (Proc.devRef .tc main_arg6) = W1 m ρ c (Proc.devRef .tc main_arg6) :=
  W2_of_ne m ρ c main_arg6 (by decide)

theorem step2_main_arg7 (c : Dev nD) : W2 m ρ c (Proc.devRef .tc main_arg7) = W1 m ρ c (Proc.devRef .tc main_arg7) :=
  W2_of_ne m ρ c main_arg7 (by decide)

theorem step2_main_arg8 (c : Dev nD) : W2 m ρ c (Proc.devRef .tc main_arg8) = W1 m ρ c (Proc.devRef .tc main_arg8) :=
  (W2_arr m ρ c 3).trans (((dat0 (V1 m ρ) c).arrAt_in 3 rfl _).trans (A_eq0 (V1 m ρ) c 3))

theorem step2_main_arg9 (c : Dev nD) : W2 m ρ c (Proc.devRef .tc main_arg9) = W1 m ρ c (Proc.devRef .tc main_arg9) :=
  W2_of_ne m ρ c main_arg9 (by decide)

theorem step2_main_v10 (c : Dev nD) : W2 m ρ c (Proc.devRef .tc main_v10) = W1 m ρ c (Proc.devRef .tc main_v10) :=
  (W2_arr m ρ c 2).trans (((dat0 (V1 m ρ) c).arrAt_in 2 rfl _).trans (A_eq0 (V1 m ρ) c 2))

theorem step2_main_v14 (c : Dev nD) : W2 m ρ c (Proc.devRef .tc main_v14) = W1 m ρ c (Proc.devRef .tc main_v14) :=
  W2_of_ne m ρ c main_v14 (by decide)

theorem step2_main_v15 (c : Dev nD) : W2 m ρ c (Proc.devRef .tc main_v15) = W1 m ρ c (Proc.devRef .tc main_v15) :=
  W2_of_ne m ρ c main_v15 (by decide)

theorem step2_main_v16 (c : Dev nD) : W2 m ρ c (Proc.devRef .tc main_v16) = W1 m ρ c (Proc.devRef .tc main_v16) :=
  W2_of_ne m ρ c main_v16 (by decide)

theorem step2_main_v17 (c : Dev nD) : W2 m ρ c (Proc.devRef .tc main_v17) = W1 m ρ c (Proc.devRef .tc main_v17) :=
  W2_of_ne m ρ c main_v17 (by decide)

theorem step2_main_v18 (c : Dev nD) : W2 m ρ c (Proc.devRef .tc main_v18) = W1 m ρ c (Proc.devRef .tc main_v18) :=
  W2_of_ne m ρ c main_v18 (by decide)

theorem step3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg10 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg11 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg12 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg13 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg14 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg15 (c : Dev nD) : W3 m ρ c (Proc.devRef .tc main_arg15) = W2 m ρ c (Proc.devRef .tc main_arg15) :=
  StableHlo.after_of_forall_not_mem (b := Proc.devRef .tc main_arg15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg16 (c : Dev nD) : W3 m ρ c (Proc.devRef .tc main_arg16) = W2 m ρ c (Proc.devRef .tc main_arg16) :=
  StableHlo.after_of_forall_not_mem (b := Proc.devRef .tc main_arg16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg17 (c : Dev nD) : W3 m ρ c (Proc.devRef .tc main_arg17) = W2 m ρ c (Proc.devRef .tc main_arg17) :=
  StableHlo.after_of_forall_not_mem (b := Proc.devRef .tc main_arg17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg6 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg7 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg8 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_arg9 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v10 (c : Dev nD) : W3 m ρ c (Proc.devRef .tc main_v10) = W2 m ρ c (Proc.devRef .tc main_v10) :=
  StableHlo.after_of_forall_not_mem (b := Proc.devRef .tc main_v10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v14 (c : Dev nD) : W3 m ρ c (Proc.devRef .tc main_v14) = W2 m ρ c (Proc.devRef .tc main_v14) :=
  StableHlo.after_of_forall_not_mem (b := Proc.devRef .tc main_v14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v15 (c : Dev nD) : W3 m ρ c (Proc.devRef .tc main_v15) = W2 m ρ c (Proc.devRef .tc main_v15) :=
  StableHlo.after_of_forall_not_mem (b := Proc.devRef .tc main_v15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v16 (c : Dev nD) : W3 m ρ c (Proc.devRef .tc main_v16) = W2 m ρ c (Proc.devRef .tc main_v16) :=
  StableHlo.after_of_forall_not_mem (b := Proc.devRef .tc main_v16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v17 (c : Dev nD) : W3 m ρ c (Proc.devRef .tc main_v17) = W2 m ρ c (Proc.devRef .tc main_v17) :=
  StableHlo.after_of_forall_not_mem (b := Proc.devRef .tc main_v17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step3_main_v18 (c : Dev nD) : W3 m ρ c (Proc.devRef .tc main_v18) = W2 m ρ c (Proc.devRef .tc main_v18) :=
  StableHlo.after_of_forall_not_mem (b := Proc.devRef .tc main_v18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step4_main_arg1 (c : Dev nD) : W4 m ρ c (Proc.devRef .tc main_arg1) = W3 m ρ c (Proc.devRef .tc main_arg1) :=
  W4_of_ne m ρ c main_arg1 (by decide)

theorem step4_main_arg10 (c : Dev nD) : W4 m ρ c (Proc.devRef .tc main_arg10) = W3 m ρ c (Proc.devRef .tc main_arg10) :=
  (W4_arr m ρ c 4).trans (((dat1 (V3 m ρ) c).arrAt_in 4 rfl _).trans (A_eq1 (V3 m ρ) c 4))

theorem step4_main_arg11 (c : Dev nD) : W4 m ρ c (Proc.devRef .tc main_arg11) = W3 m ρ c (Proc.devRef .tc main_arg11) :=
  W4_of_ne m ρ c main_arg11 (by decide)

theorem step4_main_arg12 (c : Dev nD) : W4 m ρ c (Proc.devRef .tc main_arg12) = W3 m ρ c (Proc.devRef .tc main_arg12) :=
  W4_of_ne m ρ c main_arg12 (by decide)

theorem step4_main_arg13 (c : Dev nD) : W4 m ρ c (Proc.devRef .tc main_arg13) = W3 m ρ c (Proc.devRef .tc main_arg13) :=
  W4_of_ne m ρ c main_arg13 (by decide)

theorem step4_main_arg14 (c : Dev nD) : W4 m ρ c (Proc.devRef .tc main_arg14) = W3 m ρ c (Proc.devRef .tc main_arg14) :=
  W4_of_ne m ρ c main_arg14 (by decide)

theorem step4_main_arg15 (c : Dev nD) : W4 m ρ c (Proc.devRef .tc main_arg15) = W3 m ρ c (Proc.devRef .tc main_arg15) :=
  W4_of_ne m ρ c main_arg15 (by decide)

theorem step4_main_arg16 (c : Dev nD) : W4 m ρ c (Proc.devRef .tc main_arg16) = W3 m ρ c (Proc.devRef .tc main_arg16) :=
  W4_of_ne m ρ c main_arg16 (by decide)

theorem step4_main_arg17 (c : Dev nD) : W4 m ρ c (Proc.devRef .tc main_arg17) = W3 m ρ c (Proc.devRef .tc main_arg17) :=
  W4_of_ne m ρ c main_arg17 (by decide)

theorem step4_main_arg3 (c : Dev nD) : W4 m ρ c (Proc.devRef .tc main_arg3) = W3 m ρ c (Proc.devRef .tc main_arg3) :=
  W4_of_ne m ρ c main_arg3 (by decide)

theorem step4_main_arg4 (c : Dev nD) : W4 m ρ c (Proc.devRef .tc main_arg4) = W3 m ρ c (Proc.devRef .tc main_arg4) :=
  W4_of_ne m ρ c main_arg4 (by decide)

theorem step4_main_arg5 (c : Dev nD) : W4 m ρ c (Proc.devRef .tc main_arg5) = W3 m ρ c (Proc.devRef .tc main_arg5) :=
  W4_of_ne m ρ c main_arg5 (by decide)

theorem step4_main_arg6 (c : Dev nD) : W4 m ρ c (Proc.devRef .tc main_arg6) = W3 m ρ c (Proc.devRef .tc main_arg6) :=
  W4_of_ne m ρ c main_arg6 (by decide)

theorem step4_main_arg7 (c : Dev nD) : W4 m ρ c (Proc.devRef .tc main_arg7) = W3 m ρ c (Proc.devRef .tc main_arg7) :=
  W4_of_ne m ρ c main_arg7 (by decide)

theorem step4_main_arg8 (c : Dev nD) : W4 m ρ c (Proc.devRef .tc main_arg8) = W3 m ρ c (Proc.devRef .tc main_arg8) :=
  W4_of_ne m ρ c main_arg8 (by decide)

theorem step4_main_arg9 (c : Dev nD) : W4 m ρ c (Proc.devRef .tc main_arg9) = W3 m ρ c (Proc.devRef .tc main_arg9) :=
  W4_of_ne m ρ c main_arg9 (by decide)

theorem step4_main_v10 (c : Dev nD) : W4 m ρ c (Proc.devRef .tc main_v10) = W3 m ρ c (Proc.devRef .tc main_v10) :=
  (W4_arr m ρ c 3).trans (((dat1 (V3 m ρ) c).arrAt_in 3 rfl _).trans (A_eq1 (V3 m ρ) c 3))

theorem step4_main_v14 (c : Dev nD) : W4 m ρ c (Proc.devRef .tc main_v14) = W3 m ρ c (Proc.devRef .tc main_v14) :=
  (W4_arr m ρ c 1).trans (((dat1 (V3 m ρ) c).arrAt_in 1 rfl _).trans (A_eq1 (V3 m ρ) c 1))

theorem step4_main_v16 (c : Dev nD) : W4 m ρ c (Proc.devRef .tc main_v16) = W3 m ρ c (Proc.devRef .tc main_v16) :=
  W4_of_ne m ρ c main_v16 (by decide)

theorem step4_main_v17 (c : Dev nD) : W4 m ρ c (Proc.devRef .tc main_v17) = W3 m ρ c (Proc.devRef .tc main_v17) :=
  W4_of_ne m ρ c main_v17 (by decide)

theorem step4_main_v18 (c : Dev nD) : W4 m ρ c (Proc.devRef .tc main_v18) = W3 m ρ c (Proc.devRef .tc main_v18) :=
  W4_of_ne m ρ c main_v18 (by decide)

theorem step5_main_arg1 (c : Dev nD) : W5 m ρ c (Proc.devRef .tc main_arg1) = W4 m ρ c (Proc.devRef .tc main_arg1) :=
  StableHlo.after_of_forall_not_mem (b := Proc.devRef .tc main_arg1) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg11 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg12 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg13 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg14 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg15 (c : Dev nD) : W5 m ρ c (Proc.devRef .tc main_arg15) = W4 m ρ c (Proc.devRef .tc main_arg15) :=
  StableHlo.after_of_forall_not_mem (b := Proc.devRef .tc main_arg15) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg16 (c : Dev nD) : W5 m ρ c (Proc.devRef .tc main_arg16) = W4 m ρ c (Proc.devRef .tc main_arg16) :=
  StableHlo.after_of_forall_not_mem (b := Proc.devRef .tc main_arg16) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg17 (c : Dev nD) : W5 m ρ c (Proc.devRef .tc main_arg17) = W4 m ρ c (Proc.devRef .tc main_arg17) :=
  StableHlo.after_of_forall_not_mem (b := Proc.devRef .tc main_arg17) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg3 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg8 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_arg9 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_v10 (c : Dev nD) : W5 m ρ c (Proc.devRef .tc main_v10) = W4 m ρ c (Proc.devRef .tc main_v10) :=
  StableHlo.after_of_forall_not_mem (b := Proc.devRef .tc main_v10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_v14 (c : Dev nD) : W5 m ρ c (Proc.devRef .tc main_v14) = W4 m ρ c (Proc.devRef .tc main_v14) :=
  StableHlo.after_of_forall_not_mem (b := Proc.devRef .tc main_v14) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_v16 (c : Dev nD) : W5 m ρ c (Proc.devRef .tc main_v16) = W4 m ρ c (Proc.devRef .tc main_v16) :=
  StableHlo.after_of_forall_not_mem (b := Proc.devRef .tc main_v16) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_v17 (c : Dev nD) : W5 m ρ c (Proc.devRef .tc main_v17) = W4 m ρ c (Proc.devRef .tc main_v17) :=
  StableHlo.after_of_forall_not_mem (b := Proc.devRef .tc main_v17) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step5_main_v18 (c : Dev nD) : W5 m ρ c (Proc.devRef .tc main_v18) = W4 m ρ c (Proc.devRef .tc main_v18) :=
  StableHlo.after_of_forall_not_mem (b := Proc.devRef .tc main_v18) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step6_main_arg1 (c : Dev nD) : W6 m ρ c (Proc.devRef .tc main_arg1) = W5 m ρ c (Proc.devRef .tc main_arg1) :=
  W6_of_ne m ρ c main_arg1 (by decide)

theorem step6_main_arg10 (c : Dev nD) : W6 m ρ c (Proc.devRef .tc main_arg10) = W5 m ρ c (Proc.devRef .tc main_arg10) :=
  W6_of_ne m ρ c main_arg10 (by decide)

theorem step6_main_arg11 (c : Dev nD) : W6 m ρ c (Proc.devRef .tc main_arg11) = W5 m ρ c (Proc.devRef .tc main_arg11) :=
  W6_of_ne m ρ c main_arg11 (by decide)

theorem step6_main_arg12 (c : Dev nD) : W6 m ρ c (Proc.devRef .tc main_arg12) = W5 m ρ c (Proc.devRef .tc main_arg12) :=
  (W6_arr m ρ c 4).trans (((dat2 (V5 m ρ) c).arrAt_in 4 rfl _).trans (A_eq2 (V5 m ρ) c 4))

theorem step6_main_arg13 (c : Dev nD) : W6 m ρ c (Proc.devRef .tc main_arg13) = W5 m ρ c (Proc.devRef .tc main_arg13) :=
  W6_of_ne m ρ c main_arg13 (by decide)

theorem step6_main_arg14 (c : Dev nD) : W6 m ρ c (Proc.devRef .tc main_arg14) = W5 m ρ c (Proc.devRef .tc main_arg14) :=
  W6_of_ne m ρ c main_arg14 (by decide)

theorem step6_main_arg15 (c : Dev nD) : W6 m ρ c (Proc.devRef .tc main_arg15) = W5 m ρ c (Proc.devRef .tc main_arg15) :=
  W6_of_ne m ρ c main_arg15 (by decide)

theorem step6_main_arg16 (c : Dev nD) : W6 m ρ c (Proc.devRef .tc main_arg16) = W5 m ρ c (Proc.devRef .tc main_arg16) :=
  W6_of_ne m ρ c main_arg16 (by decide)

theorem step6_main_arg17 (c : Dev nD) : W6 m ρ c (Proc.devRef .tc main_arg17) = W5 m ρ c (Proc.devRef .tc main_arg17) :=
  W6_of_ne m ρ c main_arg17 (by decide)

theorem step6_main_arg3 (c : Dev nD) : W6 m ρ c (Proc.devRef .tc main_arg3) = W5 m ρ c (Proc.devRef .tc main_arg3) :=
  W6_of_ne m ρ c main_arg3 (by decide)

theorem step6_main_arg4 (c : Dev nD) : W6 m ρ c (Proc.devRef .tc main_arg4) = W5 m ρ c (Proc.devRef .tc main_arg4) :=
  W6_of_ne m ρ c main_arg4 (by decide)

theorem step6_main_arg5 (c : Dev nD) : W6 m ρ c (Proc.devRef .tc main_arg5) = W5 m ρ c (Proc.devRef .tc main_arg5) :=
  W6_of_ne m ρ c main_arg5 (by decide)

theorem step6_main_arg6 (c : Dev nD) : W6 m ρ c (Proc.devRef .tc main_arg6) = W5 m ρ c (Proc.devRef .tc main_arg6) :=
  W6_of_ne m ρ c main_arg6 (by decide)

theorem step6_main_arg7 (c : Dev nD) : W6 m ρ c (Proc.devRef .tc main_arg7) = W5 m ρ c (Proc.devRef .tc main_arg7) :=
  W6_of_ne m ρ c main_arg7 (by decide)

theorem step6_main_arg8 (c : Dev nD) : W6 m ρ c (Proc.devRef .tc main_arg8) = W5 m ρ c (Proc.devRef .tc main_arg8) :=
  W6_of_ne m ρ c main_arg8 (by decide)

theorem step6_main_arg9 (c : Dev nD) : W6 m ρ c (Proc.devRef .tc main_arg9) = W5 m ρ c (Proc.devRef .tc main_arg9) :=
  W6_of_ne m ρ c main_arg9 (by decide)

theorem step6_main_v14 (c : Dev nD) : W6 m ρ c (Proc.devRef .tc main_v14) = W5 m ρ c (Proc.devRef .tc main_v14) :=
  (W6_arr m ρ c 1).trans (((dat2 (V5 m ρ) c).arrAt_in 1 rfl _).trans (A_eq2 (V5 m ρ) c 1))

theorem step6_main_v17 (c : Dev nD) : W6 m ρ c (Proc.devRef .tc main_v17) = W5 m ρ c (Proc.devRef .tc main_v17) :=
  W6_of_ne m ρ c main_v17 (by decide)

theorem step6_main_v18 (c : Dev nD) : W6 m ρ c (Proc.devRef .tc main_v18) = W5 m ρ c (Proc.devRef .tc main_v18) :=
  W6_of_ne m ρ c main_v18 (by decide)

end Cert.KernelIdeal.KKeep

end
-- ==== Proof.KKeep1.lean ====
/-
  A buffer no operation of a segment writes is unchanged across it. The idealized kernel program is twenty-four
  segments; segments 6→7 … 11→12 here. A host stretch leaves alone every buffer that is not the
  result of one of its operations; a kernel region changes only the arrays of its output windows (an input window's
  array ends as it was entered, every other buffer is untouched). One statement per segment and per buffer that a
  later segment reads.
-/
import proofs.«148151_j29411936043366_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem step7_main_arg1 (c : Dev nD) : W7 m ρ c (Proc.devRef .tc main_arg1) = W6 m ρ c (Proc.devRef .tc main_arg1) :=
  StableHlo.after_of_forall_not_mem (b := Proc.devRef .tc main_arg1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg10 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg11 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg12 (c : Dev nD) : W7 m ρ c (Proc.devRef .tc main_arg12) = W6 m ρ c (Proc.devRef .tc main_arg12) :=
  StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg13 (c : Dev nD) : W7 m ρ c (Proc.devRef .tc main_arg13) = W6 m ρ c (Proc.devRef .tc main_arg13) :=
  StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg14 (c : Dev nD) : W7 m ρ c (Proc.devRef .tc main_arg14) = W6 m ρ c (Proc.devRef .tc main_arg14) :=
  StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg15 (c : Dev nD) : W7 m ρ c (Proc.devRef .tc main_arg15) = W6 m ρ c (Proc.devRef .tc main_arg15) :=
  StableHlo.after_of_forall_not_mem (b := Proc.devRef .tc main_arg15) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg16 (c : Dev nD) : W7 m ρ c (Proc.devRef .tc main_arg16) = W6 m ρ c (Proc.devRef .tc main_arg16) :=
  StableHlo.after_of_forall_not_mem (b := Proc.devRef .tc main_arg16) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg17 (c : Dev nD) : W7 m ρ c (Proc.devRef .tc main_arg17) = W6 m ρ c (Proc.devRef .tc main_arg17) :=
  StableHlo.after_of_forall_not_mem (b := Proc.devRef .tc main_arg17) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg3 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg6 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg8 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_arg9 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_v14 (c : Dev nD) : W7 m ρ c (Proc.devRef .tc main_v14) = W6 m ρ c (Proc.devRef .tc main_v14) :=
  StableHlo.after_of_forall_not_mem (b := Proc.devRef .tc main_v14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_v17 (c : Dev nD) : W7 m ρ c (Proc.devRef .tc main_v17) = W6 m ρ c (Proc.devRef .tc main_v17) :=
  StableHlo.after_of_forall_not_mem (b := Proc.devRef .tc main_v17) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step7_main_v18 (c : Dev nD) : W7 m ρ c (Proc.devRef .tc main_v18) = W6 m ρ c (Proc.devRef .tc main_v18) :=
  StableHlo.after_of_forall_not_mem (b := Proc.devRef .tc main_v18) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step8_main_arg1 (c : Dev nD) : W8 m ρ c (Proc.devRef .tc main_arg1) = W7 m ρ c (Proc.devRef .tc main_arg1) :=
  W8_of_ne m ρ c main_arg1 (by decide)

theorem step8_main_arg10 (c : Dev nD) : W8 m ρ c (Proc.devRef .tc main_arg10) = W7 m ρ c (Proc.devRef .tc main_arg10) :=
  W8_of_ne m ρ c main_arg10 (by decide)

theorem step8_main_arg11 (c : Dev nD) : W8 m ρ c (Proc.devRef .tc main_arg11) = W7 m ρ c (Proc.devRef .tc main_arg11) :=
  W8_of_ne m ρ c main_arg11 (by decide)

theorem step8_main_arg12 (c : Dev nD) : W8 m ρ c (Proc.devRef .tc main_arg12) = W7 m ρ c (Proc.devRef .tc main_arg12) :=
  W8_of_ne m ρ c main_arg12 (by decide)

theorem step8_main_arg13 (c : Dev nD) : W8 m ρ c (Proc.devRef .tc main_arg13) = W7 m ρ c (Proc.devRef .tc main_arg13) :=
  W8_of_ne m ρ c main_arg13 (by decide)

theorem step8_main_arg14 (c : Dev nD) : W8 m ρ c (Proc.devRef .tc main_arg14) = W7 m ρ c (Proc.devRef .tc main_arg14) :=
  (W8_arr m ρ c 3).trans (((dat3 (V7 m ρ) c).arrAt_in 3 rfl _).trans (A_eq3 (V7 m ρ) c 3))

theorem step8_main_arg15 (c : Dev nD) : W8 m ρ c (Proc.devRef .tc main_arg15) = W7 m ρ c (Proc.devRef .tc main_arg15) :=
  W8_of_ne m ρ c main_arg15 (by decide)

theorem step8_main_arg16 (c : Dev nD) : W8 m ρ c (Proc.devRef .tc main_arg16) = W7 m ρ c (Proc.devRef .tc main_arg16) :=
  W8_of_ne m ρ c main_arg16 (by decide)

theorem step8_main_arg17 (c : Dev nD) : W8 m ρ c (Proc.devRef .tc main_arg17) = W7 m ρ c (Proc.devRef .tc main_arg17) :=
  W8_of_ne m ρ c main_arg17 (by decide)

theorem step8_main_arg3 (c : Dev nD) : W8 m ρ c (Proc.devRef .tc main_arg3) = W7 m ρ c (Proc.devRef .tc main_arg3) :=
  W8_of_ne m ρ c main_arg3 (by decide)

theorem step8_main_arg6 (c : Dev nD) : W8 m ρ c (Proc.devRef .tc main_arg6) = W7 m ρ c (Proc.devRef .tc main_arg6) :=
  W8_of_ne m ρ c main_arg6 (by decide)

theorem step8_main_arg7 (c : Dev nD) : W8 m ρ c (Proc.devRef .tc main_arg7) = W7 m ρ c (Proc.devRef .tc main_arg7) :=
  W8_of_ne m ρ c main_arg7 (by decide)

theorem step8_main_arg8 (c : Dev nD) : W8 m ρ c (Proc.devRef .tc main_arg8) = W7 m ρ c (Proc.devRef .tc main_arg8) :=
  W8_of_ne m ρ c main_arg8 (by decide)

theorem step8_main_arg9 (c : Dev nD) : W8 m ρ c (Proc.devRef .tc main_arg9) = W7 m ρ c (Proc.devRef .tc main_arg9) :=
  W8_of_ne m ρ c main_arg9 (by decide)

theorem step9_main_arg1 (c : Dev nD) : W9 m ρ c (Proc.devRef .tc main_arg1) = W8 m ρ c (Proc.devRef .tc main_arg1) :=
  StableHlo.after_of_forall_not_mem (b := Proc.devRef .tc main_arg1) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg10 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg12 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg14 (c : Dev nD) : W9 m ρ c (Proc.devRef .tc main_arg14) = W8 m ρ c (Proc.devRef .tc main_arg14) :=
  StableHlo.after_of_forall_not_mem (b := Proc.devRef .tc main_arg14) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg16 (c : Dev nD) : W9 m ρ c (Proc.devRef .tc main_arg16) = W8 m ρ c (Proc.devRef .tc main_arg16) :=
  StableHlo.after_of_forall_not_mem (b := Proc.devRef .tc main_arg16) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg17 (c : Dev nD) : W9 m ρ c (Proc.devRef .tc main_arg17) = W8 m ρ c (Proc.devRef .tc main_arg17) :=
  StableHlo.after_of_forall_not_mem (b := Proc.devRef .tc main_arg17) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg3 (c : Dev nD) : W9 m ρ c (Proc.devRef .tc main_arg3) = W8 m ρ c (Proc.devRef .tc main_arg3) :=
  StableHlo.after_of_forall_not_mem (b := Proc.devRef .tc main_arg3) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_v55_0 (c : Dev nD) : W9 m ρ c (Proc.devRef .tc main_v55_0) = W8 m ρ c (Proc.devRef .tc main_v55_0) :=
  StableHlo.after_of_forall_not_mem (b := Proc.devRef .tc main_v55_0) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step9_main_v55_1 (c : Dev nD) : W9 m ρ c (Proc.devRef .tc main_v55_1) = W8 m ρ c (Proc.devRef .tc main_v55_1) :=
  StableHlo.after_of_forall_not_mem (b := Proc.devRef .tc main_v55_1) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step10_main_arg10 (c : Dev nD) : W10 m ρ c (Proc.devRef .tc main_arg10) = W9 m ρ c (Proc.devRef .tc main_arg10) :=
  W10_of_ne m ρ c main_arg10 (by decide)

theorem step10_main_arg12 (c : Dev nD) : W10 m ρ c (Proc.devRef .tc main_arg12) = W9 m ρ c (Proc.devRef .tc main_arg12) :=
  W10_of_ne m ρ c main_arg12 (by decide)

theorem step10_main_arg14 (c : Dev nD) : W10 m ρ c (Proc.devRef .tc main_arg14) = W9 m ρ c (Proc.devRef .tc main_arg14) :=
  W10_of_ne m ρ c main_arg14 (by decide)

theorem step10_main_arg16 (c : Dev nD) : W10 m ρ c (Proc.devRef .tc main_arg16) = W9 m ρ c (Proc.devRef .tc main_arg16) :=
  W10_of_ne m ρ c main_arg16 (by decide)

theorem step10_main_arg17 (c : Dev nD) : W10 m ρ c (Proc.devRef .tc main_arg17) = W9 m ρ c (Proc.devRef .tc main_arg17) :=
  W10_of_ne m ρ c main_arg17 (by decide)

theorem step10_main_arg6 (c : Dev nD) : W10 m ρ c (Proc.devRef .tc main_arg6) = W9 m ρ c (Proc.devRef .tc main_arg6) :=
  W10_of_ne m ρ c main_arg6 (by decide)

theorem step10_main_arg7 (c : Dev nD) : W10 m ρ c (Proc.devRef .tc main_arg7) = W9 m ρ c (Proc.devRef .tc main_arg7) :=
  W10_of_ne m ρ c main_arg7 (by decide)

theorem step10_main_v55_0 (c : Dev nD) : W10 m ρ c (Proc.devRef .tc main_v55_0) = W9 m ρ c (Proc.devRef .tc main_v55_0) :=
  W10_of_ne m ρ c main_v55_0 (by decide)

theorem step10_main_v55_1 (c : Dev nD) : W10 m ρ c (Proc.devRef .tc main_v55_1) = W9 m ρ c (Proc.devRef .tc main_v55_1) :=
  W10_of_ne m ρ c main_v55_1 (by decide)

theorem step10_main_v66 (c : Dev nD) : W10 m ρ c (Proc.devRef .tc main_v66) = W9 m ρ c (Proc.devRef .tc main_v66) :=
  (W10_arr m ρ c 2).trans (((dat4 (V9 m ρ) c).arrAt_in 2 rfl _).trans (A_eq4 (V9 m ρ) c 2))

theorem step10_main_v70 (c : Dev nD) : W10 m ρ c (Proc.devRef .tc main_v70) = W9 m ρ c (Proc.devRef .tc main_v70) :=
  W10_of_ne m ρ c main_v70 (by decide)

theorem step10_main_v71 (c : Dev nD) : W10 m ρ c (Proc.devRef .tc main_v71) = W9 m ρ c (Proc.devRef .tc main_v71) :=
  W10_of_ne m ρ c main_v71 (by decide)

theorem step10_main_v72 (c : Dev nD) : W10 m ρ c (Proc.devRef .tc main_v72) = W9 m ρ c (Proc.devRef .tc main_v72) :=
  W10_of_ne m ρ c main_v72 (by decide)

theorem step10_main_v73 (c : Dev nD) : W10 m ρ c (Proc.devRef .tc main_v73) = W9 m ρ c (Proc.devRef .tc main_v73) :=
  W10_of_ne m ρ c main_v73 (by decide)

theorem step10_main_v74 (c : Dev nD) : W10 m ρ c (Proc.devRef .tc main_v74) = W9 m ρ c (Proc.devRef .tc main_v74) :=
  W10_of_ne m ρ c main_v74 (by decide)

theorem step11_main_arg10 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg12 (c : Dev nD) : W11 m ρ c (Proc.devRef .tc main_arg12) = W10 m ρ c (Proc.devRef .tc main_arg12) :=
  StableHlo.after_of_forall_not_mem (b := Proc.devRef .tc main_arg12) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg14 (c : Dev nD) : W11 m ρ c (Proc.devRef .tc main_arg14) = W10 m ρ c (Proc.devRef .tc main_arg14) :=
  StableHlo.after_of_forall_not_mem (b := Proc.devRef .tc main_arg14) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg16 (c : Dev nD) : W11 m ρ c (Proc.devRef .tc main_arg16) = W10 m ρ c (Proc.devRef .tc main_arg16) :=
  StableHlo.after_of_forall_not_mem (b := Proc.devRef .tc main_arg16) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg17 (c : Dev nD) : W11 m ρ c (Proc.devRef .tc main_arg17) = W10 m ρ c (Proc.devRef .tc main_arg17) :=
  StableHlo.after_of_forall_not_mem (b := Proc.devRef .tc main_arg17) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg6 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_arg7 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v55_0 (c : Dev nD) : W11 m ρ c (Proc.devRef .tc main_v55_0) = W10 m ρ c (Proc.devRef .tc main_v55_0) :=
  StableHlo.after_of_forall_not_mem (b := Proc.devRef .tc main_v55_0) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v55_1 (c : Dev nD) : W11 m ρ c (Proc.devRef .tc main_v55_1) = W10 m ρ c (Proc.devRef .tc main_v55_1) :=
  StableHlo.after_of_forall_not_mem (b := Proc.devRef .tc main_v55_1) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v66 (c : Dev nD) : W11 m ρ c (Proc.devRef .tc main_v66) = W10 m ρ c (Proc.devRef .tc main_v66) :=
  StableHlo.after_of_forall_not_mem (b := Proc.devRef .tc main_v66) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v70 (c : Dev nD) : W11 m ρ c (Proc.devRef .tc main_v70) = W10 m ρ c (Proc.devRef .tc main_v70) :=
  StableHlo.after_of_forall_not_mem (b := Proc.devRef .tc main_v70) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v71 (c : Dev nD) : W11 m ρ c (Proc.devRef .tc main_v71) = W10 m ρ c (Proc.devRef .tc main_v71) :=
  StableHlo.after_of_forall_not_mem (b := Proc.devRef .tc main_v71) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v72 (c : Dev nD) : W11 m ρ c (Proc.devRef .tc main_v72) = W10 m ρ c (Proc.devRef .tc main_v72) :=
  StableHlo.after_of_forall_not_mem (b := Proc.devRef .tc main_v72) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v73 (c : Dev nD) : W11 m ρ c (Proc.devRef .tc main_v73) = W10 m ρ c (Proc.devRef .tc main_v73) :=
  StableHlo.after_of_forall_not_mem (b := Proc.devRef .tc main_v73) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step11_main_v74 (c : Dev nD) : W11 m ρ c (Proc.devRef .tc main_v74) = W10 m ρ c (Proc.devRef .tc main_v74) :=
  StableHlo.after_of_forall_not_mem (b := Proc.devRef .tc main_v74) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step12_main_arg12 (c : Dev nD) : W12 m ρ c (Proc.devRef .tc main_arg12) = W11 m ρ c (Proc.devRef .tc main_arg12) :=
  W12_of_ne m ρ c main_arg12 (by decide)

theorem step12_main_arg14 (c : Dev nD) : W12 m ρ c (Proc.devRef .tc main_arg14) = W11 m ρ c (Proc.devRef .tc main_arg14) :=
  W12_of_ne m ρ c main_arg14 (by decide)

theorem step12_main_arg16 (c : Dev nD) : W12 m ρ c (Proc.devRef .tc main_arg16) = W11 m ρ c (Proc.devRef .tc main_arg16) :=
  W12_of_ne m ρ c main_arg16 (by decide)

theorem step12_main_arg17 (c : Dev nD) : W12 m ρ c (Proc.devRef .tc main_arg17) = W11 m ρ c (Proc.devRef .tc main_arg17) :=
  W12_of_ne m ρ c main_arg17 (by decide)

theorem step12_main_arg6 (c : Dev nD) : W12 m ρ c (Proc.devRef .tc main_arg6) = W11 m ρ c (Proc.devRef .tc main_arg6) :=
  W12_of_ne m ρ c main_arg6 (by decide)

theorem step12_main_arg7 (c : Dev nD) : W12 m ρ c (Proc.devRef .tc main_arg7) = W11 m ρ c (Proc.devRef .tc main_arg7) :=
  W12_of_ne m ρ c main_arg7 (by decide)

theorem step12_main_v55_0 (c : Dev nD) : W12 m ρ c (Proc.devRef .tc main_v55_0) = W11 m ρ c (Proc.devRef .tc main_v55_0) :=
  W12_of_ne m ρ c main_v55_0 (by decide)

theorem step12_main_v55_1 (c : Dev nD) : W12 m ρ c (Proc.devRef .tc main_v55_1) = W11 m ρ c (Proc.devRef .tc main_v55_1) :=
  W12_of_ne m ρ c main_v55_1 (by decide)

theorem step12_main_v66 (c : Dev nD) : W12 m ρ c (Proc.devRef .tc main_v66) = W11 m ρ c (Proc.devRef .tc main_v66) :=
  (W12_arr m ρ c 3).trans (((dat5 (V11 m ρ) c).arrAt_in 3 rfl _).trans (A_eq5 (V11 m ρ) c 3))

theorem step12_main_v70 (c : Dev nD) : W12 m ρ c (Proc.devRef .tc main_v70) = W11 m ρ c (Proc.devRef .tc main_v70) :=
  (W12_arr m ρ c 1).trans (((dat5 (V11 m ρ) c).arrAt_in 1 rfl _).trans (A_eq5 (V11 m ρ) c 1))

theorem step12_main_v72 (c : Dev nD) : W12 m ρ c (Proc.devRef .tc main_v72) = W11 m ρ c (Proc.devRef .tc main_v72) :=
  W12_of_ne m ρ c main_v72 (by decide)

theorem step12_main_v73 (c : Dev nD) : W12 m ρ c (Proc.devRef .tc main_v73) = W11 m ρ c (Proc.devRef .tc main_v73) :=
  W12_of_ne m ρ c main_v73 (by decide)

theorem step12_main_v74 (c : Dev nD) : W12 m ρ c (Proc.devRef .tc main_v74) = W11 m ρ c (Proc.devRef .tc main_v74) :=
  W12_of_ne m ρ c main_v74 (by decide)

end Cert.KernelIdeal.KKeep

end
-- ==== Proof.KKeep2.lean ====
/-
  A buffer no operation of a segment writes is unchanged across it. The idealized kernel program is twenty-four
  segments; segments 12→13 … 17→18 here. A host stretch leaves alone every buffer that is not the
  result of one of its operations; a kernel region changes only the arrays of its output windows (an input window's
  array ends as it was entered, every other buffer is untouched). One statement per segment and per buffer that a
  later segment reads.
-/
import proofs.«148151_j29411936043366_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem step13_main_arg12 (c : Dev nD) : W13 m ρ c (Proc.devRef .tc main_arg12) = W12 m ρ c (Proc.devRef .tc main_arg12) :=
  StableHlo.after_of_forall_not_mem (b := Proc.devRef .tc main_arg12) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_arg14 (c : Dev nD) : W13 m ρ c (Proc.devRef .tc main_arg14) = W12 m ρ c (Proc.devRef .tc main_arg14) :=
  StableHlo.after_of_forall_not_mem (b := Proc.devRef .tc main_arg14) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_arg16 (c : Dev nD) : W13 m ρ c (Proc.devRef .tc main_arg16) = W12 m ρ c (Proc.devRef .tc main_arg16) :=
  StableHlo.after_of_forall_not_mem (b := Proc.devRef .tc main_arg16) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_arg17 (c : Dev nD) : W13 m ρ c (Proc.devRef .tc main_arg17) = W12 m ρ c (Proc.devRef .tc main_arg17) :=
  StableHlo.after_of_forall_not_mem (b := Proc.devRef .tc main_arg17) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_arg6 (c : Dev nD) : W13 m ρ c (Proc.devRef .tc main_arg6) = W12 m ρ c (Proc.devRef .tc main_arg6) :=
  StableHlo.after_of_forall_not_mem (b := Proc.devRef .tc main_arg6) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_arg7 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v55_0 (c : Dev nD) : W13 m ρ c (Proc.devRef .tc main_v55_0) = W12 m ρ c (Proc.devRef .tc main_v55_0) :=
  StableHlo.after_of_forall_not_mem (b := Proc.devRef .tc main_v55_0) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v55_1 (c : Dev nD) : W13 m ρ c (Proc.devRef .tc main_v55_1) = W12 m ρ c (Proc.devRef .tc main_v55_1) :=
  StableHlo.after_of_forall_not_mem (b := Proc.devRef .tc main_v55_1) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v66 (c : Dev nD) : W13 m ρ c (Proc.devRef .tc main_v66) = W12 m ρ c (Proc.devRef .tc main_v66) :=
  StableHlo.after_of_forall_not_mem (b := Proc.devRef .tc main_v66) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v70 (c : Dev nD) : W13 m ρ c (Proc.devRef .tc main_v70) = W12 m ρ c (Proc.devRef .tc main_v70) :=
  StableHlo.after_of_forall_not_mem (b := Proc.devRef .tc main_v70) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v72 (c : Dev nD) : W13 m ρ c (Proc.devRef .tc main_v72) = W12 m ρ c (Proc.devRef .tc main_v72) :=
  StableHlo.after_of_forall_not_mem (b := Proc.devRef .tc main_v72) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v73 (c : Dev nD) : W13 m ρ c (Proc.devRef .tc main_v73) = W12 m ρ c (Proc.devRef .tc main_v73) :=
  StableHlo.after_of_forall_not_mem (b := Proc.devRef .tc main_v73) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step13_main_v74 (c : Dev nD) : W13 m ρ c (Proc.devRef .tc main_v74) = W12 m ρ c (Proc.devRef .tc main_v74) :=
  StableHlo.after_of_forall_not_mem (b := Proc.devRef .tc main_v74) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step14_main_arg14 (c : Dev nD) : W14 m ρ c (Proc.devRef .tc main_arg14) = W13 m ρ c (Proc.devRef .tc main_arg14) :=
  W14_of_ne m ρ c main_arg14 (by decide)

theorem step14_main_arg16 (c : Dev nD) : W14 m ρ c (Proc.devRef .tc main_arg16) = W13 m ρ c (Proc.devRef .tc main_arg16) :=
  W14_of_ne m ρ c main_arg16 (by decide)

theorem step14_main_arg17 (c : Dev nD) : W14 m ρ c (Proc.devRef .tc main_arg17) = W13 m ρ c (Proc.devRef .tc main_arg17) :=
  W14_of_ne m ρ c main_arg17 (by decide)

theorem step14_main_arg6 (c : Dev nD) : W14 m ρ c (Proc.devRef .tc main_arg6) = W13 m ρ c (Proc.devRef .tc main_arg6) :=
  W14_of_ne m ρ c main_arg6 (by decide)

theorem step14_main_arg7 (c : Dev nD) : W14 m ρ c (Proc.devRef .tc main_arg7) = W13 m ρ c (Proc.devRef .tc main_arg7) :=
  W14_of_ne m ρ c main_arg7 (by decide)

theorem step14_main_v55_0 (c : Dev nD) : W14 m ρ c (Proc.devRef .tc main_v55_0) = W13 m ρ c (Proc.devRef .tc main_v55_0) :=
  W14_of_ne m ρ c main_v55_0 (by decide)

theorem step14_main_v55_1 (c : Dev nD) : W14 m ρ c (Proc.devRef .tc main_v55_1) = W13 m ρ c (Proc.devRef .tc main_v55_1) :=
  W14_of_ne m ρ c main_v55_1 (by decide)

theorem step14_main_v70 (c : Dev nD) : W14 m ρ c (Proc.devRef .tc main_v70) = W13 m ρ c (Proc.devRef .tc main_v70) :=
  (W14_arr m ρ c 1).trans (((dat6 (V13 m ρ) c).arrAt_in 1 rfl _).trans (A_eq6 (V13 m ρ) c 1))

theorem step14_main_v73 (c : Dev nD) : W14 m ρ c (Proc.devRef .tc main_v73) = W13 m ρ c (Proc.devRef .tc main_v73) :=
  W14_of_ne m ρ c main_v73 (by decide)

theorem step14_main_v74 (c : Dev nD) : W14 m ρ c (Proc.devRef .tc main_v74) = W13 m ρ c (Proc.devRef .tc main_v74) :=
  W14_of_ne m ρ c main_v74 (by decide)

theorem step15_main_arg14 (c : Dev nD) : W15 m ρ c (Proc.devRef .tc main_arg14) = W14 m ρ c (Proc.devRef .tc main_arg14) :=
  StableHlo.after_of_forall_not_mem (b := Proc.devRef .tc main_arg14) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_arg16 (c : Dev nD) : W15 m ρ c (Proc.devRef .tc main_arg16) = W14 m ρ c (Proc.devRef .tc main_arg16) :=
  StableHlo.after_of_forall_not_mem (b := Proc.devRef .tc main_arg16) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_arg17 (c : Dev nD) : W15 m ρ c (Proc.devRef .tc main_arg17) = W14 m ρ c (Proc.devRef .tc main_arg17) :=
  StableHlo.after_of_forall_not_mem (b := Proc.devRef .tc main_arg17) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_v55_0 (c : Dev nD) : W15 m ρ c (Proc.devRef .tc main_v55_0) = W14 m ρ c (Proc.devRef .tc main_v55_0) :=
  StableHlo.after_of_forall_not_mem (b := Proc.devRef .tc main_v55_0) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_v55_1 (c : Dev nD) : W15 m ρ c (Proc.devRef .tc main_v55_1) = W14 m ρ c (Proc.devRef .tc main_v55_1) :=
  StableHlo.after_of_forall_not_mem (b := Proc.devRef .tc main_v55_1) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_v70 (c : Dev nD) : W15 m ρ c (Proc.devRef .tc main_v70) = W14 m ρ c (Proc.devRef .tc main_v70) :=
  StableHlo.after_of_forall_not_mem (b := Proc.devRef .tc main_v70) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_v73 (c : Dev nD) : W15 m ρ c (Proc.devRef .tc main_v73) = W14 m ρ c (Proc.devRef .tc main_v73) :=
  StableHlo.after_of_forall_not_mem (b := Proc.devRef .tc main_v73) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step15_main_v74 (c : Dev nD) : W15 m ρ c (Proc.devRef .tc main_v74) = W14 m ρ c (Proc.devRef .tc main_v74) :=
  StableHlo.after_of_forall_not_mem (b := Proc.devRef .tc main_v74) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step16_main_arg16 (c : Dev nD) : W16 m ρ c (Proc.devRef .tc main_arg16) = W15 m ρ c (Proc.devRef .tc main_arg16) :=
  W16_of_ne m ρ c main_arg16 (by decide)

theorem step16_main_arg17 (c : Dev nD) : W16 m ρ c (Proc.devRef .tc main_arg17) = W15 m ρ c (Proc.devRef .tc main_arg17) :=
  W16_of_ne m ρ c main_arg17 (by decide)

theorem step16_main_v55_0 (c : Dev nD) : W16 m ρ c (Proc.devRef .tc main_v55_0) = W15 m ρ c (Proc.devRef .tc main_v55_0) :=
  W16_of_ne m ρ c main_v55_0 (by decide)

theorem step16_main_v55_1 (c : Dev nD) : W16 m ρ c (Proc.devRef .tc main_v55_1) = W15 m ρ c (Proc.devRef .tc main_v55_1) :=
  W16_of_ne m ρ c main_v55_1 (by decide)

theorem step17_main_arg16 (c : Dev nD) : W17 m ρ c (Proc.devRef .tc main_arg16) = W16 m ρ c (Proc.devRef .tc main_arg16) :=
  StableHlo.after_of_forall_not_mem (b := Proc.devRef .tc main_arg16) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step17_main_arg17 (c : Dev nD) : W17 m ρ c (Proc.devRef .tc main_arg17) = W16 m ρ c (Proc.devRef .tc main_arg17) :=
  StableHlo.after_of_forall_not_mem (b := Proc.devRef .tc main_arg17) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step17_main_v111_0 (c : Dev nD) : W17 m ρ c (Proc.devRef .tc main_v111_0) = W16 m ρ c (Proc.devRef .tc main_v111_0) :=
  StableHlo.after_of_forall_not_mem (b := Proc.devRef .tc main_v111_0) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step17_main_v111_1 (c : Dev nD) : W17 m ρ c (Proc.devRef .tc main_v111_1) = W16 m ρ c (Proc.devRef .tc main_v111_1) :=
  StableHlo.after_of_forall_not_mem (b := Proc.devRef .tc main_v111_1) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step17_main_v55_0 (c : Dev nD) : W17 m ρ c (Proc.devRef .tc main_v55_0) = W16 m ρ c (Proc.devRef .tc main_v55_0) :=
  StableHlo.after_of_forall_not_mem (b := Proc.devRef .tc main_v55_0) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step18_main_arg16 (c : Dev nD) : W18 m ρ c (Proc.devRef .tc main_arg16) = W17 m ρ c (Proc.devRef .tc main_arg16) :=
  W18_of_ne m ρ c main_arg16 (by decide)

theorem step18_main_arg17 (c : Dev nD) : W18 m ρ c (Proc.devRef .tc main_arg17) = W17 m ρ c (Proc.devRef .tc main_arg17) :=
  W18_of_ne m ρ c main_arg17 (by decide)

theorem step18_main_v111_0 (c : Dev nD) : W18 m ρ c (Proc.devRef .tc main_v111_0) = W17 m ρ c (Proc.devRef .tc main_v111_0) :=
  W18_of_ne m ρ c main_v111_0 (by decide)

theorem step18_main_v111_1 (c : Dev nD) : W18 m ρ c (Proc.devRef .tc main_v111_1) = W17 m ρ c (Proc.devRef .tc main_v111_1) :=
  W18_of_ne m ρ c main_v111_1 (by decide)

theorem step18_main_v113 (c : Dev nD) : W18 m ρ c (Proc.devRef .tc main_v113) = W17 m ρ c (Proc.devRef .tc main_v113) :=
  (W18_arr m ρ c 1).trans (((dat8 (V17 m ρ) c).arrAt_in 1 rfl _).trans (A_eq8 (V17 m ρ) c 1))

theorem step18_main_v55_0 (c : Dev nD) : W18 m ρ c (Proc.devRef .tc main_v55_0) = W17 m ρ c (Proc.devRef .tc main_v55_0) :=
  (W18_arr m ρ c 0).trans (((dat8 (V17 m ρ) c).arrAt_in 0 rfl _).trans (A_eq8 (V17 m ρ) c 0))

end Cert.KernelIdeal.KKeep

end
-- ==== Proof.KKeep3.lean ====
/-
  A buffer no operation of a segment writes is unchanged across it. The idealized kernel program is twenty-four
  segments; segments 18→19 … 23→24 here. A host stretch leaves alone every buffer that is not the
  result of one of its operations; a kernel region changes only the arrays of its output windows (an input window's
  array ends as it was entered, every other buffer is untouched). One statement per segment and per buffer that a
  later segment reads.
-/
import proofs.«148151_j29411936043366_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem step19_main_arg16 (c : Dev nD) : W19 m ρ c (Proc.devRef .tc main_arg16) = W18 m ρ c (Proc.devRef .tc main_arg16) :=
  StableHlo.after_of_forall_not_mem (b := Proc.devRef .tc main_arg16) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step19_main_arg17 (c : Dev nD) : W19 m ρ c (Proc.devRef .tc main_arg17) = W18 m ρ c (Proc.devRef .tc main_arg17) :=
  StableHlo.after_of_forall_not_mem (b := Proc.devRef .tc main_arg17) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step19_main_v111_0 (c : Dev nD) : W19 m ρ c (Proc.devRef .tc main_v111_0) = W18 m ρ c (Proc.devRef .tc main_v111_0) :=
  StableHlo.after_of_forall_not_mem (b := Proc.devRef .tc main_v111_0) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step19_main_v113 (c : Dev nD) : W19 m ρ c (Proc.devRef .tc main_v113) = W18 m ρ c (Proc.devRef .tc main_v113) :=
  StableHlo.after_of_forall_not_mem (b := Proc.devRef .tc main_v113) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step19_main_v55_0 (c : Dev nD) : W19 m ρ c (Proc.devRef .tc main_v55_0) = W18 m ρ c (Proc.devRef .tc main_v55_0) :=
  StableHlo.after_of_forall_not_mem (b := Proc.devRef .tc main_v55_0) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step20_main_arg16 (c : Dev nD) : W20 m ρ c (Proc.devRef .tc main_arg16) = W19 m ρ c (Proc.devRef .tc main_arg16) :=
  W20_of_ne m ρ c main_arg16 (by decide)

theorem step20_main_arg17 (c : Dev nD) : W20 m ρ c (Proc.devRef .tc main_arg17) = W19 m ρ c (Proc.devRef .tc main_arg17) :=
  W20_of_ne m ρ c main_arg17 (by decide)

theorem step20_main_v111_0 (c : Dev nD) : W20 m ρ c (Proc.devRef .tc main_v111_0) = W19 m ρ c (Proc.devRef .tc main_v111_0) :=
  (W20_arr m ρ c 0).trans (((dat9 (V19 m ρ) c).arrAt_in 0 rfl _).trans (A_eq9 (V19 m ρ) c 0))

theorem step20_main_v113 (c : Dev nD) : W20 m ρ c (Proc.devRef .tc main_v113) = W19 m ρ c (Proc.devRef .tc main_v113) :=
  W20_of_ne m ρ c main_v113 (by decide)

theorem step20_main_v117 (c : Dev nD) : W20 m ρ c (Proc.devRef .tc main_v117) = W19 m ρ c (Proc.devRef .tc main_v117) :=
  W20_of_ne m ρ c main_v117 (by decide)

theorem step20_main_v119 (c : Dev nD) : W20 m ρ c (Proc.devRef .tc main_v119) = W19 m ρ c (Proc.devRef .tc main_v119) :=
  (W20_arr m ρ c 1).trans (((dat9 (V19 m ρ) c).arrAt_in 1 rfl _).trans (A_eq9 (V19 m ρ) c 1))

theorem step20_main_v55_0 (c : Dev nD) : W20 m ρ c (Proc.devRef .tc main_v55_0) = W19 m ρ c (Proc.devRef .tc main_v55_0) :=
  W20_of_ne m ρ c main_v55_0 (by decide)

theorem step21_main_v111_0 (c : Dev nD) : W21 m ρ c (Proc.devRef .tc main_v111_0) = W20 m ρ c (Proc.devRef .tc main_v111_0) :=
  StableHlo.after_of_forall_not_mem (b := Proc.devRef .tc main_v111_0) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step21_main_v113 (c : Dev nD) : W21 m ρ c (Proc.devRef .tc main_v113) = W20 m ρ c (Proc.devRef .tc main_v113) :=
  StableHlo.after_of_forall_not_mem (b := Proc.devRef .tc main_v113) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step21_main_v117 (c : Dev nD) : W21 m ρ c (Proc.devRef .tc main_v117) = W20 m ρ c (Proc.devRef .tc main_v117) :=
  StableHlo.after_of_forall_not_mem (b := Proc.devRef .tc main_v117) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step21_main_v119 (c : Dev nD) : W21 m ρ c (Proc.devRef .tc main_v119) = W20 m ρ c (Proc.devRef .tc main_v119) :=
  StableHlo.after_of_forall_not_mem (b := Proc.devRef .tc main_v119) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step21_main_v55_0 (c : Dev nD) : W21 m ρ c (Proc.devRef .tc main_v55_0) = W20 m ρ c (Proc.devRef .tc main_v55_0) :=
  StableHlo.after_of_forall_not_mem (b := Proc.devRef .tc main_v55_0) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step22_main_v111_0 (c : Dev nD) : W22 m ρ c (Proc.devRef .tc main_v111_0) = W21 m ρ c (Proc.devRef .tc main_v111_0) :=
  W22_of_ne m ρ c main_v111_0 (by decide)

theorem step22_main_v119 (c : Dev nD) : W22 m ρ c (Proc.devRef .tc main_v119) = W21 m ρ c (Proc.devRef .tc main_v119) :=
  W22_of_ne m ρ c main_v119 (by decide)

theorem step22_main_v123 (c : Dev nD) : W22 m ρ c (Proc.devRef .tc main_v123) = W21 m ρ c (Proc.devRef .tc main_v123) :=
  W22_of_ne m ρ c main_v123 (by decide)

theorem step22_main_v125 (c : Dev nD) : W22 m ρ c (Proc.devRef .tc main_v125) = W21 m ρ c (Proc.devRef .tc main_v125) :=
  (W22_arr m ρ c 3).trans (((dat10 (V21 m ρ) c).arrAt_in 3 rfl _).trans (A_eq10 (V21 m ρ) c 3))

theorem step22_main_v128 (c : Dev nD) : W22 m ρ c (Proc.devRef .tc main_v128) = W21 m ρ c (Proc.devRef .tc main_v128) :=
  (W22_arr m ρ c 4).trans (((dat10 (V21 m ρ) c).arrAt_in 4 rfl _).trans (A_eq10 (V21 m ρ) c 4))

theorem step23_main_v129_0 (c : Dev nD) : W23 m ρ c (Proc.devRef .tc main_v129_0) = W22 m ρ c (Proc.devRef .tc main_v129_0) :=
  W23_of_ne m ρ c main_v129_0 (by decide)

theorem step23_main_v129_1 (c : Dev nD) : W23 m ρ c (Proc.devRef .tc main_v129_1) = W22 m ρ c (Proc.devRef .tc main_v129_1) :=
  W23_of_ne m ρ c main_v129_1 (by decide)

theorem step24_main_v129_0 (c : Dev nD) : W24 m ρ c (Proc.devRef .tc main_v129_0) = W23 m ρ c (Proc.devRef .tc main_v129_0) :=
  StableHlo.after_of_forall_not_mem (b := Proc.devRef .tc main_v129_0) _ _ (List.forall_iff_forall_mem.mp (by
    simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem step24_main_v130_0 (c : Dev nD) : W24 m ρ c (Proc.devRef .tc main_v130_0) = W23 m ρ c (Proc.devRef .tc main_v130_0) :=
  StableHlo.after_of_forall_not_mem (b := Proc.devRef .tc main_v130_0) _ _ (List.forall_iff_forall_mem.mp (by
    simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KKeep

end
-- ==== Proof.KKeep.lean ====
/-
  Each buffer a segment reads, carried back to where it was written: the single-segment statements composed along
  the segments in between. An argument is carried back to the launch memory.
-/
import proofs.«148151_j29411936043366_2_alg».proof.Proof.Gen.KernelIdeal.Frame
import proofs.«148151_j29411936043366_2_alg».proof.Proof.KKeep0
import proofs.«148151_j29411936043366_2_alg».proof.Proof.KKeep1
import proofs.«148151_j29411936043366_2_alg».proof.Proof.KKeep2
import proofs.«148151_j29411936043366_2_alg».proof.Proof.KKeep3

set_option maxRecDepth 16384

noncomputable section

namespace Cert.KernelIdeal.KKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem kept1_main_arg0 (c : Dev nD) : W1 m ρ c (Proc.devRef .tc main_arg0) = m ((c : Thread nD τ).loc main_arg0) :=
  (step1_main_arg0 m ρ c)

theorem kept1_main_arg2 (c : Dev nD) : W1 m ρ c (Proc.devRef .tc main_arg2) = m ((c : Thread nD τ).loc main_arg2) :=
  (step1_main_arg2 m ρ c)

theorem kept1_main_arg8 (c : Dev nD) : W1 m ρ c (Proc.devRef .tc main_arg8) = m ((c : Thread nD τ).loc main_arg8) :=
  (step1_main_arg8 m ρ c)

theorem kept2_main_arg4 (c : Dev nD) : W2 m ρ c (Proc.devRef .tc main_arg4) = m ((c : Thread nD τ).loc main_arg4) :=
  (step2_main_arg4 m ρ c).trans ((step1_main_arg4 m ρ c))

theorem kept2_main_arg5 (c : Dev nD) : W2 m ρ c (Proc.devRef .tc main_arg5) = m ((c : Thread nD τ).loc main_arg5) :=
  (step2_main_arg5 m ρ c).trans ((step1_main_arg5 m ρ c))

theorem kept3_main_v14 (c : Dev nD) : W3 m ρ c (Proc.devRef .tc main_v14) = W1 m ρ c (Proc.devRef .tc main_v14) :=
  (step3_main_v14 m ρ c).trans ((step2_main_v14 m ρ c))

theorem kept3_main_v15 (c : Dev nD) : W3 m ρ c (Proc.devRef .tc main_v15) = W1 m ρ c (Proc.devRef .tc main_v15) :=
  (step3_main_v15 m ρ c).trans ((step2_main_v15 m ρ c))

theorem kept3_main_v10 (c : Dev nD) : W3 m ρ c (Proc.devRef .tc main_v10) = W1 m ρ c (Proc.devRef .tc main_v10) :=
  (step3_main_v10 m ρ c).trans ((step2_main_v10 m ρ c))

theorem kept3_main_arg10 (c : Dev nD) : W3 m ρ c (Proc.devRef .tc main_arg10) = m ((c : Thread nD τ).loc main_arg10) :=
  (step3_main_arg10 m ρ c).trans ((step2_main_arg10 m ρ c).trans ((step1_main_arg10 m ρ c)))

theorem kept4_main_arg4 (c : Dev nD) : W4 m ρ c (Proc.devRef .tc main_arg4) = m ((c : Thread nD τ).loc main_arg4) :=
  (step4_main_arg4 m ρ c).trans ((step3_main_arg4 m ρ c).trans ((step2_main_arg4 m ρ c).trans ((step1_main_arg4 m ρ c))))

theorem kept4_main_arg5 (c : Dev nD) : W4 m ρ c (Proc.devRef .tc main_arg5) = m ((c : Thread nD τ).loc main_arg5) :=
  (step4_main_arg5 m ρ c).trans ((step3_main_arg5 m ρ c).trans ((step2_main_arg5 m ρ c).trans ((step1_main_arg5 m ρ c))))

theorem kept5_main_v14 (c : Dev nD) : W5 m ρ c (Proc.devRef .tc main_v14) = W1 m ρ c (Proc.devRef .tc main_v14) :=
  (step5_main_v14 m ρ c).trans ((step4_main_v14 m ρ c).trans ((step3_main_v14 m ρ c).trans ((step2_main_v14 m ρ c))))

theorem kept5_main_v16 (c : Dev nD) : W5 m ρ c (Proc.devRef .tc main_v16) = W1 m ρ c (Proc.devRef .tc main_v16) :=
  (step5_main_v16 m ρ c).trans ((step4_main_v16 m ρ c).trans ((step3_main_v16 m ρ c).trans ((step2_main_v16 m ρ c))))

theorem kept5_main_v10 (c : Dev nD) : W5 m ρ c (Proc.devRef .tc main_v10) = W1 m ρ c (Proc.devRef .tc main_v10) :=
  (step5_main_v10 m ρ c).trans ((step4_main_v10 m ρ c).trans ((step3_main_v10 m ρ c).trans ((step2_main_v10 m ρ c))))

theorem kept5_main_arg12 (c : Dev nD) : W5 m ρ c (Proc.devRef .tc main_arg12) = m ((c : Thread nD τ).loc main_arg12) :=
  (step5_main_arg12 m ρ c).trans ((step4_main_arg12 m ρ c).trans ((step3_main_arg12 m ρ c).trans ((step2_main_arg12 m ρ c).trans ((step1_main_arg12 m ρ c)))))

theorem kept6_main_arg4 (c : Dev nD) : W6 m ρ c (Proc.devRef .tc main_arg4) = m ((c : Thread nD τ).loc main_arg4) :=
  (step6_main_arg4 m ρ c).trans ((step5_main_arg4 m ρ c).trans ((step4_main_arg4 m ρ c).trans ((step3_main_arg4 m ρ c).trans ((step2_main_arg4 m ρ c).trans ((step1_main_arg4 m ρ c))))))

theorem kept6_main_arg5 (c : Dev nD) : W6 m ρ c (Proc.devRef .tc main_arg5) = m ((c : Thread nD τ).loc main_arg5) :=
  (step6_main_arg5 m ρ c).trans ((step5_main_arg5 m ρ c).trans ((step4_main_arg5 m ρ c).trans ((step3_main_arg5 m ρ c).trans ((step2_main_arg5 m ρ c).trans ((step1_main_arg5 m ρ c))))))

theorem kept7_main_v14 (c : Dev nD) : W7 m ρ c (Proc.devRef .tc main_v14) = W1 m ρ c (Proc.devRef .tc main_v14) :=
  (step7_main_v14 m ρ c).trans ((step6_main_v14 m ρ c).trans ((step5_main_v14 m ρ c).trans ((step4_main_v14 m ρ c).trans ((step3_main_v14 m ρ c).trans ((step2_main_v14 m ρ c))))))

theorem kept7_main_v17 (c : Dev nD) : W7 m ρ c (Proc.devRef .tc main_v17) = W1 m ρ c (Proc.devRef .tc main_v17) :=
  (step7_main_v17 m ρ c).trans ((step6_main_v17 m ρ c).trans ((step5_main_v17 m ρ c).trans ((step4_main_v17 m ρ c).trans ((step3_main_v17 m ρ c).trans ((step2_main_v17 m ρ c))))))

theorem kept7_main_arg14 (c : Dev nD) : W7 m ρ c (Proc.devRef .tc main_arg14) = m ((c : Thread nD τ).loc main_arg14) :=
  (step7_main_arg14 m ρ c).trans ((step6_main_arg14 m ρ c).trans ((step5_main_arg14 m ρ c).trans ((step4_main_arg14 m ρ c).trans ((step3_main_arg14 m ρ c).trans ((step2_main_arg14 m ρ c).trans ((step1_main_arg14 m ρ c)))))))

theorem kept7_main_v18 (c : Dev nD) : W7 m ρ c (Proc.devRef .tc main_v18) = W1 m ρ c (Proc.devRef .tc main_v18) :=
  (step7_main_v18 m ρ c).trans ((step6_main_v18 m ρ c).trans ((step5_main_v18 m ρ c).trans ((step4_main_v18 m ρ c).trans ((step3_main_v18 m ρ c).trans ((step2_main_v18 m ρ c))))))

theorem kept8_main_arg6 (c : Dev nD) : W8 m ρ c (Proc.devRef .tc main_arg6) = m ((c : Thread nD τ).loc main_arg6) :=
  (step8_main_arg6 m ρ c).trans ((step7_main_arg6 m ρ c).trans ((step6_main_arg6 m ρ c).trans ((step5_main_arg6 m ρ c).trans ((step4_main_arg6 m ρ c).trans ((step3_main_arg6 m ρ c).trans ((step2_main_arg6 m ρ c).trans ((step1_main_arg6 m ρ c))))))))

theorem kept8_main_arg7 (c : Dev nD) : W8 m ρ c (Proc.devRef .tc main_arg7) = m ((c : Thread nD τ).loc main_arg7) :=
  (step8_main_arg7 m ρ c).trans ((step7_main_arg7 m ρ c).trans ((step6_main_arg7 m ρ c).trans ((step5_main_arg7 m ρ c).trans ((step4_main_arg7 m ρ c).trans ((step3_main_arg7 m ρ c).trans ((step2_main_arg7 m ρ c).trans ((step1_main_arg7 m ρ c))))))))

theorem kept8_main_arg9 (c : Dev nD) : W8 m ρ c (Proc.devRef .tc main_arg9) = m ((c : Thread nD τ).loc main_arg9) :=
  (step8_main_arg9 m ρ c).trans ((step7_main_arg9 m ρ c).trans ((step6_main_arg9 m ρ c).trans ((step5_main_arg9 m ρ c).trans ((step4_main_arg9 m ρ c).trans ((step3_main_arg9 m ρ c).trans ((step2_main_arg9 m ρ c).trans ((step1_main_arg9 m ρ c))))))))

theorem kept8_main_arg11 (c : Dev nD) : W8 m ρ c (Proc.devRef .tc main_arg11) = m ((c : Thread nD τ).loc main_arg11) :=
  (step8_main_arg11 m ρ c).trans ((step7_main_arg11 m ρ c).trans ((step6_main_arg11 m ρ c).trans ((step5_main_arg11 m ρ c).trans ((step4_main_arg11 m ρ c).trans ((step3_main_arg11 m ρ c).trans ((step2_main_arg11 m ρ c).trans ((step1_main_arg11 m ρ c))))))))

theorem kept8_main_arg13 (c : Dev nD) : W8 m ρ c (Proc.devRef .tc main_arg13) = m ((c : Thread nD τ).loc main_arg13) :=
  (step8_main_arg13 m ρ c).trans ((step7_main_arg13 m ρ c).trans ((step6_main_arg13 m ρ c).trans ((step5_main_arg13 m ρ c).trans ((step4_main_arg13 m ρ c).trans ((step3_main_arg13 m ρ c).trans ((step2_main_arg13 m ρ c).trans ((step1_main_arg13 m ρ c))))))))

theorem kept8_main_arg15 (c : Dev nD) : W8 m ρ c (Proc.devRef .tc main_arg15) = m ((c : Thread nD τ).loc main_arg15) :=
  (step8_main_arg15 m ρ c).trans ((step7_main_arg15 m ρ c).trans ((step6_main_arg15 m ρ c).trans ((step5_main_arg15 m ρ c).trans ((step4_main_arg15 m ρ c).trans ((step3_main_arg15 m ρ c).trans ((step2_main_arg15 m ρ c).trans ((step1_main_arg15 m ρ c))))))))

theorem kept9_main_arg1 (c : Dev nD) : W9 m ρ c (Proc.devRef .tc main_arg1) = m ((c : Thread nD τ).loc main_arg1) :=
  (step9_main_arg1 m ρ c).trans ((step8_main_arg1 m ρ c).trans ((step7_main_arg1 m ρ c).trans ((step6_main_arg1 m ρ c).trans ((step5_main_arg1 m ρ c).trans ((step4_main_arg1 m ρ c).trans ((step3_main_arg1 m ρ c).trans ((step2_main_arg1 m ρ c).trans ((step1_main_arg1 m ρ c)))))))))

theorem kept9_main_arg3 (c : Dev nD) : W9 m ρ c (Proc.devRef .tc main_arg3) = m ((c : Thread nD τ).loc main_arg3) :=
  (step9_main_arg3 m ρ c).trans ((step8_main_arg3 m ρ c).trans ((step7_main_arg3 m ρ c).trans ((step6_main_arg3 m ρ c).trans ((step5_main_arg3 m ρ c).trans ((step4_main_arg3 m ρ c).trans ((step3_main_arg3 m ρ c).trans ((step2_main_arg3 m ρ c).trans ((step1_main_arg3 m ρ c)))))))))

theorem kept9_main_arg8 (c : Dev nD) : W9 m ρ c (Proc.devRef .tc main_arg8) = m ((c : Thread nD τ).loc main_arg8) :=
  (step9_main_arg8 m ρ c).trans ((step8_main_arg8 m ρ c).trans ((step7_main_arg8 m ρ c).trans ((step6_main_arg8 m ρ c).trans ((step5_main_arg8 m ρ c).trans ((step4_main_arg8 m ρ c).trans ((step3_main_arg8 m ρ c).trans ((step2_main_arg8 m ρ c).trans ((step1_main_arg8 m ρ c)))))))))

theorem kept10_main_arg6 (c : Dev nD) : W10 m ρ c (Proc.devRef .tc main_arg6) = m ((c : Thread nD τ).loc main_arg6) :=
  (step10_main_arg6 m ρ c).trans ((step9_main_arg6 m ρ c).trans ((step8_main_arg6 m ρ c).trans ((step7_main_arg6 m ρ c).trans ((step6_main_arg6 m ρ c).trans ((step5_main_arg6 m ρ c).trans ((step4_main_arg6 m ρ c).trans ((step3_main_arg6 m ρ c).trans ((step2_main_arg6 m ρ c).trans ((step1_main_arg6 m ρ c))))))))))

theorem kept10_main_arg7 (c : Dev nD) : W10 m ρ c (Proc.devRef .tc main_arg7) = m ((c : Thread nD τ).loc main_arg7) :=
  (step10_main_arg7 m ρ c).trans ((step9_main_arg7 m ρ c).trans ((step8_main_arg7 m ρ c).trans ((step7_main_arg7 m ρ c).trans ((step6_main_arg7 m ρ c).trans ((step5_main_arg7 m ρ c).trans ((step4_main_arg7 m ρ c).trans ((step3_main_arg7 m ρ c).trans ((step2_main_arg7 m ρ c).trans ((step1_main_arg7 m ρ c))))))))))

theorem kept11_main_v70 (c : Dev nD) : W11 m ρ c (Proc.devRef .tc main_v70) = W9 m ρ c (Proc.devRef .tc main_v70) :=
  (step11_main_v70 m ρ c).trans ((step10_main_v70 m ρ c))

theorem kept11_main_v71 (c : Dev nD) : W11 m ρ c (Proc.devRef .tc main_v71) = W9 m ρ c (Proc.devRef .tc main_v71) :=
  (step11_main_v71 m ρ c).trans ((step10_main_v71 m ρ c))

theorem kept11_main_v66 (c : Dev nD) : W11 m ρ c (Proc.devRef .tc main_v66) = W9 m ρ c (Proc.devRef .tc main_v66) :=
  (step11_main_v66 m ρ c).trans ((step10_main_v66 m ρ c))

theorem kept11_main_arg10 (c : Dev nD) : W11 m ρ c (Proc.devRef .tc main_arg10) = m ((c : Thread nD τ).loc main_arg10) :=
  (step11_main_arg10 m ρ c).trans ((step10_main_arg10 m ρ c).trans ((step9_main_arg10 m ρ c).trans ((step8_main_arg10 m ρ c).trans ((step7_main_arg10 m ρ c).trans ((step6_main_arg10 m ρ c).trans ((step5_main_arg10 m ρ c).trans ((step4_main_arg10 m ρ c).trans ((step3_main_arg10 m ρ c).trans ((step2_main_arg10 m ρ c).trans ((step1_main_arg10 m ρ c)))))))))))

theorem kept12_main_arg6 (c : Dev nD) : W12 m ρ c (Proc.devRef .tc main_arg6) = m ((c : Thread nD τ).loc main_arg6) :=
  (step12_main_arg6 m ρ c).trans ((step11_main_arg6 m ρ c).trans ((step10_main_arg6 m ρ c).trans ((step9_main_arg6 m ρ c).trans ((step8_main_arg6 m ρ c).trans ((step7_main_arg6 m ρ c).trans ((step6_main_arg6 m ρ c).trans ((step5_main_arg6 m ρ c).trans ((step4_main_arg6 m ρ c).trans ((step3_main_arg6 m ρ c).trans ((step2_main_arg6 m ρ c).trans ((step1_main_arg6 m ρ c))))))))))))

theorem kept12_main_arg7 (c : Dev nD) : W12 m ρ c (Proc.devRef .tc main_arg7) = m ((c : Thread nD τ).loc main_arg7) :=
  (step12_main_arg7 m ρ c).trans ((step11_main_arg7 m ρ c).trans ((step10_main_arg7 m ρ c).trans ((step9_main_arg7 m ρ c).trans ((step8_main_arg7 m ρ c).trans ((step7_main_arg7 m ρ c).trans ((step6_main_arg7 m ρ c).trans ((step5_main_arg7 m ρ c).trans ((step4_main_arg7 m ρ c).trans ((step3_main_arg7 m ρ c).trans ((step2_main_arg7 m ρ c).trans ((step1_main_arg7 m ρ c))))))))))))

theorem kept13_main_v70 (c : Dev nD) : W13 m ρ c (Proc.devRef .tc main_v70) = W9 m ρ c (Proc.devRef .tc main_v70) :=
  (step13_main_v70 m ρ c).trans ((step12_main_v70 m ρ c).trans ((step11_main_v70 m ρ c).trans ((step10_main_v70 m ρ c))))

theorem kept13_main_v72 (c : Dev nD) : W13 m ρ c (Proc.devRef .tc main_v72) = W9 m ρ c (Proc.devRef .tc main_v72) :=
  (step13_main_v72 m ρ c).trans ((step12_main_v72 m ρ c).trans ((step11_main_v72 m ρ c).trans ((step10_main_v72 m ρ c))))

theorem kept13_main_v66 (c : Dev nD) : W13 m ρ c (Proc.devRef .tc main_v66) = W9 m ρ c (Proc.devRef .tc main_v66) :=
  (step13_main_v66 m ρ c).trans ((step12_main_v66 m ρ c).trans ((step11_main_v66 m ρ c).trans ((step10_main_v66 m ρ c))))

theorem kept13_main_arg12 (c : Dev nD) : W13 m ρ c (Proc.devRef .tc main_arg12) = m ((c : Thread nD τ).loc main_arg12) :=
  (step13_main_arg12 m ρ c).trans ((step12_main_arg12 m ρ c).trans ((step11_main_arg12 m ρ c).trans ((step10_main_arg12 m ρ c).trans ((step9_main_arg12 m ρ c).trans ((step8_main_arg12 m ρ c).trans ((step7_main_arg12 m ρ c).trans ((step6_main_arg12 m ρ c).trans ((step5_main_arg12 m ρ c).trans ((step4_main_arg12 m ρ c).trans ((step3_main_arg12 m ρ c).trans ((step2_main_arg12 m ρ c).trans ((step1_main_arg12 m ρ c)))))))))))))

theorem kept14_main_arg6 (c : Dev nD) : W14 m ρ c (Proc.devRef .tc main_arg6) = m ((c : Thread nD τ).loc main_arg6) :=
  (step14_main_arg6 m ρ c).trans ((step13_main_arg6 m ρ c).trans ((step12_main_arg6 m ρ c).trans ((step11_main_arg6 m ρ c).trans ((step10_main_arg6 m ρ c).trans ((step9_main_arg6 m ρ c).trans ((step8_main_arg6 m ρ c).trans ((step7_main_arg6 m ρ c).trans ((step6_main_arg6 m ρ c).trans ((step5_main_arg6 m ρ c).trans ((step4_main_arg6 m ρ c).trans ((step3_main_arg6 m ρ c).trans ((step2_main_arg6 m ρ c).trans ((step1_main_arg6 m ρ c))))))))))))))

theorem kept14_main_arg7 (c : Dev nD) : W14 m ρ c (Proc.devRef .tc main_arg7) = m ((c : Thread nD τ).loc main_arg7) :=
  (step14_main_arg7 m ρ c).trans ((step13_main_arg7 m ρ c).trans ((step12_main_arg7 m ρ c).trans ((step11_main_arg7 m ρ c).trans ((step10_main_arg7 m ρ c).trans ((step9_main_arg7 m ρ c).trans ((step8_main_arg7 m ρ c).trans ((step7_main_arg7 m ρ c).trans ((step6_main_arg7 m ρ c).trans ((step5_main_arg7 m ρ c).trans ((step4_main_arg7 m ρ c).trans ((step3_main_arg7 m ρ c).trans ((step2_main_arg7 m ρ c).trans ((step1_main_arg7 m ρ c))))))))))))))

theorem kept15_main_v70 (c : Dev nD) : W15 m ρ c (Proc.devRef .tc main_v70) = W9 m ρ c (Proc.devRef .tc main_v70) :=
  (step15_main_v70 m ρ c).trans ((step14_main_v70 m ρ c).trans ((step13_main_v70 m ρ c).trans ((step12_main_v70 m ρ c).trans ((step11_main_v70 m ρ c).trans ((step10_main_v70 m ρ c))))))

theorem kept15_main_v73 (c : Dev nD) : W15 m ρ c (Proc.devRef .tc main_v73) = W9 m ρ c (Proc.devRef .tc main_v73) :=
  (step15_main_v73 m ρ c).trans ((step14_main_v73 m ρ c).trans ((step13_main_v73 m ρ c).trans ((step12_main_v73 m ρ c).trans ((step11_main_v73 m ρ c).trans ((step10_main_v73 m ρ c))))))

theorem kept15_main_arg14 (c : Dev nD) : W15 m ρ c (Proc.devRef .tc main_arg14) = m ((c : Thread nD τ).loc main_arg14) :=
  (step15_main_arg14 m ρ c).trans ((step14_main_arg14 m ρ c).trans ((step13_main_arg14 m ρ c).trans ((step12_main_arg14 m ρ c).trans ((step11_main_arg14 m ρ c).trans ((step10_main_arg14 m ρ c).trans ((step9_main_arg14 m ρ c).trans ((step8_main_arg14 m ρ c).trans ((step7_main_arg14 m ρ c).trans ((step6_main_arg14 m ρ c).trans ((step5_main_arg14 m ρ c).trans ((step4_main_arg14 m ρ c).trans ((step3_main_arg14 m ρ c).trans ((step2_main_arg14 m ρ c).trans ((step1_main_arg14 m ρ c)))))))))))))))

theorem kept15_main_v74 (c : Dev nD) : W15 m ρ c (Proc.devRef .tc main_v74) = W9 m ρ c (Proc.devRef .tc main_v74) :=
  (step15_main_v74 m ρ c).trans ((step14_main_v74 m ρ c).trans ((step13_main_v74 m ρ c).trans ((step12_main_v74 m ρ c).trans ((step11_main_v74 m ρ c).trans ((step10_main_v74 m ρ c))))))

theorem kept16_main_v55_1 (c : Dev nD) : W16 m ρ c (Proc.devRef .tc main_v55_1) = W8 m ρ c (Proc.devRef .tc main_v55_1) :=
  (step16_main_v55_1 m ρ c).trans ((step15_main_v55_1 m ρ c).trans ((step14_main_v55_1 m ρ c).trans ((step13_main_v55_1 m ρ c).trans ((step12_main_v55_1 m ρ c).trans ((step11_main_v55_1 m ρ c).trans ((step10_main_v55_1 m ρ c).trans ((step9_main_v55_1 m ρ c))))))))

theorem kept17_main_v55_0 (c : Dev nD) : W17 m ρ c (Proc.devRef .tc main_v55_0) = W8 m ρ c (Proc.devRef .tc main_v55_0) :=
  (step17_main_v55_0 m ρ c).trans ((step16_main_v55_0 m ρ c).trans ((step15_main_v55_0 m ρ c).trans ((step14_main_v55_0 m ρ c).trans ((step13_main_v55_0 m ρ c).trans ((step12_main_v55_0 m ρ c).trans ((step11_main_v55_0 m ρ c).trans ((step10_main_v55_0 m ρ c).trans ((step9_main_v55_0 m ρ c)))))))))

theorem kept18_main_v111_1 (c : Dev nD) : W18 m ρ c (Proc.devRef .tc main_v111_1) = W16 m ρ c (Proc.devRef .tc main_v111_1) :=
  (step18_main_v111_1 m ρ c).trans ((step17_main_v111_1 m ρ c))

theorem kept19_main_v111_0 (c : Dev nD) : W19 m ρ c (Proc.devRef .tc main_v111_0) = W16 m ρ c (Proc.devRef .tc main_v111_0) :=
  (step19_main_v111_0 m ρ c).trans ((step18_main_v111_0 m ρ c).trans ((step17_main_v111_0 m ρ c)))

theorem kept20_main_arg16 (c : Dev nD) : W20 m ρ c (Proc.devRef .tc main_arg16) = m ((c : Thread nD τ).loc main_arg16) :=
  (step20_main_arg16 m ρ c).trans ((step19_main_arg16 m ρ c).trans ((step18_main_arg16 m ρ c).trans ((step17_main_arg16 m ρ c).trans ((step16_main_arg16 m ρ c).trans ((step15_main_arg16 m ρ c).trans ((step14_main_arg16 m ρ c).trans ((step13_main_arg16 m ρ c).trans ((step12_main_arg16 m ρ c).trans ((step11_main_arg16 m ρ c).trans ((step10_main_arg16 m ρ c).trans ((step9_main_arg16 m ρ c).trans ((step8_main_arg16 m ρ c).trans ((step7_main_arg16 m ρ c).trans ((step6_main_arg16 m ρ c).trans ((step5_main_arg16 m ρ c).trans ((step4_main_arg16 m ρ c).trans ((step3_main_arg16 m ρ c).trans ((step2_main_arg16 m ρ c).trans ((step1_main_arg16 m ρ c))))))))))))))))))))

theorem kept20_main_arg17 (c : Dev nD) : W20 m ρ c (Proc.devRef .tc main_arg17) = m ((c : Thread nD τ).loc main_arg17) :=
  (step20_main_arg17 m ρ c).trans ((step19_main_arg17 m ρ c).trans ((step18_main_arg17 m ρ c).trans ((step17_main_arg17 m ρ c).trans ((step16_main_arg17 m ρ c).trans ((step15_main_arg17 m ρ c).trans ((step14_main_arg17 m ρ c).trans ((step13_main_arg17 m ρ c).trans ((step12_main_arg17 m ρ c).trans ((step11_main_arg17 m ρ c).trans ((step10_main_arg17 m ρ c).trans ((step9_main_arg17 m ρ c).trans ((step8_main_arg17 m ρ c).trans ((step7_main_arg17 m ρ c).trans ((step6_main_arg17 m ρ c).trans ((step5_main_arg17 m ρ c).trans ((step4_main_arg17 m ρ c).trans ((step3_main_arg17 m ρ c).trans ((step2_main_arg17 m ρ c).trans ((step1_main_arg17 m ρ c))))))))))))))))))))

theorem kept21_main_v55_0 (c : Dev nD) : W21 m ρ c (Proc.devRef .tc main_v55_0) = W8 m ρ c (Proc.devRef .tc main_v55_0) :=
  (step21_main_v55_0 m ρ c).trans ((step20_main_v55_0 m ρ c).trans ((step19_main_v55_0 m ρ c).trans ((step18_main_v55_0 m ρ c).trans ((step17_main_v55_0 m ρ c).trans ((step16_main_v55_0 m ρ c).trans ((step15_main_v55_0 m ρ c).trans ((step14_main_v55_0 m ρ c).trans ((step13_main_v55_0 m ρ c).trans ((step12_main_v55_0 m ρ c).trans ((step11_main_v55_0 m ρ c).trans ((step10_main_v55_0 m ρ c).trans ((step9_main_v55_0 m ρ c)))))))))))))

theorem kept21_main_v113 (c : Dev nD) : W21 m ρ c (Proc.devRef .tc main_v113) = W17 m ρ c (Proc.devRef .tc main_v113) :=
  (step21_main_v113 m ρ c).trans ((step20_main_v113 m ρ c).trans ((step19_main_v113 m ρ c).trans ((step18_main_v113 m ρ c))))

theorem kept21_main_v117 (c : Dev nD) : W21 m ρ c (Proc.devRef .tc main_v117) = W19 m ρ c (Proc.devRef .tc main_v117) :=
  (step21_main_v117 m ρ c).trans ((step20_main_v117 m ρ c))

theorem kept22_main_v111_0 (c : Dev nD) : W22 m ρ c (Proc.devRef .tc main_v111_0) = W16 m ρ c (Proc.devRef .tc main_v111_0) :=
  (step22_main_v111_0 m ρ c).trans ((step21_main_v111_0 m ρ c).trans ((step20_main_v111_0 m ρ c).trans ((step19_main_v111_0 m ρ c).trans ((step18_main_v111_0 m ρ c).trans ((step17_main_v111_0 m ρ c))))))

theorem kept22_main_v119 (c : Dev nD) : W22 m ρ c (Proc.devRef .tc main_v119) = W19 m ρ c (Proc.devRef .tc main_v119) :=
  (step22_main_v119 m ρ c).trans ((step21_main_v119 m ρ c).trans ((step20_main_v119 m ρ c)))

theorem kept22_main_v123 (c : Dev nD) : W22 m ρ c (Proc.devRef .tc main_v123) = W21 m ρ c (Proc.devRef .tc main_v123) :=
  (step22_main_v123 m ρ c)

theorem kept22_main_v125 (c : Dev nD) : W22 m ρ c (Proc.devRef .tc main_v125) = W21 m ρ c (Proc.devRef .tc main_v125) :=
  (step22_main_v125 m ρ c)

theorem kept22_main_v128 (c : Dev nD) : W22 m ρ c (Proc.devRef .tc main_v128) = W21 m ρ c (Proc.devRef .tc main_v128) :=
  (step22_main_v128 m ρ c)

theorem kept23_main_v129_1 (c : Dev nD) : W23 m ρ c (Proc.devRef .tc main_v129_1) = W22 m ρ c (Proc.devRef .tc main_v129_1) :=
  (step23_main_v129_1 m ρ c)

theorem kept24_main_v129_0 (c : Dev nD) : W24 m ρ c (Proc.devRef .tc main_v129_0) = W22 m ρ c (Proc.devRef .tc main_v129_0) :=
  (step24_main_v129_0 m ρ c).trans ((step23_main_v129_0 m ρ c))

theorem kept24_main_v130_0 (c : Dev nD) : W24 m ρ c (Proc.devRef .tc main_v130_0) = W23 m ρ c (Proc.devRef .tc main_v130_0) :=
  (step24_main_v130_0 m ρ c)

end Cert.KernelIdeal.KKeep

end
-- ==== Proof.Spec.lean ====
/-
  The stages of the embedding pipeline as functions of whole arrays, index by index, on the extended reals.

  One graph's pipeline: dropout (keep an entry where its mask exceeds 0.2, scale by 1.25), three graph convolutions
  (scale rows by the source normaliser, multiply by the layer's weights, aggregate along the edges, scale rows by the
  target normaliser, add the bias), ELU after each, a linear head, then per column the sum, the mean, the centred
  sum of squares, and the standardized embedding with its two-class scores. The aggregation along the edges and the
  degree normalisers are the same host operations in both programs and are not opened here: a stage takes the
  aggregated array and the normalisers as arguments.

  Rows are indexed by `Fin 50000`, features by `Fin 128`; a normaliser is a column `[50000, 1]`, a bias a row
  `[1, 128]`. The float literals stay as the words the programs carry (0.2, 1.25).
-/
import Idealize.ShloMosaic.PureOps.Ideal
import Idealize.ShloMosaic.Lib.ValueIdx

noncomputable section

namespace Cert.Spec

open Idealize.ShloMosaic Idealize.ShloMosaic.ValueIdx

abbrev SNxD : Shape := ⟨2, ![50000, 128]⟩
abbrev SNx1 : Shape := ⟨2, ![50000, 1]⟩
abbrev SDxD : Shape := ⟨2, ![128, 128]⟩
abbrev S1xD : Shape := ⟨2, ![1, 128]⟩

/-- The dropout threshold and the rescale, as the words both programs carry: f32 0.2 and f32 1.25. -/
def thr : EReal := Ideal.ofBits .f32 0x3E4CCCCD#32
def inv_keep : EReal := Ideal.ofBits .f32 0x3FA00000#32

/-- An entry is kept (factor one) where its mask exceeds the threshold, dropped (factor zero) elsewhere. -/
def keep (mk : EReal) : EReal := if thr < mk then 1 else 0

/-- ELU with unit slope: the identity on the positives, `exp x - 1` elsewhere. -/
def elu (x : EReal) : EReal := if 0 < x then x else Ideal.exp x - 1

/-- Dropout, source normalisation and the first layer's product: entry `(r, j)` is the sum over `k` of
    `x[r,k] * keep(mask[r,k]) * 1.25 * ns[r]` times `w[k,j]`. -/
def dropPre (x mask : SNxD.Idx → EReal) (ns : SNx1.Idx → EReal) (w : SDxD.Idx → EReal) : SNxD.Idx → EReal :=
  fun i => ∑ k : Fin 128, (x (ix2 (i 0) k) * keep (mask (ix2 (i 0) k)) * inv_keep * ns (ix2 (i 0) 0)) * w (ix2 k (i 1))

/-- A layer's output after ELU: `elu (agg[r,k] * nd[r] + b[k])`. -/
def act (agg : SNxD.Idx → EReal) (nd : SNx1.Idx → EReal) (b : S1xD.Idx → EReal) : SNxD.Idx → EReal :=
  fun i => elu (agg i * nd (ix2 (i 0) 0) + b (ix2 0 (i 1)))

/-- The previous layer's activation, source-normalised, times the next layer's weights. -/
def postPre (agg : SNxD.Idx → EReal) (nd : SNx1.Idx → EReal) (b : S1xD.Idx → EReal) (ns : SNx1.Idx → EReal)
    (w : SDxD.Idx → EReal) : SNxD.Idx → EReal :=
  fun i => ∑ k : Fin 128, (act agg nd b (ix2 (i 0) k) * ns (ix2 (i 0) 0)) * w (ix2 k (i 1))

/-- The embedding before standardization: the last activation times the head's weights, plus its bias. -/
def head (agg : SNxD.Idx → EReal) (nd : SNx1.Idx → EReal) (b : S1xD.Idx → EReal) (wl : SDxD.Idx → EReal)
    (bl : S1xD.Idx → EReal) : SNxD.Idx → EReal :=
  fun i => (∑ k : Fin 128, act agg nd b (ix2 (i 0) k) * wl (ix2 k (i 1))) + bl (ix2 0 (i 1))

/-- Column sums, as a row. -/
def colSum (e : SNxD.Idx → EReal) : S1xD.Idx → EReal :=
  fun j => ∑ r : Fin 50000, e (ix2 r (j 1))

/-- Centred sums of squares per column, as a row. -/
def sumSq (e : SNxD.Idx → EReal) (mean : S1xD.Idx → EReal) : S1xD.Idx → EReal :=
  fun j => ∑ r : Fin 50000, (e (ix2 r (j 1)) - mean (ix2 0 (j 1))) * (e (ix2 r (j 1)) - mean (ix2 0 (j 1)))

/-- The standardized embedding as one program spells it: centred, times the reciprocal standard deviation. -/
def normed (e : SNxD.Idx → EReal) (mean invstd : S1xD.Idx → EReal) : SNxD.Idx → EReal :=
  fun i => (e i - mean (ix2 0 (i 1))) * invstd (ix2 0 (i 1))

/-- The class scores over a 128-wide (zero-padded) classifier: the standardized row times the weights, plus the bias. -/
def scores (xn : SNxD.Idx → EReal) (wc : SDxD.Idx → EReal) (bc : S1xD.Idx → EReal) : SNxD.Idx → EReal :=
  fun i => (∑ k : Fin 128, xn (ix2 (i 0) k) * wc (ix2 k (i 1))) + bc (ix2 0 (i 1))

end Cert.Spec

end
-- ==== Proof.KDot.lean ====
/-
  The kernel bodies' matrix product read at an index. Every kernel of the program multiplies a block of 2000 rows
  by a 128 × 128 matrix on the matrix unit, onto a zero accumulator; on the extended reals that is the textbook
  contraction: entry `(p, q)` of the product is the sum over `k` of `lhs (p, k) * rhs (k, q)`. The contraction runs
  over one axis of extent 128, so the sum over the contraction's index type is re-indexed by `Fin 128`; the left
  operand is read at the result's row and the contraction position, the right at the contraction position and the
  result's column.
-/
import proofs.«148151_j29411936043366_2_alg».proof.Proof.Gen.KernelIdeal
import Idealize.ShloMosaic.PureOps.Ideal.Laws
import Idealize.ShloMosaic.Lib.ValueIdx

noncomputable section

namespace Cert.KernelIdeal.KDot

open Cert.KernelIdeal Cert.KernelIdeal.Gen Idealize.ShloMosaic Idealize.ShloMosaic.ValueIdx

abbrev D : DotDims S2000x128 S128x128 S2000x128 := dot_S2000x128_S128x128_S2000x128_1_0_0_1_n_n

theorem lhs_0 (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl

theorem lhs_1 (i : S2000x128.Idx) (q : D.contr.Idx) : (D.lhsIdx i q 1).val = (q ⟨0, by decide⟩).val :=
  D.lhsIdx_val_of_single rfl i q

theorem rhs_0 (i : S2000x128.Idx) (q : D.contr.Idx) : (D.rhsIdx i q 0).val = (q ⟨0, by decide⟩).val :=
  D.rhsIdx_val_of_single rfl i q

theorem rhs_1 (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block product at `(p, q)`: the sum over `k` of `lhs (p, k) * rhs (k, q)`. -/
theorem matmul_apply {φ₁ φ₂ : FTy} (lhs : FVec Ideal S2000x128 φ₁) (rhs : FVec Ideal S128x128 φ₂) (p : Fin 2000) (q : Fin 128) :
    FloatOps.matmul D none lhs rhs (constant S2000x128 .f32 0x00000000#32) (ix2 p q)
      = ∑ k : Fin 128, lhs (ix2 p k) * rhs (ix2 k q) := by
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

end Cert.KernelIdeal.KDot

end
-- ==== Proof.LibLayout.lean ====
/-
  A column broadcast over many: an array of shape `[a, 1]` broadcast to `[a, b]` reads, at `(p, c)`, the operand's
  row `p` at its one column. (The companion of the row form `[1, b] → [a, b]`: a per-row scale such as a degree
  normaliser kept as a column enters a row-by-feature product this way.)
-/
import Idealize.ShloMosaic.Lib.Pipeline.Value
import Idealize.ShloMosaic.Lib.ValueIdx

namespace Cert.LibLayout

open Idealize.ShloMosaic Idealize.ShloMosaic.ValueIdx

variable {α : Type}

/-- A `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.Reg0Pay.lean ====
/-
  Region 0 (and, renamed, region 4): dropout, source normalisation and the first layer's product, block by block.
  The body's arithmetic read at an index: entry (p, q) of a block's result is the sum over k of
  x[p,k] * keep(mask[p,k]) * 1.25 * ns[p] times w[k,q], the rounding to bf16 on the way in and out being the identity
  on the extended reals.
-/
import proofs.«148151_j29411936043366_2_alg».proof.Proof.Gen.KernelIdeal.Skeleton
import proofs.«148151_j29411936043366_2_alg».proof.Proof.Spec
import proofs.«148151_j29411936043366_2_alg».proof.Proof.KDot
import proofs.«148151_j29411936043366_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Cert.KernelIdeal Cert.KernelIdeal.Gen Idealize.ShloMosaic Idealize.ShloMosaic.ValueIdx

/-- The kept factor as the body spells it: the test `mask > 0.2` widened to a word and read as a signed integer. -/
theorem keep_eq (mk : EReal) :
    FloatOps.sitofp (F := Ideal) .f32 ((FloatOps.cmpf .ogt mk (FloatOps.ofBits (F := Ideal) .f32 0x3E4CCCCD#32)).setWidth 32) = Cert.Spec.keep mk := by
  show (((((Ideal.cmp .ogt mk (Ideal.ofBits .f32 0x3E4CCCCD#32)).setWidth 32).toInt : ℝ)) : EReal) = _
  unfold Cert.Spec.keep Cert.Spec.thr Ideal.cmp
  by_cases h : Ideal.ofBits .f32 0x3E4CCCCD#32 < mk
  · simp [h]
  · simp [h]

theorem pay1_apply (mk x : Vec Ideal S2000x128 .f32) (ns : Vec Ideal S2000x1 .f32) (w : Vec Ideal S128x128 .f32)
    (p : Fin 2000) (q : Fin 128) :
    k0_pay1 mk x ns w (ix2 p q)
      = ∑ k : Fin 128, (x (ix2 p k) * Cert.Spec.keep (mk (ix2 p k)) * Cert.Spec.inv_keep * ns (ix2 p 0)) * w (ix2 k q) := by
  unfold k0_pay1
  rw [truncf_apply]
  refine (KDot.matmul_apply _ _ p q).trans ?_
  refine Finset.sum_congr rfl fun k _ => ?_
  rw [truncf_apply, truncf_apply, mulf_apply, mulf_apply, mulf_apply, broadcast_apply, sitofp_apply, extui_apply, cmpf_apply,
    broadcast_apply, shapeCast_self, Cert.LibLayout.broadcastTo_a1_ab_apply, keep_eq]
  rfl

end Cert.KernelIdeal.Reg0

end
-- ==== Proof.Reg0.lean ====
/-
  Region 0: from blocks to the array. Grid point t stages rows 2000 t … 2000 t + 1999 of the features, of the mask
  and of the source normaliser, and the whole weight matrix; it writes back rows 2000 t … 2000 t + 1999 of the
  result. Every row lies in exactly the block of point (row / 2000), so after the 25 points the result array is, at
  every index, the specification's `dropPre` of the arrays the region found.
-/
import proofs.«148151_j29411936043366_2_alg».proof.Proof.Gen.KernelIdeal.Frame
import proofs.«148151_j29411936043366_2_alg».proof.Proof.Reg0Pay
import Idealize.ShloMosaic.Lib.Pipeline.Value
import Idealize.ShloMosaic.Lib.Tactic

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows at block row t, the weights at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is row 2000 t + p of the array. -/
def row (t : Fin cfg0.N) (p : Fin 2000) : Fin 50000 :=
  ⟨2000 * t.val + p.val, by have := t.isLt; have hN : cfg0.N = 25 := N_0; have := p.isLt; omega⟩

theorem iblk_x (c : Dev nD) (t : Fin cfg0.N) (p : Fin 2000) (k : Fin 128) :
    (iblk0 V c 0 t : Vec Ideal S2000x128 .f32) (ix2 p k) = (V c main_arg0 : S50000x128.Idx → EReal) (ix2 (row t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [e0]; omega
  | ⟨1, _⟩ => show win0_0.index t 1 * 128 + 1 * k.val = k.val; rw [e1]; omega

theorem iblk_mask (c : Dev nD) (t : Fin cfg0.N) (p : Fin 2000) (k : Fin 128) :
    (iblk0 V c 1 t : Vec Ideal S2000x128 .f32) (ix2 p k) = (V c main_arg2 : S50000x128.Idx → EReal) (ix2 (row t p) k) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 2000 + 1 * p.val = 2000 * t.val + p.val; rw [e0]; omega
  | ⟨1, _⟩ => show win0_1.index t 1 * 128 + 1 * k.val = k.val; rw [e1]; omega

theorem iblk_ns (c : Dev nD) (t : Fin cfg0.N) (p : Fin 2000) :
    (iblk0 V c 2 t : Vec Ideal S2000x1 .f32) (ix2 p 0) = (V c main_v10 : S50000x1.Idx → EReal) (ix2 (row t p) 0) := by
  obtain ⟨-, -, -, -, e0, e1, -⟩ := idx_facts t
  unfold iblk0
  rw [View.read_apply]
  show V c main_v10 _ = V c main_v10 _
  congr 1
  funext a
  apply Fin.ext
  match a with
  | ⟨0, _⟩ => show win0_2.index t 0 * 2000 + 1 * p.val = 2000 * t.val + p.val; rw [e0]; omega
  | ⟨1, _⟩ => show win0_2.index t 1 * 1 + 1 * 0 = 0; rw [e1]

theorem iblk_w (c : Dev nD) (t : Fin cfg0.N) (k q : Fin 128) :
    (iblk0 V c 3 t : Vec Ideal S128x128 .f32) (ix2 k q) = (V c main_arg8 : S128x128.Idx → EReal) (ix2 k q) := by
  obtain ⟨-, -, -, -, -, -, e0, e1, -⟩ := idx_facts t
  unfold iblk0
  rw [View.read_apply]
  show V c main_arg8 _ = V c main_arg8 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The result array the region leaves: the specification's first stage of the arrays it found. -/
abbrev G (c : Dev nD) : S50000x128.Idx → EReal :=
  Cert.Spec.dropPre (V c main_arg0) (V c main_arg2) (V c main_v10) (V c main_arg8)

/-- What point t writes back is block t of `G`. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S2000x1) hz, View.ld_unit_zero (S := S128x128) hz]
  obtain ⟨-, -, -, -, -, -, -, -, e0, e1⟩ := idx_facts t
  funext j
  obtain ⟨p, q, rfl⟩ : ∃ (p : Fin 2000) (q : Fin 128), j = ix2 p q := ⟨j 0, j 1, eq_ix2 j⟩
  show k0_pay1 (iblk0 V c 1 t) (iblk0 V c 0 t) (iblk0 V c 2 t) (iblk0 V c 3 t) (ix2 p q) = G V c (((cfg0.win 4).blk t).view.emb (ix2 p q))
  have hemb : ((cfg0.win 4).blk t).view.emb (ix2 p q) = ix2 (row t p) q := by
    funext a
    apply Fin.ext
    match a with
    | ⟨0, _⟩ => show win0_4.index t 0 * 2000 + 1 * p.val = 2000 * t.val + p.val; rw [e0]; omega
    | ⟨1, _⟩ => show win0_4.index t 1 * 128 + 1 * q.val = q.val; rw [e1]; omega
  rw [hemb, pay1_apply]
  unfold G Cert.Spec.dropPre
  refine Finset.sum_congr rfl fun k _ => ?_
  rw [iblk_x, iblk_mask, iblk_ns, iblk_w]

/-- An index of the result array is in point t's block iff its row is among the block's 2000 rows. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v19).slice (win0_4.rect t)).set ↔ _
  rw [View.set_slice_whole, Rect.mem_set_unit]
  exact Iff.rfl

/-- The result array after the region: `dropPre` of the arrays the region found, at every index (row r is written
    by point r / 2000). -/
theorem final (c : Dev nD) : (dat0 V c).arrAt 4 cfg0.N = G V c :=
  (dat0 V c).arrAt_eq_of_cover 4 (G V c) (fun t _ => flushed_eq V c t) fun i => by
    have hi0 : (i 0).val < 50000 := (i 0).isLt
    have hi1 : (i 1).val < 128 := (i 1).isLt
    have hN : cfg0.N = 25 := N_0
    have ht : (i 0).val / 2000 < cfg0.N := by rw [hN]; omega
    obtain ⟨-, -, -, -, -, -, -, -, e0, e1⟩ := idx_facts ⟨(i 0).val / 2000, ht⟩
    refine ⟨⟨(i 0).val / 2000, ht⟩, flush0_4 _, ?_⟩
    rw [mem_blk]
    intro a
    match a with
    | ⟨0, _⟩ =>
      show win0_4.index ⟨(i 0).val / 2000, ht⟩ 0 * 2000 ≤ (i 0).val ∧ (i 0).val < win0_4.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win0_4.index ⟨(i 0).val / 2000, ht⟩ 1 * 128 ≤ (i 1).val ∧ (i 1).val < win0_4.index ⟨(i 0).val / 2000, ht⟩ 1 * 128 + 128
      rw [e1]; omega

end Cert.KernelIdeal.Reg0

end
-- ==== Proof.LibElu.lean ====
/-
  Two spellings of ELU agree on the extended reals.

  One program writes the negative branch as `exp (min x 0) - 1`: the argument is clamped to zero before the
  exponential so that the discarded branch never exponentiates a large positive number. The other writes
  `1 * expm1 (if 0 < x then 0 else x)`, the textbook `alpha * (exp x - 1)` with `alpha = 1` and the argument
  replaced by zero on the discarded branch. Both are selected by the same test `0 < x`. On the branch that is
  kept (`x ≤ 0`) the clamp `min x 0` is `x` and the inner selection is `x`, so both are `exp x - 1`; on the other
  branch both are `x`. Nothing here needs `x` to be finite: the statement holds at `⊥` and `⊤` as well, since it
  only uses that `1` is a unit for the product and that the order is linear.
-/
import Idealize.ShloMosaic.PureOps.Ideal
import Idealize.ShloMosaic.Lib.ValueIdx

noncomputable section

namespace Cert.LibElu

open Idealize.ShloMosaic

/-- The ordered "greater than" test answers one exactly when the strict inequality holds. -/
theorem cmp_ogt_eq_one_iff (x y : EReal) : Ideal.cmp .ogt x y = 1 ↔ y < x := by
  unfold Ideal.cmp
  by_cases h : y < x <;> simp [h]

/-- The selection by the test `0 < x` as an `if`. -/
theorem select_cmp_ogt_zero {α : Type} (x : EReal) (a b : α) :
    Scalar.select (Ideal.cmp .ogt x 0) a b = if 0 < x then a else b := by
  unfold Scalar.select
  by_cases h : (0 : EReal) < x
  · rw [if_pos ((cmp_ogt_eq_one_iff x 0).mpr h), if_pos h]
  · rw [if_neg (fun hc => h ((cmp_ogt_eq_one_iff x 0).mp hc)), if_neg h]

/-- ELU with the argument clamped before the exponential equals ELU through `expm1` of the selected argument,
    at every extended real. -/
theorem elu_clamped_eq_elu_expm1 (x : EReal) :
    Scalar.select (Ideal.cmp .ogt x 0) x (Ideal.exp (min x 0) - 1)
      = Scalar.select (Ideal.cmp .ogt x 0) x
          (1 * (Ideal.exp (Scalar.select (Ideal.cmp .ogt x 0) 0 x) - 1)) := by
  rw [select_cmp_ogt_zero, select_cmp_ogt_zero, select_cmp_ogt_zero]
  by_cases h : (0 : EReal) < x
  · rw [if_pos h, if_pos h]
  · rw [if_neg h, if_neg h, if_neg h, one_mul, min_eq_left (not_lt.mp h)]

end Cert.LibElu

end
-- ==== Proof.LibLiterals.lean ====
/-
  The float words the programs carry, as the reals they denote: 1.0, 50000.0 (the number of nodes) and 49999.0 (the
  unbiased variance's divisor). Each is an exact binary value, read off the sign, exponent and mantissa fields.
-/
import Idealize.ShloMosaic.PureOps.Ideal
import Idealize.ShloMosaic.PureOps.Ideal.Laws

namespace Cert.LibLiterals

open Idealize.ShloMosaic

theorem ofBits_one_f32 : Ideal.ofBits .f32 0x3F800000#32 = 1 := by
  simp [Ideal.ofBits, Ideal.ieee, -EReal.coe_mul]; norm_num

theorem ofBits_50000_f32 : Ideal.ofBits .f32 0x47435000#32 = ((50000 : ℝ) : EReal) := by
  simp [Ideal.ofBits, Ideal.ieee, -EReal.coe_mul]; norm_num

theorem ofBits_49999_f32 : Ideal.ofBits .f32 0x47434F00#32 = ((49999 : ℝ) : EReal) := by
  simp [Ideal.ofBits, Ideal.ieee, -EReal.coe_mul]; norm_num

end Cert.LibLiterals
-- ==== Proof.Reg1Pay.lean ====
/-
  Regions 1, 2, 5, 6 share one body: the previous layer's output (aggregate times target normaliser plus bias) through
  ELU, times the source normaliser, times the next layer's weights. Read at an index: entry (p, q) of a block's result
  is the sum over k of elu(agg[p,k] * nd[p] + b[k]) * ns[p] times w[k,q]. The body writes ELU as a selection between
  the value and `exp (min value 0) - 1`; on the branch that is kept the minimum is the value itself, so this is the
  specification's ELU at every extended real.
-/
import proofs.«148151_j29411936043366_2_alg».proof.Proof.Gen.KernelIdeal.Skeleton
import proofs.«148151_j29411936043366_2_alg».proof.Proof.Spec
import proofs.«148151_j29411936043366_2_alg».proof.Proof.KDot
import proofs.«148151_j29411936043366_2_alg».proof.Proof.LibLayout
import proofs.«148151_j29411936043366_2_alg».proof.Proof.LibElu
import proofs.«148151_j29411936043366_2_alg».proof.Proof.LibLiterals
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegPP

open Cert.KernelIdeal Cert.KernelIdeal.Gen Idealize.ShloMosaic Idealize.ShloMosaic.ValueIdx

theorem exp_apply {s : Shape} {φ : FTy} (a : FVec Ideal s φ) (i : s.Idx) : exp a i = FloatOps.exp (a i) := rfl

/-- The body's ELU is the specification's. -/
theorem kelu_eq (y : EReal) :
    Scalar.select (FloatOps.cmpf (F := Ideal) .ogt y (FloatOps.ofBits (F := Ideal) .f32 0x00000000#32)) y
      (FloatOps.exp (F := Ideal) (φ := .f32) (min y (FloatOps.ofBits (F := Ideal) .f32 0x00000000#32))
        - FloatOps.ofBits (F := Ideal) .f32 0x3F800000#32) = Cert.Spec.elu y := by
  show Scalar.select (Ideal.cmp .ogt y (Ideal.ofBits .f32 0x00000000#32)) y
      (Ideal.exp (min y (Ideal.ofBits .f32 0x00000000#32)) - Ideal.ofBits .f32 0x3F800000#32) = _
  rw [Ideal.ofBits_zero_f32, Cert.LibLiterals.ofBits_one_f32, Cert.LibElu.select_cmp_ogt_zero]
  unfold Cert.Spec.elu
  by_cases h : (0 : EReal) < y
  · rw [if_pos h, if_pos h]
  · rw [if_neg h, if_neg h, min_eq_left (not_lt.mp h)]

theorem pay1_apply (agg : Vec Ideal S2000x128 .f32) (nd : Vec Ideal S2000x1 .f32) (b : Vec Ideal S1x128 .f32)
    (ns : Vec Ideal S2000x1 .f32) (w : Vec Ideal S128x128 .f32) (p : Fin 2000) (q : Fin 128) :
    k1_pay1 agg nd b ns w (ix2 p q)
      = ∑ k : Fin 128, (Cert.Spec.elu (agg (ix2 p k) * nd (ix2 p 0) + b (ix2 0 k)) * ns (ix2 p 0)) * w (ix2 k q) := by
  unfold k1_pay1
  rw [truncf_apply]
  refine (KDot.matmul_apply _ _ p q).trans ?_
  refine Finset.sum_congr rfl fun k _ => ?_
  simp only [truncf_apply, mulf_apply, addf_apply, subf_apply, minimumf_apply, select_apply, cmpf_apply, broadcast_apply,
    exp_apply, shapeCast_self, Cert.LibLayout.broadcastTo_a1_ab_apply, broadcastTo_1b_ab_apply]
  rw [kelu_eq]

theorem pay2_apply (agg : Vec Ideal S2000x128 .f32) (nd : Vec Ideal S2000x1 .f32) (b : Vec Ideal S1x128 .f32)
    (ns : Vec Ideal S2000x1 .f32) (w : Vec Ideal S128x128 .f32) (p : Fin 2000) (q : Fin 128) :
    k2_pay1 agg nd b ns w (ix2 p q)
      = ∑ k : Fin 128, (Cert.Spec.elu (agg (ix2 p k) * nd (ix2 p 0) + b (ix2 0 k)) * ns (ix2 p 0)) * w (ix2 k q) := by
  unfold k2_pay1
  rw [truncf_apply]
  refine (KDot.matmul_apply _ _ p q).trans ?_
  refine Finset.sum_congr rfl fun k _ => ?_
  simp only [truncf_apply, mulf_apply, addf_apply, subf_apply, minimumf_apply, select_apply, cmpf_apply, broadcast_apply,
    exp_apply, shapeCast_self, Cert.LibLayout.broadcastTo_a1_ab_apply, broadcastTo_1b_ab_apply]
  rw [kelu_eq]

theorem pay5_apply (agg : Vec Ideal S2000x128 .f32) (nd : Vec Ideal S2000x1 .f32) (b : Vec Ideal S1x128 .f32)
    (ns : Vec Ideal S2000x1 .f32) (w : Vec Ideal S128x128 .f32) (p : Fin 2000) (q : Fin 128) :
    k5_pay1 agg nd b ns w (ix2 p q)
      = ∑ k : Fin 128, (Cert.Spec.elu (agg (ix2 p k) * nd (ix2 p 0) + b (ix2 0 k)) * ns (ix2 p 0)) * w (ix2 k q) := by
  unfold k5_pay1
  rw [truncf_apply]
  refine (KDot.matmul_apply _ _ p q).trans ?_
  refine Finset.sum_congr rfl fun k _ => ?_
  simp only [truncf_apply, mulf_apply, addf_apply, subf_apply, minimumf_apply, select_apply, cmpf_apply, broadcast_apply,
    exp_apply, shapeCast_self, Cert.LibLayout.broadcastTo_a1_ab_apply, broadcastTo_1b_ab_apply]
  rw [kelu_eq]

theorem pay6_apply (agg : Vec Ideal S2000x128 .f32) (nd : Vec Ideal S2000x1 .f32) (b : Vec Ideal S1x128 .f32)
    (ns : Vec Ideal S2000x1 .f32) (w : Vec Ideal S128x128 .f32) (p : Fin 2000) (q : Fin 128) :
    k6_pay1 agg nd b ns w (ix2 p q)
      = ∑ k : Fin 128, (Cert.Spec.elu (agg (ix2 p k) * nd (ix2 p 0) + b (ix2 0 k)) * ns (ix2 p 0)) * w (ix2 k q) := by
  unfold k6_pay1
  rw [truncf_apply]
  refine (KDot.matmul_apply _ _ p q).trans ?_
  refine Finset.sum_congr rfl fun k _ => ?_
  simp only [truncf_apply, mulf_apply, addf_apply, subf_apply, minimumf_apply, select_apply, cmpf_apply, broadcast_apply,
    exp_apply, shapeCast_self, Cert.LibLayout.broadcastTo_a1_ab_apply, broadcastTo_1b_ab_apply]
  rw [kelu_eq]

end Cert.KernelIdeal.RegPP

end
-- ==== Proof.Reg1.lean ====
/-
  Region 1: a layer's output through ELU, source-normalised, times the next layer's weights — from blocks to the
  array. Grid point t stages rows 2000 t … 2000 t + 1999 of the aggregate and of both normalisers, and the whole bias
  row and weight matrix; it writes back the same rows of the result. Every row lies in the block of point
  (row / 2000), so after the 25 points the result array is the specification's `postPre` of the arrays the region
  found, at every index.
-/
import proofs.«148151_j29411936043366_2_alg».proof.Proof.Gen.KernelIdeal.Frame
import proofs.«148151_j29411936043366_2_alg».proof.Proof.Reg1Pay
import Idealize.ShloMosaic.Lib.Pipeline.Value
import Idealize.ShloMosaic.Lib.Tactic

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = t.val ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)

/-- Row p of point t's block is row 2000 t + p of the array. -/
def row (t : Fin cfg1.N) (p : Fin 2000) : Fin 50000 :=
  ⟨2000 * t.val + p.val, by have := t.isLt; have hN : cfg1.N = 25 := N_1; have := p.isLt; omega⟩

theorem iblk_0 (c : Dev nD) (t : Fin cfg1.N) (p : Fin 2000) (k : Fin 128) :
    (iblk1 V c 0 t : Vec Ideal S2000x128 .f32) (ix2 p k) = (V c main_v30 : S50000x128.Idx → EReal) (ix2 (row t p) k) := by
  obtain ⟨e0, e1⟩ := idx_0 t
  unfold iblk1
  rw [View.read_apply]
  show V c main_v30 _ = V c main_v30 _
  congr 1
  funext a
  apply Fin.ext
  match a with
  | ⟨0, _⟩ => show win1_0.index t 0 * 2000 + 1 * p.val = 2000 * t.val + p.val; rw [e0]; omega
  | ⟨1, _⟩ => show win1_0.index t 1 * 128 + 1 * k.val = k.val; rw [e1]; omega

theorem iblk_1 (c : Dev nD) (t : Fin cfg1.N) (p : Fin 2000) :
    (iblk1 V c 1 t : Vec Ideal S2000x1 .f32) (ix2 p 0) = (V c main_v14 : S50000x1.Idx → EReal) (ix2 (row t p) 0) := by
  obtain ⟨e0, e1⟩ := idx_1 t
  unfold iblk1
  rw [View.read_apply]
  show V c main_v14 _ = V c main_v14 _
  congr 1
  funext a
  apply Fin.ext
  match a with
  | ⟨0, _⟩ => show win1_1.index t 0 * 2000 + 1 * p.val = 2000 * t.val + p.val; rw [e0]; omega
  | ⟨1, _⟩ => show win1_1.index t 1 * 1 + 1 * 0 = 0; rw [e1]

theorem iblk_2 (c : Dev nD) (t : Fin cfg1.N) (q : Fin 128) :
    (iblk1 V c 2 t : Vec Ideal S1x128 .f32) (ix2 0 q) = (V c main_v15 : S1x128.Idx → EReal) (ix2 0 q) := by
  obtain ⟨e0, e1⟩ := idx_2 t
  unfold iblk1
  rw [View.read_apply]
  show V c main_v15 _ = V c main_v15 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

theorem iblk_3 (c : Dev nD) (t : Fin cfg1.N) (p : Fin 2000) :
    (iblk1 V c 3 t : Vec Ideal S2000x1 .f32) (ix2 p 0) = (V c main_v10 : S50000x1.Idx → EReal) (ix2 (row t p) 0) := by
  obtain ⟨e0, e1⟩ := idx_3 t
  unfold iblk1
  rw [View.read_apply]
  show V c main_v10 _ = V c main_v10 _
  congr 1
  funext a
  apply Fin.ext
  match a with
  | ⟨0, _⟩ => show win1_3.index t 0 * 2000 + 1 * p.val = 2000 * t.val + p.val; rw [e0]; omega
  | ⟨1, _⟩ => show win1_3.index t 1 * 1 + 1 * 0 = 0; rw [e1]

theorem iblk_4 (c : Dev nD) (t : Fin cfg1.N) (k q : Fin 128) :
    (iblk1 V c 4 t : Vec Ideal S128x128 .f32) (ix2 k q) = (V c main_arg10 : S128x128.Idx → EReal) (ix2 k q) := by
  obtain ⟨e0, e1⟩ := idx_4 t
  unfold iblk1
  rw [View.read_apply]
  show V c main_arg10 _ = V c main_arg10 _
  congr 1
  funext a
  apply Fin.ext
  match a with
  | ⟨0, _⟩ => show win1_4.index t 0 * 128 + 1 * k.val = k.val; rw [e0]; omega
  | ⟨1, _⟩ => show win1_4.index t 1 * 128 + 1 * q.val = q.val; rw [e1]; omega

/-- The array window 5 leaves: the next layer's pre-aggregation features. -/
abbrev G5 (c : Dev nD) : S50000x128.Idx → EReal :=
  Cert.Spec.postPre (V c main_v30) (V c main_v14) (V c main_v15) (V c main_v10) (V c main_arg10)

/-- What point t writes back through window 5 is block t of that array. -/
theorem flushed_eq5 (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q) = G5 V c (((cfg1.win 5).blk t).view.emb (ix2 p q))
  have hemb : ((cfg1.win 5).blk t).view.emb (ix2 p q) = ix2 (row t p) q := by
    funext a
    apply Fin.ext
    match a with
    | ⟨0, _⟩ => show win1_5.index t 0 * 2000 + 1 * p.val = 2000 * t.val + p.val; rw [e0]; omega
    | ⟨1, _⟩ => show win1_5.index t 1 * 128 + 1 * q.val = q.val; rw [e1]; omega
  rw [hemb, Cert.KernelIdeal.RegPP.pay1_apply]
  unfold G5 Cert.Spec.postPre Cert.Spec.act
  refine Finset.sum_congr rfl fun k _ => ?_
  rw [iblk_0, iblk_1, iblk_2, iblk_3, iblk_4]
  try rfl

theorem mem_blk5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v31).slice (win1_5.rect t)).set ↔ _
  rw [View.set_slice_whole, Rect.mem_set_unit]
  exact Iff.rfl

/-- The array after the region, at every index (row r is written by point r / 2000). -/
theorem final5 (c : Dev nD) : (dat1 V c).arrAt 5 cfg1.N = G5 V c :=
  (dat1 V c).arrAt_eq_of_cover 5 (G5 V c) (fun t _ => flushed_eq5 V c t) fun i => by
    have hi0 : (i 0).val < 50000 := (i 0).isLt
    have hi1 : (i 1).val < 128 := (i 1).isLt
    have hN : cfg1.N = 25 := N_1
    have ht : (i 0).val / 2000 < cfg1.N := by rw [hN]; omega
    obtain ⟨e0, e1⟩ := idx_5 ⟨(i 0).val / 2000, ht⟩
    refine ⟨⟨(i 0).val / 2000, ht⟩, flush1_5 _, ?_⟩
    rw [mem_blk5]
    intro a
    match a with
    | ⟨0, _⟩ =>
      show win1_5.index ⟨(i 0).val / 2000, ht⟩ 0 * 2000 ≤ (i 0).val ∧ (i 0).val < win1_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win1_5.index ⟨(i 0).val / 2000, ht⟩ 1 * 128 ≤ (i 1).val ∧ (i 1).val < win1_5.index ⟨(i 0).val / 2000, ht⟩ 1 * 128 + 128
      rw [e1]; omega

end Cert.KernelIdeal.Reg1

end
-- ==== Proof.Reg2.lean ====
/-
  Region 2: a layer's output through ELU, source-normalised, times the next layer's weights — from blocks to the
  array. Grid point t stages rows 2000 t … 2000 t + 1999 of the aggregate and of both normalisers, and the whole bias
  row and weight matrix; it writes back the same rows of the result. Every row lies in the block of point
  (row / 2000), so after the 25 points the result array is the specification's `postPre` of the arrays the region
  found, at every index.
-/
import proofs.«148151_j29411936043366_2_alg».proof.Proof.Gen.KernelIdeal.Frame
import proofs.«148151_j29411936043366_2_alg».proof.Proof.Reg1Pay
import Idealize.ShloMosaic.Lib.Pipeline.Value
import Idealize.ShloMosaic.Lib.Tactic

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = t.val ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = t.val ∧ win2_5.index t (1 : Fin 2) = 0 :=
  (by decide +kernel : ∀ t : Fin grid2.N, _)

/-- Row p of point t's block is row 2000 t + p of the array. -/
def row (t : Fin cfg2.N) (p : Fin 2000) : Fin 50000 :=
  ⟨2000 * t.val + p.val, by have := t.isLt; have hN : cfg2.N = 25 := N_2; have := p.isLt; omega⟩

theorem iblk_0 (c : Dev nD) (t : Fin cfg2.N) (p : Fin 2000) (k : Fin 128) :
    (iblk2 V c 0 t : Vec Ideal S2000x128 .f32) (ix2 p k) = (V c main_v42 : S50000x128.Idx → EReal) (ix2 (row t p) k) := by
  obtain ⟨e0, e1⟩ := idx_0 t
  unfold iblk2
  rw [View.read_apply]
  show V c main_v42 _ = V c main_v42 _
  congr 1
  funext a
  apply Fin.ext
  match a with
  | ⟨0, _⟩ => show win2_0.index t 0 * 2000 + 1 * p.val = 2000 * t.val + p.val; rw [e0]; omega
  | ⟨1, _⟩ => show win2_0.index t 1 * 128 + 1 * k.val = k.val; rw [e1]; omega

theorem iblk_1 (c : Dev nD) (t : Fin cfg2.N) (p : Fin 2000) :
    (iblk2 V c 1 t : Vec Ideal S2000x1 .f32) (ix2 p 0) = (V c main_v14 : S50000x1.Idx → EReal) (ix2 (row t p) 0) := by
  obtain ⟨e0, e1⟩ := idx_1 t
  unfold iblk2
  rw [View.read_apply]
  show V c main_v14 _ = V c main_v14 _
  congr 1
  funext a
  apply Fin.ext
  match a with
  | ⟨0, _⟩ => show win2_1.index t 0 * 2000 + 1 * p.val = 2000 * t.val + p.val; rw [e0]; omega
  | ⟨1, _⟩ => show win2_1.index t 1 * 1 + 1 * 0 = 0; rw [e1]

theorem iblk_2 (c : Dev nD) (t : Fin cfg2.N) (q : Fin 128) :
    (iblk2 V c 2 t : Vec Ideal S1x128 .f32) (ix2 0 q) = (V c main_v16 : S1x128.Idx → EReal) (ix2 0 q) := by
  obtain ⟨e0, e1⟩ := idx_2 t
  unfold iblk2
  rw [View.read_apply]
  show V c main_v16 _ = V c main_v16 _
  congr 1
  funext a
  apply Fin.ext
  match a with
  | ⟨0, _⟩ => show win2_2.index t 0 * 1 + 1 * 0 = 0; rw [e0]
  | ⟨1, _⟩ => show win2_2.index t 1 * 128 + 1 * q.val = q.val; rw [e1]; omega

theorem iblk_3 (c : Dev nD) (t : Fin cfg2.N) (p : Fin 2000) :
    (iblk2 V c 3 t : Vec Ideal S2000x1 .f32) (ix2 p 0) = (V c main_v10 : S50000x1.Idx → EReal) (ix2 (row t p) 0) := by
  obtain ⟨e0, e1⟩ := idx_3 t
  unfold iblk2
  rw [View.read_apply]
  show V c main_v10 _ = V c main_v10 _
  congr 1
  funext a
  apply Fin.ext
  match a with
  | ⟨0, _⟩ => show win2_3.index t 0 * 2000 + 1 * p.val = 2000 * t.val + p.val; rw [e0]; omega
  | ⟨1, _⟩ => show win2_3.index t 1 * 1 + 1 * 0 = 0; rw [e1]

theorem iblk_4 (c : Dev nD) (t : Fin cfg2.N) (k q : Fin 128) :
    (iblk2 V c 4 t : Vec Ideal S128x128 .f32) (ix2 k q) = (V c main_arg12 : S128x128.Idx → EReal) (ix2 k q) := by
  obtain ⟨e0, e1⟩ := idx_4 t
  unfold iblk2
  rw [View.read_apply]
  show V c main_arg12 _ = V c main_arg12 _
  congr 1
  funext a
  apply Fin.ext
  match a with
  | ⟨0, _⟩ => show win2_4.index t 0 * 128 + 1 * k.val = k.val; rw [e0]; omega
  | ⟨1, _⟩ => show win2_4.index t 1 * 128 + 1 * q.val = q.val; rw [e1]; omega

/-- The array window 5 leaves: the next layer's pre-aggregation features. -/
abbrev G5 (c : Dev nD) : S50000x128.Idx → EReal :=
  Cert.Spec.postPre (V c main_v42) (V c main_v14) (V c main_v16) (V c main_v10) (V c main_arg12)

/-- What point t writes back through window 5 is block t of that array. -/
theorem flushed_eq5 (c : Dev nD) (t : Fin cfg2.N) :
    (dat2 V c).flushed 5 t = ((cfg2.win 5).blk t).view.read (Elt Ideal) (G5 V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q) = G5 V c (((cfg2.win 5).blk t).view.emb (ix2 p q))
  have hemb : ((cfg2.win 5).blk t).view.emb (ix2 p q) = ix2 (row t p) q := by
    funext a
    apply Fin.ext
    match a with
    | ⟨0, _⟩ => show win2_5.index t 0 * 2000 + 1 * p.val = 2000 * t.val + p.val; rw [e0]; omega
    | ⟨1, _⟩ => show win2_5.index t 1 * 128 + 1 * q.val = q.val; rw [e1]; omega
  rw [hemb, Cert.KernelIdeal.RegPP.pay2_apply]
  unfold G5 Cert.Spec.postPre Cert.Spec.act
  refine Finset.sum_congr rfl fun k _ => ?_
  rw [iblk_0, iblk_1, iblk_2, iblk_3, iblk_4]
  try rfl

theorem mem_blk5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v43).slice (win2_5.rect t)).set ↔ _
  rw [View.set_slice_whole, Rect.mem_set_unit]
  exact Iff.rfl

/-- The array after the region, at every index (row r is written by point r / 2000). -/
theorem final5 (c : Dev nD) : (dat2 V c).arrAt 5 cfg2.N = G5 V c :=
  (dat2 V c).arrAt_eq_of_cover 5 (G5 V c) (fun t _ => flushed_eq5 V c t) fun i => by
    have hi0 : (i 0).val < 50000 := (i 0).isLt
    have hi1 : (i 1).val < 128 := (i 1).isLt
    have hN : cfg2.N = 25 := N_2
    have ht : (i 0).val / 2000 < cfg2.N := by rw [hN]; omega
    obtain ⟨e0, e1⟩ := idx_5 ⟨(i 0).val / 2000, ht⟩
    refine ⟨⟨(i 0).val / 2000, ht⟩, flush2_5 _, ?_⟩
    rw [mem_blk5]
    intro a
    match a with
    | ⟨0, _⟩ =>
      show win2_5.index ⟨(i 0).val / 2000, ht⟩ 0 * 2000 ≤ (i 0).val ∧ (i 0).val < win2_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win2_5.index ⟨(i 0).val / 2000, ht⟩ 1 * 128 ≤ (i 1).val ∧ (i 1).val < win2_5.index ⟨(i 0).val / 2000, ht⟩ 1 * 128 + 128
      rw [e1]; omega

end Cert.KernelIdeal.Reg2

end
-- ==== Proof.LibBlockSum.lean ====
/-
  A sum accumulated block by block is the plain sum.

  A grid of `a` points, each reducing its own block of `b` consecutive rows and adding the block's sum into a
  running total that starts at zero, ends with the sum over all `a * b` rows: addition in a commutative monoid may
  be regrouped freely, so the running total after `t` points is the sum of the first `t` block sums, and the block
  sums over consecutive blocks of length `b` concatenate to the sum over the whole range. Stated over natural-number
  indices (row `t * b + r` is row `r` of block `t`) and over `Fin`, in any commutative additive monoid — the
  extended reals among them, where regrouping is valid even at the infinities.
-/
import Mathlib.Algebra.BigOperators.Fin
import Mathlib.Algebra.BigOperators.Intervals

namespace Cert.LibBlockSum

variable {M : Type*} [AddCommMonoid M]

/-- Block sums over consecutive blocks of length `b` concatenate: the sum over `t < a` of the sums over `r < b` of
    `f (t * b + r)` is the sum of `f` over `i < a * b`. -/
theorem sum_blocks_range (a b : ℕ) (f : ℕ → M) :
    ∑ t ∈ Finset.range a, ∑ r ∈ Finset.range b, f (t * b + r) = ∑ i ∈ Finset.range (a * b), f i := by
  induction a with
  | zero => simp
  | succ a ih => rw [Finset.sum_range_succ, ih, Nat.succ_mul, Finset.sum_range_add]

/-- The same over `Fin`: rows indexed by `Fin (a * b)`, blocks by `Fin a`, rows within a block by `Fin b`. -/
theorem sum_blocks_fin (a b : ℕ) (f : ℕ → M) :
    ∑ t : Fin a, ∑ r : Fin b, f (t.val * b + r.val) = ∑ i : Fin (a * b), f i.val := by
  rw [Fin.sum_univ_eq_sum_range (fun i => f i) (a * b), ← sum_blocks_range a b f,
    Fin.sum_univ_eq_sum_range (fun t => ∑ r : Fin b, f (t * b + r.val)) a]
  refine Finset.sum_congr rfl fun t _ => ?_
  exact Fin.sum_univ_eq_sum_range (fun r => f (t * b + r)) b

/-- A running total that starts at `z` and adds `s t` at point `t`: after `n` points it is `z` plus the sum of the
    first `n` terms. -/
def running (z : M) (s : ℕ → M) : ℕ → M
  | 0 => z
  | n + 1 => running z s n + s n

theorem running_eq (z : M) (s : ℕ → M) (n : ℕ) : running z s n = z + ∑ t ∈ Finset.range n, s t := by
  induction n with
  | zero => simp [running]
  | succ n ih => rw [running, ih, Finset.sum_range_succ, add_assoc]

/-- Accumulating the block sums from zero gives the sum over every row. -/
theorem running_blocks (a b : ℕ) (f : ℕ → M) :
    running 0 (fun t => ∑ r ∈ Finset.range b, f (t * b + r)) a = ∑ i ∈ Finset.range (a * b), f i := by
  rw [running_eq, zero_add, sum_blocks_range]

end Cert.LibBlockSum
-- ==== Proof.Reg3.lean ====
/-
  The last layer's activation, the linear head, and the head's column sums, block by block.

  The grid has 25 points; point `t` holds rows `2000 t … 2000 t + 1999` of the aggregated array and of the target
  normaliser, and the whole bias row, head matrix and head bias. At every point the body writes block `t` of the
  embedding: entry `(p, q)` is the sum over `k` of `elu (agg[p,k] * nd[p] + b[k]) * wl[k,q]`, plus `bl[q]`; the
  ELU is written `select (z > 0) z (exp (min z 0) - 1)`, and on the branch that is kept the clamp `min z 0` is `z`.
  The second output is one row of 128 running totals whose block never moves: the first point zeroes it, every
  point adds the column sums of its embedding block, and only the last point writes it back. After point `n` it
  holds the sum of the first `n + 1` block sums, after the last the column sums over all 50000 rows: addition on
  the extended reals is commutative and associative, so consecutive block sums concatenate.
-/
import proofs.«148151_j29411936043366_2_alg».proof.Proof.Gen.KernelIdeal.Frame
import proofs.«148151_j29411936043366_2_alg».proof.Proof.Spec
import proofs.«148151_j29411936043366_2_alg».proof.Proof.KDot
import proofs.«148151_j29411936043366_2_alg».proof.Proof.LibBlockSum
import proofs.«148151_j29411936043366_2_alg».proof.Proof.LibElu
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-- The zero offsets of a load or store of a whole block. -/
theorem hz : (![0, 0] : Fin 2 → Nat) = fun _ => 0 := funext fun a => by fin_cases a <;> rfl

/-! ## What each case leaves in the two outputs' buffers -/

section Pieces

variable {F : FTy → Type} [FloatOps F]

/-- The first point stores its embedding block. -/
theorem outA5_eq (c : Dev nD) (i : grid3.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : cond3_0 i)
    (x0 : Vec F S2000x128 .f32) (x1 : Vec F S2000x1 .f32) (x2 : Vec F S1x128 .f32) (x3 : Vec F S128x128 .f32) (x4 : Vec F S1x128 .f32) :
    out3_A_5 c i arg1 harg1 arg2 harg2 arg3 harg3 arg4 harg4 arg5 harg5 arg6 harg6 arg7 harg7 hc0 x0 x1 x2 x3 x4 = k3_pay2 x0 x1 x2 x3 x4 := by
  unfold out3_A_5
  rw [View.read_writes_eq_canon _ _ _ (cover3_A_5 c i arg1 harg1 arg2 harg2 arg3 harg3 arg4 harg4 arg5 harg5 arg6 harg6 arg7 harg7 hc0 x0 x1 x2 x3 x4)]
  unfold kernelRun3_A
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- So does every later point. -/
theorem outB5_eq (c : Dev nD) (i : grid3.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : ¬cond3_0 i)
    (x0 : Vec F S2000x128 .f32) (x1 : Vec F S2000x1 .f32) (x2 : Vec F S1x128 .f32) (x3 : Vec F S128x128 .f32) (x4 : Vec F S1x128 .f32) (xo6 : Vec F S1x128 .f32) :
    out3_B_5 c i arg1 harg1 arg2 harg2 arg3 harg3 arg4 harg4 arg5 harg5 arg6 harg6 arg7 harg7 hc0 x0 x1 x2 x3 x4 xo6 = k3_pay2 x0 x1 x2 x3 x4 := by
  unfold out3_B_5
  rw [View.read_writes_eq_canon _ _ _ (cover3_B_5 c i arg1 harg1 arg2 harg2 arg3 harg3 arg4 harg4 arg5 harg5 arg6 harg6 arg7 harg7 hc0 x0 x1 x2 x3 x4 xo6)]
  unfold kernelRun3_B
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- The first point stores the zero row, reads it back, and stores the block's column sums over it. -/
theorem outA6_eq (c : Dev nD) (i : grid3.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : cond3_0 i)
    (x0 : Vec F S2000x128 .f32) (x1 : Vec F S2000x1 .f32) (x2 : Vec F S1x128 .f32) (x3 : Vec F S128x128 .f32) (x4 : Vec F S1x128 .f32) :
    out3_A_6 c i arg1 harg1 arg2 harg2 arg3 harg3 arg4 harg4 arg5 harg5 arg6 harg6 arg7 harg7 hc0 x0 x1 x2 x3 x4 = k3_pay3 x0 x1 x2 x3 x4 (k3_pay1 (F := F)) := by
  unfold out3_A_6
  rw [View.read_writes_eq_canon _ _ _ (cover3_A_6 c i arg1 harg1 arg2 harg2 arg3 harg3 arg4 harg4 arg5 harg5 arg6 harg6 arg7 harg7 hc0 x0 x1 x2 x3 x4)]
  unfold kernelRun3_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- A later point stores the block's column sums over what the row held. -/
theorem outB6_eq (c : Dev nD) (i : grid3.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : ¬cond3_0 i)
    (x0 : Vec F S2000x128 .f32) (x1 : Vec F S2000x1 .f32) (x2 : Vec F S1x128 .f32) (x3 : Vec F S128x128 .f32) (x4 : Vec F S1x128 .f32) (xo6 : Vec F S1x128 .f32) :
    out3_B_6 c i arg1 harg1 arg2 harg2 arg3 harg3 arg4 harg4 arg5 harg5 arg6 harg6 arg7 harg7 hc0 x0 x1 x2 x3 x4 xo6 = k3_pay3 x0 x1 x2 x3 x4 xo6 := by
  unfold out3_B_6
  rw [View.read_writes_eq_canon _ _ _ (cover3_B_6 c i arg1 harg1 arg2 harg2 arg3 harg3 arg4 harg4 arg5 harg5 arg6 harg6 arg7 harg7 hc0 x0 x1 x2 x3 x4 xo6)]
  unfold kernelRun3_B
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

end Pieces

/-! ## The body's arithmetic at an entry -/

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of f32 1.0 is the extended real one. -/
theorem ofBits_one_f32 : Ideal.ofBits .f32 0x3F800000#32 = 1 := IdealRules.sign_bit.ideal_onePat .f32

/-- The body's ELU at an entry: the test `z > 0` selects `z`, else `exp (min z 0) - 1`, where `min z 0 = z`. -/
theorem elu_apply (z : FVec Ideal S2000x128 .f32) (i : S2000x128.Idx) :
    (select (cmpf .ogt z (broadcast S2000x128 (Scalar.ofBits .f32 0x00000000#32))) z
        (subf (exp (minimumf z (broadcast S2000x128 (Scalar.ofBits .f32 0x00000000#32))))
          (broadcast S2000x128 (Scalar.ofBits .f32 0x3F800000#32))) : FVec Ideal S2000x128 .f32) i
      = Cert.Spec.elu (z i) := by
  show Scalar.select (Ideal.cmp .ogt (z i) (Ideal.ofBits .f32 0x00000000#32)) (z i)
      (Ideal.exp (min (z i) (Ideal.ofBits .f32 0x00000000#32)) - Ideal.ofBits .f32 0x3F800000#32) = _
  rw [Ideal.ofBits_zero_f32, ofBits_one_f32, Cert.LibElu.select_cmp_ogt_zero]
  unfold Cert.Spec.elu
  by_cases h : (0 : EReal) < z i
  · rw [if_pos h, if_pos h]
  · rw [if_neg h, if_neg h, min_eq_left (not_lt.mp h)]

/-- The same entry after the narrowing cast the matrix unit's operand carries: on the extended reals the cast is the identity. -/
theorem act_apply (z : FVec Ideal S2000x128 .f32) (i : S2000x128.Idx) :
    (truncf .bf16 (select (cmpf .ogt z (broadcast S2000x128 (Scalar.ofBits .f32 0x00000000#32))) z
        (subf (exp (minimumf z (broadcast S2000x128 (Scalar.ofBits .f32 0x00000000#32))))
          (broadcast S2000x128 (Scalar.ofBits .f32 0x3F800000#32)))) bitsLt_bf16_f32 : FVec Ideal S2000x128 .bf16) i
      = Cert.Spec.elu (z i) := elu_apply z i

/-- The ELU's argument at `(p, k)`: the aggregated entry scaled by its row's normaliser, plus the bias of column `k`. -/
theorem pre_apply (x0 : Vec Ideal S2000x128 .f32) (x1 : Vec Ideal S2000x1 .f32) (x2 : Vec Ideal S1x128 .f32) (p : Fin 2000) (k : Fin 128) :
    (addf (mulf (shapeCast S2000x128 x0 shapeCasts_S2000x128_S2000x128)
          (broadcastTo S2000x128 (shapeCast S2000x1 x1 shapeCasts_S2000x1_S2000x1) broadcasts_S2000x1_S2000x128))
        (broadcastTo S2000x128 (shapeCast S1x128 x2 shapeCasts_S1x128_S1x128) broadcasts_S1x128_S2000x128) : FVec Ideal S2000x128 .f32) (ix2 p k)
      = x0 (ix2 p k) * x1 (ix2 p 0) + x2 (ix2 0 k) := by
  refine (addf_apply _ _ _).trans ?_
  refine congrArg₂ (· + ·) ?_ ?_
  · refine (mulf_apply _ _ _).trans ?_
    refine congrArg₂ (· * ·) (congrFun (shapeCast_self x0 _) _) ?_
    exact (broadcastTo_a1_ab_apply _ _ p k).trans (congrFun (shapeCast_self x1 _) _)
  · exact (broadcastTo_1b_ab_apply _ _ p k).trans (congrFun (shapeCast_self x2 _) _)

/-- The embedding block at `(p, q)`: the activated row `p` times column `q` of the head matrix, plus the head's bias. -/
theorem pay2_apply (x0 : Vec Ideal S2000x128 .f32) (x1 : Vec Ideal S2000x1 .f32) (x2 : Vec Ideal S1x128 .f32)
    (x3 : Vec Ideal S128x128 .f32) (x4 : Vec Ideal S1x128 .f32) (p : Fin 2000) (q : Fin 128) :
    k3_pay2 x0 x1 x2 x3 x4 (ix2 p q)
      = (∑ k : Fin 128, Cert.Spec.elu (x0 (ix2 p k) * x1 (ix2 p 0) + x2 (ix2 0 k)) * x3 (ix2 k q)) + x4 (ix2 0 q) := by
  unfold k3_pay2
  try dsimp only
  refine (addf_apply _ _ _).trans ?_
  refine congrArg₂ (· + ·) ?_ ?_
  · refine (Cert.KernelIdeal.KDot.matmul_apply _ _ p q).trans ?_
    refine Finset.sum_congr rfl fun k _ => ?_
    refine congrArg₂ (· * ·) ?_ rfl
    exact (act_apply _ _).trans (congrArg Cert.Spec.elu (pre_apply x0 x1 x2 p k))
  · exact (broadcastTo_1b_ab_apply _ _ p q).trans (congrFun (shapeCast_self x4 _) _)

/-- The reduction over the rows of a block, at column `q`: the sum over the 2000 rows. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src (funext fun a => Fin.ext ?_)
  match a with
  | ⟨0, _⟩ => rfl
  | ⟨1, _⟩ => rfl

/-- The zero row the first point stores. -/
theorem pay1_apply (q : Fin 128) : k3_pay1 (F := Ideal) (ix2 0 q) = 0 := by
  unfold k3_pay1
  exact Ideal.ofBits_zero_f32

/-- The stored row at column `q`: what the row held there plus the column sum of the point's embedding block. -/
theorem pay3_apply (x0 : Vec Ideal S2000x128 .f32) (x1 : Vec Ideal S2000x1 .f32) (x2 : Vec Ideal S1x128 .f32)
    (x3 : Vec Ideal S128x128 .f32) (x4 : Vec Ideal S1x128 .f32) (acc : Vec Ideal S1x128 .f32) (q : Fin 128) :
    k3_pay3 x0 x1 x2 x3 x4 acc (ix2 0 q) = acc (ix2 0 q) + ∑ p : Fin 2000, k3_pay2 x0 x1 x2 x3 x4 (ix2 p q) := by
  unfold k3_pay3
  dsimp only
  refine (addf_apply _ _ _).trans ?_
  refine congrArg₂ (· + ·) (congrFun (shapeCast_self acc _) _) ?_
  refine (shapeCast_a_1a_apply _ _ 0 q).trans ?_
  exact colsum_apply _ q

/-! ## The blocks as rows of the arrays -/

variable (V : (c : Dev nD) → (b : Ref sig .tc) → Buf (Elt Ideal) ((c : Thread nD τ).loc b))

/-- The printed index maps over the grid: the aggregated array's, the normaliser's and the embedding's block at point
    `t` is block `(t, 0)`; the bias row's, the head matrix's, the head bias's and the sums' is block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0 :=
  (by decide +kernel : ∀ t : Fin grid3.N, _)

/-- Row `p` of the aggregated block at point `t` is row `2000 t + p` of the array. -/
theorem iblk0_apply (c : Dev nD) (t : Fin cfg3.N) (p : Fin 2000) (k : Fin 128) (r : Fin 50000) (hr : r.val = t.val * 2000 + p.val) :
    (iblk3 V c 0 t : Vec Ideal S2000x128 .f32) (ix2 p k) = (V c main_v54 : S50000x128.Idx → EReal) (ix2 r k) := by
  obtain ⟨e0, e1, -⟩ := idx_facts t
  unfold iblk3
  rw [View.read_apply]
  show V c main_v54 _ = V c main_v54 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

/-- Row `p` of the normaliser's block at point `t` is row `2000 t + p` of the column. -/
theorem iblk1_apply (c : Dev nD) (t : Fin cfg3.N) (p : Fin 2000) (r : Fin 50000) (hr : r.val = t.val * 2000 + p.val) :
    (iblk3 V c 1 t : Vec Ideal S2000x1 .f32) (ix2 p 0) = (V c main_v14 : S50000x1.Idx → EReal) (ix2 r 0) := by
  obtain ⟨-, -, e0, e1, -⟩ := idx_facts t
  unfold iblk3
  rw [View.read_apply]
  show V c main_v14 _ = V c main_v14 _
  congr 1
  funext a
  apply Fin.ext
  match a with
  | ⟨0, _⟩ => show win3_1.index t (0 : Fin 2) * 2000 + 1 * p.val = r.val; rw [e0, hr]; omega
  | ⟨1, _⟩ => show win3_1.index t (1 : Fin 2) * 1 + 1 * 0 = 0; rw [e1]

/-- The bias row's block at every point is the row. -/
theorem iblk2_apply (c : Dev nD) (t : Fin cfg3.N) (k : Fin 128) :
    (iblk3 V c 2 t : Vec Ideal S1x128 .f32) (ix2 0 k) = (V c main_v17 : S1x128.Idx → EReal) (ix2 0 k) := by
  obtain ⟨-, -, -, -, e0, e1, -⟩ := idx_facts t
  unfold iblk3
  rw [View.read_apply]
  show V c main_v17 _ = V c main_v17 _
  congr 1
  funext a
  apply Fin.ext
  match a with
  | ⟨0, _⟩ => show win3_2.index t (0 : Fin 2) * 1 + 1 * 0 = 0; rw [e0]
  | ⟨1, _⟩ => show win3_2.index t (1 : Fin 2) * 128 + 1 * k.val = k.val; rw [e1]; omega

/-- The head matrix's block at every point is the matrix. -/
theorem iblk3_apply (c : Dev nD) (t : Fin cfg3.N) (k q : Fin 128) :
    (iblk3 V c 3 t : Vec Ideal S128x128 .f32) (ix2 k q) = (V c main_arg14 : S128x128.Idx → EReal) (ix2 k q) := by
  obtain ⟨-, -, -, -, -, -, e0, e1, -⟩ := idx_facts t
  unfold iblk3
  rw [View.read_apply]
  show V c main_arg14 _ = V c main_arg14 _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The head bias's block at every point is the row. -/
theorem iblk4_apply (c : Dev nD) (t : Fin cfg3.N) (q : Fin 128) :
    (iblk3 V c 4 t : Vec Ideal S1x128 .f32) (ix2 0 q) = (V c main_v18 : S1x128.Idx → EReal) (ix2 0 q) := by
  obtain ⟨-, -, -, -, -, -, -, -, e0, e1, -⟩ := idx_facts t
  unfold iblk3
  rw [View.read_apply]
  show V c main_v18 _ = V c main_v18 _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- The body's embedding block at point `t`, entry `(p, q)`, is the embedding at row `2000 t + p`, column `q`. -/
theorem head_block (c : Dev nD) (t : Fin cfg3.N) (x0 : Vec Ideal S2000x128 .f32) (x1 : Vec Ideal S2000x1 .f32) (x2 : Vec Ideal S1x128 .f32)
    (x3 : Vec Ideal S128x128 .f32) (x4 : Vec Ideal S1x128 .f32)
    (h0 : x0 = iblk3 V c 0 t) (h1 : x1 = iblk3 V c 1 t) (h2 : x2 = iblk3 V c 2 t) (h3 : x3 = iblk3 V c 3 t) (h4 : x4 = iblk3 V c 4 t)
    (p : Fin 2000) (q : Fin 128) (r : Fin 50000) (hr : r.val = t.val * 2000 + p.val) :
    k3_pay2 x0 x1 x2 x3 x4 (ix2 p q) = Cert.Spec.head (V c main_v54) (V c main_v14) (V c main_v17) (V c main_arg14) (V c main_v18) (ix2 r q) := by
  subst h0 h1 h2 h3 h4
  rw [pay2_apply]
  unfold Cert.Spec.head Cert.Spec.act
  refine congrArg₂ (· + ·) (Finset.sum_congr rfl fun k _ => ?_) (iblk4_apply V c t q)
  rw [iblk0_apply V c t p k r hr, iblk1_apply V c t p r hr, iblk2_apply V c t k, iblk3_apply V c t k q]

/-! ## What the two outputs hold after each point -/

/-- After every point the embedding's buffer holds the point's embedding block. -/
theorem outsAt_fst (c : Dev nD) (t : Fin cfg3.N) :
    (outsAt3 V c t.val t.isLt).1 = k3_pay2 (iblk3 V c 0 t) (iblk3 V c 1 t) (iblk3 V c 2 t) (iblk3 V c 3 t) (iblk3 V c 4 t) := by
  by_cases h0 : t.val % 25 = 0
  · rw [outsAt3_A V c t h0]
    dsimp only
    rw [outA5_eq]
  · rw [outsAt3_B V c t h0]
    dsimp only
    rw [outB5_eq]

/-- Row `r`'s embedding entry at column `q`; zero past the last row (no point reads there). -/
def term (e : Cert.Spec.SNxD.Idx → EReal) (q : Fin 128) (r : ℕ) : EReal :=
  if h : r < 50000 then e (ix2 ⟨r, h⟩ q) else 0

/-- Point `t`'s addend at column `q`: the column sum of its embedding block. -/
theorem block_sum (c : Dev nD) (t : Fin cfg3.N) (q : Fin 128) (x0 : Vec Ideal S2000x128 .f32) (x1 : Vec Ideal S2000x1 .f32) (x2 : Vec Ideal S1x128 .f32)
    (x3 : Vec Ideal S128x128 .f32) (x4 : Vec Ideal S1x128 .f32)
    (h0 : x0 = iblk3 V c 0 t) (h1 : x1 = iblk3 V c 1 t) (h2 : x2 = iblk3 V c 2 t) (h3 : x3 = iblk3 V c 3 t) (h4 : x4 = iblk3 V c 4 t) :
    ∑ p : Fin 2000, k3_pay2 x0 x1 x2 x3 x4 (ix2 p q)
      = ∑ p ∈ Finset.range 2000, term (Cert.Spec.head (V c main_v54) (V c main_v14) (V c main_v17) (V c main_arg14) (V c main_v18)) q (t.val * 2000 + p) := by
  have hN : t.val < 25 := lt_of_lt_of_eq t.isLt (show cfg3.N = 25 from N_3)
  rw [← Fin.sum_univ_eq_sum_range (fun p => term (Cert.Spec.head (V c main_v54) (V c main_v14) (V c main_v17) (V c main_arg14) (V c main_v18)) q (t.val * 2000 + p)) 2000]
  refine Finset.sum_congr rfl fun p _ => ?_
  have hp : p.val < 2000 := p.isLt
  have h : t.val * 2000 + p.val < 50000 := by omega
  rw [term, dif_pos h]
  exact head_block V c t x0 x1 x2 x3 x4 h0 h1 h2 h3 h4 p q ⟨t.val * 2000 + p.val, h⟩ rfl

/-- After point `n` the sums' row holds, at column `q`, the sum of the first `n + 1` block sums. -/
theorem outsAt_snd_apply (c : Dev nD) (q : Fin 128) : ∀ (n : ℕ) (hn : n < cfg3.N),
    ((outsAt3 V c n hn).2 : Vec Ideal S1x128 .f32) (ix2 0 q)
      = ∑ s ∈ Finset.range (n + 1), ∑ p ∈ Finset.range 2000, term (Cert.Spec.head (V c main_v54) (V c main_v14) (V c main_v17) (V c main_arg14) (V c main_v18)) q (s * 2000 + p)
  | 0, hn => by
    rw [outsAt3_A V c ⟨0, hn⟩ rfl]
    dsimp only
    rw [outA6_eq, pay3_apply, pay1_apply, zero_add,
      block_sum V c ⟨0, hn⟩ q (iblk3 V c 0 ⟨0, hn⟩) (iblk3 V c 1 ⟨0, hn⟩) (iblk3 V c 2 ⟨0, hn⟩) (iblk3 V c 3 ⟨0, hn⟩) (iblk3 V c 4 ⟨0, hn⟩) rfl rfl rfl rfl rfl, Finset.sum_range_one]
  | n + 1, hn => by
    have hN : cfg3.N = 25 := N_3
    have hB : ¬(⟨n + 1, hn⟩ : Fin cfg3.N).val % 25 = 0 := by dsimp only; omega
    rw [outsAt3_B V c ⟨n + 1, hn⟩ hB]
    dsimp only
    rw [outB6_eq, pay3_apply,
      block_sum V c ⟨n + 1, hn⟩ q (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) rfl rfl rfl rfl rfl, Finset.sum_range_succ _ (n + 1)]
    refine congrArg₂ (· + ·) ?_ rfl
    exact outsAt_snd_apply c q n (Nat.lt_of_succ_lt hn)

/-- The last point. -/
theorem lt_last : 24 < cfg3.N := by rw [show cfg3.N = 25 from N_3]; decide
abbrev tLast : Fin cfg3.N := ⟨24, lt_last⟩

/-- After the last point the row is the embedding's column sums over every row. -/
theorem after_last (c : Dev nD) :
    ((outsAt3 V c tLast.val tLast.isLt).2 : Vec Ideal S1x128 .f32) = Cert.Spec.colSum (Cert.Spec.head (V c main_v54) (V c main_v14) (V c main_v17) (V c main_arg14) (V c main_v18)) := by
  funext j
  obtain ⟨u, q, rfl⟩ : ∃ (u : Fin 1) (q : Fin 128), j = ix2 u q := ⟨j 0, j 1, eq_ix2 j⟩
  obtain rfl : u = 0 := Subsingleton.elim _ _
  rw [outsAt_snd_apply V c q 24 lt_last, Cert.LibBlockSum.sum_blocks_range 25 2000 (term (Cert.Spec.head (V c main_v54) (V c main_v14) (V c main_v17) (V c main_arg14) (V c main_v18)) q),
    ← Fin.sum_univ_eq_sum_range (term (Cert.Spec.head (V c main_v54) (V c main_v14) (V c main_v17) (V c main_arg14) (V c main_v18)) q) (25 * 2000)]
  show ∑ r : Fin 50000, term (Cert.Spec.head (V c main_v54) (V c main_v14) (V c main_v17) (V c main_arg14) (V c main_v18)) q r.val = _
  unfold Cert.Spec.colSum
  refine Finset.sum_congr rfl fun r _ => ?_
  rw [term, dif_pos r.isLt]

/-! ## The arrays after the region -/

/-- Every point writes back its embedding block: block `t` of the embedding. -/
theorem flushed5_eq (c : Dev nD) (t : Fin cfg3.N) (hf : (cfg3.win 5).flush t = true) :
    (dat3 V c).flushed 5 t = ((cfg3.win 5).blk t).view.read (Elt Ideal) (Cert.Spec.head (V c main_v54) (V c main_v14) (V c main_v17) (V c main_arg14) (V c main_v18)) := by
  have hN : t.val < 25 := lt_of_lt_of_eq t.isLt (show cfg3.N = 25 from N_3)
  obtain ⟨-, -, -, -, -, -, -, -, -, -, e0, e1, -⟩ := idx_facts t
  show (cfg3.win 5).cut (grid3.coords t) ((dat3 V c).after 5 t) = _
  rw [after3_5, outsAt_fst]
  funext y
  have hy0 : (y 0).val < 2000 := (y 0).isLt
  have hy1 : (y 1).val < 128 := (y 1).isLt
  have hr : t.val * 2000 + (y 0).val < 50000 := by omega
  show k3_pay2 (iblk3 V c 0 t) (iblk3 V c 1 t) (iblk3 V c 2 t) (iblk3 V c 3 t) (iblk3 V c 4 t) y = Cert.Spec.head (V c main_v54) (V c main_v14) (V c main_v17) (V c main_arg14) (V c main_v18) (((cfg3.win 5).blk t).view.emb y)
  have ey : y = ix2 (⟨(y 0).val, hy0⟩ : Fin 2000) (⟨(y 1).val, hy1⟩ : Fin 128) := funext fun a => by
    match a with
    | ⟨0, _⟩ => rfl
    | ⟨1, _⟩ => rfl
  have ee : ((cfg3.win 5).blk t).view.emb y = ix2 (⟨t.val * 2000 + (y 0).val, hr⟩ : Fin 50000) (⟨(y 1).val, hy1⟩ : Fin 128) := funext fun a => Fin.ext (by
    match a with
    | ⟨0, _⟩ => show win3_5.index t (0 : Fin 2) * 2000 + 1 * (y 0).val = t.val * 2000 + (y 0).val; rw [e0]; omega
    | ⟨1, _⟩ => show win3_5.index t (1 : Fin 2) * 128 + 1 * (y 1).val = (y 1).val; rw [e1]; omega)
  rw [ee]
  refine (congrArg _ ey).trans ?_
  exact head_block V c t (iblk3 V c 0 t) (iblk3 V c 1 t) (iblk3 V c 2 t) (iblk3 V c 3 t) (iblk3 V c 4 t) rfl rfl rfl rfl rfl _ _ _ rfl

/-- The embedding array after the region. -/
theorem final_emb (c : Dev nD) : (dat3 V c).arrAt 5 cfg3.N = Cert.Spec.head (V c main_v54) (V c main_v14) (V c main_v17) (V c main_arg14) (V c main_v18) :=
  (dat3 V c).arrAt_eq_of_cover 5 (Cert.Spec.head (V c main_v54) (V c main_v14) (V c main_v17) (V c main_arg14) (V c main_v18)) (flushed5_eq V c) fun i => by
    have hi0 : (i 0 : Nat) < 50000 := (i 0).isLt
    have hi1 : (i 1 : Nat) < 128 := (i 1).isLt
    have ht : (i 0 : Nat) / 2000 < cfg3.N := by rw [show cfg3.N = 25 from N_3]; omega
    obtain ⟨-, -, -, -, -, -, -, -, -, -, e0, e1, -⟩ := idx_facts ⟨(i 0 : Nat) / 2000, ht⟩
    refine ⟨⟨(i 0 : Nat) / 2000, ht⟩, flush3_5 _, ?_⟩
    show i ∈ ((View.whole main_v55_0).slice (win3_5.rect ⟨(i 0 : Nat) / 2000, ht⟩)).set
    rw [View.set_slice_whole, Rect.mem_set_unit]
    intro a
    match a with
    | ⟨0, _⟩ => show win3_5.index ⟨(i 0 : Nat) / 2000, ht⟩ (0 : Fin 2) * 2000 ≤ (i 0 : Nat) ∧ (i 0 : Nat) < win3_5.index ⟨(i 0 : Nat) / 2000, ht⟩ (0 : Fin 2) * 2000 + 2000
                rw [e0]; dsimp only; omega
    | ⟨1, _⟩ => show win3_5.index ⟨(i 0 : Nat) / 2000, ht⟩ (1 : Fin 2) * 128 ≤ (i 1 : Nat) ∧ (i 1 : Nat) < win3_5.index ⟨(i 0 : Nat) / 2000, ht⟩ (1 : Fin 2) * 128 + 128
                rw [e1]; omega

/-- The one write-back of the sums, at the last point, writes the whole row: block `(0, 0)` of a `[1, 128]` array is the array. -/
theorem flushed6_eq (c : Dev nD) (t : Fin cfg3.N) (hf : (cfg3.win 6).flush t = true) :
    (dat3 V c).flushed 6 t = ((cfg3.win 6).blk t).view.read (Elt Ideal) (Cert.Spec.colSum (Cert.Spec.head (V c main_v54) (V c main_v14) (V c main_v17) (V c main_arg14) (V c main_v18))) := by
  have hN : cfg3.N = 25 := N_3
  have h24 : t.val = 24 := by have := (flush3_6 t).mp hf; have := t.isLt; omega
  obtain rfl : t = tLast := Fin.ext h24
  show (cfg3.win 6).cut (grid3.coords tLast) ((dat3 V c).after 6 tLast) = _
  rw [after3_6, after_last]
  have hz' : (fun a => win3_6.index tLast a * main_v55_1.ty.shape.size a) = fun _ => 0 := funext fun a => by fin_cases a <;> decide +kernel
  exact (Memref.read_access_unit_zero (Elt Ideal) main_v55_1 hz' (fun a => by rw [congrFun hz' a]; simp) _).symm

/-- The sums' array after the region: the column sums of the embedding. -/
theorem final_sum (c : Dev nD) : (dat3 V c).arrAt 6 cfg3.N = Cert.Spec.colSum (Cert.Spec.head (V c main_v54) (V c main_v14) (V c main_v17) (V c main_arg14) (V c main_v18)) :=
  (dat3 V c).arrAt_eq_of_cover 6 (Cert.Spec.colSum (Cert.Spec.head (V c main_v54) (V c main_v14) (V c main_v17) (V c main_arg14) (V c main_v18))) (flushed6_eq V c) fun i =>
    ⟨tLast, (flush3_6 tLast).mpr rfl, by
      obtain ⟨-, -, -, -, -, -, -, -, -, -, -, -, e0, e1⟩ := idx_facts tLast
      show i ∈ ((View.whole main_v55_1).slice (win3_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win3_6.index tLast (0 : Fin 2) * 1 ≤ (i 0 : Nat) ∧ (i 0 : Nat) < win3_6.index tLast (0 : Fin 2) * 1 + 1
                  rw [e0]; omega
      | ⟨1, _⟩ => show win3_6.index tLast (1 : Fin 2) * 128 ≤ (i 1 : Nat) ∧ (i 1 : Nat) < win3_6.index tLast (1 : Fin 2) * 128 + 128
                  rw [e1]; omega⟩

end Cert.KernelIdeal.Reg3

end
-- ==== Proof.Reg4Pay.lean ====
/-
  Region 4 (region 0's body on the second graph): dropout, source normalisation and the first layer's product, block by block.
  The body's arithmetic read at an index: entry (p, q) of a block's result is the sum over k of
  x[p,k] * keep(mask[p,k]) * 1.25 * ns[p] times w[k,q], the rounding to bf16 on the way in and out being the identity
  on the extended reals.
-/
import proofs.«148151_j29411936043366_2_alg».proof.Proof.Gen.KernelIdeal.Skeleton
import proofs.«148151_j29411936043366_2_alg».proof.Proof.Spec
import proofs.«148151_j29411936043366_2_alg».proof.Proof.KDot
import proofs.«148151_j29411936043366_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg4

open Cert.KernelIdeal Cert.KernelIdeal.Gen Idealize.ShloMosaic Idealize.ShloMosaic.ValueIdx

/-- The kept factor as the body spells it: the test `mask > 0.2` widened to a word and read as a signed integer. -/
theorem keep_eq (mk : EReal) :
    FloatOps.sitofp (F := Ideal) .f32 ((FloatOps.cmpf .ogt mk (FloatOps.ofBits (F := Ideal) .f32 0x3E4CCCCD#32)).setWidth 32) = Cert.Spec.keep mk := by
  show (((((Ideal.cmp .ogt mk (Ideal.ofBits .f32 0x3E4CCCCD#32)).setWidth 32).toInt : ℝ)) : EReal) = _
  unfold Cert.Spec.keep Cert.Spec.thr Ideal.cmp
  by_cases h : Ideal.ofBits .f32 0x3E4CCCCD#32 < mk
  · simp [h]
  · simp [h]

theorem pay1_apply (mk x : Vec Ideal S2000x128 .f32) (ns : Vec Ideal S2000x1 .f32) (w : Vec Ideal S128x128 .f32)
    (p : Fin 2000) (q : Fin 128) :
    k4_pay1 mk x ns w (ix2 p q)
      = ∑ k : Fin 128, (x (ix2 p k) * Cert.Spec.keep (mk (ix2 p k)) * Cert.Spec.inv_keep * ns (ix2 p 0)) * w (ix2 k q) := by
  unfold k4_pay1
  rw [truncf_apply]
  refine (KDot.matmul_apply _ _ p q).trans ?_
  refine Finset.sum_congr rfl fun k _ => ?_
  rw [truncf_apply, truncf_apply, mulf_apply, mulf_apply, mulf_apply, broadcast_apply, sitofp_apply, extui_apply, cmpf_apply,
    broadcast_apply, shapeCast_self, Cert.LibLayout.broadcastTo_a1_ab_apply, keep_eq]
  rfl

end Cert.KernelIdeal.Reg4

end
-- ==== Proof.Reg4.lean ====
/-
  Region 4 (the second graph's first layer): from blocks to the array. Grid point t stages rows 2000 t … 2000 t + 1999 of the features, of the mask
  and of the source normaliser, and the whole weight matrix; it writes back rows 2000 t … 2000 t + 1999 of the
  result. Every row lies in exactly the block of point (row / 2000), so after the 25 points the result array is, at
  every index, the specification's `dropPre` of the arrays the region found.
-/
import proofs.«148151_j29411936043366_2_alg».proof.Proof.Gen.KernelIdeal.Frame
import proofs.«148151_j29411936043366_2_alg».proof.Proof.Reg4Pay
import Idealize.ShloMosaic.Lib.Pipeline.Value
import Idealize.ShloMosaic.Lib.Tactic

set_option maxRecDepth 16384

noncomputable section

namespace Cert.KernelIdeal.Reg4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row-blocked windows at block row t, the weights at the origin. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of point t's block is row 2000 t + p of the array. -/
def row (t : Fin cfg4.N) (p : Fin 2000) : Fin 50000 :=
  ⟨2000 * t.val + p.val, by have := t.isLt; have hN : cfg4.N = 25 := N_4; have := p.isLt; omega⟩

theorem iblk_x (c : Dev nD) (t : Fin cfg4.N) (p : Fin 2000) (k : Fin 128) :
    (iblk4 V c 0 t : Vec Ideal S2000x128 .f32) (ix2 p k) = (V c main_arg1 : S50000x128.Idx → EReal) (ix2 (row t p) k) := by
  obtain ⟨e0, e1, -⟩ := idx_facts t
  unfold iblk4
  rw [View.read_apply]
  show V c main_arg1 _ = V c main_arg1 _
  congr 1
  funext a
  apply Fin.ext
  match a with
  | ⟨0, _⟩ => show win4_0.index t 0 * 2000 + 1 * p.val = 2000 * t.val + p.val; rw [e0]; omega
  | ⟨1, _⟩ => show win4_0.index t 1 * 128 + 1 * k.val = k.val; rw [e1]; omega

theorem iblk_mask (c : Dev nD) (t : Fin cfg4.N) (p : Fin 2000) (k : Fin 128) :
    (iblk4 V c 1 t : Vec Ideal S2000x128 .f32) (ix2 p k) = (V c main_arg3 : S50000x128.Idx → EReal) (ix2 (row t p) k) := by
  obtain ⟨-, -, e0, e1, -⟩ := idx_facts t
  unfold iblk4
  rw [View.read_apply]
  show V c main_arg3 _ = V c main_arg3 _
  congr 1
  funext a
  apply Fin.ext
  match a with
  | ⟨0, _⟩ => show win4_1.index t 0 * 2000 + 1 * p.val = 2000 * t.val + p.val; rw [e0]; omega
  | ⟨1, _⟩ => show win4_1.index t 1 * 128 + 1 * k.val = k.val; rw [e1]; omega

theorem iblk_ns (c : Dev nD) (t : Fin cfg4.N) (p : Fin 2000) :
    (iblk4 V c 2 t : Vec Ideal S2000x1 .f32) (ix2 p 0) = (V c main_v66 : S50000x1.Idx → EReal) (ix2 (row t p) 0) := by
  obtain ⟨-, -, -, -, e0, e1, -⟩ := idx_facts t
  unfold iblk4
  rw [View.read_apply]
  show V c main_v66 _ = V c main_v66 _
  congr 1
  funext a
  apply Fin.ext
  match a with
  | ⟨0, _⟩ => show win4_2.index t 0 * 2000 + 1 * p.val = 2000 * t.val + p.val; rw [e0]; omega
  | ⟨1, _⟩ => show win4_2.index t 1 * 1 + 1 * 0 = 0; rw [e1]

theorem iblk_w (c : Dev nD) (t : Fin cfg4.N) (k q : Fin 128) :
    (iblk4 V c 3 t : Vec Ideal S128x128 .f32) (ix2 k q) = (V c main_arg8 : S128x128.Idx → EReal) (ix2 k q) := by
  obtain ⟨-, -, -, -, -, -, e0, e1, -⟩ := idx_facts t
  unfold iblk4
  rw [View.read_apply]
  show V c main_arg8 _ = V c main_arg8 _
  congr 1
  funext a
  apply Fin.ext
  match a with
  | ⟨0, _⟩ => show win4_3.index t 0 * 128 + 1 * k.val = k.val; rw [e0]; omega
  | ⟨1, _⟩ => show win4_3.index t 1 * 128 + 1 * q.val = q.val; rw [e1]; omega

/-- The result array the region leaves: the specification's first stage of the arrays it found. -/
abbrev G (c : Dev nD) : S50000x128.Idx → EReal :=
  Cert.Spec.dropPre (V c main_arg1) (V c main_arg3) (V c main_v66) (V c main_arg8)

/-- What point t writes back is block t of `G`. -/
theorem flushed_eq (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero hz]
  simp only [View.ld_unit_zero (S := S2000x128) hz, View.ld_unit_zero (S := S2000x1) hz, View.ld_unit_zero (S := S128x128) hz]
  obtain ⟨-, -, -, -, -, -, -, -, e0, e1⟩ := idx_facts t
  funext j
  obtain ⟨p, q, rfl⟩ : ∃ (p : Fin 2000) (q : Fin 128), j = ix2 p q := ⟨j 0, j 1, eq_ix2 j⟩
  show k4_pay1 (iblk4 V c 1 t) (iblk4 V c 0 t) (iblk4 V c 2 t) (iblk4 V c 3 t) (ix2 p q) = G V c (((cfg4.win 4).blk t).view.emb (ix2 p q))
  have hemb : ((cfg4.win 4).blk t).view.emb (ix2 p q) = ix2 (row t p) q := by
    funext a
    apply Fin.ext
    match a with
    | ⟨0, _⟩ => show win4_4.index t 0 * 2000 + 1 * p.val = 2000 * t.val + p.val; rw [e0]; omega
    | ⟨1, _⟩ => show win4_4.index t 1 * 128 + 1 * q.val = q.val; rw [e1]; omega
  rw [hemb, pay1_apply]
  unfold G Cert.Spec.dropPre
  refine Finset.sum_congr rfl fun k _ => ?_
  rw [iblk_x, iblk_mask, iblk_ns, iblk_w]

/-- An index of the result array is in point t's block iff its row is among the block's 2000 rows. -/
theorem mem_blk (t : Fin cfg4.N) (i : S50000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v75).slice (win4_4.rect t)).set ↔ _
  rw [View.set_slice_whole, Rect.mem_set_unit]
  exact Iff.rfl

/-- The result array after the region: `dropPre` of the arrays the region found, at every index (row r is written
    by point r / 2000). -/
theorem final (c : Dev nD) : (dat4 V c).arrAt 4 cfg4.N = G V c :=
  (dat4 V c).arrAt_eq_of_cover 4 (G V c) (fun t _ => flushed_eq V c t) fun i => by
    have hi0 : (i 0).val < 50000 := (i 0).isLt
    have hi1 : (i 1).val < 128 := (i 1).isLt
    have hN : cfg4.N = 25 := N_4
    have ht : (i 0).val / 2000 < cfg4.N := by rw [hN]; omega
    obtain ⟨-, -, -, -, -, -, -, -, e0, e1⟩ := idx_facts ⟨(i 0).val / 2000, ht⟩
    refine ⟨⟨(i 0).val / 2000, ht⟩, flush4_4 _, ?_⟩
    rw [mem_blk]
    intro a
    match a with
    | ⟨0, _⟩ =>
      show win4_4.index ⟨(i 0).val / 2000, ht⟩ 0 * 2000 ≤ (i 0).val ∧ (i 0).val < win4_4.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win4_4.index ⟨(i 0).val / 2000, ht⟩ 1 * 128 ≤ (i 1).val ∧ (i 1).val < win4_4.index ⟨(i 0).val / 2000, ht⟩ 1 * 128 + 128
      rw [e1]; omega

end Cert.KernelIdeal.Reg4

end
-- ==== Proof.Reg5.lean ====
/-
  Region 5: a layer's output through ELU, source-normalised, times the next layer's weights — from blocks to the
  array. Grid point t stages rows 2000 t … 2000 t + 1999 of the aggregate and of both normalisers, and the whole bias
  row and weight matrix; it writes back the same rows of the result. Every row lies in the block of point
  (row / 2000), so after the 25 points the result array is the specification's `postPre` of the arrays the region
  found, at every index.
-/
import proofs.«148151_j29411936043366_2_alg».proof.Proof.Gen.KernelIdeal.Frame
import proofs.«148151_j29411936043366_2_alg».proof.Proof.Reg1Pay
import Idealize.ShloMosaic.Lib.Pipeline.Value
import Idealize.ShloMosaic.Lib.Tactic

set_option maxRecDepth 16384

noncomputable section

namespace Cert.KernelIdeal.Reg5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg5.N, win5_0.index t (0 : Fin 2) = t.val ∧ win5_0.index t (1 : Fin 2) = 0 :=
  (by decide +kernel : ∀ t : Fin grid5.N, _)
theorem idx_1 : ∀ t : Fin cfg5.N, win5_1.index t (0 : Fin 2) = t.val ∧ win5_1.index t (1 : Fin 2) = 0 :=
  (by decide +kernel : ∀ t : Fin grid5.N, _)
theorem idx_2 : ∀ t : Fin cfg5.N, win5_2.index t (0 : Fin 2) = 0 ∧ win5_2.index t (1 : Fin 2) = 0 :=
  (by decide +kernel : ∀ t : Fin grid5.N, _)
theorem idx_3 : ∀ t : Fin cfg5.N, win5_3.index t (0 : Fin 2) = t.val ∧ win5_3.index t (1 : Fin 2) = 0 :=
  (by decide +kernel : ∀ t : Fin grid5.N, _)
theorem idx_4 : ∀ t : Fin cfg5.N, win5_4.index t (0 : Fin 2) = 0 ∧ win5_4.index t (1 : Fin 2) = 0 :=
  (by decide +kernel : ∀ t : Fin grid5.N, _)
theorem idx_5 : ∀ t : Fin cfg5.N, win5_5.index t (0 : Fin 2) = t.val ∧ win5_5.index t (1 : Fin 2) = 0 :=
  (by decide +kernel : ∀ t : Fin grid5.N, _)

/-- Row p of point t's block is row 2000 t + p of the array. -/
def row (t : Fin cfg5.N) (p : Fin 2000) : Fin 50000 :=
  ⟨2000 * t.val + p.val, by have := t.isLt; have hN : cfg5.N = 25 := N_5; have := p.isLt; omega⟩

theorem iblk_0 (c : Dev nD) (t : Fin cfg5.N) (p : Fin 2000) (k : Fin 128) :
    (iblk5 V c 0 t : Vec Ideal S2000x128 .f32) (ix2 p k) = (V c main_v86 : S50000x128.Idx → EReal) (ix2 (row t p) k) := by
  obtain ⟨e0, e1⟩ := idx_0 t
  unfold iblk5
  rw [View.read_apply]
  show V c main_v86 _ = V c main_v86 _
  congr 1
  funext a
  apply Fin.ext
  match a with
  | ⟨0, _⟩ => show win5_0.index t 0 * 2000 + 1 * p.val = 2000 * t.val + p.val; rw [e0]; omega
  | ⟨1, _⟩ => show win5_0.index t 1 * 128 + 1 * k.val = k.val; rw [e1]; omega

theorem iblk_1 (c : Dev nD) (t : Fin cfg5.N) (p : Fin 2000) :
    (iblk5 V c 1 t : Vec Ideal S2000x1 .f32) (ix2 p 0) = (V c main_v70 : S50000x1.Idx → EReal) (ix2 (row t p) 0) := by
  obtain ⟨e0, e1⟩ := idx_1 t
  unfold iblk5
  rw [View.read_apply]
  show V c main_v70 _ = V c main_v70 _
  congr 1
  funext a
  apply Fin.ext
  match a with
  | ⟨0, _⟩ => show win5_1.index t 0 * 2000 + 1 * p.val = 2000 * t.val + p.val; rw [e0]; omega
  | ⟨1, _⟩ => show win5_1.index t 1 * 1 + 1 * 0 = 0; rw [e1]

theorem iblk_2 (c : Dev nD) (t : Fin cfg5.N) (q : Fin 128) :
    (iblk5 V c 2 t : Vec Ideal S1x128 .f32) (ix2 0 q) = (V c main_v71 : S1x128.Idx → EReal) (ix2 0 q) := by
  obtain ⟨e0, e1⟩ := idx_2 t
  unfold iblk5
  rw [View.read_apply]
  show V c main_v71 _ = V c main_v71 _
  congr 1
  funext a
  apply Fin.ext
  match a with
  | ⟨0, _⟩ => show win5_2.index t 0 * 1 + 1 * 0 = 0; rw [e0]
  | ⟨1, _⟩ => show win5_2.index t 1 * 128 + 1 * q.val = q.val; rw [e1]; omega

theorem iblk_3 (c : Dev nD) (t : Fin cfg5.N) (p : Fin 2000) :
    (iblk5 V c 3 t : Vec Ideal S2000x1 .f32) (ix2 p 0) = (V c main_v66 : S50000x1.Idx → EReal) (ix2 (row t p) 0) := by
  obtain ⟨e0, e1⟩ := idx_3 t
  unfold iblk5
  rw [View.read_apply]
  show V c main_v66 _ = V c main_v66 _
  congr 1
  funext a
  apply Fin.ext
  match a with
  | ⟨0, _⟩ => show win5_3.index t 0 * 2000 + 1 * p.val = 2000 * t.val + p.val; rw [e0]; omega
  | ⟨1, _⟩ => show win5_3.index t 1 * 1 + 1 * 0 = 0; rw [e1]

theorem iblk_4 (c : Dev nD) (t : Fin cfg5.N) (k q : Fin 128) :
    (iblk5 V c 4 t : Vec Ideal S128x128 .f32) (ix2 k q) = (V c main_arg10 : S128x128.Idx → EReal) (ix2 k q) := by
  obtain ⟨e0, e1⟩ := idx_4 t
  unfold iblk5
  rw [View.read_apply]
  show V c main_arg10 _ = V c main_arg10 _
  congr 1
  funext a
  apply Fin.ext
  match a with
  | ⟨0, _⟩ => show win5_4.index t 0 * 128 + 1 * k.val = k.val; rw [e0]; omega
  | ⟨1, _⟩ => show win5_4.index t 1 * 128 + 1 * q.val = q.val; rw [e1]; omega

/-- The array window 5 leaves: the next layer's pre-aggregation features. -/
abbrev G5 (c : Dev nD) : S50000x128.Idx → EReal :=
  Cert.Spec.postPre (V c main_v86) (V c main_v70) (V c main_v71) (V c main_v66) (V c main_arg10)

/-- What point t writes back through window 5 is block t of that array. -/
theorem flushed_eq5 (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz]
  simp only [View.ld_unit_zero (S := S2000x128) hz, View.ld_unit_zero (S := S2000x1) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k5_pay1 (iblk5 V c 0 t) (iblk5 V c 1 t) (iblk5 V c 2 t) (iblk5 V c 3 t) (iblk5 V c 4 t) (ix2 p q) = G5 V c (((cfg5.win 5).blk t).view.emb (ix2 p q))
  have hemb : ((cfg5.win 5).blk t).view.emb (ix2 p q) = ix2 (row t p) q := by
    funext a
    apply Fin.ext
    match a with
    | ⟨0, _⟩ => show win5_5.index t 0 * 2000 + 1 * p.val = 2000 * t.val + p.val; rw [e0]; omega
    | ⟨1, _⟩ => show win5_5.index t 1 * 128 + 1 * q.val = q.val; rw [e1]; omega
  rw [hemb, Cert.KernelIdeal.RegPP.pay5_apply]
  unfold G5 Cert.Spec.postPre Cert.Spec.act
  refine Finset.sum_congr rfl fun k _ => ?_
  rw [iblk_0, iblk_1, iblk_2, iblk_3, iblk_4]
  try rfl

theorem mem_blk5 (t : Fin cfg5.N) (i : S50000x128.Idx) :
    i ∈ ((cfg5.win 5).blk t).view.set ↔ ∀ a : Fin 2, win5_5.index t a * S2000x128.size a ≤ (i a).val
      ∧ (i a).val < win5_5.index t a * S2000x128.size a + S2000x128.size a := by
  show i ∈ ((View.whole main_v87).slice (win5_5.rect t)).set ↔ _
  rw [View.set_slice_whole, Rect.mem_set_unit]
  exact Iff.rfl

/-- The array after the region, at every index (row r is written by point r / 2000). -/
theorem final5 (c : Dev nD) : (dat5 V c).arrAt 5 cfg5.N = G5 V c :=
  (dat5 V c).arrAt_eq_of_cover 5 (G5 V c) (fun t _ => flushed_eq5 V c t) fun i => by
    have hi0 : (i 0).val < 50000 := (i 0).isLt
    have hi1 : (i 1).val < 128 := (i 1).isLt
    have hN : cfg5.N = 25 := N_5
    have ht : (i 0).val / 2000 < cfg5.N := by rw [hN]; omega
    obtain ⟨e0, e1⟩ := idx_5 ⟨(i 0).val / 2000, ht⟩
    refine ⟨⟨(i 0).val / 2000, ht⟩, flush5_5 _, ?_⟩
    rw [mem_blk5]
    intro a
    match a with
    | ⟨0, _⟩ =>
      show win5_5.index ⟨(i 0).val / 2000, ht⟩ 0 * 2000 ≤ (i 0).val ∧ (i 0).val < win5_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win5_5.index ⟨(i 0).val / 2000, ht⟩ 1 * 128 ≤ (i 1).val ∧ (i 1).val < win5_5.index ⟨(i 0).val / 2000, ht⟩ 1 * 128 + 128
      rw [e1]; omega

end Cert.KernelIdeal.Reg5

end
-- ==== Proof.Reg6.lean ====
/-
  Region 6: a layer's output through ELU, source-normalised, times the next layer's weights — from blocks to the
  array. Grid point t stages rows 2000 t … 2000 t + 1999 of the aggregate and of both normalisers, and the whole bias
  row and weight matrix; it writes back the same rows of the result. Every row lies in the block of point
  (row / 2000), so after the 25 points the result array is the specification's `postPre` of the arrays the region
  found, at every index.
-/
import proofs.«148151_j29411936043366_2_alg».proof.Proof.Gen.KernelIdeal.Frame
import proofs.«148151_j29411936043366_2_alg».proof.Proof.Reg1Pay
import Idealize.ShloMosaic.Lib.Pipeline.Value
import Idealize.ShloMosaic.Lib.Tactic

set_option maxRecDepth 16384

noncomputable section

namespace Cert.KernelIdeal.Reg6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg6.N, win6_0.index t (0 : Fin 2) = t.val ∧ win6_0.index t (1 : Fin 2) = 0 :=
  (by decide +kernel : ∀ t : Fin grid6.N, _)
theorem idx_1 : ∀ t : Fin cfg6.N, win6_1.index t (0 : Fin 2) = t.val ∧ win6_1.index t (1 : Fin 2) = 0 :=
  (by decide +kernel : ∀ t : Fin grid6.N, _)
theorem idx_2 : ∀ t : Fin cfg6.N, win6_2.index t (0 : Fin 2) = 0 ∧ win6_2.index t (1 : Fin 2) = 0 :=
  (by decide +kernel : ∀ t : Fin grid6.N, _)
theorem idx_3 : ∀ t : Fin cfg6.N, win6_3.index t (0 : Fin 2) = t.val ∧ win6_3.index t (1 : Fin 2) = 0 :=
  (by decide +kernel : ∀ t : Fin grid6.N, _)
theorem idx_4 : ∀ t : Fin cfg6.N, win6_4.index t (0 : Fin 2) = 0 ∧ win6_4.index t (1 : Fin 2) = 0 :=
  (by decide +kernel : ∀ t : Fin grid6.N, _)
theorem idx_5 : ∀ t : Fin cfg6.N, win6_5.index t (0 : Fin 2) = t.val ∧ win6_5.index t (1 : Fin 2) = 0 :=
  (by decide +kernel : ∀ t : Fin grid6.N, _)

/-- Row p of point t's block is row 2000 t + p of the array. -/
def row (t : Fin cfg6.N) (p : Fin 2000) : Fin 50000 :=
  ⟨2000 * t.val + p.val, by have := t.isLt; have hN : cfg6.N = 25 := N_6; have := p.isLt; omega⟩

theorem iblk_0 (c : Dev nD) (t : Fin cfg6.N) (p : Fin 2000) (k : Fin 128) :
    (iblk6 V c 0 t : Vec Ideal S2000x128 .f32) (ix2 p k) = (V c main_v98 : S50000x128.Idx → EReal) (ix2 (row t p) k) := by
  obtain ⟨e0, e1⟩ := idx_0 t
  unfold iblk6
  rw [View.read_apply]
  show V c main_v98 _ = V c main_v98 _
  congr 1
  funext a
  apply Fin.ext
  match a with
  | ⟨0, _⟩ => show win6_0.index t 0 * 2000 + 1 * p.val = 2000 * t.val + p.val; rw [e0]; omega
  | ⟨1, _⟩ => show win6_0.index t 1 * 128 + 1 * k.val = k.val; rw [e1]; omega

theorem iblk_1 (c : Dev nD) (t : Fin cfg6.N) (p : Fin 2000) :
    (iblk6 V c 1 t : Vec Ideal S2000x1 .f32) (ix2 p 0) = (V c main_v70 : S50000x1.Idx → EReal) (ix2 (row t p) 0) := by
  obtain ⟨e0, e1⟩ := idx_1 t
  unfold iblk6
  rw [View.read_apply]
  show V c main_v70 _ = V c main_v70 _
  congr 1
  funext a
  apply Fin.ext
  match a with
  | ⟨0, _⟩ => show win6_1.index t 0 * 2000 + 1 * p.val = 2000 * t.val + p.val; rw [e0]; omega
  | ⟨1, _⟩ => show win6_1.index t 1 * 1 + 1 * 0 = 0; rw [e1]

theorem iblk_2 (c : Dev nD) (t : Fin cfg6.N) (q : Fin 128) :
    (iblk6 V c 2 t : Vec Ideal S1x128 .f32) (ix2 0 q) = (V c main_v72 : S1x128.Idx → EReal) (ix2 0 q) := by
  obtain ⟨e0, e1⟩ := idx_2 t
  unfold iblk6
  rw [View.read_apply]
  show V c main_v72 _ = V c main_v72 _
  congr 1
  funext a
  apply Fin.ext
  match a with
  | ⟨0, _⟩ => show win6_2.index t 0 * 1 + 1 * 0 = 0; rw [e0]
  | ⟨1, _⟩ => show win6_2.index t 1 * 128 + 1 * q.val = q.val; rw [e1]; omega

theorem iblk_3 (c : Dev nD) (t : Fin cfg6.N) (p : Fin 2000) :
    (iblk6 V c 3 t : Vec Ideal S2000x1 .f32) (ix2 p 0) = (V c main_v66 : S50000x1.Idx → EReal) (ix2 (row t p) 0) := by
  obtain ⟨e0, e1⟩ := idx_3 t
  unfold iblk6
  rw [View.read_apply]
  show V c main_v66 _ = V c main_v66 _
  congr 1
  funext a
  apply Fin.ext
  match a with
  | ⟨0, _⟩ => show win6_3.index t 0 * 2000 + 1 * p.val = 2000 * t.val + p.val; rw [e0]; omega
  | ⟨1, _⟩ => show win6_3.index t 1 * 1 + 1 * 0 = 0; rw [e1]

theorem iblk_4 (c : Dev nD) (t : Fin cfg6.N) (k q : Fin 128) :
    (iblk6 V c 4 t : Vec Ideal S128x128 .f32) (ix2 k q) = (V c main_arg12 : S128x128.Idx → EReal) (ix2 k q) := by
  obtain ⟨e0, e1⟩ := idx_4 t
  unfold iblk6
  rw [View.read_apply]
  show V c main_arg12 _ = V c main_arg12 _
  congr 1
  funext a
  apply Fin.ext
  match a with
  | ⟨0, _⟩ => show win6_4.index t 0 * 128 + 1 * k.val = k.val; rw [e0]; omega
  | ⟨1, _⟩ => show win6_4.index t 1 * 128 + 1 * q.val = q.val; rw [e1]; omega

/-- The array window 5 leaves: the next layer's pre-aggregation features. -/
abbrev G5 (c : Dev nD) : S50000x128.Idx → EReal :=
  Cert.Spec.postPre (V c main_v98) (V c main_v70) (V c main_v72) (V c main_v66) (V c main_arg12)

/-- What point t writes back through window 5 is block t of that array. -/
theorem flushed_eq5 (c : Dev nD) (t : Fin cfg6.N) :
    (dat6 V c).flushed 5 t = ((cfg6.win 5).blk t).view.read (Elt Ideal) (G5 V c) := by
  show (cfg6.win 5).cut (grid6.coords t) ((dat6 V c).after 5 t) = _
  rw [after6_5]
  unfold out6_5
  rw [View.canon_unit_zero hz]
  simp only [View.ld_unit_zero (S := S2000x128) hz, View.ld_unit_zero (S := S2000x1) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k6_pay1 (iblk6 V c 0 t) (iblk6 V c 1 t) (iblk6 V c 2 t) (iblk6 V c 3 t) (iblk6 V c 4 t) (ix2 p q) = G5 V c (((cfg6.win 5).blk t).view.emb (ix2 p q))
  have hemb : ((cfg6.win 5).blk t).view.emb (ix2 p q) = ix2 (row t p) q := by
    funext a
    apply Fin.ext
    match a with
    | ⟨0, _⟩ => show win6_5.index t 0 * 2000 + 1 * p.val = 2000 * t.val + p.val; rw [e0]; omega
    | ⟨1, _⟩ => show win6_5.index t 1 * 128 + 1 * q.val = q.val; rw [e1]; omega
  rw [hemb, Cert.KernelIdeal.RegPP.pay6_apply]
  unfold G5 Cert.Spec.postPre Cert.Spec.act
  refine Finset.sum_congr rfl fun k _ => ?_
  rw [iblk_0, iblk_1, iblk_2, iblk_3, iblk_4]
  try rfl

theorem mem_blk5 (t : Fin cfg6.N) (i : S50000x128.Idx) :
    i ∈ ((cfg6.win 5).blk t).view.set ↔ ∀ a : Fin 2, win6_5.index t a * S2000x128.size a ≤ (i a).val
      ∧ (i a).val < win6_5.index t a * S2000x128.size a + S2000x128.size a := by
  show i ∈ ((View.whole main_v99).slice (win6_5.rect t)).set ↔ _
  rw [View.set_slice_whole, Rect.mem_set_unit]
  exact Iff.rfl

/-- The array after the region, at every index (row r is written by point r / 2000). -/
theorem final5 (c : Dev nD) : (dat6 V c).arrAt 5 cfg6.N = G5 V c :=
  (dat6 V c).arrAt_eq_of_cover 5 (G5 V c) (fun t _ => flushed_eq5 V c t) fun i => by
    have hi0 : (i 0).val < 50000 := (i 0).isLt
    have hi1 : (i 1).val < 128 := (i 1).isLt
    have hN : cfg6.N = 25 := N_6
    have ht : (i 0).val / 2000 < cfg6.N := by rw [hN]; omega
    obtain ⟨e0, e1⟩ := idx_5 ⟨(i 0).val / 2000, ht⟩
    refine ⟨⟨(i 0).val / 2000, ht⟩, flush6_5 _, ?_⟩
    rw [mem_blk5]
    intro a
    match a with
    | ⟨0, _⟩ =>
      show win6_5.index ⟨(i 0).val / 2000, ht⟩ 0 * 2000 ≤ (i 0).val ∧ (i 0).val < win6_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win6_5.index ⟨(i 0).val / 2000, ht⟩ 1 * 128 ≤ (i 1).val ∧ (i 1).val < win6_5.index ⟨(i 0).val / 2000, ht⟩ 1 * 128 + 128
      rw [e1]; omega

end Cert.KernelIdeal.Reg6

end
-- ==== Proof.Reg7.lean ====
/-
  The last layer's activation, the linear head, and the head's column sums, block by block.

  The grid has 25 points; point `t` holds rows `2000 t … 2000 t + 1999` of the aggregated array and of the target
  normaliser, and the whole bias row, head matrix and head bias. At every point the body writes block `t` of the
  embedding: entry `(p, q)` is the sum over `k` of `elu (agg[p,k] * nd[p] + b[k]) * wl[k,q]`, plus `bl[q]`; the
  ELU is written `select (z > 0) z (exp (min z 0) - 1)`, and on the branch that is kept the clamp `min z 0` is `z`.
  The second output is one row of 128 running totals whose block never moves: the first point zeroes it, every
  point adds the column sums of its embedding block, and only the last point writes it back. After point `n` it
  holds the sum of the first `n + 1` block sums, after the last the column sums over all 50000 rows: addition on
  the extended reals is commutative and associative, so consecutive block sums concatenate.
-/
import proofs.«148151_j29411936043366_2_alg».proof.Proof.Gen.KernelIdeal.Frame
import proofs.«148151_j29411936043366_2_alg».proof.Proof.Spec
import proofs.«148151_j29411936043366_2_alg».proof.Proof.KDot
import proofs.«148151_j29411936043366_2_alg».proof.Proof.LibBlockSum
import proofs.«148151_j29411936043366_2_alg».proof.Proof.LibElu
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg7

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-- The zero offsets of a load or store of a whole block. -/
theorem hz : (![0, 0] : Fin 2 → Nat) = fun _ => 0 := funext fun a => by fin_cases a <;> rfl

/-! ## What each case leaves in the two outputs' buffers -/

section Pieces

variable {F : FTy → Type} [FloatOps F]

/-- The first point stores its embedding block. -/
theorem outA5_eq (c : Dev nD) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : cond7_0 i)
    (x0 : Vec F S2000x128 .f32) (x1 : Vec F S2000x1 .f32) (x2 : Vec F S1x128 .f32) (x3 : Vec F S128x128 .f32) (x4 : Vec F S1x128 .f32) :
    out7_A_5 c i arg1 harg1 arg2 harg2 arg3 harg3 arg4 harg4 arg5 harg5 arg6 harg6 arg7 harg7 hc0 x0 x1 x2 x3 x4 = k7_pay2 x0 x1 x2 x3 x4 := by
  unfold out7_A_5
  rw [View.read_writes_eq_canon _ _ _ (cover7_A_5 c i arg1 harg1 arg2 harg2 arg3 harg3 arg4 harg4 arg5 harg5 arg6 harg6 arg7 harg7 hc0 x0 x1 x2 x3 x4)]
  unfold kernelRun7_A
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- So does every later point. -/
theorem outB5_eq (c : Dev nD) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : ¬cond7_0 i)
    (x0 : Vec F S2000x128 .f32) (x1 : Vec F S2000x1 .f32) (x2 : Vec F S1x128 .f32) (x3 : Vec F S128x128 .f32) (x4 : Vec F S1x128 .f32) (xo6 : Vec F S1x128 .f32) :
    out7_B_5 c i arg1 harg1 arg2 harg2 arg3 harg3 arg4 harg4 arg5 harg5 arg6 harg6 arg7 harg7 hc0 x0 x1 x2 x3 x4 xo6 = k7_pay2 x0 x1 x2 x3 x4 := by
  unfold out7_B_5
  rw [View.read_writes_eq_canon _ _ _ (cover7_B_5 c i arg1 harg1 arg2 harg2 arg3 harg3 arg4 harg4 arg5 harg5 arg6 harg6 arg7 harg7 hc0 x0 x1 x2 x3 x4 xo6)]
  unfold kernelRun7_B
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- The first point stores the zero row, reads it back, and stores the block's column sums over it. -/
theorem outA6_eq (c : Dev nD) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : cond7_0 i)
    (x0 : Vec F S2000x128 .f32) (x1 : Vec F S2000x1 .f32) (x2 : Vec F S1x128 .f32) (x3 : Vec F S128x128 .f32) (x4 : Vec F S1x128 .f32) :
    out7_A_6 c i arg1 harg1 arg2 harg2 arg3 harg3 arg4 harg4 arg5 harg5 arg6 harg6 arg7 harg7 hc0 x0 x1 x2 x3 x4 = k7_pay3 x0 x1 x2 x3 x4 (k7_pay1 (F := F)) := by
  unfold out7_A_6
  rw [View.read_writes_eq_canon _ _ _ (cover7_A_6 c i arg1 harg1 arg2 harg2 arg3 harg3 arg4 harg4 arg5 harg5 arg6 harg6 arg7 harg7 hc0 x0 x1 x2 x3 x4)]
  unfold kernelRun7_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

/-- A later point stores the block's column sums over what the row held. -/
theorem outB6_eq (c : Dev nD) (i : grid7.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x128 .f32) (harg7 : arg7.IsWhole) (hc0 : ¬cond7_0 i)
    (x0 : Vec F S2000x128 .f32) (x1 : Vec F S2000x1 .f32) (x2 : Vec F S1x128 .f32) (x3 : Vec F S128x128 .f32) (x4 : Vec F S1x128 .f32) (xo6 : Vec F S1x128 .f32) :
    out7_B_6 c i arg1 harg1 arg2 harg2 arg3 harg3 arg4 harg4 arg5 harg5 arg6 harg6 arg7 harg7 hc0 x0 x1 x2 x3 x4 xo6 = k7_pay3 x0 x1 x2 x3 x4 xo6 := by
  unfold out7_B_6
  rw [View.read_writes_eq_canon _ _ _ (cover7_B_6 c i arg1 harg1 arg2 harg2 arg3 harg3 arg4 harg4 arg5 harg5 arg6 harg6 arg7 harg7 hc0 x0 x1 x2 x3 x4 xo6)]
  unfold kernelRun7_B
  dsimp only
  try sl_unfold_words
  rw [View.canon_unit_zero hz]
  simp only [View.readAt_eq_ld, harg1.read_unread, harg2.read_unread, harg3.read_unread, harg4.read_unread, harg5.read_unread, harg7.read_unread, View.ld_unit_zero (S := S2000x128) hz, View.ld_unit_zero (S := S2000x1) hz, View.ld_unit_zero (S := S1x128) hz, View.ld_unit_zero (S := S128x128) hz]

end Pieces

/-! ## The body's arithmetic at an entry -/

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of f32 1.0 is the extended real one. -/
theorem ofBits_one_f32 : Ideal.ofBits .f32 0x3F800000#32 = 1 := IdealRules.sign_bit.ideal_onePat .f32

/-- The body's ELU at an entry: the test `z > 0` selects `z`, else `exp (min z 0) - 1`, where `min z 0 = z`. -/
theorem elu_apply (z : FVec Ideal S2000x128 .f32) (i : S2000x128.Idx) :
    (select (cmpf .ogt z (broadcast S2000x128 (Scalar.ofBits .f32 0x00000000#32))) z
        (subf (exp (minimumf z (broadcast S2000x128 (Scalar.ofBits .f32 0x00000000#32))))
          (broadcast S2000x128 (Scalar.ofBits .f32 0x3F800000#32))) : FVec Ideal S2000x128 .f32) i
      = Cert.Spec.elu (z i) := by
  show Scalar.select (Ideal.cmp .ogt (z i) (Ideal.ofBits .f32 0x00000000#32)) (z i)
      (Ideal.exp (min (z i) (Ideal.ofBits .f32 0x00000000#32)) - Ideal.ofBits .f32 0x3F800000#32) = _
  rw [Ideal.ofBits_zero_f32, ofBits_one_f32, Cert.LibElu.select_cmp_ogt_zero]
  unfold Cert.Spec.elu
  by_cases h : (0 : EReal) < z i
  · rw [if_pos h, if_pos h]
  · rw [if_neg h, if_neg h, min_eq_left (not_lt.mp h)]

/-- The same entry after the narrowing cast the matrix unit's operand carries: on the extended reals the cast is the identity. -/
theorem act_apply (z : FVec Ideal S2000x128 .f32) (i : S2000x128.Idx) :
    (truncf .bf16 (select (cmpf .ogt z (broadcast S2000x128 (Scalar.ofBits .f32 0x00000000#32))) z
        (subf (exp (minimumf z (broadcast S2000x128 (Scalar.ofBits .f32 0x00000000#32))))
          (broadcast S2000x128 (Scalar.ofBits .f32 0x3F800000#32)))) bitsLt_bf16_f32 : FVec Ideal S2000x128 .bf16) i
      = Cert.Spec.elu (z i) := elu_apply z i

/-- The ELU's argument at `(p, k)`: the aggregated entry scaled by its row's normaliser, plus the bias of column `k`. -/
theorem pre_apply (x0 : Vec Ideal S2000x128 .f32) (x1 : Vec Ideal S2000x1 .f32) (x2 : Vec Ideal S1x128 .f32) (p : Fin 2000) (k : Fin 128) :
    (addf (mulf (shapeCast S2000x128 x0 shapeCasts_S2000x128_S2000x128)
          (broadcastTo S2000x128 (shapeCast S2000x1 x1 shapeCasts_S2000x1_S2000x1) broadcasts_S2000x1_S2000x128))
        (broadcastTo S2000x128 (shapeCast S1x128 x2 shapeCasts_S1x128_S1x128) broadcasts_S1x128_S2000x128) : FVec Ideal S2000x128 .f32) (ix2 p k)
      = x0 (ix2 p k) * x1 (ix2 p 0) + x2 (ix2 0 k) := by
  refine (addf_apply _ _ _).trans ?_
  refine congrArg₂ (· + ·) ?_ ?_
  · refine (mulf_apply _ _ _).trans ?_
    refine congrArg₂ (· * ·) (congrFun (shapeCast_self x0 _) _) ?_
    exact (broadcastTo_a1_ab_apply _ _ p k).trans (congrFun (shapeCast_self x1 _) _)
  · exact (broadcastTo_1b_ab_apply _ _ p k).trans (congrFun (shapeCast_self x2 _) _)

/-- The embedding block at `(p, q)`: the activated row `p` times column `q` of the head matrix, plus the head's bias. -/
theorem pay2_apply (x0 : Vec Ideal S2000x128 .f32) (x1 : Vec Ideal S2000x1 .f32) (x2 : Vec Ideal S1x128 .f32)
    (x3 : Vec Ideal S128x128 .f32) (x4 : Vec Ideal S1x128 .f32) (p : Fin 2000) (q : Fin 128) :
    k7_pay2 x0 x1 x2 x3 x4 (ix2 p q)
      = (∑ k : Fin 128, Cert.Spec.elu (x0 (ix2 p k) * x1 (ix2 p 0) + x2 (ix2 0 k)) * x3 (ix2 k q)) + x4 (ix2 0 q) := by
  unfold k7_pay2
  try dsimp only
  refine (addf_apply _ _ _).trans ?_
  refine congrArg₂ (· + ·) ?_ ?_
  · refine (Cert.KernelIdeal.KDot.matmul_apply _ _ p q).trans ?_
    refine Finset.sum_congr rfl fun k _ => ?_
    refine congrArg₂ (· * ·) ?_ rfl
    exact (act_apply _ _).trans (congrArg Cert.Spec.elu (pre_apply x0 x1 x2 p k))
  · exact (broadcastTo_1b_ab_apply _ _ p q).trans (congrFun (shapeCast_self x4 _) _)

/-- The reduction over the rows of a block, at column `q`: the sum over the 2000 rows. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src (funext fun a => Fin.ext ?_)
  match a with
  | ⟨0, _⟩ => rfl
  | ⟨1, _⟩ => rfl

/-- The zero row the first point stores. -/
theorem pay1_apply (q : Fin 128) : k7_pay1 (F := Ideal) (ix2 0 q) = 0 := by
  unfold k7_pay1
  exact Ideal.ofBits_zero_f32

/-- The stored row at column `q`: what the row held there plus the column sum of the point's embedding block. -/
theorem pay3_apply (x0 : Vec Ideal S2000x128 .f32) (x1 : Vec Ideal S2000x1 .f32) (x2 : Vec Ideal S1x128 .f32)
    (x3 : Vec Ideal S128x128 .f32) (x4 : Vec Ideal S1x128 .f32) (acc : Vec Ideal S1x128 .f32) (q : Fin 128) :
    k7_pay3 x0 x1 x2 x3 x4 acc (ix2 0 q) = acc (ix2 0 q) + ∑ p : Fin 2000, k7_pay2 x0 x1 x2 x3 x4 (ix2 p q) := by
  unfold k7_pay3
  dsimp only
  refine (addf_apply _ _ _).trans ?_
  refine congrArg₂ (· + ·) (congrFun (shapeCast_self acc _) _) ?_
  refine (shapeCast_a_1a_apply _ _ 0 q).trans ?_
  exact colsum_apply _ q

/-! ## The blocks as rows of the arrays -/

variable (V : (c : Dev nD) → (b : Ref sig .tc) → Buf (Elt Ideal) ((c : Thread nD τ).loc b))

/-- The printed index maps over the grid: the aggregated array's, the normaliser's and the embedding's block at point
    `t` is block `(t, 0)`; the bias row's, the head matrix's, the head bias's and the sums' is block `(0, 0)`. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0 :=
  (by decide +kernel : ∀ t : Fin grid7.N, _)

/-- Row `p` of the aggregated block at point `t` is row `2000 t + p` of the array. -/
theorem iblk0_apply (c : Dev nD) (t : Fin cfg7.N) (p : Fin 2000) (k : Fin 128) (r : Fin 50000) (hr : r.val = t.val * 2000 + p.val) :
    (iblk7 V c 0 t : Vec Ideal S2000x128 .f32) (ix2 p k) = (V c main_v110 : S50000x128.Idx → EReal) (ix2 r k) := by
  obtain ⟨e0, e1, -⟩ := idx_facts t
  unfold iblk7
  rw [View.read_apply]
  show V c main_v110 _ = V c main_v110 _
  congr 1
  funext a
  apply Fin.ext
  match a with
  | ⟨0, _⟩ => show win7_0.index t (0 : Fin 2) * 2000 + 1 * p.val = r.val; rw [e0, hr]; omega
  | ⟨1, _⟩ => show win7_0.index t (1 : Fin 2) * 128 + 1 * k.val = k.val; rw [e1]; omega

/-- Row `p` of the normaliser's block at point `t` is row `2000 t + p` of the column. -/
theorem iblk1_apply (c : Dev nD) (t : Fin cfg7.N) (p : Fin 2000) (r : Fin 50000) (hr : r.val = t.val * 2000 + p.val) :
    (iblk7 V c 1 t : Vec Ideal S2000x1 .f32) (ix2 p 0) = (V c main_v70 : S50000x1.Idx → EReal) (ix2 r 0) := by
  obtain ⟨-, -, e0, e1, -⟩ := idx_facts t
  unfold iblk7
  rw [View.read_apply]
  show V c main_v70 _ = V c main_v70 _
  congr 1
  funext a
  apply Fin.ext
  match a with
  | ⟨0, _⟩ => show win7_1.index t (0 : Fin 2) * 2000 + 1 * p.val = r.val; rw [e0, hr]; omega
  | ⟨1, _⟩ => show win7_1.index t (1 : Fin 2) * 1 + 1 * 0 = 0; rw [e1]

/-- The bias row's block at every point is the row. -/
theorem iblk2_apply (c : Dev nD) (t : Fin cfg7.N) (k : Fin 128) :
    (iblk7 V c 2 t : Vec Ideal S1x128 .f32) (ix2 0 k) = (V c main_v73 : S1x128.Idx → EReal) (ix2 0 k) := by
  obtain ⟨-, -, -, -, e0, e1, -⟩ := idx_facts t
  unfold iblk7
  rw [View.read_apply]
  show V c main_v73 _ = V c main_v73 _
  congr 1
  funext a
  apply Fin.ext
  match a with
  | ⟨0, _⟩ => show win7_2.index t (0 : Fin 2) * 1 + 1 * 0 = 0; rw [e0]
  | ⟨1, _⟩ => show win7_2.index t (1 : Fin 2) * 128 + 1 * k.val = k.val; rw [e1]; omega

/-- The head matrix's block at every point is the matrix. -/
theorem iblk3_apply (c : Dev nD) (t : Fin cfg7.N) (k q : Fin 128) :
    (iblk7 V c 3 t : Vec Ideal S128x128 .f32) (ix2 k q) = (V c main_arg14 : S128x128.Idx → EReal) (ix2 k q) := by
  obtain ⟨-, -, -, -, -, -, e0, e1, -⟩ := idx_facts t
  unfold iblk7
  rw [View.read_apply]
  show V c main_arg14 _ = V c main_arg14 _
  congr 1
  funext a
  apply Fin.ext
  match a with
  | ⟨0, _⟩ => show win7_3.index t (0 : Fin 2) * 128 + 1 * k.val = k.val; rw [e0]; omega
  | ⟨1, _⟩ => show win7_3.index t (1 : Fin 2) * 128 + 1 * q.val = q.val; rw [e1]; omega

/-- The head bias's block at every point is the row. -/
theorem iblk4_apply (c : Dev nD) (t : Fin cfg7.N) (q : Fin 128) :
    (iblk7 V c 4 t : Vec Ideal S1x128 .f32) (ix2 0 q) = (V c main_v74 : S1x128.Idx → EReal) (ix2 0 q) := by
  obtain ⟨-, -, -, -, -, -, -, -, e0, e1, -⟩ := idx_facts t
  unfold iblk7
  rw [View.read_apply]
  show V c main_v74 _ = V c main_v74 _
  congr 1
  funext a
  apply Fin.ext
  match a with
  | ⟨0, _⟩ => show win7_4.index t (0 : Fin 2) * 1 + 1 * 0 = 0; rw [e0]
  | ⟨1, _⟩ => show win7_4.index t (1 : Fin 2) * 128 + 1 * q.val = q.val; rw [e1]; omega

/-- The body's embedding block at point `t`, entry `(p, q)`, is the embedding at row `2000 t + p`, column `q`. -/
theorem head_block (c : Dev nD) (t : Fin cfg7.N) (x0 : Vec Ideal S2000x128 .f32) (x1 : Vec Ideal S2000x1 .f32) (x2 : Vec Ideal S1x128 .f32)
    (x3 : Vec Ideal S128x128 .f32) (x4 : Vec Ideal S1x128 .f32)
    (h0 : x0 = iblk7 V c 0 t) (h1 : x1 = iblk7 V c 1 t) (h2 : x2 = iblk7 V c 2 t) (h3 : x3 = iblk7 V c 3 t) (h4 : x4 = iblk7 V c 4 t)
    (p : Fin 2000) (q : Fin 128) (r : Fin 50000) (hr : r.val = t.val * 2000 + p.val) :
    k7_pay2 x0 x1 x2 x3 x4 (ix2 p q) = Cert.Spec.head (V c main_v110) (V c main_v70) (V c main_v73) (V c main_arg14) (V c main_v74) (ix2 r q) := by
  subst h0 h1 h2 h3 h4
  rw [pay2_apply]
  unfold Cert.Spec.head Cert.Spec.act
  refine congrArg₂ (· + ·) (Finset.sum_congr rfl fun k _ => ?_) (iblk4_apply V c t q)
  rw [iblk0_apply V c t p k r hr, iblk1_apply V c t p r hr, iblk2_apply V c t k, iblk3_apply V c t k q]

/-! ## What the two outputs hold after each point -/

/-- After every point the embedding's buffer holds the point's embedding block. -/
theorem outsAt_fst (c : Dev nD) (t : Fin cfg7.N) :
    (outsAt7 V c t.val t.isLt).1 = k7_pay2 (iblk7 V c 0 t) (iblk7 V c 1 t) (iblk7 V c 2 t) (iblk7 V c 3 t) (iblk7 V c 4 t) := by
  by_cases h0 : t.val % 25 = 0
  · rw [outsAt7_A V c t h0]
    dsimp only
    rw [outA5_eq]
  · rw [outsAt7_B V c t h0]
    dsimp only
    rw [outB5_eq]

/-- Row `r`'s embedding entry at column `q`; zero past the last row (no point reads there). -/
def term (e : Cert.Spec.SNxD.Idx → EReal) (q : Fin 128) (r : ℕ) : EReal :=
  if h : r < 50000 then e (ix2 ⟨r, h⟩ q) else 0

/-- Point `t`'s addend at column `q`: the column sum of its embedding block. -/
theorem block_sum (c : Dev nD) (t : Fin cfg7.N) (q : Fin 128) (x0 : Vec Ideal S2000x128 .f32) (x1 : Vec Ideal S2000x1 .f32) (x2 : Vec Ideal S1x128 .f32)
    (x3 : Vec Ideal S128x128 .f32) (x4 : Vec Ideal S1x128 .f32)
    (h0 : x0 = iblk7 V c 0 t) (h1 : x1 = iblk7 V c 1 t) (h2 : x2 = iblk7 V c 2 t) (h3 : x3 = iblk7 V c 3 t) (h4 : x4 = iblk7 V c 4 t) :
    ∑ p : Fin 2000, k7_pay2 x0 x1 x2 x3 x4 (ix2 p q)
      = ∑ p ∈ Finset.range 2000, term (Cert.Spec.head (V c main_v110) (V c main_v70) (V c main_v73) (V c main_arg14) (V c main_v74)) q (t.val * 2000 + p) := by
  have hN : t.val < 25 := lt_of_lt_of_eq t.isLt (show cfg7.N = 25 from N_7)
  rw [← Fin.sum_univ_eq_sum_range (fun p => term (Cert.Spec.head (V c main_v110) (V c main_v70) (V c main_v73) (V c main_arg14) (V c main_v74)) q (t.val * 2000 + p)) 2000]
  refine Finset.sum_congr rfl fun p _ => ?_
  have hp : p.val < 2000 := p.isLt
  have h : t.val * 2000 + p.val < 50000 := by omega
  rw [term, dif_pos h]
  exact head_block V c t x0 x1 x2 x3 x4 h0 h1 h2 h3 h4 p q ⟨t.val * 2000 + p.val, h⟩ rfl

/-- After point `n` the sums' row holds, at column `q`, the sum of the first `n + 1` block sums. -/
theorem outsAt_snd_apply (c : Dev nD) (q : Fin 128) : ∀ (n : ℕ) (hn : n < cfg7.N),
    ((outsAt7 V c n hn).2 : Vec Ideal S1x128 .f32) (ix2 0 q)
      = ∑ s ∈ Finset.range (n + 1), ∑ p ∈ Finset.range 2000, term (Cert.Spec.head (V c main_v110) (V c main_v70) (V c main_v73) (V c main_arg14) (V c main_v74)) q (s * 2000 + p)
  | 0, hn => by
    rw [outsAt7_A V c ⟨0, hn⟩ rfl]
    dsimp only
    rw [outA6_eq, pay3_apply, pay1_apply, zero_add,
      block_sum V c ⟨0, hn⟩ q (iblk7 V c 0 ⟨0, hn⟩) (iblk7 V c 1 ⟨0, hn⟩) (iblk7 V c 2 ⟨0, hn⟩) (iblk7 V c 3 ⟨0, hn⟩) (iblk7 V c 4 ⟨0, hn⟩) rfl rfl rfl rfl rfl, Finset.sum_range_one]
  | n + 1, hn => by
    have hN : cfg7.N = 25 := N_7
    have hB : ¬(⟨n + 1, hn⟩ : Fin cfg7.N).val % 25 = 0 := by dsimp only; omega
    rw [outsAt7_B V c ⟨n + 1, hn⟩ hB]
    dsimp only
    rw [outB6_eq, pay3_apply,
      block_sum V c ⟨n + 1, hn⟩ q (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) rfl rfl rfl rfl rfl, Finset.sum_range_succ _ (n + 1)]
    refine congrArg₂ (· + ·) ?_ rfl
    exact outsAt_snd_apply c q n (Nat.lt_of_succ_lt hn)

/-- The last point. -/
theorem lt_last : 24 < cfg7.N := by rw [show cfg7.N = 25 from N_7]; decide
abbrev tLast : Fin cfg7.N := ⟨24, lt_last⟩

/-- After the last point the row is the embedding's column sums over every row. -/
theorem after_last (c : Dev nD) :
    ((outsAt7 V c tLast.val tLast.isLt).2 : Vec Ideal S1x128 .f32) = Cert.Spec.colSum (Cert.Spec.head (V c main_v110) (V c main_v70) (V c main_v73) (V c main_arg14) (V c main_v74)) := by
  funext j
  obtain ⟨u, q, rfl⟩ : ∃ (u : Fin 1) (q : Fin 128), j = ix2 u q := ⟨j 0, j 1, eq_ix2 j⟩
  obtain rfl : u = 0 := Subsingleton.elim _ _
  rw [outsAt_snd_apply V c q 24 lt_last, Cert.LibBlockSum.sum_blocks_range 25 2000 (term (Cert.Spec.head (V c main_v110) (V c main_v70) (V c main_v73) (V c main_arg14) (V c main_v74)) q),
    ← Fin.sum_univ_eq_sum_range (term (Cert.Spec.head (V c main_v110) (V c main_v70) (V c main_v73) (V c main_arg14) (V c main_v74)) q) (25 * 2000)]
  show ∑ r : Fin 50000, term (Cert.Spec.head (V c main_v110) (V c main_v70) (V c main_v73) (V c main_arg14) (V c main_v74)) q r.val = _
  unfold Cert.Spec.colSum
  refine Finset.sum_congr rfl fun r _ => ?_
  rw [term, dif_pos r.isLt]

/-! ## The arrays after the region -/

/-- Every point writes back its embedding block: block `t` of the embedding. -/
theorem flushed5_eq (c : Dev nD) (t : Fin cfg7.N) (hf : (cfg7.win 5).flush t = true) :
    (dat7 V c).flushed 5 t = ((cfg7.win 5).blk t).view.read (Elt Ideal) (Cert.Spec.head (V c main_v110) (V c main_v70) (V c main_v73) (V c main_arg14) (V c main_v74)) := by
  have hN : t.val < 25 := lt_of_lt_of_eq t.isLt (show cfg7.N = 25 from N_7)
  obtain ⟨-, -, -, -, -, -, -, -, -, -, e0, e1, -⟩ := idx_facts t
  show (cfg7.win 5).cut (grid7.coords t) ((dat7 V c).after 5 t) = _
  rw [after7_5, outsAt_fst]
  funext y
  have hy0 : (y 0).val < 2000 := (y 0).isLt
  have hy1 : (y 1).val < 128 := (y 1).isLt
  have hr : t.val * 2000 + (y 0).val < 50000 := by omega
  show k7_pay2 (iblk7 V c 0 t) (iblk7 V c 1 t) (iblk7 V c 2 t) (iblk7 V c 3 t) (iblk7 V c 4 t) y = Cert.Spec.head (V c main_v110) (V c main_v70) (V c main_v73) (V c main_arg14) (V c main_v74) (((cfg7.win 5).blk t).view.emb y)
  have ey : y = ix2 (⟨(y 0).val, hy0⟩ : Fin 2000) (⟨(y 1).val, hy1⟩ : Fin 128) := funext fun a => by
    match a with
    | ⟨0, _⟩ => rfl
    | ⟨1, _⟩ => rfl
  have ee : ((cfg7.win 5).blk t).view.emb y = ix2 (⟨t.val * 2000 + (y 0).val, hr⟩ : Fin 50000) (⟨(y 1).val, hy1⟩ : Fin 128) := funext fun a => Fin.ext (by
    match a with
    | ⟨0, _⟩ => show win7_5.index t (0 : Fin 2) * 2000 + 1 * (y 0).val = t.val * 2000 + (y 0).val; rw [e0]; omega
    | ⟨1, _⟩ => show win7_5.index t (1 : Fin 2) * 128 + 1 * (y 1).val = (y 1).val; rw [e1]; omega)
  rw [ee]
  refine (congrArg _ ey).trans ?_
  exact head_block V c t (iblk7 V c 0 t) (iblk7 V c 1 t) (iblk7 V c 2 t) (iblk7 V c 3 t) (iblk7 V c 4 t) rfl rfl rfl rfl rfl _ _ _ rfl

/-- The embedding array after the region. -/
theorem final_emb (c : Dev nD) : (dat7 V c).arrAt 5 cfg7.N = Cert.Spec.head (V c main_v110) (V c main_v70) (V c main_v73) (V c main_arg14) (V c main_v74) :=
  (dat7 V c).arrAt_eq_of_cover 5 (Cert.Spec.head (V c main_v110) (V c main_v70) (V c main_v73) (V c main_arg14) (V c main_v74)) (flushed5_eq V c) fun i => by
    have hi0 : (i 0 : Nat) < 50000 := (i 0).isLt
    have hi1 : (i 1 : Nat) < 128 := (i 1).isLt
    have ht : (i 0 : Nat) / 2000 < cfg7.N := by rw [show cfg7.N = 25 from N_7]; omega
    obtain ⟨-, -, -, -, -, -, -, -, -, -, e0, e1, -⟩ := idx_facts ⟨(i 0 : Nat) / 2000, ht⟩
    refine ⟨⟨(i 0 : Nat) / 2000, ht⟩, flush7_5 _, ?_⟩
    show i ∈ ((View.whole main_v111_0).slice (win7_5.rect ⟨(i 0 : Nat) / 2000, ht⟩)).set
    rw [View.set_slice_whole, Rect.mem_set_unit]
    intro a
    match a with
    | ⟨0, _⟩ => show win7_5.index ⟨(i 0 : Nat) / 2000, ht⟩ (0 : Fin 2) * 2000 ≤ (i 0 : Nat) ∧ (i 0 : Nat) < win7_5.index ⟨(i 0 : Nat) / 2000, ht⟩ (0 : Fin 2) * 2000 + 2000
                rw [e0]; dsimp only; omega
    | ⟨1, _⟩ => show win7_5.index ⟨(i 0 : Nat) / 2000, ht⟩ (1 : Fin 2) * 128 ≤ (i 1 : Nat) ∧ (i 1 : Nat) < win7_5.index ⟨(i 0 : Nat) / 2000, ht⟩ (1 : Fin 2) * 128 + 128
                rw [e1]; omega

/-- The one write-back of the sums, at the last point, writes the whole row: block `(0, 0)` of a `[1, 128]` array is the array. -/
theorem flushed6_eq (c : Dev nD) (t : Fin cfg7.N) (hf : (cfg7.win 6).flush t = true) :
    (dat7 V c).flushed 6 t = ((cfg7.win 6).blk t).view.read (Elt Ideal) (Cert.Spec.colSum (Cert.Spec.head (V c main_v110) (V c main_v70) (V c main_v73) (V c main_arg14) (V c main_v74))) := by
  have hN : cfg7.N = 25 := N_7
  have h24 : t.val = 24 := by have := (flush7_6 t).mp hf; have := t.isLt; omega
  obtain rfl : t = tLast := Fin.ext h24
  show (cfg7.win 6).cut (grid7.coords tLast) ((dat7 V c).after 6 tLast) = _
  rw [after7_6, after_last]
  have hz' : (fun a => win7_6.index tLast a * main_v111_1.ty.shape.size a) = fun _ => 0 := funext fun a => by fin_cases a <;> decide +kernel
  exact (Memref.read_access_unit_zero (Elt Ideal) main_v111_1 hz' (fun a => by rw [congrFun hz' a]; simp) _).symm

/-- The sums' array after the region: the column sums of the embedding. -/
theorem final_sum (c : Dev nD) : (dat7 V c).arrAt 6 cfg7.N = Cert.Spec.colSum (Cert.Spec.head (V c main_v110) (V c main_v70) (V c main_v73) (V c main_arg14) (V c main_v74)) :=
  (dat7 V c).arrAt_eq_of_cover 6 (Cert.Spec.colSum (Cert.Spec.head (V c main_v110) (V c main_v70) (V c main_v73) (V c main_arg14) (V c main_v74))) (flushed6_eq V c) fun i =>
    ⟨tLast, (flush7_6 tLast).mpr rfl, by
      obtain ⟨-, -, -, -, -, -, -, -, -, -, -, -, e0, e1⟩ := idx_facts tLast
      show i ∈ ((View.whole main_v111_1).slice (win7_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win7_6.index tLast (0 : Fin 2) * 1 ≤ (i 0 : Nat) ∧ (i 0 : Nat) < win7_6.index tLast (0 : Fin 2) * 1 + 1
                  rw [e0]; omega
      | ⟨1, _⟩ => show win7_6.index tLast (1 : Fin 2) * 128 ≤ (i 1 : Nat) ∧ (i 1 : Nat) < win7_6.index tLast (1 : Fin 2) * 128 + 128
                  rw [e1]; omega⟩

end Cert.KernelIdeal.Reg7

end
-- ==== Proof.Reg8.lean ====
/-
  The centred sum of squares, block by block.

  The grid has 25 points; point `t` holds rows `2000 t … 2000 t + 1999` of the embedding and the one row of column
  means. The output is one row of 128 running totals whose block never moves: the first point zeroes it, every
  point adds, per column, the sum over its 2000 rows of `(x - mean)²`, and only the last point writes it back.
  So after point `n` the row holds the sum of the first `n + 1` block sums, and after the last the sum over all
  50000 rows: addition on the extended reals is commutative and associative, so consecutive block sums concatenate.
-/
import proofs.«148151_j29411936043366_2_alg».proof.Proof.Gen.KernelIdeal.Frame
import proofs.«148151_j29411936043366_2_alg».proof.Proof.Spec
import proofs.«148151_j29411936043366_2_alg».proof.Proof.KDot
import proofs.«148151_j29411936043366_2_alg».proof.Proof.LibBlockSum
import proofs.«148151_j29411936043366_2_alg».proof.Proof.LibElu
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg8

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-- The zero offsets of a load or store of a whole block. -/
theorem hz : (![0, 0] : Fin 2 → Nat) = fun _ => 0 := funext fun a => by fin_cases a <;> rfl

/-! ## What each case leaves in the output's buffer -/

section Pieces

variable {F : FTy → Type} [FloatOps F]

/-- The first point stores the zero row, reads it back, and stores the body's sum over it. -/
theorem outA_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond8_0 i)
    (x0 : Vec F S2000x128 .f32) (x1 : Vec F S1x128 .f32) :
    out8_A_2 c i arg1 harg1 arg2 harg2 arg3 harg3 hc0 x0 x1 = k8_pay2 x0 x1 (k8_pay1 (F := F)) := by
  unfold out8_A_2
  rw [View.read_writes_eq_canon _ _ _ (cover8_A_2 c i arg1 harg1 arg2 harg2 arg3 harg3 hc0 x0 x1)]
  unfold kernelRun8_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz, View.ld_unit_zero (S := S1x128) hz]

/-- A later point stores the body's sum over what the buffer held. -/
theorem outB_eq (c : Dev nD) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond8_0 i)
    (x0 : Vec F S2000x128 .f32) (x1 : Vec F S1x128 .f32) (xo2 : Vec F S1x128 .f32) :
    out8_B_2 c i arg1 harg1 arg2 harg2 arg3 harg3 hc0 x0 x1 xo2 = k8_pay2 x0 x1 xo2 := by
  unfold out8_B_2
  rw [View.read_writes_eq_canon _ _ _ (cover8_B_2 c i arg1 harg1 arg2 harg2 arg3 harg3 hc0 x0 x1 xo2)]
  unfold kernelRun8_B
  dsimp only
  try sl_unfold_words
  rw [View.canon_unit_zero hz]
  simp only [View.readAt_eq_ld, harg1.read_unread, harg2.read_unread, harg3.read_unread, View.ld_unit_zero (S := S2000x128) hz, View.ld_unit_zero (S := S1x128) hz]

end Pieces

/-! ## The body's arithmetic at a column -/

/-- The reduction over the rows of a block, at column `q`: the sum over the 2000 rows. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src (funext fun a => Fin.ext ?_)
  match a with
  | ⟨0, _⟩ => rfl
  | ⟨1, _⟩ => rfl

/-- The zero row the first point stores. -/
theorem pay1_apply (q : Fin 128) : k8_pay1 (F := Ideal) (ix2 0 q) = 0 := by
  unfold k8_pay1
  exact Ideal.ofBits_zero_f32

/-- The centred entry: the block's entry minus its column's mean, the one row of means broadcast over the rows. -/
theorem centred_apply (x0 : Vec Ideal S2000x128 .f32) (x1 : Vec Ideal S1x128 .f32) (p : Fin 2000) (q : Fin 128) :
    (subf (shapeCast S2000x128 x0 shapeCasts_S2000x128_S2000x128)
        (broadcastTo S2000x128 (shapeCast S1x128 x1 shapeCasts_S1x128_S1x128) broadcasts_S1x128_S2000x128) : FVec Ideal S2000x128 .f32) (ix2 p q)
      = x0 (ix2 p q) - x1 (ix2 0 q) := by
  refine (subf_apply _ _ _).trans ?_
  refine congrArg₂ (· - ·) (congrFun (shapeCast_self x0 _) _) ?_
  refine (broadcastTo_1b_ab_apply _ _ p q).trans ?_
  exact congrFun (shapeCast_self x1 _) _

/-- The stored row at column `q`: what the row held there plus the block's sum of centred squares. -/
theorem pay2_apply (x0 : Vec Ideal S2000x128 .f32) (x1 acc : Vec Ideal S1x128 .f32) (q : Fin 128) :
    k8_pay2 x0 x1 acc (ix2 0 q)
      = acc (ix2 0 q) + ∑ p : Fin 2000, (x0 (ix2 p q) - x1 (ix2 0 q)) * (x0 (ix2 p q) - x1 (ix2 0 q)) := by
  unfold k8_pay2
  dsimp only
  refine (addf_apply _ _ _).trans ?_
  refine congrArg₂ (· + ·) (congrFun (shapeCast_self acc _) _) ?_
  refine (shapeCast_a_1a_apply _ _ 0 q).trans ?_
  refine (colsum_apply _ q).trans ?_
  refine Finset.sum_congr rfl fun p _ => ?_
  refine (mulf_apply _ _ _).trans ?_
  exact congrArg₂ (· * ·) (centred_apply x0 x1 p q) (centred_apply x0 x1 p q)

/-! ## The blocks as rows of the arrays -/

variable (V : (c : Dev nD) → (b : Ref sig .tc) → Buf (Elt Ideal) ((c : Thread nD τ).loc b))

/-- The printed index maps over the grid: the embedding's block at point `t` is block `(t, 0)`, the means' and the
    output's block `(0, 0)`. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

/-- Row `p` of the embedding's block at point `t` is row `2000 t + p` of the array. -/
theorem iblk0_apply (c : Dev nD) (t : Fin cfg8.N) (p : Fin 2000) (q : Fin 128) (r : Fin 50000) (hr : r.val = t.val * 2000 + p.val) :
    (iblk8 V c 0 t : Vec Ideal S2000x128 .f32) (ix2 p q) = (V c main_v55_0 : S50000x128.Idx → EReal) (ix2 r q) := by
  obtain ⟨e0, e1, -⟩ := idx_facts t
  unfold iblk8
  rw [View.read_apply]
  show V c main_v55_0 _ = V c main_v55_0 _
  congr 1
  funext a
  apply Fin.ext
  match a with
  | ⟨0, _⟩ => show win8_0.index t (0 : Fin 2) * 2000 + 1 * p.val = r.val; rw [e0, hr]; omega
  | ⟨1, _⟩ => show win8_0.index t (1 : Fin 2) * 128 + 1 * q.val = q.val; rw [e1]; omega

/-- The means' block at every point is the one row of the array. -/
theorem iblk1_apply (c : Dev nD) (t : Fin cfg8.N) (q : Fin 128) :
    (iblk8 V c 1 t : Vec Ideal S1x128 .f32) (ix2 0 q) = (V c main_v113 : S1x128.Idx → EReal) (ix2 0 q) := by
  obtain ⟨-, -, e0, e1, -⟩ := idx_facts t
  unfold iblk8
  rw [View.read_apply]
  show V c main_v113 _ = V c main_v113 _
  congr 1
  funext a
  apply Fin.ext
  match a with
  | ⟨0, _⟩ => show win8_1.index t (0 : Fin 2) * 1 + 1 * 0 = 0; rw [e0]
  | ⟨1, _⟩ => show win8_1.index t (1 : Fin 2) * 128 + 1 * q.val = q.val; rw [e1]; omega

/-! ## The running total -/

/-- The centred square of row `r`, column `q`; zero past the last row (no point reads there). -/
def term (e : Cert.Spec.SNxD.Idx → EReal) (mean : Cert.Spec.S1xD.Idx → EReal) (q : Fin 128) (r : ℕ) : EReal :=
  if h : r < 50000 then (e (ix2 ⟨r, h⟩ q) - mean (ix2 0 q)) * (e (ix2 ⟨r, h⟩ q) - mean (ix2 0 q)) else 0

/-- Point `t`'s addend at column `q`: the sum over its block's rows of the centred squares. -/
theorem block_sum (c : Dev nD) (t : Fin cfg8.N) (q : Fin 128) (x0 : Vec Ideal S2000x128 .f32) (x1 : Vec Ideal S1x128 .f32)
    (h0 : x0 = iblk8 V c 0 t) (h1 : x1 = iblk8 V c 1 t) :
    ∑ p : Fin 2000, (x0 (ix2 p q) - x1 (ix2 0 q)) * (x0 (ix2 p q) - x1 (ix2 0 q))
      = ∑ p ∈ Finset.range 2000, term (V c main_v55_0) (V c main_v113) q (t.val * 2000 + p) := by
  have hN : t.val < 25 := lt_of_lt_of_eq t.isLt (show cfg8.N = 25 from N_8)
  rw [← Fin.sum_univ_eq_sum_range (fun p => term (V c main_v55_0) (V c main_v113) q (t.val * 2000 + p)) 2000]
  refine Finset.sum_congr rfl fun p _ => ?_
  have hp : p.val < 2000 := p.isLt
  have h : t.val * 2000 + p.val < 50000 := by omega
  subst h0 h1
  rw [term, dif_pos h, iblk0_apply V c t p q ⟨t.val * 2000 + p.val, h⟩ rfl, iblk1_apply V c t q]

/-- After point `n` the row holds, at column `q`, the sum of the first `n + 1` block sums. -/
theorem outsAt_apply (c : Dev nD) (q : Fin 128) : ∀ (n : ℕ) (hn : n < cfg8.N),
    (outsAt8 V c n hn : Vec Ideal S1x128 .f32) (ix2 0 q)
      = ∑ s ∈ Finset.range (n + 1), ∑ p ∈ Finset.range 2000, term (V c main_v55_0) (V c main_v113) q (s * 2000 + p)
  | 0, hn => by
    rw [outsAt8_A V c ⟨0, hn⟩ rfl, outA_eq, pay2_apply, pay1_apply, zero_add, block_sum V c ⟨0, hn⟩ q (iblk8 V c 0 ⟨0, hn⟩) (iblk8 V c 1 ⟨0, hn⟩) rfl rfl,
      Finset.sum_range_one]
  | n + 1, hn => by
    have hN : cfg8.N = 25 := N_8
    have hB : ¬(⟨n + 1, hn⟩ : Fin cfg8.N).val % 25 = 0 := by dsimp only; omega
    rw [outsAt8_B V c ⟨n + 1, hn⟩ hB, outB_eq, pay2_apply, block_sum V c ⟨n + 1, hn⟩ q (iblk8 V c 0 ⟨n + 1, hn⟩) (iblk8 V c 1 ⟨n + 1, hn⟩) rfl rfl,
      Finset.sum_range_succ _ (n + 1)]
    refine congrArg₂ (· + ·) ?_ rfl
    exact outsAt_apply c q n (Nat.lt_of_succ_lt hn)

/-- The last point. -/
theorem lt_last : 24 < cfg8.N := by rw [show cfg8.N = 25 from N_8]; decide
abbrev tLast : Fin cfg8.N := ⟨24, lt_last⟩

/-- After the last point the row is the centred sum of squares over every row. -/
theorem after_last (c : Dev nD) :
    (outsAt8 V c tLast.val tLast.isLt : Vec Ideal S1x128 .f32) = Cert.Spec.sumSq (V c main_v55_0) (V c main_v113) := by
  funext j
  obtain ⟨u, q, rfl⟩ : ∃ (u : Fin 1) (q : Fin 128), j = ix2 u q := ⟨j 0, j 1, eq_ix2 j⟩
  obtain rfl : u = 0 := Subsingleton.elim _ _
  rw [outsAt_apply V c q 24 lt_last, Cert.LibBlockSum.sum_blocks_range 25 2000 (term (V c main_v55_0) (V c main_v113) q),
    ← Fin.sum_univ_eq_sum_range (term (V c main_v55_0) (V c main_v113) q) (25 * 2000)]
  show ∑ r : Fin 50000, term (V c main_v55_0) (V c main_v113) q r.val = _
  unfold Cert.Spec.sumSq
  refine Finset.sum_congr rfl fun r _ => ?_
  rw [term, dif_pos r.isLt]

/-! ## The array after the region -/

/-- The one write-back, at the last point, writes the whole row: block `(0, 0)` of a `[1, 128]` array is the array. -/
theorem flushed_eq (c : Dev nD) (t : Fin cfg8.N) (hf : (cfg8.win 2).flush t = true) :
    (dat8 V c).flushed 2 t = ((cfg8.win 2).blk t).view.read (Elt Ideal) (Cert.Spec.sumSq (V c main_v55_0) (V c main_v113)) := by
  have hN : cfg8.N = 25 := N_8
  have h24 : t.val = 24 := by have := (flush8_2 t).mp hf; have := t.isLt; omega
  obtain rfl : t = tLast := Fin.ext h24
  show (cfg8.win 2).cut (grid8.coords tLast) ((dat8 V c).after 2 tLast) = _
  rw [after8_2, after_last]
  have hz' : (fun a => win8_2.index tLast a * main_v114.ty.shape.size a) = fun _ => 0 := funext fun a => by fin_cases a <;> decide +kernel
  exact (Memref.read_access_unit_zero (Elt Ideal) main_v114 hz' (fun a => by rw [congrFun hz' a]; simp) _).symm

/-- The output array after the region is the centred sum of squares of the embedding the region found. -/
theorem final (c : Dev nD) : (dat8 V c).arrAt 2 cfg8.N = Cert.Spec.sumSq (V c main_v55_0) (V c main_v113) :=
  (dat8 V c).arrAt_eq_of_cover 2 (Cert.Spec.sumSq (V c main_v55_0) (V c main_v113)) (flushed_eq V c) fun i =>
    ⟨tLast, (flush8_2 tLast).mpr rfl, by
      obtain ⟨-, -, -, -, e0, e1⟩ := idx_facts tLast
      show i ∈ ((View.whole main_v114).slice (win8_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win8_2.index tLast (0 : Fin 2) * 1 ≤ (i 0 : Nat) ∧ (i 0 : Nat) < win8_2.index tLast (0 : Fin 2) * 1 + 1
                  rw [e0]; omega
      | ⟨1, _⟩ => show win8_2.index tLast (1 : Fin 2) * 128 ≤ (i 1 : Nat) ∧ (i 1 : Nat) < win8_2.index tLast (1 : Fin 2) * 128 + 128
                  rw [e1]; omega⟩

end Cert.KernelIdeal.Reg8

end
-- ==== Proof.Reg9.lean ====
/-
  The centred sum of squares, block by block.

  The grid has 25 points; point `t` holds rows `2000 t … 2000 t + 1999` of the embedding and the one row of column
  means. The output is one row of 128 running totals whose block never moves: the first point zeroes it, every
  point adds, per column, the sum over its 2000 rows of `(x - mean)²`, and only the last point writes it back.
  So after point `n` the row holds the sum of the first `n + 1` block sums, and after the last the sum over all
  50000 rows: addition on the extended reals is commutative and associative, so consecutive block sums concatenate.
-/
import proofs.«148151_j29411936043366_2_alg».proof.Proof.Gen.KernelIdeal.Frame
import proofs.«148151_j29411936043366_2_alg».proof.Proof.Spec
import proofs.«148151_j29411936043366_2_alg».proof.Proof.KDot
import proofs.«148151_j29411936043366_2_alg».proof.Proof.LibBlockSum
import proofs.«148151_j29411936043366_2_alg».proof.Proof.LibElu
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg9

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-- The zero offsets of a load or store of a whole block. -/
theorem hz : (![0, 0] : Fin 2 → Nat) = fun _ => 0 := funext fun a => by fin_cases a <;> rfl

/-! ## What each case leaves in the output's buffer -/

section Pieces

variable {F : FTy → Type} [FloatOps F]

/-- The first point stores the zero row, reads it back, and stores the body's sum over it. -/
theorem outA_eq (c : Dev nD) (i : grid9.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : cond9_0 i)
    (x0 : Vec F S2000x128 .f32) (x1 : Vec F S1x128 .f32) :
    out9_A_2 c i arg1 harg1 arg2 harg2 arg3 harg3 hc0 x0 x1 = k9_pay2 x0 x1 (k9_pay1 (F := F)) := by
  unfold out9_A_2
  rw [View.read_writes_eq_canon _ _ _ (cover9_A_2 c i arg1 harg1 arg2 harg2 arg3 harg3 hc0 x0 x1)]
  unfold kernelRun9_A
  dsimp only
  sl_unfold_words
  rw [View.canon_cons_unit_zero (S := S1x128) hz, View.readCov_unit_zero (S := S1x128) _ hz]
  simp only [View.readAt_eq_ld, harg1.read_unread, harg2.read_unread, View.ld_unit_zero (S := S2000x128) hz, View.ld_unit_zero (S := S1x128) hz]

/-- A later point stores the body's sum over what the buffer held. -/
theorem outB_eq (c : Dev nD) (i : grid9.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (hc0 : ¬cond9_0 i)
    (x0 : Vec F S2000x128 .f32) (x1 : Vec F S1x128 .f32) (xo2 : Vec F S1x128 .f32) :
    out9_B_2 c i arg1 harg1 arg2 harg2 arg3 harg3 hc0 x0 x1 xo2 = k9_pay2 x0 x1 xo2 := by
  unfold out9_B_2
  rw [View.read_writes_eq_canon _ _ _ (cover9_B_2 c i arg1 harg1 arg2 harg2 arg3 harg3 hc0 x0 x1 xo2)]
  unfold kernelRun9_B
  dsimp only
  try sl_unfold_words
  rw [View.canon_unit_zero hz]
  simp only [View.readAt_eq_ld, harg1.read_unread, harg2.read_unread, harg3.read_unread, View.ld_unit_zero (S := S2000x128) hz, View.ld_unit_zero (S := S1x128) hz]

end Pieces

/-! ## The body's arithmetic at a column -/

/-- The reduction over the rows of a block, at column `q`: the sum over the 2000 rows. -/
theorem colsum_apply (src : FVec Ideal S2000x128 .f32) (q : Fin 128) :
    multiReduction (F := Ideal) .add [0] S128 src 0x00000000#32 reduces_S2000x128_S128 (.inl rfl) rfl (ix1 q)
      = ∑ p : Fin 2000, src (ix2 p q) := by
  refine (Ideal.multiReduction_add_single src 0x00000000#32 reduces_S2000x128_S128 (.inl rfl) rfl (ix1 q)).trans ?_
  refine Finset.sum_congr rfl fun p _ => congrArg src (funext fun a => Fin.ext ?_)
  match a with
  | ⟨0, _⟩ => rfl
  | ⟨1, _⟩ => rfl

/-- The zero row the first point stores. -/
theorem pay1_apply (q : Fin 128) : k9_pay1 (F := Ideal) (ix2 0 q) = 0 := by
  unfold k9_pay1
  exact Ideal.ofBits_zero_f32

/-- The centred entry: the block's entry minus its column's mean, the one row of means broadcast over the rows. -/
theorem centred_apply (x0 : Vec Ideal S2000x128 .f32) (x1 : Vec Ideal S1x128 .f32) (p : Fin 2000) (q : Fin 128) :
    (subf (shapeCast S2000x128 x0 shapeCasts_S2000x128_S2000x128)
        (broadcastTo S2000x128 (shapeCast S1x128 x1 shapeCasts_S1x128_S1x128) broadcasts_S1x128_S2000x128) : FVec Ideal S2000x128 .f32) (ix2 p q)
      = x0 (ix2 p q) - x1 (ix2 0 q) := by
  refine (subf_apply _ _ _).trans ?_
  refine congrArg₂ (· - ·) (congrFun (shapeCast_self x0 _) _) ?_
  refine (broadcastTo_1b_ab_apply _ _ p q).trans ?_
  exact congrFun (shapeCast_self x1 _) _

/-- The stored row at column `q`: what the row held there plus the block's sum of centred squares. -/
theorem pay2_apply (x0 : Vec Ideal S2000x128 .f32) (x1 acc : Vec Ideal S1x128 .f32) (q : Fin 128) :
    k9_pay2 x0 x1 acc (ix2 0 q)
      = acc (ix2 0 q) + ∑ p : Fin 2000, (x0 (ix2 p q) - x1 (ix2 0 q)) * (x0 (ix2 p q) - x1 (ix2 0 q)) := by
  unfold k9_pay2
  dsimp only
  refine (addf_apply _ _ _).trans ?_
  refine congrArg₂ (· + ·) (congrFun (shapeCast_self acc _) _) ?_
  refine (shapeCast_a_1a_apply _ _ 0 q).trans ?_
  refine (colsum_apply _ q).trans ?_
  refine Finset.sum_congr rfl fun p _ => ?_
  refine (mulf_apply _ _ _).trans ?_
  exact congrArg₂ (· * ·) (centred_apply x0 x1 p q) (centred_apply x0 x1 p q)

/-! ## The blocks as rows of the arrays -/

variable (V : (c : Dev nD) → (b : Ref sig .tc) → Buf (Elt Ideal) ((c : Thread nD τ).loc b))

/-- The printed index maps over the grid: the embedding's block at point `t` is block `(t, 0)`, the means' and the
    output's block `(0, 0)`. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

/-- Row `p` of the embedding's block at point `t` is row `2000 t + p` of the array. -/
theorem iblk0_apply (c : Dev nD) (t : Fin cfg9.N) (p : Fin 2000) (q : Fin 128) (r : Fin 50000) (hr : r.val = t.val * 2000 + p.val) :
    (iblk9 V c 0 t : Vec Ideal S2000x128 .f32) (ix2 p q) = (V c main_v111_0 : S50000x128.Idx → EReal) (ix2 r q) := by
  obtain ⟨e0, e1, -⟩ := idx_facts t
  unfold iblk9
  rw [View.read_apply]
  show V c main_v111_0 _ = V c main_v111_0 _
  congr 1
  funext a
  apply Fin.ext
  match a with
  | ⟨0, _⟩ => show win9_0.index t (0 : Fin 2) * 2000 + 1 * p.val = r.val; rw [e0, hr]; omega
  | ⟨1, _⟩ => show win9_0.index t (1 : Fin 2) * 128 + 1 * q.val = q.val; rw [e1]; omega

/-- The means' block at every point is the one row of the array. -/
theorem iblk1_apply (c : Dev nD) (t : Fin cfg9.N) (q : Fin 128) :
    (iblk9 V c 1 t : Vec Ideal S1x128 .f32) (ix2 0 q) = (V c main_v119 : S1x128.Idx → EReal) (ix2 0 q) := by
  obtain ⟨-, -, e0, e1, -⟩ := idx_facts t
  unfold iblk9
  rw [View.read_apply]
  show V c main_v119 _ = V c main_v119 _
  congr 1
  funext a
  apply Fin.ext
  match a with
  | ⟨0, _⟩ => show win9_1.index t (0 : Fin 2) * 1 + 1 * 0 = 0; rw [e0]
  | ⟨1, _⟩ => show win9_1.index t (1 : Fin 2) * 128 + 1 * q.val = q.val; rw [e1]; omega

/-! ## The running total -/

/-- The centred square of row `r`, column `q`; zero past the last row (no point reads there). -/
def term (e : Cert.Spec.SNxD.Idx → EReal) (mean : Cert.Spec.S1xD.Idx → EReal) (q : Fin 128) (r : ℕ) : EReal :=
  if h : r < 50000 then (e (ix2 ⟨r, h⟩ q) - mean (ix2 0 q)) * (e (ix2 ⟨r, h⟩ q) - mean (ix2 0 q)) else 0

/-- Point `t`'s addend at column `q`: the sum over its block's rows of the centred squares. -/
theorem block_sum (c : Dev nD) (t : Fin cfg9.N) (q : Fin 128) (x0 : Vec Ideal S2000x128 .f32) (x1 : Vec Ideal S1x128 .f32)
    (h0 : x0 = iblk9 V c 0 t) (h1 : x1 = iblk9 V c 1 t) :
    ∑ p : Fin 2000, (x0 (ix2 p q) - x1 (ix2 0 q)) * (x0 (ix2 p q) - x1 (ix2 0 q))
      = ∑ p ∈ Finset.range 2000, term (V c main_v111_0) (V c main_v119) q (t.val * 2000 + p) := by
  have hN : t.val < 25 := lt_of_lt_of_eq t.isLt (show cfg9.N = 25 from N_9)
  rw [← Fin.sum_univ_eq_sum_range (fun p => term (V c main_v111_0) (V c main_v119) q (t.val * 2000 + p)) 2000]
  refine Finset.sum_congr rfl fun p _ => ?_
  have hp : p.val < 2000 := p.isLt
  have h : t.val * 2000 + p.val < 50000 := by omega
  subst h0 h1
  rw [term, dif_pos h, iblk0_apply V c t p q ⟨t.val * 2000 + p.val, h⟩ rfl, iblk1_apply V c t q]

/-- After point `n` the row holds, at column `q`, the sum of the first `n + 1` block sums. -/
theorem outsAt_apply (c : Dev nD) (q : Fin 128) : ∀ (n : ℕ) (hn : n < cfg9.N),
    (outsAt9 V c n hn : Vec Ideal S1x128 .f32) (ix2 0 q)
      = ∑ s ∈ Finset.range (n + 1), ∑ p ∈ Finset.range 2000, term (V c main_v111_0) (V c main_v119) q (s * 2000 + p)
  | 0, hn => by
    rw [outsAt9_A V c ⟨0, hn⟩ rfl, outA_eq, pay2_apply, pay1_apply, zero_add, block_sum V c ⟨0, hn⟩ q (iblk9 V c 0 ⟨0, hn⟩) (iblk9 V c 1 ⟨0, hn⟩) rfl rfl,
      Finset.sum_range_one]
  | n + 1, hn => by
    have hN : cfg9.N = 25 := N_9
    have hB : ¬(⟨n + 1, hn⟩ : Fin cfg9.N).val % 25 = 0 := by dsimp only; omega
    rw [outsAt9_B V c ⟨n + 1, hn⟩ hB, outB_eq, pay2_apply, block_sum V c ⟨n + 1, hn⟩ q (iblk9 V c 0 ⟨n + 1, hn⟩) (iblk9 V c 1 ⟨n + 1, hn⟩) rfl rfl,
      Finset.sum_range_succ _ (n + 1)]
    refine congrArg₂ (· + ·) ?_ rfl
    exact outsAt_apply c q n (Nat.lt_of_succ_lt hn)

/-- The last point. -/
theorem lt_last : 24 < cfg9.N := by rw [show cfg9.N = 25 from N_9]; decide
abbrev tLast : Fin cfg9.N := ⟨24, lt_last⟩

/-- After the last point the row is the centred sum of squares over every row. -/
theorem after_last (c : Dev nD) :
    (outsAt9 V c tLast.val tLast.isLt : Vec Ideal S1x128 .f32) = Cert.Spec.sumSq (V c main_v111_0) (V c main_v119) := by
  funext j
  obtain ⟨u, q, rfl⟩ : ∃ (u : Fin 1) (q : Fin 128), j = ix2 u q := ⟨j 0, j 1, eq_ix2 j⟩
  obtain rfl : u = 0 := Subsingleton.elim _ _
  rw [outsAt_apply V c q 24 lt_last, Cert.LibBlockSum.sum_blocks_range 25 2000 (term (V c main_v111_0) (V c main_v119) q),
    ← Fin.sum_univ_eq_sum_range (term (V c main_v111_0) (V c main_v119) q) (25 * 2000)]
  show ∑ r : Fin 50000, term (V c main_v111_0) (V c main_v119) q r.val = _
  unfold Cert.Spec.sumSq
  refine Finset.sum_congr rfl fun r _ => ?_
  rw [term, dif_pos r.isLt]

/-! ## The array after the region -/

/-- The one write-back, at the last point, writes the whole row: block `(0, 0)` of a `[1, 128]` array is the array. -/
theorem flushed_eq (c : Dev nD) (t : Fin cfg9.N) (hf : (cfg9.win 2).flush t = true) :
    (dat9 V c).flushed 2 t = ((cfg9.win 2).blk t).view.read (Elt Ideal) (Cert.Spec.sumSq (V c main_v111_0) (V c main_v119)) := by
  have hN : cfg9.N = 25 := N_9
  have h24 : t.val = 24 := by have := (flush9_2 t).mp hf; have := t.isLt; omega
  obtain rfl : t = tLast := Fin.ext h24
  show (cfg9.win 2).cut (grid9.coords tLast) ((dat9 V c).after 2 tLast) = _
  rw [after9_2, after_last]
  have hz' : (fun a => win9_2.index tLast a * main_v120.ty.shape.size a) = fun _ => 0 := funext fun a => by fin_cases a <;> decide +kernel
  exact (Memref.read_access_unit_zero (Elt Ideal) main_v120 hz' (fun a => by rw [congrFun hz' a]; simp) _).symm

/-- The output array after the region is the centred sum of squares of the embedding the region found. -/
theorem final (c : Dev nD) : (dat9 V c).arrAt 2 cfg9.N = Cert.Spec.sumSq (V c main_v111_0) (V c main_v119) :=
  (dat9 V c).arrAt_eq_of_cover 2 (Cert.Spec.sumSq (V c main_v111_0) (V c main_v119)) (flushed_eq V c) fun i =>
    ⟨tLast, (flush9_2 tLast).mpr rfl, by
      obtain ⟨-, -, -, -, e0, e1⟩ := idx_facts tLast
      show i ∈ ((View.whole main_v120).slice (win9_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win9_2.index tLast (0 : Fin 2) * 1 ≤ (i 0 : Nat) ∧ (i 0 : Nat) < win9_2.index tLast (0 : Fin 2) * 1 + 1
                  rw [e0]; omega
      | ⟨1, _⟩ => show win9_2.index tLast (1 : Fin 2) * 128 ≤ (i 1 : Nat) ∧ (i 1 : Nat) < win9_2.index tLast (1 : Fin 2) * 128 + 128
                  rw [e1]; omega⟩

end Cert.KernelIdeal.Reg9

end
-- ==== Proof.Reg10Pay.lean ====
/-
  Regions 10 and 11 share one body: centre a block of the embedding by the column means, scale by the columns'
  reciprocal standard deviations, store that as the standardized embedding, and multiply it by the (zero-padded,
  128-wide) classifier, adding its bias. Read at an index: the standardized entry (p, q) is
  (x[p,q] - mean[q]) * invstd[q]; the score (p, q) is the sum over k of the standardized (p, k) times wc[k,q], plus
  bc[q].
-/
import proofs.«148151_j29411936043366_2_alg».proof.Proof.Gen.KernelIdeal.Skeleton
import proofs.«148151_j29411936043366_2_alg».proof.Proof.Spec
import proofs.«148151_j29411936043366_2_alg».proof.Proof.KDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegNC

open Cert.KernelIdeal Cert.KernelIdeal.Gen Idealize.ShloMosaic Idealize.ShloMosaic.ValueIdx

theorem pay10_1_apply (x : Vec Ideal S2000x128 .f32) (mean invstd : Vec Ideal S1x128 .f32) (p : Fin 2000) (q : Fin 128) :
    k10_pay1 x mean invstd (ix2 p q) = (x (ix2 p q) - mean (ix2 0 q)) * invstd (ix2 0 q) := by
  unfold k10_pay1
  simp only [mulf_apply, subf_apply, shapeCast_self, broadcastTo_1b_ab_apply]

theorem pay10_2_apply (x : Vec Ideal S2000x128 .f32) (mean invstd : Vec Ideal S1x128 .f32) (wc : Vec Ideal S128x128 .f32)
    (bc : Vec Ideal S1x128 .f32) (p : Fin 2000) (q : Fin 128) :
    k10_pay2 x mean invstd wc bc (ix2 p q)
      = (∑ k : Fin 128, ((x (ix2 p k) - mean (ix2 0 k)) * invstd (ix2 0 k)) * wc (ix2 k q)) + bc (ix2 0 q) := by
  unfold k10_pay2
  rw [addf_apply]
  refine congrArg₂ (· + ·) ?_ ?_
  · refine (KDot.matmul_apply _ _ p q).trans ?_
    refine Finset.sum_congr rfl fun k _ => ?_
    rw [truncf_apply, truncf_apply, shapeCast_self, pay10_1_apply]
  · rw [shapeCast_self, broadcastTo_1b_ab_apply]

theorem pay11_1_apply (x : Vec Ideal S2000x128 .f32) (mean invstd : Vec Ideal S1x128 .f32) (p : Fin 2000) (q : Fin 128) :
    k11_pay1 x mean invstd (ix2 p q) = (x (ix2 p q) - mean (ix2 0 q)) * invstd (ix2 0 q) := by
  unfold k11_pay1
  simp only [mulf_apply, subf_apply, shapeCast_self, broadcastTo_1b_ab_apply]

theorem pay11_2_apply (x : Vec Ideal S2000x128 .f32) (mean invstd : Vec Ideal S1x128 .f32) (wc : Vec Ideal S128x128 .f32)
    (bc : Vec Ideal S1x128 .f32) (p : Fin 2000) (q : Fin 128) :
    k11_pay2 x mean invstd wc bc (ix2 p q)
      = (∑ k : Fin 128, ((x (ix2 p k) - mean (ix2 0 k)) * invstd (ix2 0 k)) * wc (ix2 k q)) + bc (ix2 0 q) := by
  unfold k11_pay2
  rw [addf_apply]
  refine congrArg₂ (· + ·) ?_ ?_
  · refine (KDot.matmul_apply _ _ p q).trans ?_
    refine Finset.sum_congr rfl fun k _ => ?_
    rw [truncf_apply, truncf_apply, shapeCast_self, pay11_1_apply]
  · rw [shapeCast_self, broadcastTo_1b_ab_apply]

end Cert.KernelIdeal.RegNC

end
-- ==== Proof.Reg10.lean ====
/-
  Region 10: standardize and classify — from blocks to the arrays. Grid point t stages rows 2000 t … 2000 t + 1999 of
  the embedding and the whole mean row, reciprocal-deviation row, classifier matrix and bias row; it writes back
  the same rows of the standardized embedding and of the scores. Every row lies in the block of point (row / 2000),
  so after the 25 points the two result arrays are the specification's `normed` and `scores` of the arrays the
  region found, at every index.
-/
import proofs.«148151_j29411936043366_2_alg».proof.Proof.Gen.KernelIdeal.Frame
import proofs.«148151_j29411936043366_2_alg».proof.Proof.Reg10Pay
import Idealize.ShloMosaic.Lib.Pipeline.Value
import Idealize.ShloMosaic.Lib.Tactic

set_option maxRecDepth 16384

noncomputable section

namespace Cert.KernelIdeal.Reg10

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg10.N, win10_0.index t (0 : Fin 2) = t.val ∧ win10_0.index t (1 : Fin 2) = 0 :=
  (by decide +kernel : ∀ t : Fin grid10.N, _)
theorem idx_1 : ∀ t : Fin cfg10.N, win10_1.index t (0 : Fin 2) = 0 ∧ win10_1.index t (1 : Fin 2) = 0 :=
  (by decide +kernel : ∀ t : Fin grid10.N, _)
theorem idx_2 : ∀ t : Fin cfg10.N, win10_2.index t (0 : Fin 2) = 0 ∧ win10_2.index t (1 : Fin 2) = 0 :=
  (by decide +kernel : ∀ t : Fin grid10.N, _)
theorem idx_3 : ∀ t : Fin cfg10.N, win10_3.index t (0 : Fin 2) = 0 ∧ win10_3.index t (1 : Fin 2) = 0 :=
  (by decide +kernel : ∀ t : Fin grid10.N, _)
theorem idx_4 : ∀ t : Fin cfg10.N, win10_4.index t (0 : Fin 2) = 0 ∧ win10_4.index t (1 : Fin 2) = 0 :=
  (by decide +kernel : ∀ t : Fin grid10.N, _)
theorem idx_5 : ∀ t : Fin cfg10.N, win10_5.index t (0 : Fin 2) = t.val ∧ win10_5.index t (1 : Fin 2) = 0 :=
  (by decide +kernel : ∀ t : Fin grid10.N, _)
theorem idx_6 : ∀ t : Fin cfg10.N, win10_6.index t (0 : Fin 2) = t.val ∧ win10_6.index t (1 : Fin 2) = 0 :=
  (by decide +kernel : ∀ t : Fin grid10.N, _)

/-- Row p of point t's block is row 2000 t + p of the array. -/
def row (t : Fin cfg10.N) (p : Fin 2000) : Fin 50000 :=
  ⟨2000 * t.val + p.val, by have := t.isLt; have hN : cfg10.N = 25 := N_10; have := p.isLt; omega⟩

theorem iblk_0 (c : Dev nD) (t : Fin cfg10.N) (p : Fin 2000) (k : Fin 128) :
    (iblk10 V c 0 t : Vec Ideal S2000x128 .f32) (ix2 p k) = (V c main_v55_0 : S50000x128.Idx → EReal) (ix2 (row t p) k) := by
  obtain ⟨e0, e1⟩ := idx_0 t
  unfold iblk10
  rw [View.read_apply]
  show V c main_v55_0 _ = V c main_v55_0 _
  congr 1
  funext a
  apply Fin.ext
  match a with
  | ⟨0, _⟩ => show win10_0.index t 0 * 2000 + 1 * p.val = 2000 * t.val + p.val; rw [e0]; omega
  | ⟨1, _⟩ => show win10_0.index t 1 * 128 + 1 * k.val = k.val; rw [e1]; omega

theorem iblk_1 (c : Dev nD) (t : Fin cfg10.N) (q : Fin 128) :
    (iblk10 V c 1 t : Vec Ideal S1x128 .f32) (ix2 0 q) = (V c main_v113 : S1x128.Idx → EReal) (ix2 0 q) := by
  obtain ⟨e0, e1⟩ := idx_1 t
  unfold iblk10
  rw [View.read_apply]
  show V c main_v113 _ = V c main_v113 _
  congr 1
  funext a
  apply Fin.ext
  match a with
  | ⟨0, _⟩ => show win10_1.index t 0 * 1 + 1 * 0 = 0; rw [e0]
  | ⟨1, _⟩ => show win10_1.index t 1 * 128 + 1 * q.val = q.val; rw [e1]; omega

theorem iblk_2 (c : Dev nD) (t : Fin cfg10.N) (q : Fin 128) :
    (iblk10 V c 2 t : Vec Ideal S1x128 .f32) (ix2 0 q) = (V c main_v117 : S1x128.Idx → EReal) (ix2 0 q) := by
  obtain ⟨e0, e1⟩ := idx_2 t
  unfold iblk10
  rw [View.read_apply]
  show V c main_v117 _ = V c main_v117 _
  congr 1
  funext a
  apply Fin.ext
  match a with
  | ⟨0, _⟩ => show win10_2.index t 0 * 1 + 1 * 0 = 0; rw [e0]
  | ⟨1, _⟩ => show win10_2.index t 1 * 128 + 1 * q.val = q.val; rw [e1]; omega

theorem iblk_3 (c : Dev nD) (t : Fin cfg10.N) (k q : Fin 128) :
    (iblk10 V c 3 t : Vec Ideal S128x128 .f32) (ix2 k q) = (V c main_v125 : S128x128.Idx → EReal) (ix2 k q) := by
  obtain ⟨e0, e1⟩ := idx_3 t
  unfold iblk10
  rw [View.read_apply]
  show V c main_v125 _ = V c main_v125 _
  congr 1
  funext a
  apply Fin.ext
  match a with
  | ⟨0, _⟩ => show win10_3.index t 0 * 128 + 1 * k.val = k.val; rw [e0]; omega
  | ⟨1, _⟩ => show win10_3.index t 1 * 128 + 1 * q.val = q.val; rw [e1]; omega

theorem iblk_4 (c : Dev nD) (t : Fin cfg10.N) (q : Fin 128) :
    (iblk10 V c 4 t : Vec Ideal S1x128 .f32) (ix2 0 q) = (V c main_v128 : S1x128.Idx → EReal) (ix2 0 q) := by
  obtain ⟨e0, e1⟩ := idx_4 t
  unfold iblk10
  rw [View.read_apply]
  show V c main_v128 _ = V c main_v128 _
  congr 1
  funext a
  apply Fin.ext
  match a with
  | ⟨0, _⟩ => show win10_4.index t 0 * 1 + 1 * 0 = 0; rw [e0]
  | ⟨1, _⟩ => show win10_4.index t 1 * 128 + 1 * q.val = q.val; rw [e1]; omega

/-- The array window 5 leaves: the standardized embedding. -/
abbrev G5 (c : Dev nD) : S50000x128.Idx → EReal :=
  Cert.Spec.normed (V c main_v55_0) (V c main_v113) (V c main_v117)

/-- What point t writes back through window 5 is block t of that array. -/
theorem flushed_eq5 (c : Dev nD) (t : Fin cfg10.N) :
    (dat10 V c).flushed 5 t = ((cfg10.win 5).blk t).view.read (Elt Ideal) (G5 V c) := by
  show (cfg10.win 5).cut (grid10.coords t) ((dat10 V c).after 5 t) = _
  rw [after10_5]
  unfold out10_5
  rw [View.canon_unit_zero hz]
  simp only [View.ld_unit_zero (S := S2000x128) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k10_pay1 (iblk10 V c 0 t) (iblk10 V c 1 t) (iblk10 V c 2 t) (ix2 p q) = G5 V c (((cfg10.win 5).blk t).view.emb (ix2 p q))
  have hemb : ((cfg10.win 5).blk t).view.emb (ix2 p q) = ix2 (row t p) q := by
    funext a
    apply Fin.ext
    match a with
    | ⟨0, _⟩ => show win10_5.index t 0 * 2000 + 1 * p.val = 2000 * t.val + p.val; rw [e0]; omega
    | ⟨1, _⟩ => show win10_5.index t 1 * 128 + 1 * q.val = q.val; rw [e1]; omega
  rw [hemb, Cert.KernelIdeal.RegNC.pay10_1_apply]
  unfold G5 Cert.Spec.normed
  rw [iblk_0, iblk_1, iblk_2]
  try rfl

theorem mem_blk5 (t : Fin cfg10.N) (i : S50000x128.Idx) :
    i ∈ ((cfg10.win 5).blk t).view.set ↔ ∀ a : Fin 2, win10_5.index t a * S2000x128.size a ≤ (i a).val
      ∧ (i a).val < win10_5.index t a * S2000x128.size a + S2000x128.size a := by
  show i ∈ ((View.whole main_v129_0).slice (win10_5.rect t)).set ↔ _
  rw [View.set_slice_whole, Rect.mem_set_unit]
  exact Iff.rfl

/-- The array after the region, at every index (row r is written by point r / 2000). -/
theorem final5 (c : Dev nD) : (dat10 V c).arrAt 5 cfg10.N = G5 V c :=
  (dat10 V c).arrAt_eq_of_cover 5 (G5 V c) (fun t _ => flushed_eq5 V c t) fun i => by
    have hi0 : (i 0).val < 50000 := (i 0).isLt
    have hi1 : (i 1).val < 128 := (i 1).isLt
    have hN : cfg10.N = 25 := N_10
    have ht : (i 0).val / 2000 < cfg10.N := by rw [hN]; omega
    obtain ⟨e0, e1⟩ := idx_5 ⟨(i 0).val / 2000, ht⟩
    refine ⟨⟨(i 0).val / 2000, ht⟩, flush10_5 _, ?_⟩
    rw [mem_blk5]
    intro a
    match a with
    | ⟨0, _⟩ =>
      show win10_5.index ⟨(i 0).val / 2000, ht⟩ 0 * 2000 ≤ (i 0).val ∧ (i 0).val < win10_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win10_5.index ⟨(i 0).val / 2000, ht⟩ 1 * 128 ≤ (i 1).val ∧ (i 1).val < win10_5.index ⟨(i 0).val / 2000, ht⟩ 1 * 128 + 128
      rw [e1]; omega

/-- The array window 6 leaves: the class scores over the 128-wide classifier. -/
abbrev G6 (c : Dev nD) : S50000x128.Idx → EReal :=
  Cert.Spec.scores (Cert.Spec.normed (V c main_v55_0) (V c main_v113) (V c main_v117)) (V c main_v125) (V c main_v128)

/-- What point t writes back through window 6 is block t of that array. -/
theorem flushed_eq6 (c : Dev nD) (t : Fin cfg10.N) :
    (dat10 V c).flushed 6 t = ((cfg10.win 6).blk t).view.read (Elt Ideal) (G6 V c) := by
  show (cfg10.win 6).cut (grid10.coords t) ((dat10 V c).after 6 t) = _
  rw [after10_6]
  unfold out10_6
  rw [View.canon_unit_zero hz]
  simp only [View.ld_unit_zero (S := S2000x128) hz, View.ld_unit_zero (S := S1x128) hz, View.ld_unit_zero (S := S128x128) hz]
  obtain ⟨e0, e1⟩ := idx_6 t
  funext j
  obtain ⟨p, q, rfl⟩ : ∃ (p : Fin 2000) (q : Fin 128), j = ix2 p q := ⟨j 0, j 1, eq_ix2 j⟩
  show k10_pay2 (iblk10 V c 0 t) (iblk10 V c 1 t) (iblk10 V c 2 t) (iblk10 V c 3 t) (iblk10 V c 4 t) (ix2 p q) = G6 V c (((cfg10.win 6).blk t).view.emb (ix2 p q))
  have hemb : ((cfg10.win 6).blk t).view.emb (ix2 p q) = ix2 (row t p) q := by
    funext a
    apply Fin.ext
    match a with
    | ⟨0, _⟩ => show win10_6.index t 0 * 2000 + 1 * p.val = 2000 * t.val + p.val; rw [e0]; omega
    | ⟨1, _⟩ => show win10_6.index t 1 * 128 + 1 * q.val = q.val; rw [e1]; omega
  rw [hemb, Cert.KernelIdeal.RegNC.pay10_2_apply]
  unfold G6 Cert.Spec.scores Cert.Spec.normed
  refine congrArg₂ (· + ·) (Finset.sum_congr rfl fun k _ => ?_) ?_
  · rw [iblk_0, iblk_1, iblk_2, iblk_3]
    try rfl
  · rw [iblk_4]
    try rfl

theorem mem_blk6 (t : Fin cfg10.N) (i : S50000x128.Idx) :
    i ∈ ((cfg10.win 6).blk t).view.set ↔ ∀ a : Fin 2, win10_6.index t a * S2000x128.size a ≤ (i a).val
      ∧ (i a).val < win10_6.index t a * S2000x128.size a + S2000x128.size a := by
  show i ∈ ((View.whole main_v129_1).slice (win10_6.rect t)).set ↔ _
  rw [View.set_slice_whole, Rect.mem_set_unit]
  exact Iff.rfl

/-- The array after the region, at every index (row r is written by point r / 2000). -/
theorem final6 (c : Dev nD) : (dat10 V c).arrAt 6 cfg10.N = G6 V c :=
  (dat10 V c).arrAt_eq_of_cover 6 (G6 V c) (fun t _ => flushed_eq6 V c t) fun i => by
    have hi0 : (i 0).val < 50000 := (i 0).isLt
    have hi1 : (i 1).val < 128 := (i 1).isLt
    have hN : cfg10.N = 25 := N_10
    have ht : (i 0).val / 2000 < cfg10.N := by rw [hN]; omega
    obtain ⟨e0, e1⟩ := idx_6 ⟨(i 0).val / 2000, ht⟩
    refine ⟨⟨(i 0).val / 2000, ht⟩, flush10_6 _, ?_⟩
    rw [mem_blk6]
    intro a
    match a with
    | ⟨0, _⟩ =>
      show win10_6.index ⟨(i 0).val / 2000, ht⟩ 0 * 2000 ≤ (i 0).val ∧ (i 0).val < win10_6.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win10_6.index ⟨(i 0).val / 2000, ht⟩ 1 * 128 ≤ (i 1).val ∧ (i 1).val < win10_6.index ⟨(i 0).val / 2000, ht⟩ 1 * 128 + 128
      rw [e1]; omega

end Cert.KernelIdeal.Reg10

end
-- ==== Proof.Reg11.lean ====
/-
  Region 11: standardize and classify — from blocks to the arrays. Grid point t stages rows 2000 t … 2000 t + 1999 of
  the embedding and the whole mean row, reciprocal-deviation row, classifier matrix and bias row; it writes back
  the same rows of the standardized embedding and of the scores. Every row lies in the block of point (row / 2000),
  so after the 25 points the two result arrays are the specification's `normed` and `scores` of the arrays the
  region found, at every index.
-/
import proofs.«148151_j29411936043366_2_alg».proof.Proof.Gen.KernelIdeal.Frame
import proofs.«148151_j29411936043366_2_alg».proof.Proof.Reg10Pay
import Idealize.ShloMosaic.Lib.Pipeline.Value
import Idealize.ShloMosaic.Lib.Tactic

set_option maxRecDepth 16384

noncomputable section

namespace Cert.KernelIdeal.Reg11

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! Where each window's block sits at point t: a row-blocked window at block row t, a whole array at the origin. -/
theorem idx_0 : ∀ t : Fin cfg11.N, win11_0.index t (0 : Fin 2) = t.val ∧ win11_0.index t (1 : Fin 2) = 0 :=
  (by decide +kernel : ∀ t : Fin grid11.N, _)
theorem idx_1 : ∀ t : Fin cfg11.N, win11_1.index t (0 : Fin 2) = 0 ∧ win11_1.index t (1 : Fin 2) = 0 :=
  (by decide +kernel : ∀ t : Fin grid11.N, _)
theorem idx_2 : ∀ t : Fin cfg11.N, win11_2.index t (0 : Fin 2) = 0 ∧ win11_2.index t (1 : Fin 2) = 0 :=
  (by decide +kernel : ∀ t : Fin grid11.N, _)
theorem idx_3 : ∀ t : Fin cfg11.N, win11_3.index t (0 : Fin 2) = 0 ∧ win11_3.index t (1 : Fin 2) = 0 :=
  (by decide +kernel : ∀ t : Fin grid11.N, _)
theorem idx_4 : ∀ t : Fin cfg11.N, win11_4.index t (0 : Fin 2) = 0 ∧ win11_4.index t (1 : Fin 2) = 0 :=
  (by decide +kernel : ∀ t : Fin grid11.N, _)
theorem idx_5 : ∀ t : Fin cfg11.N, win11_5.index t (0 : Fin 2) = t.val ∧ win11_5.index t (1 : Fin 2) = 0 :=
  (by decide +kernel : ∀ t : Fin grid11.N, _)
theorem idx_6 : ∀ t : Fin cfg11.N, win11_6.index t (0 : Fin 2) = t.val ∧ win11_6.index t (1 : Fin 2) = 0 :=
  (by decide +kernel : ∀ t : Fin grid11.N, _)

/-- Row p of point t's block is row 2000 t + p of the array. -/
def row (t : Fin cfg11.N) (p : Fin 2000) : Fin 50000 :=
  ⟨2000 * t.val + p.val, by have := t.isLt; have hN : cfg11.N = 25 := N_11; have := p.isLt; omega⟩

theorem iblk_0 (c : Dev nD) (t : Fin cfg11.N) (p : Fin 2000) (k : Fin 128) :
    (iblk11 V c 0 t : Vec Ideal S2000x128 .f32) (ix2 p k) = (V c main_v111_0 : S50000x128.Idx → EReal) (ix2 (row t p) k) := by
  obtain ⟨e0, e1⟩ := idx_0 t
  unfold iblk11
  rw [View.read_apply]
  show V c main_v111_0 _ = V c main_v111_0 _
  congr 1
  funext a
  apply Fin.ext
  match a with
  | ⟨0, _⟩ => show win11_0.index t 0 * 2000 + 1 * p.val = 2000 * t.val + p.val; rw [e0]; omega
  | ⟨1, _⟩ => show win11_0.index t 1 * 128 + 1 * k.val = k.val; rw [e1]; omega

theorem iblk_1 (c : Dev nD) (t : Fin cfg11.N) (q : Fin 128) :
    (iblk11 V c 1 t : Vec Ideal S1x128 .f32) (ix2 0 q) = (V c main_v119 : S1x128.Idx → EReal) (ix2 0 q) := by
  obtain ⟨e0, e1⟩ := idx_1 t
  unfold iblk11
  rw [View.read_apply]
  show V c main_v119 _ = V c main_v119 _
  congr 1
  funext a
  apply Fin.ext
  match a with
  | ⟨0, _⟩ => show win11_1.index t 0 * 1 + 1 * 0 = 0; rw [e0]
  | ⟨1, _⟩ => show win11_1.index t 1 * 128 + 1 * q.val = q.val; rw [e1]; omega

theorem iblk_2 (c : Dev nD) (t : Fin cfg11.N) (q : Fin 128) :
    (iblk11 V c 2 t : Vec Ideal S1x128 .f32) (ix2 0 q) = (V c main_v123 : S1x128.Idx → EReal) (ix2 0 q) := by
  obtain ⟨e0, e1⟩ := idx_2 t
  unfold iblk11
  rw [View.read_apply]
  show V c main_v123 _ = V c main_v123 _
  congr 1
  funext a
  apply Fin.ext
  match a with
  | ⟨0, _⟩ => show win11_2.index t 0 * 1 + 1 * 0 = 0; rw [e0]
  | ⟨1, _⟩ => show win11_2.index t 1 * 128 + 1 * q.val = q.val; rw [e1]; omega

theorem iblk_3 (c : Dev nD) (t : Fin cfg11.N) (k q : Fin 128) :
    (iblk11 V c 3 t : Vec Ideal S128x128 .f32) (ix2 k q) = (V c main_v125 : S128x128.Idx → EReal) (ix2 k q) := by
  obtain ⟨e0, e1⟩ := idx_3 t
  unfold iblk11
  rw [View.read_apply]
  show V c main_v125 _ = V c main_v125 _
  congr 1
  funext a
  apply Fin.ext
  match a with
  | ⟨0, _⟩ => show win11_3.index t 0 * 128 + 1 * k.val = k.val; rw [e0]; omega
  | ⟨1, _⟩ => show win11_3.index t 1 * 128 + 1 * q.val = q.val; rw [e1]; omega

theorem iblk_4 (c : Dev nD) (t : Fin cfg11.N) (q : Fin 128) :
    (iblk11 V c 4 t : Vec Ideal S1x128 .f32) (ix2 0 q) = (V c main_v128 : S1x128.Idx → EReal) (ix2 0 q) := by
  obtain ⟨e0, e1⟩ := idx_4 t
  unfold iblk11
  rw [View.read_apply]
  show V c main_v128 _ = V c main_v128 _
  congr 1
  funext a
  apply Fin.ext
  match a with
  | ⟨0, _⟩ => show win11_4.index t 0 * 1 + 1 * 0 = 0; rw [e0]
  | ⟨1, _⟩ => show win11_4.index t 1 * 128 + 1 * q.val = q.val; rw [e1]; omega

/-- The array window 5 leaves: the standardized embedding. -/
abbrev G5 (c : Dev nD) : S50000x128.Idx → EReal :=
  Cert.Spec.normed (V c main_v111_0) (V c main_v119) (V c main_v123)

/-- What point t writes back through window 5 is block t of that array. -/
theorem flushed_eq5 (c : Dev nD) (t : Fin cfg11.N) :
    (dat11 V c).flushed 5 t = ((cfg11.win 5).blk t).view.read (Elt Ideal) (G5 V c) := by
  show (cfg11.win 5).cut (grid11.coords t) ((dat11 V c).after 5 t) = _
  rw [after11_5]
  unfold out11_5
  rw [View.canon_unit_zero hz]
  simp only [View.ld_unit_zero (S := S2000x128) hz, View.ld_unit_zero (S := S1x128) hz, View.ld_unit_zero (S := S128x128) hz]
  obtain ⟨e0, e1⟩ := idx_5 t
  funext j
  obtain ⟨p, q, rfl⟩ : ∃ (p : Fin 2000) (q : Fin 128), j = ix2 p q := ⟨j 0, j 1, eq_ix2 j⟩
  show k11_pay1 (iblk11 V c 0 t) (iblk11 V c 1 t) (iblk11 V c 2 t) (ix2 p q) = G5 V c (((cfg11.win 5).blk t).view.emb (ix2 p q))
  have hemb : ((cfg11.win 5).blk t).view.emb (ix2 p q) = ix2 (row t p) q := by
    funext a
    apply Fin.ext
    match a with
    | ⟨0, _⟩ => show win11_5.index t 0 * 2000 + 1 * p.val = 2000 * t.val + p.val; rw [e0]; omega
    | ⟨1, _⟩ => show win11_5.index t 1 * 128 + 1 * q.val = q.val; rw [e1]; omega
  rw [hemb, Cert.KernelIdeal.RegNC.pay11_1_apply]
  unfold G5 Cert.Spec.normed
  rw [iblk_0, iblk_1, iblk_2]
  try rfl

theorem mem_blk5 (t : Fin cfg11.N) (i : S50000x128.Idx) :
    i ∈ ((cfg11.win 5).blk t).view.set ↔ ∀ a : Fin 2, win11_5.index t a * S2000x128.size a ≤ (i a).val
      ∧ (i a).val < win11_5.index t a * S2000x128.size a + S2000x128.size a := by
  show i ∈ ((View.whole main_v130_0).slice (win11_5.rect t)).set ↔ _
  rw [View.set_slice_whole, Rect.mem_set_unit]
  exact Iff.rfl

/-- The array after the region, at every index (row r is written by point r / 2000). -/
theorem final5 (c : Dev nD) : (dat11 V c).arrAt 5 cfg11.N = G5 V c :=
  (dat11 V c).arrAt_eq_of_cover 5 (G5 V c) (fun t _ => flushed_eq5 V c t) fun i => by
    have hi0 : (i 0).val < 50000 := (i 0).isLt
    have hi1 : (i 1).val < 128 := (i 1).isLt
    have hN : cfg11.N = 25 := N_11
    have ht : (i 0).val / 2000 < cfg11.N := by rw [hN]; omega
    obtain ⟨e0, e1⟩ := idx_5 ⟨(i 0).val / 2000, ht⟩
    refine ⟨⟨(i 0).val / 2000, ht⟩, flush11_5 _, ?_⟩
    rw [mem_blk5]
    intro a
    match a with
    | ⟨0, _⟩ =>
      show win11_5.index ⟨(i 0).val / 2000, ht⟩ 0 * 2000 ≤ (i 0).val ∧ (i 0).val < win11_5.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win11_5.index ⟨(i 0).val / 2000, ht⟩ 1 * 128 ≤ (i 1).val ∧ (i 1).val < win11_5.index ⟨(i 0).val / 2000, ht⟩ 1 * 128 + 128
      rw [e1]; omega

/-- The array window 6 leaves: the class scores over the 128-wide classifier. -/
abbrev G6 (c : Dev nD) : S50000x128.Idx → EReal :=
  Cert.Spec.scores (Cert.Spec.normed (V c main_v111_0) (V c main_v119) (V c main_v123)) (V c main_v125) (V c main_v128)

/-- What point t writes back through window 6 is block t of that array. -/
theorem flushed_eq6 (c : Dev nD) (t : Fin cfg11.N) :
    (dat11 V c).flushed 6 t = ((cfg11.win 6).blk t).view.read (Elt Ideal) (G6 V c) := by
  show (cfg11.win 6).cut (grid11.coords t) ((dat11 V c).after 6 t) = _
  rw [after11_6]
  unfold out11_6
  rw [View.canon_unit_zero hz]
  simp only [View.ld_unit_zero (S := S2000x128) hz, View.ld_unit_zero (S := S1x128) hz, View.ld_unit_zero (S := S128x128) hz]
  obtain ⟨e0, e1⟩ := idx_6 t
  funext j
  obtain ⟨p, q, rfl⟩ : ∃ (p : Fin 2000) (q : Fin 128), j = ix2 p q := ⟨j 0, j 1, eq_ix2 j⟩
  show k11_pay2 (iblk11 V c 0 t) (iblk11 V c 1 t) (iblk11 V c 2 t) (iblk11 V c 3 t) (iblk11 V c 4 t) (ix2 p q) = G6 V c (((cfg11.win 6).blk t).view.emb (ix2 p q))
  have hemb : ((cfg11.win 6).blk t).view.emb (ix2 p q) = ix2 (row t p) q := by
    funext a
    apply Fin.ext
    match a with
    | ⟨0, _⟩ => show win11_6.index t 0 * 2000 + 1 * p.val = 2000 * t.val + p.val; rw [e0]; omega
    | ⟨1, _⟩ => show win11_6.index t 1 * 128 + 1 * q.val = q.val; rw [e1]; omega
  rw [hemb, Cert.KernelIdeal.RegNC.pay11_2_apply]
  unfold G6 Cert.Spec.scores Cert.Spec.normed
  refine congrArg₂ (· + ·) (Finset.sum_congr rfl fun k _ => ?_) ?_
  · rw [iblk_0, iblk_1, iblk_2, iblk_3]
    try rfl
  · rw [iblk_4]
    try rfl

theorem mem_blk6 (t : Fin cfg11.N) (i : S50000x128.Idx) :
    i ∈ ((cfg11.win 6).blk t).view.set ↔ ∀ a : Fin 2, win11_6.index t a * S2000x128.size a ≤ (i a).val
      ∧ (i a).val < win11_6.index t a * S2000x128.size a + S2000x128.size a := by
  show i ∈ ((View.whole main_v130_1).slice (win11_6.rect t)).set ↔ _
  rw [View.set_slice_whole, Rect.mem_set_unit]
  exact Iff.rfl

/-- The array after the region, at every index (row r is written by point r / 2000). -/
theorem final6 (c : Dev nD) : (dat11 V c).arrAt 6 cfg11.N = G6 V c :=
  (dat11 V c).arrAt_eq_of_cover 6 (G6 V c) (fun t _ => flushed_eq6 V c t) fun i => by
    have hi0 : (i 0).val < 50000 := (i 0).isLt
    have hi1 : (i 1).val < 128 := (i 1).isLt
    have hN : cfg11.N = 25 := N_11
    have ht : (i 0).val / 2000 < cfg11.N := by rw [hN]; omega
    obtain ⟨e0, e1⟩ := idx_6 ⟨(i 0).val / 2000, ht⟩
    refine ⟨⟨(i 0).val / 2000, ht⟩, flush11_6 _, ?_⟩
    rw [mem_blk6]
    intro a
    match a with
    | ⟨0, _⟩ =>
      show win11_6.index ⟨(i 0).val / 2000, ht⟩ 0 * 2000 ≤ (i 0).val ∧ (i 0).val < win11_6.index ⟨(i 0).val / 2000, ht⟩ 0 * 2000 + 2000
      rw [e0]; show (i 0).val / 2000 * 2000 ≤ (i 0).val ∧ (i 0).val < (i 0).val / 2000 * 2000 + 2000; omega
    | ⟨1, _⟩ =>
      show win11_6.index ⟨(i 0).val / 2000, ht⟩ 1 * 128 ≤ (i 1).val ∧ (i 1).val < win11_6.index ⟨(i 0).val / 2000, ht⟩ 1 * 128 + 128
      rw [e1]; omega

end Cert.KernelIdeal.Reg11

end
-- ==== Proof.KValue.lean ====
/-
  The idealized kernel program's four results as functions of its arguments. One graph's features go through
  dropout and the first layer's product (region), the aggregation along the edges (host), twice more through
  activation, normalisation and the next product (region) and the aggregation (host), then the head (region), which
  also accumulates the column sums; the host divides them into means, a region accumulates the centred sums of
  squares, the host turns them into reciprocal standard deviations, and a last region standardizes and scores over
  the zero-padded classifier, whose first two columns the host returns. Each buffer is read at the segment that
  produces it and carried, unchanged, to the segments that read it.
-/
import proofs.«148151_j29411936043366_2_alg».proof.Proof.KStage
import proofs.«148151_j29411936043366_2_alg».proof.Proof.KKeep
import proofs.«148151_j29411936043366_2_alg».proof.Proof.Reg0
import proofs.«148151_j29411936043366_2_alg».proof.Proof.Reg1
import proofs.«148151_j29411936043366_2_alg».proof.Proof.Reg2
import proofs.«148151_j29411936043366_2_alg».proof.Proof.Reg3
import proofs.«148151_j29411936043366_2_alg».proof.Proof.Reg4
import proofs.«148151_j29411936043366_2_alg».proof.Proof.Reg5
import proofs.«148151_j29411936043366_2_alg».proof.Proof.Reg6
import proofs.«148151_j29411936043366_2_alg».proof.Proof.Reg7
import proofs.«148151_j29411936043366_2_alg».proof.Proof.Reg8
import proofs.«148151_j29411936043366_2_alg».proof.Proof.Reg9
import proofs.«148151_j29411936043366_2_alg».proof.Proof.Reg10
import proofs.«148151_j29411936043366_2_alg».proof.Proof.Reg11

set_option maxRecDepth 16384

noncomputable section

namespace Cert.KernelIdeal.KValue

open Cert.KernelIdeal Cert.KernelIdeal.Gen Cert.KernelIdeal.KStage
open Idealize.ShloMosaic Idealize.ShloMosaic.TcCoe Idealize.SL.Sem

/-- The first layer's aggregate. -/
def l1 (x mask : FVec Ideal S50000x128 .f32) (src dst : IVec S600000 32) (w1 : FVec Ideal S128x128 .f32) : FVec Ideal S50000x128 .f32 :=
  aggOf (F := Ideal) (Cert.Spec.dropPre x mask (normOf (F := Ideal) src) w1) src dst

/-- The second layer's aggregate. -/
def l2 (x mask : FVec Ideal S50000x128 .f32) (src dst : IVec S600000 32) (w1 : FVec Ideal S128x128 .f32) (b1 : FVec Ideal S128 .f32)
    (w2 : FVec Ideal S128x128 .f32) : FVec Ideal S50000x128 .f32 :=
  aggOf (F := Ideal) (Cert.Spec.postPre (l1 x mask src dst w1) (normOf (F := Ideal) dst) (rowOf (F := Ideal) b1) (normOf (F := Ideal) src) w2) src dst

/-- The third layer's aggregate. -/
def l3 (x mask : FVec Ideal S50000x128 .f32) (src dst : IVec S600000 32) (w1 : FVec Ideal S128x128 .f32) (b1 : FVec Ideal S128 .f32)
    (w2 : FVec Ideal S128x128 .f32) (b2 : FVec Ideal S128 .f32) (w3 : FVec Ideal S128x128 .f32) : FVec Ideal S50000x128 .f32 :=
  aggOf (F := Ideal) (Cert.Spec.postPre (l2 x mask src dst w1 b1 w2) (normOf (F := Ideal) dst) (rowOf (F := Ideal) b2) (normOf (F := Ideal) src) w3) src dst

/-- One graph's embedding before standardization. -/
def embK (x mask : FVec Ideal S50000x128 .f32) (src dst : IVec S600000 32) (w1 : FVec Ideal S128x128 .f32) (b1 : FVec Ideal S128 .f32)
    (w2 : FVec Ideal S128x128 .f32) (b2 : FVec Ideal S128 .f32) (w3 : FVec Ideal S128x128 .f32) (b3 : FVec Ideal S128 .f32)
    (wl : FVec Ideal S128x128 .f32) (bl : FVec Ideal S128 .f32) : FVec Ideal S50000x128 .f32 :=
  Cert.Spec.head (l3 x mask src dst w1 b1 w2 b2 w3) (normOf (F := Ideal) dst) (rowOf (F := Ideal) b3) wl (rowOf (F := Ideal) bl)

/-- The column means. -/
def meanK (e : FVec Ideal S50000x128 .f32) : FVec Ideal S1x128 .f32 := divN (F := Ideal) (Cert.Spec.colSum e)
/-- The reciprocal standard deviations. -/
def invstdK (e : FVec Ideal S50000x128 .f32) : FVec Ideal S1x128 .f32 := invstdOf (F := Ideal) (Cert.Spec.sumSq e (meanK e))
/-- The standardized embedding. -/
def normedK (e : FVec Ideal S50000x128 .f32) : FVec Ideal S50000x128 .f32 := Cert.Spec.normed e (meanK e) (invstdK e)
/-- The class scores. -/
def scoresK (e : FVec Ideal S50000x128 .f32) (wc : FVec Ideal S128x2 .f32) (bc : FVec Ideal S2 .f32) : FVec Ideal S50000x2 .f32 :=
  sliceC (F := Ideal) (Cert.Spec.scores (normedK e) (wcPad (F := Ideal) wc) (bcPad (F := Ideal) bc))

variable (m : (ℓ : Loc nD τ sig) → Buf (Elt Ideal) ℓ) (ρ : Dev nD → PrngReg)

/-! ## The padded classifier (shared by both graphs) -/

theorem val_main_v125 (c : Dev nD) : W21 m ρ c (Proc.devRef .tc main_v125) = wcPad (F := Ideal) (m ((c : Thread nD τ).loc main_arg16)) := by
  rw [KStage.st_main_v125, KKeep.kept20_main_arg16]

theorem val_main_v128 (c : Dev nD) : W21 m ρ c (Proc.devRef .tc main_v128) = bcPad (F := Ideal) (m ((c : Thread nD τ).loc main_arg17)) := by
  rw [KStage.st_main_v128, KKeep.kept20_main_arg17]

/-! ## The first graph -/

theorem val_main_v10 (c : Dev nD) : W1 m ρ c (Proc.devRef .tc main_v10) = normOf (F := Ideal) (m ((c : Thread nD τ).loc main_arg4)) := by
  rw [KStage.st_main_v10]

theorem val_main_v14 (c : Dev nD) : W1 m ρ c (Proc.devRef .tc main_v14) = normOf (F := Ideal) (m ((c : Thread nD τ).loc main_arg5)) := by
  rw [KStage.st_main_v14]

theorem val_main_v15 (c : Dev nD) : W1 m ρ c (Proc.devRef .tc main_v15) = rowOf (F := Ideal) (m ((c : Thread nD τ).loc main_arg9)) := by
  rw [KStage.st_main_v15]

theorem val_main_v16 (c : Dev nD) : W1 m ρ c (Proc.devRef .tc main_v16) = rowOf (F := Ideal) (m ((c : Thread nD τ).loc main_arg11)) := by
  rw [KStage.st_main_v16]

theorem val_main_v17 (c : Dev nD) : W1 m ρ c (Proc.devRef .tc main_v17) = rowOf (F := Ideal) (m ((c : Thread nD τ).loc main_arg13)) := by
  rw [KStage.st_main_v17]

theorem val_main_v18 (c : Dev nD) : W1 m ρ c (Proc.devRef .tc main_v18) = rowOf (F := Ideal) (m ((c : Thread nD τ).loc main_arg15)) := by
  rw [KStage.st_main_v18]

theorem val_main_v19 (c : Dev nD) : W2 m ρ c (Proc.devRef .tc main_v19) = Cert.Spec.dropPre (m ((c : Thread nD τ).loc main_arg0)) (m ((c : Thread nD τ).loc main_arg2)) (normOf (F := Ideal) (m ((c : Thread nD τ).loc main_arg4))) (m ((c : Thread nD τ).loc main_arg8)) := by
  rw [show W2 m ρ c (Proc.devRef .tc main_v19) = _ from W2_arr m ρ c 4, Reg0.final]
  simp only [V1, Reg0.G]
  rw [KKeep.kept1_main_arg0, KKeep.kept1_main_arg2, val_main_v10, KKeep.kept1_main_arg8]

theorem val_main_v30 (c : Dev nD) : W3 m ρ c (Proc.devRef .tc main_v30) = (l1 (m ((c : Thread nD τ).loc main_arg0)) (m ((c : Thread nD τ).loc main_arg2)) (m ((c : Thread nD τ).loc main_arg4)) (m ((c : Thread nD τ).loc main_arg5)) (m ((c : Thread nD τ).loc main_arg8))) := by
  rw [KStage.st_main_v30, val_main_v19, KKeep.kept2_main_arg4, KKeep.kept2_main_arg5]
  rfl

theorem val_main_v31 (c : Dev nD) : W4 m ρ c (Proc.devRef .tc main_v31) = Cert.Spec.postPre (l1 (m ((c : Thread nD τ).loc main_arg0)) (m ((c : Thread nD τ).loc main_arg2)) (m ((c : Thread nD τ).loc main_arg4)) (m ((c : Thread nD τ).loc main_arg5)) (m ((c : Thread nD τ).loc main_arg8))) (normOf (F := Ideal) (m ((c : Thread nD τ).loc main_arg5))) (rowOf (F := Ideal) (m ((c : Thread nD τ).loc main_arg9))) (normOf (F := Ideal) (m ((c : Thread nD τ).loc main_arg4))) (m ((c : Thread nD τ).loc main_arg10)) := by
  rw [show W4 m ρ c (Proc.devRef .tc main_v31) = _ from W4_arr m ρ c 5, Reg1.final5]
  simp only [V3, Reg1.G5]
  rw [val_main_v30, KKeep.kept3_main_v14, val_main_v14, KKeep.kept3_main_v15, val_main_v15, KKeep.kept3_main_v10, val_main_v10, KKeep.kept3_main_arg10]

theorem val_main_v42 (c : Dev nD) : W5 m ρ c (Proc.devRef .tc main_v42) = (l2 (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10))) := by
  rw [KStage.st_main_v42, val_main_v31, KKeep.kept4_main_arg4, KKeep.kept4_main_arg5]
  rfl

theorem val_main_v43 (c : Dev nD) : W6 m ρ c (Proc.devRef .tc main_v43) = Cert.Spec.postPre (l2 (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10))) (normOf (F := Ideal) (m ((c : Thread nD τ).loc main_arg5))) (rowOf (F := Ideal) (m ((c : Thread nD τ).loc main_arg11))) (normOf (F := Ideal) (m ((c : Thread nD τ).loc main_arg4))) (m ((c : Thread nD τ).loc main_arg12)) := by
  rw [show W6 m ρ c (Proc.devRef .tc main_v43) = _ from W6_arr m ρ c 5, Reg2.final5]
  simp only [V5, Reg2.G5]
  rw [val_main_v42, KKeep.kept5_main_v14, val_main_v14, KKeep.kept5_main_v16, val_main_v16, KKeep.kept5_main_v10, val_main_v10, KKeep.kept5_main_arg12]

theorem val_main_v54 (c : Dev nD) : W7 m ρ c (Proc.devRef .tc main_v54) = (l3 (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12))) := by
  rw [KStage.st_main_v54, val_main_v43, KKeep.kept6_main_arg4, KKeep.kept6_main_arg5]
  rfl

theorem val_main_v55_0 (c : Dev nD) : W8 m ρ c (Proc.devRef .tc main_v55_0) = (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W8 m ρ c (Proc.devRef .tc main_v55_0) = _ from W8_arr m ρ c 5, Reg3.final_emb]
  simp only [V7]
  rw [val_main_v54, KKeep.kept7_main_v14, val_main_v14, KKeep.kept7_main_v17, val_main_v17, KKeep.kept7_main_arg14, KKeep.kept7_main_v18, val_main_v18]
  rfl

theorem val_main_v55_1 (c : Dev nD) : W8 m ρ c (Proc.devRef .tc main_v55_1) = Cert.Spec.colSum (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W8 m ρ c (Proc.devRef .tc main_v55_1) = _ from W8_arr m ρ c 6, Reg3.final_sum]
  simp only [V7]
  rw [val_main_v54, KKeep.kept7_main_v14, val_main_v14, KKeep.kept7_main_v17, val_main_v17, KKeep.kept7_main_arg14, KKeep.kept7_main_v18, val_main_v18]
  rfl

theorem val_main_v113 (c : Dev nD) : W17 m ρ c (Proc.devRef .tc main_v113) = meanK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KStage.st_main_v113, KKeep.kept16_main_v55_1, val_main_v55_1]
  rfl

theorem val_main_v114 (c : Dev nD) : W18 m ρ c (Proc.devRef .tc main_v114) = Cert.Spec.sumSq (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (meanK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) := by
  rw [show W18 m ρ c (Proc.devRef .tc main_v114) = _ from W18_arr m ρ c 2, Reg8.final]
  simp only [V17]
  rw [KKeep.kept17_main_v55_0, val_main_v55_0, val_main_v113]

theorem val_main_v117 (c : Dev nD) : W19 m ρ c (Proc.devRef .tc main_v117) = invstdK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KStage.st_main_v117, val_main_v114]
  rfl

theorem val_main_v129_0 (c : Dev nD) : W22 m ρ c (Proc.devRef .tc main_v129_0) = normedK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W22 m ρ c (Proc.devRef .tc main_v129_0) = _ from W22_arr m ρ c 5, Reg10.final5]
  simp only [V21, Reg10.G5]
  rw [KKeep.kept21_main_v55_0, val_main_v55_0, KKeep.kept21_main_v113, val_main_v113, KKeep.kept21_main_v117, val_main_v117]
  rfl

theorem val_main_v129_1 (c : Dev nD) : W22 m ρ c (Proc.devRef .tc main_v129_1) = Cert.Spec.scores (normedK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (wcPad (F := Ideal) (m ((c : Thread nD τ).loc main_arg16))) (bcPad (F := Ideal) (m ((c : Thread nD τ).loc main_arg17))) := by
  rw [show W22 m ρ c (Proc.devRef .tc main_v129_1) = _ from W22_arr m ρ c 6, Reg10.final6]
  simp only [V21, Reg10.G6]
  rw [KKeep.kept21_main_v55_0, val_main_v55_0, KKeep.kept21_main_v113, val_main_v113, KKeep.kept21_main_v117, val_main_v117, val_main_v125, val_main_v128]
  rfl

/-- The program's standardized embedding of this graph. -/
theorem res_main_v129_0 (c : Dev nD) : W24 m ρ c (Proc.devRef .tc main_v129_0) = normedK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KKeep.kept24_main_v129_0, val_main_v129_0]

/-- The program's class scores of this graph. -/
theorem res_main_v131 (c : Dev nD) : W24 m ρ c (Proc.devRef .tc main_v131) = scoresK (embK (m ((c : Thread nD τ).loc main_arg0)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) := by
  rw [KStage.st_main_v131, KKeep.kept23_main_v129_1, val_main_v129_1]
  rfl

/-! ## The second graph -/

theorem val_main_v66 (c : Dev nD) : W9 m ρ c (Proc.devRef .tc main_v66) = normOf (F := Ideal) (m ((c : Thread nD τ).loc main_arg6)) := by
  rw [KStage.st_main_v66, KKeep.kept8_main_arg6]

theorem val_main_v70 (c : Dev nD) : W9 m ρ c (Proc.devRef .tc main_v70) = normOf (F := Ideal) (m ((c : Thread nD τ).loc main_arg7)) := by
  rw [KStage.st_main_v70, KKeep.kept8_main_arg7]

theorem val_main_v71 (c : Dev nD) : W9 m ρ c (Proc.devRef .tc main_v71) = rowOf (F := Ideal) (m ((c : Thread nD τ).loc main_arg9)) := by
  rw [KStage.st_main_v71, KKeep.kept8_main_arg9]

theorem val_main_v72 (c : Dev nD) : W9 m ρ c (Proc.devRef .tc main_v72) = rowOf (F := Ideal) (m ((c : Thread nD τ).loc main_arg11)) := by
  rw [KStage.st_main_v72, KKeep.kept8_main_arg11]

theorem val_main_v73 (c : Dev nD) : W9 m ρ c (Proc.devRef .tc main_v73) = rowOf (F := Ideal) (m ((c : Thread nD τ).loc main_arg13)) := by
  rw [KStage.st_main_v73, KKeep.kept8_main_arg13]

theorem val_main_v74 (c : Dev nD) : W9 m ρ c (Proc.devRef .tc main_v74) = rowOf (F := Ideal) (m ((c : Thread nD τ).loc main_arg15)) := by
  rw [KStage.st_main_v74, KKeep.kept8_main_arg15]

theorem val_main_v75 (c : Dev nD) : W10 m ρ c (Proc.devRef .tc main_v75) = Cert.Spec.dropPre (m ((c : Thread nD τ).loc main_arg1)) (m ((c : Thread nD τ).loc main_arg3)) (normOf (F := Ideal) (m ((c : Thread nD τ).loc main_arg6))) (m ((c : Thread nD τ).loc main_arg8)) := by
  rw [show W10 m ρ c (Proc.devRef .tc main_v75) = _ from W10_arr m ρ c 4, Reg4.final]
  simp only [V9, Reg4.G]
  rw [KKeep.kept9_main_arg1, KKeep.kept9_main_arg3, val_main_v66, KKeep.kept9_main_arg8]

theorem val_main_v86 (c : Dev nD) : W11 m ρ c (Proc.devRef .tc main_v86) = (l1 (m ((c : Thread nD τ).loc main_arg1)) (m ((c : Thread nD τ).loc main_arg3)) (m ((c : Thread nD τ).loc main_arg6)) (m ((c : Thread nD τ).loc main_arg7)) (m ((c : Thread nD τ).loc main_arg8))) := by
  rw [KStage.st_main_v86, val_main_v75, KKeep.kept10_main_arg6, KKeep.kept10_main_arg7]
  rfl

theorem val_main_v87 (c : Dev nD) : W12 m ρ c (Proc.devRef .tc main_v87) = Cert.Spec.postPre (l1 (m ((c : Thread nD τ).loc main_arg1)) (m ((c : Thread nD τ).loc main_arg3)) (m ((c : Thread nD τ).loc main_arg6)) (m ((c : Thread nD τ).loc main_arg7)) (m ((c : Thread nD τ).loc main_arg8))) (normOf (F := Ideal) (m ((c : Thread nD τ).loc main_arg7))) (rowOf (F := Ideal) (m ((c : Thread nD τ).loc main_arg9))) (normOf (F := Ideal) (m ((c : Thread nD τ).loc main_arg6))) (m ((c : Thread nD τ).loc main_arg10)) := by
  rw [show W12 m ρ c (Proc.devRef .tc main_v87) = _ from W12_arr m ρ c 5, Reg5.final5]
  simp only [V11, Reg5.G5]
  rw [val_main_v86, KKeep.kept11_main_v70, val_main_v70, KKeep.kept11_main_v71, val_main_v71, KKeep.kept11_main_v66, val_main_v66, KKeep.kept11_main_arg10]

theorem val_main_v98 (c : Dev nD) : W13 m ρ c (Proc.devRef .tc main_v98) = (l2 (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) := by
  rw [KStage.st_main_v98, val_main_v87, KKeep.kept12_main_arg6, KKeep.kept12_main_arg7]
  rfl

theorem val_main_v99 (c : Dev nD) : W14 m ρ c (Proc.devRef .tc main_v99) = Cert.Spec.postPre (l2 (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (normOf (F := Ideal) (m ((c : Thread nD τ).loc main_arg7))) (rowOf (F := Ideal) (m ((c : Thread nD τ).loc main_arg11))) (normOf (F := Ideal) (m ((c : Thread nD τ).loc main_arg6))) (m ((c : Thread nD τ).loc main_arg12)) := by
  rw [show W14 m ρ c (Proc.devRef .tc main_v99) = _ from W14_arr m ρ c 5, Reg6.final5]
  simp only [V13, Reg6.G5]
  rw [val_main_v98, KKeep.kept13_main_v70, val_main_v70, KKeep.kept13_main_v72, val_main_v72, KKeep.kept13_main_v66, val_main_v66, KKeep.kept13_main_arg12]

theorem val_main_v110 (c : Dev nD) : W15 m ρ c (Proc.devRef .tc main_v110) = (l3 (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [KStage.st_main_v110, val_main_v99, KKeep.kept14_main_arg6, KKeep.kept14_main_arg7]
  rfl

theorem val_main_v111_0 (c : Dev nD) : W16 m ρ c (Proc.devRef .tc main_v111_0) = (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W16 m ρ c (Proc.devRef .tc main_v111_0) = _ from W16_arr m ρ c 5, Reg7.final_emb]
  simp only [V15]
  rw [val_main_v110, KKeep.kept15_main_v70, val_main_v70, KKeep.kept15_main_v73, val_main_v73, KKeep.kept15_main_arg14, KKeep.kept15_main_v74, val_main_v74]
  rfl

theorem val_main_v111_1 (c : Dev nD) : W16 m ρ c (Proc.devRef .tc main_v111_1) = Cert.Spec.colSum (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W16 m ρ c (Proc.devRef .tc main_v111_1) = _ from W16_arr m ρ c 6, Reg7.final_sum]
  simp only [V15]
  rw [val_main_v110, KKeep.kept15_main_v70, val_main_v70, KKeep.kept15_main_v73, val_main_v73, KKeep.kept15_main_arg14, KKeep.kept15_main_v74, val_main_v74]
  rfl

theorem val_main_v119 (c : Dev nD) : W19 m ρ c (Proc.devRef .tc main_v119) = meanK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KStage.st_main_v119, KKeep.kept18_main_v111_1, val_main_v111_1]
  rfl

theorem val_main_v120 (c : Dev nD) : W20 m ρ c (Proc.devRef .tc main_v120) = Cert.Spec.sumSq (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (meanK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) := by
  rw [show W20 m ρ c (Proc.devRef .tc main_v120) = _ from W20_arr m ρ c 2, Reg9.final]
  simp only [V19]
  rw [KKeep.kept19_main_v111_0, val_main_v111_0, val_main_v119]

theorem val_main_v123 (c : Dev nD) : W21 m ρ c (Proc.devRef .tc main_v123) = invstdK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KStage.st_main_v123, val_main_v120]
  rfl

theorem val_main_v130_0 (c : Dev nD) : W23 m ρ c (Proc.devRef .tc main_v130_0) = normedK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [show W23 m ρ c (Proc.devRef .tc main_v130_0) = _ from W23_arr m ρ c 5, Reg11.final5]
  simp only [V22, Reg11.G5]
  rw [KKeep.kept22_main_v111_0, val_main_v111_0, KKeep.kept22_main_v119, val_main_v119, KKeep.kept22_main_v123, val_main_v123]
  rfl

theorem val_main_v130_1 (c : Dev nD) : W23 m ρ c (Proc.devRef .tc main_v130_1) = Cert.Spec.scores (normedK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (wcPad (F := Ideal) (m ((c : Thread nD τ).loc main_arg16))) (bcPad (F := Ideal) (m ((c : Thread nD τ).loc main_arg17))) := by
  rw [show W23 m ρ c (Proc.devRef .tc main_v130_1) = _ from W23_arr m ρ c 6, Reg11.final6]
  simp only [V22, Reg11.G6]
  rw [KKeep.kept22_main_v111_0, val_main_v111_0, KKeep.kept22_main_v119, val_main_v119, KKeep.kept22_main_v123, val_main_v123, KKeep.kept22_main_v125, val_main_v125, KKeep.kept22_main_v128, val_main_v128]
  rfl

/-- The program's standardized embedding of this graph. -/
theorem res_main_v130_0 (c : Dev nD) : W24 m ρ c (Proc.devRef .tc main_v130_0) = normedK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [KKeep.kept24_main_v130_0, val_main_v130_0]

/-- The program's class scores of this graph. -/
theorem res_main_v132 (c : Dev nD) : W24 m ρ c (Proc.devRef .tc main_v132) = scoresK (embK (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) := by
  rw [KStage.st_main_v132, val_main_v130_1]
  rfl

end Cert.KernelIdeal.KValue

end
-- ==== Proof.RStage.lean ====
/-
  The reference program's stages, as functions. Its host operations are named here stage by stage — dropout, the
  degree normalisers, a layer's product, the aggregation along the edges, the target normalisation with the bias,
  ELU, the source normalisation, the head, the column standardization, the class scores — each as one function of
  its operand arrays, read off the program's own operations. The program runs in four windows; what a window leaves
  in each buffer a later window (or the caller) reads is stated in terms of the buffers the window finds: the
  arguments, and what earlier windows left.
-/
import proofs.«148151_j29411936043366_2_alg».proof.Proof.RefRun

set_option maxRecDepth 16384

noncomputable section

namespace Cert.ReferenceIdeal.RStage

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

/-- A degree normaliser as a column. -/
def normOfR (idx : IVec S600000 32) : FVec F S50000x1 .f32 :=
  ((broadcastInDim S50000x1 ![0] bcast_S50000_S50000x1_0) (Host.rsqrt (maximumf ((fun x i u => Host.scatterAdd scatter_S50000_S600000x1_S600000_n_0_0_1 x i u) ((broadcastInDim S50000 ![] bcast_S_S50000) (constant (F := F) S_ .f32 0x00000000#32)) ((broadcastInDim S600000x1 ![0] bcast_S600000_S600000x1_0) idx) ((broadcastInDim S600000 ![] bcast_S_S600000) (constant (F := F) S_ .f32 0x3F800000#32))) ((broadcastInDim S50000 ![] bcast_S_S50000) (constant (F := F) S_ .f32 0x3F800000#32)))))

/-- The degrees: the scatter-add of ones at the indices. -/
def degR (idx : IVec S600000 32) : FVec F S50000 .f32 :=
  ((fun x i u => Host.scatterAdd scatter_S50000_S600000x1_S600000_n_0_0_1 x i u) ((broadcastInDim S50000 ![] bcast_S_S50000) (constant (F := F) S_ .f32 0x00000000#32)) ((broadcastInDim S600000x1 ![0] bcast_S600000_S600000x1_0) idx) ((broadcastInDim S600000 ![] bcast_S_S600000) (constant (F := F) S_ .f32 0x3F800000#32)))

/-- The reciprocal square roots of the degrees clamped below at one. -/
def rsR (idx : IVec S600000 32) : FVec F S50000 .f32 :=
  (Host.rsqrt (maximumf ((fun x i u => Host.scatterAdd scatter_S50000_S600000x1_S600000_n_0_0_1 x i u) ((broadcastInDim S50000 ![] bcast_S_S50000) (constant (F := F) S_ .f32 0x00000000#32)) ((broadcastInDim S600000x1 ![0] bcast_S600000_S600000x1_0) idx) ((broadcastInDim S600000 ![] bcast_S_S600000) (constant (F := F) S_ .f32 0x3F800000#32))) ((broadcastInDim S50000 ![] bcast_S_S50000) (constant (F := F) S_ .f32 0x3F800000#32))))

/-- A vector kept as a column. -/
def colR (v : FVec F S50000 .f32) : FVec F S50000x1 .f32 :=
  ((broadcastInDim S50000x1 ![0] bcast_S50000_S50000x1_0) v)

/-- The normaliser column from the degrees. -/
def normFromDegR (d : FVec F S50000 .f32) : FVec F S50000x1 .f32 :=
  ((broadcastInDim S50000x1 ![0] bcast_S50000_S50000x1_0) (Host.rsqrt (maximumf d ((broadcastInDim S50000 ![] bcast_S_S50000) (constant (F := F) S_ .f32 0x3F800000#32)))))

/-- Dropout: keep where the mask exceeds 0.2, rescale by 1.25. -/
def dropR (x mask : FVec F S50000x128 .f32) : FVec F S50000x128 .f32 :=
  (mulf (mulf x ((uitofp .f32) ((cmpf .ogt) mask ((broadcastInDim S50000x128 ![] bcast_S_S50000x128) (constant (F := F) S_ .f32 0x3E4CCCCD#32))))) ((broadcastInDim S50000x128 ![] bcast_S_S50000x128) (constant (F := F) S_ .f32 0x3FA00000#32)))

/-- Source-normalise and multiply by a layer's weights. -/
def h1R (xd : FVec F S50000x128 .f32) (ns : FVec F S50000x1 .f32) (w : FVec F S128x128 .f32) : FVec F S50000x128 .f32 :=
  ((fun l r => Host.dotGeneral dot_S50000x128_S128x128_S50000x128_1_0_0_1_n_n none l r) (mulf xd ((broadcastInDim S50000x128 ![0, 1] bcast_S50000x1_S50000x128_0_1) ns)) w)

/-- The source indices with negative ones wrapped. -/
def gatherIdxR (src : IVec S600000 32) : IVec S600000 32 :=
  (select ((cmpi .slt) src ((broadcastInDim S600000 ![] bcast_S_S600000) (constantI S_ 32 0#32))) (addi src ((broadcastInDim S600000 ![] bcast_S_S600000) (constantI S_ 32 50000#32))) src)

/-- The aggregation along the edges from the wrapped source indices. -/
def aggFromIdxR (h : FVec F S50000x128 .f32) (gi dst : IVec S600000 32) : FVec F S50000x128 .f32 :=
  ((fun x i u => Host.scatterAdd scatter_S50000x128_S600000x1_S600000x128_1_0_0_1 x i u) ((broadcastInDim S50000x128 ![] bcast_S_S50000x128) (constant (F := F) S_ .f32 0x00000000#32)) ((broadcastInDim S600000x1 ![0] bcast_S600000_S600000x1_0) dst) ((fun x i => Host.gather gather_S50000x128_S600000x1_S600000x128_1_0_n_n_0_1_1128 x i) h ((broadcastInDim S600000x1 ![0] bcast_S600000_S600000x1_0) gi)))

/-- The aggregation along the edges. -/
def aggR (h : FVec F S50000x128 .f32) (src dst : IVec S600000 32) : FVec F S50000x128 .f32 :=
  ((fun x i u => Host.scatterAdd scatter_S50000x128_S600000x1_S600000x128_1_0_0_1 x i u) ((broadcastInDim S50000x128 ![] bcast_S_S50000x128) (constant (F := F) S_ .f32 0x00000000#32)) ((broadcastInDim S600000x1 ![0] bcast_S600000_S600000x1_0) dst) ((fun x i => Host.gather gather_S50000x128_S600000x1_S600000x128_1_0_n_n_0_1_1128 x i) h ((broadcastInDim S600000x1 ![0] bcast_S600000_S600000x1_0) (select ((cmpi .slt) src ((broadcastInDim S600000 ![] bcast_S_S600000) (constantI S_ 32 0#32))) (addi src ((broadcastInDim S600000 ![] bcast_S_S600000) (constantI S_ 32 50000#32))) src))))

/-- Target-normalise and add the bias. -/
def postR (agg : FVec F S50000x128 .f32) (nd : FVec F S50000x1 .f32) (b : FVec F S128 .f32) : FVec F S50000x128 .f32 :=
  (addf (mulf agg ((broadcastInDim S50000x128 ![0, 1] bcast_S50000x1_S50000x128_0_1) nd)) ((broadcastInDim S50000x128 ![0, 1] bcast_S1x128_S50000x128_0_1) ((broadcastInDim S1x128 ![1] bcast_S128_S1x128_1) b)))

/-- ELU as the reference spells it. -/
def eluR (y : FVec F S50000x128 .f32) : FVec F S50000x128 .f32 :=
  (select ((cmpf .ogt) y ((broadcastInDim S50000x128 ![] bcast_S_S50000x128) (constant (F := F) S_ .f32 0x00000000#32))) y (mulf ((broadcastInDim S50000x128 ![] bcast_S_S50000x128) (constant (F := F) S_ .f32 0x3F800000#32)) ((Host.expm1) (select ((cmpf .ogt) y ((broadcastInDim S50000x128 ![] bcast_S_S50000x128) (constant (F := F) S_ .f32 0x00000000#32))) ((broadcastInDim S50000x128 ![] bcast_S_S50000x128) (id (constant (F := F) S_ .f32 0x00000000#32))) y))))

/-- Source-normalise. -/
def scaleR (a : FVec F S50000x128 .f32) (ns : FVec F S50000x1 .f32) : FVec F S50000x128 .f32 :=
  (mulf a ((broadcastInDim S50000x128 ![0, 1] bcast_S50000x1_S50000x128_0_1) ns))

/-- Multiply by a layer's weights. -/
def dotR (z : FVec F S50000x128 .f32) (w : FVec F S128x128 .f32) : FVec F S50000x128 .f32 :=
  ((fun l r => Host.dotGeneral dot_S50000x128_S128x128_S50000x128_1_0_0_1_n_n none l r) z w)

/-- The linear head. -/
def headR (a : FVec F S50000x128 .f32) (wl : FVec F S128x128 .f32) (bl : FVec F S128 .f32) : FVec F S50000x128 .f32 :=
  (addf ((fun l r => Host.dotGeneral dot_S50000x128_S128x128_S50000x128_1_0_0_1_n_n none l r) a wl) ((broadcastInDim S50000x128 ![0, 1] bcast_S1x128_S50000x128_0_1) ((broadcastInDim S1x128 ![1] bcast_S128_S1x128_1) bl)))

/-- Column standardization: centre by the mean, divide by the unbiased standard deviation. -/
def resR (e : FVec F S50000x128 .f32) : FVec F S50000x128 .f32 :=
  (Host.divf (subf e ((broadcastInDim S50000x128 ![0, 1] bcast_S1x128_S50000x128_0_1) ((broadcastInDim S1x128 ![1] bcast_S128_S1x128_1) (Host.divf ((fun x v => Host.reduceAdd x v reducesTo_S50000x128_S128_d0 h_S_) e (constant (F := F) S_ .f32 0x00000000#32)) ((broadcastInDim S128 ![] bcast_S_S128) (constant (F := F) S_ .f32 0x47435000#32)))))) ((broadcastInDim S50000x128 ![0, 1] bcast_S1x128_S50000x128_0_1) ((broadcastInDim S1x128 ![1] bcast_S128_S1x128_1) (Host.sqrt ((fun p a b => select (broadcastInDim S128 ![] bcast_S_S128 p) a b) ((cmpf .ogt) (subf (constant (F := F) S_ .f32 0x47435000#32) ((sitofp .f32) (constantI S_ 32 1#32))) (constant (F := F) S_ .f32 0x00000000#32)) (Host.divf ((fun x v => Host.reduceAdd x v reducesTo_S50000x128_S128_d0 h_S_) (mulf (subf e ((broadcastInDim S50000x128 ![0, 1] bcast_S1x128_S50000x128_0_1) (Host.divf ((broadcastInDim S1x128 ![1] bcast_S128_S1x128_1) ((fun x v => Host.reduceAdd x v reducesTo_S50000x128_S128_d0 h_S_) e (constant (F := F) S_ .f32 0x00000000#32))) ((broadcastInDim S1x128 ![] bcast_S_S1x128) (constant (F := F) S_ .f32 0x47435000#32))))) (subf e ((broadcastInDim S50000x128 ![0, 1] bcast_S1x128_S50000x128_0_1) (Host.divf ((broadcastInDim S1x128 ![1] bcast_S128_S1x128_1) ((fun x v => Host.reduceAdd x v reducesTo_S50000x128_S128_d0 h_S_) e (constant (F := F) S_ .f32 0x00000000#32))) ((broadcastInDim S1x128 ![] bcast_S_S1x128) (constant (F := F) S_ .f32 0x47435000#32)))))) (constant (F := F) S_ .f32 0x00000000#32)) ((broadcastInDim S128 ![] bcast_S_S128) (subf (constant (F := F) S_ .f32 0x47435000#32) ((sitofp .f32) (constantI S_ 32 1#32))))) ((broadcastInDim S128 ![] bcast_S_S128) (id (constant (F := F) S_ .f32 0x7FC00000#32))))))))

/-- The two-class scores. -/
def scoreR (r : FVec F S50000x128 .f32) (wc : FVec F S128x2 .f32) (bc : FVec F S2 .f32) : FVec F S50000x2 .f32 :=
  (addf ((fun l r => Host.dotGeneral dot_S50000x128_S128x2_S50000x2_1_0_0_1_n_n none l r) r wc) ((broadcastInDim S50000x2 ![0, 1] bcast_S1x2_S50000x2_0_1) ((broadcastInDim S1x2 ![1] bcast_S2_S1x2_1) bc)))

/-! ## What each window leaves, in terms of what it finds -/

attribute [local irreducible] Host.reduceAdd Host.gather Host.scatterAdd in
set_option maxHeartbeats 2000000 in
theorem w0_main_v22 (Vv : Valuation τ sig (Elt F)) :
    after ops0 Vv (Proc.devRef .tc main_v22) = normOfR (Vv (Proc.devRef .tc main_arg4)) := by
  after_results_simp
  try rfl

attribute [local irreducible] Host.reduceAdd Host.gather Host.scatterAdd in
set_option maxHeartbeats 2000000 in
theorem w0_main_v26 (Vv : Valuation τ sig (Elt F)) :
    after ops0 Vv (Proc.devRef .tc main_v26) = normOfR (Vv (Proc.devRef .tc main_arg5)) := by
  after_results_simp
  try rfl

attribute [local irreducible] Host.reduceAdd Host.gather Host.scatterAdd in
set_option maxHeartbeats 2000000 in
theorem w0_main_v11 (Vv : Valuation τ sig (Elt F)) :
    after ops0 Vv (Proc.devRef .tc main_v11) = dropR (Vv (Proc.devRef .tc main_arg1)) (Vv (Proc.devRef .tc main_arg3)) := by
  after_results_simp
  try rfl

attribute [local irreducible] Host.reduceAdd Host.gather Host.scatterAdd in
set_option maxHeartbeats 2000000 in
theorem w0_main_v47 (Vv : Valuation τ sig (Elt F)) :
    after ops0 Vv (Proc.devRef .tc main_v47) = scaleR (eluR (postR (aggR (h1R (dropR (Vv (Proc.devRef .tc main_arg0)) (Vv (Proc.devRef .tc main_arg2))) (normOfR (Vv (Proc.devRef .tc main_arg4))) (Vv (Proc.devRef .tc main_arg8))) (Vv (Proc.devRef .tc main_arg4)) (Vv (Proc.devRef .tc main_arg5))) (normOfR (Vv (Proc.devRef .tc main_arg5))) (Vv (Proc.devRef .tc main_arg9)))) (normOfR (Vv (Proc.devRef .tc main_arg4))) := by
  after_results_simp
  try rfl

attribute [local irreducible] Host.reduceAdd Host.gather Host.scatterAdd in
set_option maxHeartbeats 2000000 in
theorem w1_main_v87 (Vv : Valuation τ sig (Elt F)) :
    after ops1 Vv (Proc.devRef .tc main_v87) = headR (eluR (postR (aggR (dotR (scaleR (eluR (postR (aggR (dotR (Vv (Proc.devRef .tc main_v47)) (Vv (Proc.devRef .tc main_arg10))) (Vv (Proc.devRef .tc main_arg4)) (Vv (Proc.devRef .tc main_arg5))) (Vv (Proc.devRef .tc main_v26)) (Vv (Proc.devRef .tc main_arg11)))) (Vv (Proc.devRef .tc main_v22))) (Vv (Proc.devRef .tc main_arg12))) (Vv (Proc.devRef .tc main_arg4)) (Vv (Proc.devRef .tc main_arg5))) (Vv (Proc.devRef .tc main_v26)) (Vv (Proc.devRef .tc main_arg13)))) (Vv (Proc.devRef .tc main_arg14)) (Vv (Proc.devRef .tc main_arg15)) := by
  after_results_simp
  try rfl

attribute [local irreducible] Host.reduceAdd Host.gather Host.scatterAdd in
set_option maxHeartbeats 2000000 in
theorem w1_main_v94 (Vv : Valuation τ sig (Elt F)) :
    after ops1 Vv (Proc.devRef .tc main_v94) = degR (Vv (Proc.devRef .tc main_arg7)) := by
  after_results_simp
  try rfl

attribute [local irreducible] Host.reduceAdd Host.gather Host.scatterAdd in
set_option maxHeartbeats 2000000 in
theorem w1_main_v97 (Vv : Valuation τ sig (Elt F)) :
    after ops1 Vv (Proc.devRef .tc main_v97) = rsR (Vv (Proc.devRef .tc main_arg6)) := by
  after_results_simp
  try rfl

attribute [local irreducible] Host.reduceAdd Host.gather Host.scatterAdd in
set_option maxHeartbeats 2000000 in
theorem w2_main_v102 (Vv : Valuation τ sig (Elt F)) :
    after ops2 Vv (Proc.devRef .tc main_v102) = normFromDegR (Vv (Proc.devRef .tc main_v94)) := by
  after_results_simp
  try rfl

attribute [local irreducible] Host.reduceAdd Host.gather Host.scatterAdd in
set_option maxHeartbeats 2000000 in
theorem w2_main_v148 (Vv : Valuation τ sig (Elt F)) :
    after ops2 Vv (Proc.devRef .tc main_v148) = gatherIdxR (Vv (Proc.devRef .tc main_arg6)) := by
  after_results_simp
  try rfl

attribute [local irreducible] Host.reduceAdd Host.gather Host.scatterAdd in
set_option maxHeartbeats 2000000 in
theorem w2_main_v143 (Vv : Valuation τ sig (Elt F)) :
    after ops2 Vv (Proc.devRef .tc main_v143) = dotR (scaleR (eluR (postR (aggR (dotR (scaleR (eluR (postR (aggR (h1R (Vv (Proc.devRef .tc main_v11)) (colR (Vv (Proc.devRef .tc main_v97))) (Vv (Proc.devRef .tc main_arg8))) (Vv (Proc.devRef .tc main_arg6)) (Vv (Proc.devRef .tc main_arg7))) (normFromDegR (Vv (Proc.devRef .tc main_v94))) (Vv (Proc.devRef .tc main_arg9)))) (colR (Vv (Proc.devRef .tc main_v97)))) (Vv (Proc.devRef .tc main_arg10))) (Vv (Proc.devRef .tc main_arg6)) (Vv (Proc.devRef .tc main_arg7))) (normFromDegR (Vv (Proc.devRef .tc main_v94))) (Vv (Proc.devRef .tc main_arg11)))) (colR (Vv (Proc.devRef .tc main_v97)))) (Vv (Proc.devRef .tc main_arg12)) := by
  after_results_simp
  try rfl

attribute [local irreducible] Host.reduceAdd Host.gather Host.scatterAdd in
set_option maxHeartbeats 2000000 in
theorem w3_main_v173 (Vv : Valuation τ sig (Elt F)) :
    after ops3 Vv (Proc.devRef .tc main_v173) = resR (Vv (Proc.devRef .tc main_v87)) := by
  after_results_simp
  try rfl

attribute [local irreducible] Host.reduceAdd Host.gather Host.scatterAdd in
set_option maxHeartbeats 2000000 in
theorem w3_main_v187 (Vv : Valuation τ sig (Elt F)) :
    after ops3 Vv (Proc.devRef .tc main_v187) = scoreR (resR (Vv (Proc.devRef .tc main_v87))) (Vv (Proc.devRef .tc main_arg16)) (Vv (Proc.devRef .tc main_arg17)) := by
  after_results_simp
  try rfl

attribute [local irreducible] Host.reduceAdd Host.gather Host.scatterAdd in
set_option maxHeartbeats 2000000 in
theorem w3_main_v183 (Vv : Valuation τ sig (Elt F)) :
    after ops3 Vv (Proc.devRef .tc main_v183) = resR (headR (eluR (postR (aggFromIdxR (Vv (Proc.devRef .tc main_v143)) (Vv (Proc.devRef .tc main_v148)) (Vv (Proc.devRef .tc main_arg7))) (Vv (Proc.devRef .tc main_v102)) (Vv (Proc.devRef .tc main_arg13)))) (Vv (Proc.devRef .tc main_arg14)) (Vv (Proc.devRef .tc main_arg15))) := by
  after_results_simp
  try rfl

attribute [local irreducible] Host.reduceAdd Host.gather Host.scatterAdd in
set_option maxHeartbeats 2000000 in
theorem w3_main_v191 (Vv : Valuation τ sig (Elt F)) :
    after ops3 Vv (Proc.devRef .tc main_v191) = scoreR (resR (headR (eluR (postR (aggFromIdxR (Vv (Proc.devRef .tc main_v143)) (Vv (Proc.devRef .tc main_v148)) (Vv (Proc.devRef .tc main_arg7))) (Vv (Proc.devRef .tc main_v102)) (Vv (Proc.devRef .tc main_arg13)))) (Vv (Proc.devRef .tc main_arg14)) (Vv (Proc.devRef .tc main_arg15)))) (Vv (Proc.devRef .tc main_arg16)) (Vv (Proc.devRef .tc main_arg17)) := by
  after_results_simp
  try rfl

/-! ## Two buffers cross a window untouched: the first graph's embedding (window 2) and the second graph's
    dropped-out features (window 1) -/

theorem keep2_main_v87 (Vv : Valuation τ sig (Elt F)) :
    after ops2 Vv (Proc.devRef .tc main_v87) = Vv (Proc.devRef .tc main_v87) :=
  after_of_forall_not_mem (b := Proc.devRef .tc main_v87) _ _ (List.forall_iff_forall_mem.mp (by
    simp only [ops2, List.Forall, TRef.nullary, TRef.unary, TRef.binary, TRef.ternary, nullary_writes, unary_writes,
      binary_writes, ternary_writes, Finset.mem_singleton]
    repeat' apply And.intro
    all_goals exact devRef_ne_of_ne (by decide)))

theorem keep1_main_v11 (Vv : Valuation τ sig (Elt F)) :
    after ops1 Vv (Proc.devRef .tc main_v11) = Vv (Proc.devRef .tc main_v11) :=
  after_of_forall_not_mem (b := Proc.devRef .tc main_v11) _ _ (List.forall_iff_forall_mem.mp (by
    simp only [ops1, List.Forall, TRef.nullary, TRef.unary, TRef.binary, TRef.ternary, nullary_writes, unary_writes,
      binary_writes, ternary_writes, Finset.mem_singleton]
    repeat' apply And.intro
    all_goals exact devRef_ne_of_ne (by decide)))

end Cert.ReferenceIdeal.RStage

end
-- ==== Proof.RValue.lean ====
/-
  The reference program's four results as functions of its arguments. One graph's features go through dropout, the
  first layer (product, aggregation, normalisation, bias, ELU), two more layers, and the head; the embedding is then
  standardized column by column, and the standardized embedding scored by the two-class classifier. The program
  computes this in four windows; what each window leaves is composed here, a buffer that skips a window carried
  across it, until each result is one nested function of the arguments.
-/
import proofs.«148151_j29411936043366_2_alg».proof.Proof.RStage
import proofs.«148151_j29411936043366_2_alg».proof.Proof.RefFrame

set_option maxRecDepth 16384

noncomputable section

namespace Cert.ReferenceIdeal.RValue

open Cert.ReferenceIdeal Cert.ReferenceIdeal.Gen Cert.ReferenceIdeal.RefRun Cert.ReferenceIdeal.RStage
open Idealize.ShloMosaic Idealize.ShloMosaic.TcCoe Idealize.SL.Sem Idealize.ShloMosaic.StableHlo

variable {F : FTy → Type} [FloatOps F]

/-- The first layer's activation. -/
def layer1R (x mask : FVec F S50000x128 .f32) (src dst : IVec S600000 32) (w1 : FVec F S128x128 .f32) (b1 : FVec F S128 .f32) :
    FVec F S50000x128 .f32 :=
  eluR (postR (aggR (h1R (dropR x mask) (normOfR src) w1) src dst) (normOfR dst) b1)

/-- The second layer's activation. -/
def layer2R (x mask : FVec F S50000x128 .f32) (src dst : IVec S600000 32) (w1 : FVec F S128x128 .f32) (b1 : FVec F S128 .f32)
    (w2 : FVec F S128x128 .f32) (b2 : FVec F S128 .f32) : FVec F S50000x128 .f32 :=
  eluR (postR (aggR (dotR (scaleR (layer1R x mask src dst w1 b1) (normOfR src)) w2) src dst) (normOfR dst) b2)

/-- The third layer's activation. -/
def layer3R (x mask : FVec F S50000x128 .f32) (src dst : IVec S600000 32) (w1 : FVec F S128x128 .f32) (b1 : FVec F S128 .f32)
    (w2 : FVec F S128x128 .f32) (b2 : FVec F S128 .f32) (w3 : FVec F S128x128 .f32) (b3 : FVec F S128 .f32) : FVec F S50000x128 .f32 :=
  eluR (postR (aggR (dotR (scaleR (layer2R x mask src dst w1 b1 w2 b2) (normOfR src)) w3) src dst) (normOfR dst) b3)

/-- One graph's embedding before standardization. -/
def embR (x mask : FVec F S50000x128 .f32) (src dst : IVec S600000 32) (w1 : FVec F S128x128 .f32) (b1 : FVec F S128 .f32)
    (w2 : FVec F S128x128 .f32) (b2 : FVec F S128 .f32) (w3 : FVec F S128x128 .f32) (b3 : FVec F S128 .f32)
    (wl : FVec F S128x128 .f32) (bl : FVec F S128 .f32) : FVec F S50000x128 .f32 :=
  headR (layer3R x mask src dst w1 b1 w2 b2 w3 b3) wl bl

variable (Vv : Valuation τ sig (Elt F))

set_option maxHeartbeats 1000000 in
/-- The first graph's standardized embedding. -/
theorem res0 : after ops Vv (Proc.devRef .tc main_v173) = resR (embR (Vv (Proc.devRef .tc main_arg0)) (Vv (Proc.devRef .tc main_arg2)) (Vv (Proc.devRef .tc main_arg4)) (Vv (Proc.devRef .tc main_arg5)) (Vv (Proc.devRef .tc main_arg8)) (Vv (Proc.devRef .tc main_arg9)) (Vv (Proc.devRef .tc main_arg10)) (Vv (Proc.devRef .tc main_arg11)) (Vv (Proc.devRef .tc main_arg12)) (Vv (Proc.devRef .tc main_arg13)) (Vv (Proc.devRef .tc main_arg14)) (Vv (Proc.devRef .tc main_arg15))) := by
  rw [after_ops]
  generalize hW1 : after ops0 Vv = W1
  generalize hW2 : after ops1 W1 = W2
  generalize hW3 : after ops2 W2 = W3
  rw [w3_main_v173 W3]
  rw [← hW3, keep2_main_v87 W2]
  rw [← hW2, w1_main_v87 W1]
  rw [← hW1, w0_main_v47 Vv, w0_main_v26 Vv, w0_main_v22 Vv]
  rw [kept0_main_arg10 Vv, kept0_main_arg4 Vv, kept0_main_arg5 Vv, kept0_main_arg11 Vv, kept0_main_arg12 Vv, kept0_main_arg13 Vv, kept0_main_arg14 Vv, kept0_main_arg15 Vv]
  rfl

set_option maxHeartbeats 1000000 in
/-- The second graph's standardized embedding. -/
theorem res1 : after ops Vv (Proc.devRef .tc main_v183) = resR (embR (Vv (Proc.devRef .tc main_arg1)) (Vv (Proc.devRef .tc main_arg3)) (Vv (Proc.devRef .tc main_arg6)) (Vv (Proc.devRef .tc main_arg7)) (Vv (Proc.devRef .tc main_arg8)) (Vv (Proc.devRef .tc main_arg9)) (Vv (Proc.devRef .tc main_arg10)) (Vv (Proc.devRef .tc main_arg11)) (Vv (Proc.devRef .tc main_arg12)) (Vv (Proc.devRef .tc main_arg13)) (Vv (Proc.devRef .tc main_arg14)) (Vv (Proc.devRef .tc main_arg15))) := by
  rw [after_ops]
  generalize hW1 : after ops0 Vv = W1
  generalize hW2 : after ops1 W1 = W2
  generalize hW3 : after ops2 W2 = W3
  rw [w3_main_v183 W3]
  rw [← hW3, w2_main_v143 W2, w2_main_v148 W2, w2_main_v102 W2, kept2_main_arg7 W2, kept2_main_arg13 W2, kept2_main_arg14 W2, kept2_main_arg15 W2]
  rw [← hW2, keep1_main_v11 W1, w1_main_v97 W1, w1_main_v94 W1, kept1_main_arg8 W1, kept1_main_arg6 W1, kept1_main_arg7 W1, kept1_main_arg9 W1, kept1_main_arg10 W1, kept1_main_arg11 W1, kept1_main_arg12 W1, kept1_main_arg13 W1, kept1_main_arg14 W1, kept1_main_arg15 W1]
  rw [← hW1, w0_main_v11 Vv, kept0_main_arg8 Vv, kept0_main_arg6 Vv, kept0_main_arg7 Vv, kept0_main_arg9 Vv, kept0_main_arg10 Vv, kept0_main_arg11 Vv, kept0_main_arg12 Vv, kept0_main_arg13 Vv, kept0_main_arg14 Vv, kept0_main_arg15 Vv]
  rfl

set_option maxHeartbeats 1000000 in
/-- The first graph's class scores. -/
theorem res2 : after ops Vv (Proc.devRef .tc main_v187) = scoreR (resR (embR (Vv (Proc.devRef .tc main_arg0)) (Vv (Proc.devRef .tc main_arg2)) (Vv (Proc.devRef .tc main_arg4)) (Vv (Proc.devRef .tc main_arg5)) (Vv (Proc.devRef .tc main_arg8)) (Vv (Proc.devRef .tc main_arg9)) (Vv (Proc.devRef .tc main_arg10)) (Vv (Proc.devRef .tc main_arg11)) (Vv (Proc.devRef .tc main_arg12)) (Vv (Proc.devRef .tc main_arg13)) (Vv (Proc.devRef .tc main_arg14)) (Vv (Proc.devRef .tc main_arg15)))) (Vv (Proc.devRef .tc main_arg16)) (Vv (Proc.devRef .tc main_arg17)) := by
  rw [after_ops]
  generalize hW1 : after ops0 Vv = W1
  generalize hW2 : after ops1 W1 = W2
  generalize hW3 : after ops2 W2 = W3
  rw [w3_main_v187 W3]
  rw [← hW3, keep2_main_v87 W2, kept2_main_arg16 W2, kept2_main_arg17 W2]
  rw [← hW2, w1_main_v87 W1, kept1_main_arg16 W1, kept1_main_arg17 W1]
  rw [← hW1, w0_main_v47 Vv, w0_main_v26 Vv, w0_main_v22 Vv]
  rw [kept0_main_arg10 Vv, kept0_main_arg4 Vv, kept0_main_arg5 Vv, kept0_main_arg11 Vv, kept0_main_arg12 Vv, kept0_main_arg13 Vv, kept0_main_arg14 Vv, kept0_main_arg15 Vv, kept0_main_arg16 Vv, kept0_main_arg17 Vv]
  rfl

set_option maxHeartbeats 1000000 in
/-- The second graph's class scores. -/
theorem res3 : after ops Vv (Proc.devRef .tc main_v191) = scoreR (resR (embR (Vv (Proc.devRef .tc main_arg1)) (Vv (Proc.devRef .tc main_arg3)) (Vv (Proc.devRef .tc main_arg6)) (Vv (Proc.devRef .tc main_arg7)) (Vv (Proc.devRef .tc main_arg8)) (Vv (Proc.devRef .tc main_arg9)) (Vv (Proc.devRef .tc main_arg10)) (Vv (Proc.devRef .tc main_arg11)) (Vv (Proc.devRef .tc main_arg12)) (Vv (Proc.devRef .tc main_arg13)) (Vv (Proc.devRef .tc main_arg14)) (Vv (Proc.devRef .tc main_arg15)))) (Vv (Proc.devRef .tc main_arg16)) (Vv (Proc.devRef .tc main_arg17)) := by
  rw [after_ops]
  generalize hW1 : after ops0 Vv = W1
  generalize hW2 : after ops1 W1 = W2
  generalize hW3 : after ops2 W2 = W3
  rw [w3_main_v191 W3]
  rw [← hW3, w2_main_v143 W2, w2_main_v148 W2, w2_main_v102 W2, kept2_main_arg7 W2, kept2_main_arg13 W2, kept2_main_arg14 W2, kept2_main_arg15 W2, kept2_main_arg16 W2, kept2_main_arg17 W2]
  rw [← hW2, keep1_main_v11 W1, w1_main_v97 W1, w1_main_v94 W1, kept1_main_arg8 W1, kept1_main_arg6 W1, kept1_main_arg7 W1, kept1_main_arg9 W1, kept1_main_arg10 W1, kept1_main_arg11 W1, kept1_main_arg12 W1, kept1_main_arg13 W1, kept1_main_arg14 W1, kept1_main_arg15 W1, kept1_main_arg16 W1, kept1_main_arg17 W1]
  rw [← hW1, w0_main_v11 Vv, kept0_main_arg8 Vv, kept0_main_arg6 Vv, kept0_main_arg7 Vv, kept0_main_arg9 Vv, kept0_main_arg10 Vv, kept0_main_arg11 Vv, kept0_main_arg12 Vv, kept0_main_arg13 Vv, kept0_main_arg14 Vv, kept0_main_arg15 Vv, kept0_main_arg16 Vv, kept0_main_arg17 Vv]
  rfl

end Cert.ReferenceIdeal.RValue

end
-- ==== Proof.KRead.lean ====
/-
  The kernel program's host functions, read. The degree normalisers and the aggregation along the edges are the
  reference's own operations (the aggregation with a widening in between, the identity on the extended reals); a
  bias kept as a row reads the bias; the mean row is the column sums over 50000, the reciprocal deviation row the
  reciprocal square root of the centred sums of squares over 49999; and the scores over the classifier padded with
  zero columns, cut back to their first two columns, are the scores over the two-column classifier: the padding
  never meets a column that is kept.
-/
import proofs.«148151_j29411936043366_2_alg».proof.Proof.KStage
import proofs.«148151_j29411936043366_2_alg».proof.Proof.RStage
import proofs.«148151_j29411936043366_2_alg».proof.Proof.Spec
import Idealize.ShloMosaic.Lib.IdealHost
import Idealize.ShloMosaic.Lib.Pipeline.Value
import Idealize.ShloMosaic.Lib.ValueIdx
import Idealize.ShloMosaic.Lib.ValueLayout

set_option maxRecDepth 16384

noncomputable section

namespace Cert.KernelIdeal.KRead

open Cert.KernelIdeal Cert.KernelIdeal.Gen Cert.KernelIdeal.KStage
open Idealize.ShloMosaic Idealize.ShloMosaic.ValueIdx

/-- The degree normaliser is the reference's. -/
theorem normOf_eq (idx : IVec S600000 32) : normOf (F := Ideal) idx = Cert.ReferenceIdeal.RStage.normOfR (F := Ideal) idx := rfl

/-- The aggregation along the edges is the reference's. -/
theorem aggOf_eq (h : FVec Ideal S50000x128 .bf16) (src dst : IVec S600000 32) :
    aggOf (F := Ideal) h src dst = Cert.ReferenceIdeal.RStage.aggR (F := Ideal) h src dst := rfl

/-- A bias kept as a row reads the bias. -/
theorem rowOf_apply (b : FVec Ideal S128 .f32) (j : S1x128.Idx) : rowOf (F := Ideal) b j = b (ix1 (j 1)) := by
  obtain ⟨u, q, rfl⟩ : ∃ (u : Fin 1) (q : Fin 128), j = ix2 u q := ⟨j 0, j 1, eq_ix2 j⟩
  unfold rowOf
  exact shapeCast_a_1a_apply b _ u q

/-- A row divided by the number of nodes. -/
theorem divN_apply (s : FVec Ideal S1x128 .f32) (j : S1x128.Idx) :
    divN (F := Ideal) s j = Ideal.div (s j) (Ideal.ofBits .f32 0x47435000#32) := by
  unfold divN
  rw [hostDivf_apply, broadcastInDim_scalar_apply]
  rfl

/-- The reciprocal deviations from the centred sums of squares. -/
theorem invstdOf_apply (s : FVec Ideal S1x128 .f32) (j : S1x128.Idx) :
    invstdOf (F := Ideal) s j = Ideal.rsqrt (Ideal.div (s j) (Ideal.ofBits .f32 0x47434F00#32)) := by
  unfold invstdOf
  show Ideal.rsqrt (Host.divf s _ j) = _
  rw [hostDivf_apply, broadcastInDim_scalar_apply]
  rfl

/-- The padded classifier at one of its first two columns is the classifier. -/
theorem wcPad_apply (wc : FVec Ideal S128x2 .f32) (k : Fin 128) (q : Fin 2) :
    wcPad (F := Ideal) wc (ix2 k (⟨q.val, by omega⟩ : Fin 128)) = wc (ix2 k q) := by
  unfold wcPad
  exact concatenate_pair_apply_left (t := S128x128) (s₁ := S128x2) (s₂ := S128x126) (1 : Fin 2) wc _
    concatenates_S128x2_S128x126_S128x128_d1 (ix2 k (⟨q.val, by omega⟩ : Fin 128)) rfl (ix2 k q) (fun b => by
    match b with
    | ⟨0, _⟩ => rfl
    | ⟨1, _⟩ => rfl)

/-- The padded bias row at one of its first two columns is the bias. -/
theorem bcPad_apply (bc : FVec Ideal S2 .f32) (q : Fin 2) :
    bcPad (F := Ideal) bc (ix2 (0 : Fin 1) (⟨q.val, by omega⟩ : Fin 128)) = bc (ix1 q) := by
  unfold bcPad
  refine (shapeCast_a_1a_apply _ _ (0 : Fin 1) (⟨q.val, by omega⟩ : Fin 128)).trans ?_
  exact concatenate_pair_apply_left (t := S128) (s₁ := S2) (s₂ := S126) (0 : Fin 1) bc _
    concatenates_S2_S126_S128_d0 (ix1 (⟨q.val, by omega⟩ : Fin 128)) rfl (ix1 q) (fun b => by
    match b with
    | ⟨0, _⟩ => rfl)

/-- The scores over the padded classifier, cut to their first two columns, are the scores over the classifier. -/
theorem sliceC_scores (r : FVec Ideal S50000x128 .f32) (wc : FVec Ideal S128x2 .f32) (bc : FVec Ideal S2 .f32) :
    sliceC (F := Ideal) (Cert.Spec.scores r (wcPad (F := Ideal) wc) (bcPad (F := Ideal) bc))
      = fun i => (∑ k : Fin 128, r (ix2 (i 0) k) * wc (ix2 k (i 1))) + bc (ix1 (i 1)) := by
  funext i
  obtain ⟨p, q, rfl⟩ : ∃ (p : Fin 50000) (q : Fin 2), i = ix2 p q := ⟨i 0, i 1, eq_ix2 i⟩
  unfold sliceC
  refine (extractStridedSlice_apply _ _ _ (ix2 p q) (ix2 p (⟨q.val, by omega⟩ : Fin 128)) (fun a => by
    match a with
    | ⟨0, _⟩ => show p.val = 0 + p.val; omega
    | ⟨1, _⟩ => show q.val = 0 + q.val; omega)).trans ?_
  unfold Cert.Spec.scores
  refine congrArg₂ (· + ·) (Finset.sum_congr rfl fun k _ => ?_) ?_
  · exact congrArg (r (ix2 p k) * ·) (wcPad_apply wc k q)
  · exact bcPad_apply bc q

end Cert.KernelIdeal.KRead

end
-- ==== Proof.LibStandardize.lean ====
/-
  Standardizing a column: multiplying by the reciprocal square root of the variance equals dividing by the
  standard deviation, on the extended reals, exactly when the variance is not zero.

  One program computes `d * rsqrt v`, the other `d / sqrt v`, where `d` is a centred entry and `v` a variance: a sum
  of squares divided by a positive count, hence never negative. For a positive real `v` both are `d` times the real
  `(√v)⁻¹`. At `v = ⊤` the reciprocal square root is `0` and the square root is `⊤`, whose inverse is `0`: both sides
  are `d * 0`. At `v = 0` the two conventions part (`rsqrt 0 = ⊤` while division by zero is decided by the sign of the
  numerator), which is why the hypothesis `v ≠ 0` cannot be dropped. No finiteness of `d` is used.
-/
import Idealize.ShloMosaic.PureOps.Ideal

noncomputable section

namespace Cert.LibStandardize

open Idealize.ShloMosaic

/-- `d * rsqrt v = d / sqrt v` for a variance `v` that is nonnegative and not zero. -/
theorem mul_rsqrt_eq_div_sqrt (d v : EReal) (h0 : 0 ≤ v) (hv : v ≠ 0) :
    d * Ideal.rsqrt v = Ideal.div d (Ideal.sqrt v) := by
  induction v using EReal.rec with
  | bot => exact absurd h0 (not_le.mpr EReal.bot_lt_zero)
  | top =>
    rw [Ideal.rsqrt_top, Ideal.sqrt_top]
    unfold Ideal.div
    rw [if_neg EReal.top_ne_zero, EReal.inv_top]
  | coe r =>
    have hr0 : (0 : ℝ) ≤ r := EReal.coe_nonneg.mp h0
    have hrne : r ≠ 0 := fun h => hv (by rw [h]; rfl)
    have hpos : 0 < r := lt_of_le_of_ne hr0 (Ne.symm hrne)
    have hs : Real.sqrt r ≠ 0 := (Real.sqrt_pos.mpr hpos).ne'
    rw [Ideal.rsqrt_coe, Ideal.sqrt_coe, if_neg (not_lt.mpr hr0), if_neg hrne, if_neg (not_lt.mpr hr0),
      Ideal.div_coe hs, one_div]

/-- A square is never negative on the extended reals (`⊥ * ⊥ = ⊤`). -/
theorem mul_self_nonneg (d : EReal) : 0 ≤ d * d := by
  induction d using EReal.rec with
  | bot => rw [EReal.bot_mul_bot]; exact le_top
  | top => rw [EReal.top_mul_top]; exact le_top
  | coe r => rw [← EReal.coe_mul]; exact EReal.coe_nonneg.mpr (_root_.mul_self_nonneg r)

/-- A sum of squares is never negative. -/
theorem sum_mul_self_nonneg {ι : Type*} (s : Finset ι) (d : ι → EReal) : 0 ≤ ∑ i ∈ s, d i * d i :=
  Finset.sum_nonneg fun i _ => mul_self_nonneg (d i)

/-- Dividing a nonnegative extended real by a positive real leaves it nonnegative. -/
theorem div_pos_real_nonneg (s : EReal) (n : ℝ) (hn : 0 < n) (hs : 0 ≤ s) : 0 ≤ Ideal.div s (n : EReal) := by
  rw [Ideal.div_coe hn.ne']
  exact mul_nonneg hs (EReal.coe_nonneg.mpr (one_div_pos.mpr hn).le)

end Cert.LibStandardize

end
-- ==== Proof.RRead.lean ====
/-
  The reference program's stages, index by index.

  Each stage of the reference — dropout with the first layer's product, a layer's activation followed by the next
  product, the linear head, the class scores, the column standardization — is one function of whole arrays built from
  host operations. Read at an index, each is the textbook formula: a matrix product at `(r, q)` is the sum over `k` of
  `lhs (r, k) * rhs (k, q)`; a column `[n, 1]` broadcast over the features reads its row's entry and a bias `[128]`
  broadcast over the rows reads its column's entry; the dropout's keep factor is the test `mask > 0.2` read as a
  number; the reference's ELU `select (y > 0) y (1 * expm1 (select (y > 0) 0 y))` is `y` on the positives and
  `exp y - 1` elsewhere; a column sum is zero plus the sum over the rows. The standardization divides the centred
  entry by the square root of the unbiased variance, which equals multiplying by its reciprocal square root wherever
  the variance is not zero.
-/
import proofs.«148151_j29411936043366_2_alg».proof.Proof.RStage
import proofs.«148151_j29411936043366_2_alg».proof.Proof.Spec
import proofs.«148151_j29411936043366_2_alg».proof.Proof.LibElu
import proofs.«148151_j29411936043366_2_alg».proof.Proof.LibLiterals
import proofs.«148151_j29411936043366_2_alg».proof.Proof.LibStandardize
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RRead

open Cert.ReferenceIdeal Cert.ReferenceIdeal.Gen Cert.ReferenceIdeal.RStage Idealize.ShloMosaic Idealize.ShloMosaic.ValueIdx

/-- A `[128]` bias read as a `[1, 128]` row. -/
abbrev rowB (b : FVec Ideal S128 .f32) : Cert.Spec.S1xD.Idx → EReal := fun j => b (ix1 (j 1))

/-! ## The two matrix products at an index -/

abbrev D : DotDims S50000x128 S128x128 S50000x128 := dot_S50000x128_S128x128_S50000x128_1_0_0_1_n_n

theorem lhs_0 (i : S50000x128.Idx) (q : D.contr.Idx) : (D.lhsIdx i q 0).val = (i 0).val := by
  unfold DotDims.lhsIdx
  rw [dif_neg (show ¬(0 : Fin S50000x128.rank) ∈ D.lhsBatch by decide), dif_pos (show (0 : Fin S50000x128.rank) ∈ D.lhsNonContracting by decide)]
  rfl

theorem lhs_1 (i : S50000x128.Idx) (q : D.contr.Idx) : (D.lhsIdx i q 1).val = (q ⟨0, by decide⟩).val :=
  D.lhsIdx_val_of_single rfl i q

theorem rhs_0 (i : S50000x128.Idx) (q : D.contr.Idx) : (D.rhsIdx i q 0).val = (q ⟨0, by decide⟩).val :=
  D.rhsIdx_val_of_single rfl i q

theorem rhs_1 (i : S50000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The product of the node array with a 128 × 128 matrix at `(r, q)`: the sum over `k` of `lhs (r, k) * rhs (k, q)`. -/
theorem dot_apply {φ₁ φ₂ : FTy} (lhs : FVec Ideal S50000x128 φ₁) (rhs : FVec Ideal S128x128 φ₂) (r : Fin 50000) (q : Fin 128) :
    Host.dotGeneral D none lhs rhs (ix2 r q) = ∑ k : Fin 128, lhs (ix2 r k) * rhs (ix2 k q) := by
  show FloatOps.dotGeneral D none .single lhs rhs (ix2 r q) = _
  rw [Ideal.dotGeneral_apply, ← Equiv.sum_comp (contrEquiv1 D 128 rfl rfl).symm]
  refine Finset.sum_congr rfl fun k _ => ?_
  have hk := contrEquiv1_symm_val D 128 rfl rfl k
  have el : D.lhsIdx (ix2 r q) ((contrEquiv1 D 128 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 128 rfl rfl).symm k) = ix2 k q := funext fun a => Fin.ext (by
    match a with
    | ⟨0, _⟩ => exact (rhs_0 _ _).trans hk
    | ⟨1, _⟩ => exact rhs_1 _ _)
  rw [el, er]

abbrev D2 : DotDims S50000x128 S128x2 S50000x2 := dot_S50000x128_S128x2_S50000x2_1_0_0_1_n_n

theorem lhs2_0 (i : S50000x2.Idx) (q : D2.contr.Idx) : (D2.lhsIdx i q 0).val = (i 0).val := by
  unfold DotDims.lhsIdx
  rw [dif_neg (show ¬(0 : Fin S50000x128.rank) ∈ D2.lhsBatch by decide), dif_pos (show (0 : Fin S50000x128.rank) ∈ D2.lhsNonContracting by decide)]
  rfl

theorem lhs2_1 (i : S50000x2.Idx) (q : D2.contr.Idx) : (D2.lhsIdx i q 1).val = (q ⟨0, by decide⟩).val :=
  D2.lhsIdx_val_of_single rfl i q

theorem rhs2_0 (i : S50000x2.Idx) (q : D2.contr.Idx) : (D2.rhsIdx i q 0).val = (q ⟨0, by decide⟩).val :=
  D2.rhsIdx_val_of_single rfl i q

theorem rhs2_1 (i : S50000x2.Idx) (q : D2.contr.Idx) : (D2.rhsIdx i q 1).val = (i 1).val := by
  unfold DotDims.rhsIdx
  rw [dif_neg (show ¬(1 : Fin S128x2.rank) ∈ D2.rhsBatch by decide), dif_pos (show (1 : Fin S128x2.rank) ∈ D2.rhsNonContracting by decide)]
  rfl

/-- The product of the node array with the 128 × 2 classifier at `(r, q)`. -/
theorem dot2_apply {φ₁ φ₂ : FTy} (lhs : FVec Ideal S50000x128 φ₁) (rhs : FVec Ideal S128x2 φ₂) (r : Fin 50000) (q : Fin 2) :
    Host.dotGeneral D2 none lhs rhs (ix2 r q) = ∑ k : Fin 128, lhs (ix2 r k) * rhs (ix2 k q) := by
  show FloatOps.dotGeneral D2 none .single lhs rhs (ix2 r q) = _
  rw [Ideal.dotGeneral_apply, ← Equiv.sum_comp (contrEquiv1 D2 128 rfl rfl).symm]
  refine Finset.sum_congr rfl fun k _ => ?_
  have hk := contrEquiv1_symm_val D2 128 rfl rfl k
  have el : D2.lhsIdx (ix2 r q) ((contrEquiv1 D2 128 rfl rfl).symm k) = ix2 r k := funext fun a => Fin.ext (by
    match a with
    | ⟨0, _⟩ => exact lhs2_0 _ _
    | ⟨1, _⟩ => exact (lhs2_1 _ _).trans hk)
  have er : D2.rhsIdx (ix2 r q) ((contrEquiv1 D2 128 rfl rfl).symm k) = ix2 k q := funext fun a => Fin.ext (by
    match a with
    | ⟨0, _⟩ => exact (rhs2_0 _ _).trans hk
    | ⟨1, _⟩ => exact rhs2_1 _ _)
  rw [el, er]

/-! ## The broadcasts at an index -/

/-- A `[a, 1]` column broadcast to `[a, b]` reads, at `(p, c)`, the column's entry of row `p`. -/
theorem bcast_col_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast to `[a, b]` reads, at `(p, c)`, the row's entry of column `c`. -/
theorem bcast_row_apply {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector kept as a `[1, b]` row reads, at `(u, c)`, the vector's entry `c`. -/
theorem bcast_vec_apply {α : Type} {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A bias `[b]` broadcast over the rows reads, at `(p, c)`, its entry `c`. -/
theorem bias_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) :=
  (bcast_row_apply h2 _ p c).trans (bcast_vec_apply h1 v 0 c)

/-- A scalar constant broadcast to any shape reads the constant's value. -/
theorem const_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-! ## Dropout and the first product -/

/-- The keep factor as the reference spells it: the test `mask > 0.2`, one bit, read as an unsigned integer. -/
theorem keep_eq (mk : EReal) :
    FloatOps.uitofp (F := Ideal) .f32 (FloatOps.cmpf .ogt mk (Ideal.ofBits .f32 0x3E4CCCCD#32)) = Cert.Spec.keep mk := by
  show ((((Ideal.cmp .ogt mk (Ideal.ofBits .f32 0x3E4CCCCD#32)).toNat : ℝ)) : EReal) = _
  unfold Cert.Spec.keep Cert.Spec.thr Ideal.cmp
  by_cases h : Ideal.ofBits .f32 0x3E4CCCCD#32 < mk
  · simp [h]
  · simp [h]

/-- Dropout at an entry: the entry times its keep factor times 1.25. -/
theorem drop_apply (x mask : FVec Ideal S50000x128 .f32) (i : S50000x128.Idx) :
    dropR x mask i = x i * Cert.Spec.keep (mask i) * Cert.Spec.inv_keep := by
  unfold dropR
  refine (mulf_apply _ _ _).trans ?_
  refine congrArg₂ (· * ·) ?_ (const_apply _ _ i)
  refine (mulf_apply _ _ _).trans ?_
  refine congrArg₂ (· * ·) rfl ?_
  show FloatOps.uitofp (F := Ideal) .f32 (FloatOps.cmpf .ogt (mask i) (broadcastInDim S50000x128 ![] bcast_S_S50000x128 (constant (F := Ideal) S_ .f32 0x3E4CCCCD#32) i)) = _
  rw [const_apply]
  exact keep_eq (mask i)

/-- A column of normalisers broadcast over the features, at `(r, k)`. -/
theorem norm_apply (ns : FVec Ideal S50000x1 .f32) (r : Fin 50000) (k : Fin 128) :
    broadcastInDim S50000x128 ![0, 1] bcast_S50000x1_S50000x128_0_1 ns (ix2 r k) = ns (ix2 r 0) :=
  bcast_col_apply _ ns r k

/-- (A) Dropout, source normalisation and the first layer's product. -/
theorem h1_eq (x mask : FVec Ideal S50000x128 .f32) (ns : FVec Ideal S50000x1 .f32) (w : FVec Ideal S128x128 .f32) :
    h1R (dropR x mask) ns w = Cert.Spec.dropPre x mask ns w := by
  funext i
  obtain ⟨r, q, rfl⟩ : ∃ (r : Fin 50000) (q : Fin 128), i = ix2 r q := ⟨i 0, i 1, eq_ix2 i⟩
  unfold h1R
  refine (dot_apply _ _ r q).trans ?_
  show _ = ∑ k : Fin 128, (x (ix2 r k) * Cert.Spec.keep (mask (ix2 r k)) * Cert.Spec.inv_keep * ns (ix2 r 0)) * w (ix2 k q)
  refine Finset.sum_congr rfl fun k _ => ?_
  refine congrArg₂ (· * ·) ?_ rfl
  refine (mulf_apply _ _ _).trans ?_
  exact congrArg₂ (· * ·) (drop_apply x mask (ix2 r k)) (norm_apply ns r k)

/-! ## A layer's activation -/

/-- Target normalisation and the bias at `(r, k)`. -/
theorem post_apply (agg : FVec Ideal S50000x128 .f32) (nd : FVec Ideal S50000x1 .f32) (b : FVec Ideal S128 .f32) (r : Fin 50000) (k : Fin 128) :
    postR agg nd b (ix2 r k) = agg (ix2 r k) * nd (ix2 r 0) + b (ix1 k) := by
  unfold postR
  refine (addf_apply _ _ _).trans ?_
  refine congrArg₂ (· + ·) ?_ (bias_apply _ _ b r k)
  refine (mulf_apply _ _ _).trans ?_
  exact congrArg₂ (· * ·) rfl (norm_apply nd r k)

/-- The reference's ELU at a value: `y` on the positives, `exp y - 1` elsewhere. -/
theorem elu_scalar (y : EReal) :
    Scalar.select (Ideal.cmp .ogt y 0) y (1 * (Ideal.exp (Scalar.select (Ideal.cmp .ogt y 0) 0 y) - 1)) = Cert.Spec.elu y := by
  rw [Cert.LibElu.select_cmp_ogt_zero, Cert.LibElu.select_cmp_ogt_zero]
  unfold Cert.Spec.elu
  by_cases h : (0 : EReal) < y
  · rw [if_pos h, if_pos h]
  · rw [if_neg h, if_neg h, if_neg h, one_mul]

/-- The reference's ELU at an entry. -/
theorem elu_apply (y : FVec Ideal S50000x128 .f32) (i : S50000x128.Idx) : eluR y i = Cert.Spec.elu (y i) := by
  unfold eluR
  show Scalar.select (Ideal.cmp .ogt (y i) (broadcastInDim S50000x128 ![] bcast_S_S50000x128 (constant (F := Ideal) S_ .f32 0x00000000#32) i)) (y i)
      (broadcastInDim S50000x128 ![] bcast_S_S50000x128 (constant (F := Ideal) S_ .f32 0x3F800000#32) i
        * (Ideal.exp (Scalar.select (Ideal.cmp .ogt (y i) (broadcastInDim S50000x128 ![] bcast_S_S50000x128 (constant (F := Ideal) S_ .f32 0x00000000#32) i))
            (broadcastInDim S50000x128 ![] bcast_S_S50000x128 (constant (F := Ideal) S_ .f32 0x00000000#32) i) (y i)) - 1)) = _
  rw [const_apply, const_apply, Ideal.ofBits_zero_f32, Cert.LibLiterals.ofBits_one_f32]
  exact elu_scalar (y i)

/-- A layer's output after ELU at `(r, k)`. -/
theorem act_apply (agg : FVec Ideal S50000x128 .f32) (nd : FVec Ideal S50000x1 .f32) (b : FVec Ideal S128 .f32) (r : Fin 50000) (k : Fin 128) :
    eluR (postR agg nd b) (ix2 r k) = Cert.Spec.act agg nd (rowB b) (ix2 r k) :=
  (elu_apply _ _).trans (congrArg Cert.Spec.elu (post_apply agg nd b r k))

/-- (B) A layer's activation, source normalisation and the next layer's product. -/
theorem pre_eq (agg : FVec Ideal S50000x128 .f32) (nd ns : FVec Ideal S50000x1 .f32) (b : FVec Ideal S128 .f32) (w : FVec Ideal S128x128 .f32) :
    dotR (scaleR (eluR (postR agg nd b)) ns) w = Cert.Spec.postPre agg nd (rowB b) ns w := by
  funext i
  obtain ⟨r, q, rfl⟩ : ∃ (r : Fin 50000) (q : Fin 128), i = ix2 r q := ⟨i 0, i 1, eq_ix2 i⟩
  unfold dotR
  refine (dot_apply _ _ r q).trans ?_
  show _ = ∑ k : Fin 128, (Cert.Spec.act agg nd (rowB b) (ix2 r k) * ns (ix2 r 0)) * w (ix2 k q)
  refine Finset.sum_congr rfl fun k _ => ?_
  refine congrArg₂ (· * ·) ?_ rfl
  unfold scaleR
  refine (mulf_apply _ _ _).trans ?_
  exact congrArg₂ (· * ·) (act_apply agg nd b r k) (norm_apply ns r k)

/-- (C) The last activation and the linear head. -/
theorem head_eq (agg : FVec Ideal S50000x128 .f32) (nd : FVec Ideal S50000x1 .f32) (b : FVec Ideal S128 .f32)
    (wl : FVec Ideal S128x128 .f32) (bl : FVec Ideal S128 .f32) :
    headR (eluR (postR agg nd b)) wl bl = Cert.Spec.head agg nd (rowB b) wl (rowB bl) := by
  funext i
  obtain ⟨r, q, rfl⟩ : ∃ (r : Fin 50000) (q : Fin 128), i = ix2 r q := ⟨i 0, i 1, eq_ix2 i⟩
  unfold headR
  refine (addf_apply _ _ _).trans ?_
  show _ = (∑ k : Fin 128, Cert.Spec.act agg nd (rowB b) (ix2 r k) * wl (ix2 k q)) + bl (ix1 q)
  refine congrArg₂ (· + ·) ?_ (bias_apply _ _ bl r q)
  refine (dot_apply _ _ r q).trans ?_
  refine Finset.sum_congr rfl fun k _ => ?_
  exact congrArg₂ (· * ·) (act_apply agg nd b r k) rfl

/-- (D) The two-class scores: the row times the classifier, plus the bias. -/
theorem score_eq (r : FVec Ideal S50000x128 .f32) (wc : FVec Ideal S128x2 .f32) (bc : FVec Ideal S2 .f32) :
    scoreR r wc bc = fun i => (∑ k : Fin 128, r (ix2 (i 0) k) * wc (ix2 k (i 1))) + bc (ix1 (i 1)) := by
  funext i
  obtain ⟨p, q, rfl⟩ : ∃ (p : Fin 50000) (q : Fin 2), i = ix2 p q := ⟨i 0, i 1, eq_ix2 i⟩
  unfold scoreR
  refine (addf_apply _ _ _).trans ?_
  show _ = (∑ k : Fin 128, r (ix2 p k) * wc (ix2 k q)) + bc (ix1 q)
  exact congrArg₂ (· + ·) (dot2_apply r wc p q) (bias_apply _ _ bc p q)

/-! ## The column standardization -/

/-- The column means: each column's sum divided by the number of rows (the word of f32 50000.0). -/
def meanS (e : FVec Ideal S50000x128 .f32) : Cert.Spec.S1xD.Idx → EReal :=
  fun j => Ideal.div (Cert.Spec.colSum e j) (Ideal.ofBits .f32 0x47435000#32)

/-- The reciprocal standard deviations: the reciprocal square root of each column's centred sum of squares divided
    by the number of rows less one (the word of f32 49999.0). -/
def invS (e : FVec Ideal S50000x128 .f32) : Cert.Spec.S1xD.Idx → EReal :=
  fun j => Ideal.rsqrt (Ideal.div (Cert.Spec.sumSq e (meanS e) j) (Ideal.ofBits .f32 0x47434F00#32))

/-- The host's sum over the rows from a zero initial value, at column `q`. -/
theorem colsum_apply (x : FVec Ideal S50000x128 .f32) (q : Fin 128) :
    Host.reduceAdd x (constant (F := Ideal) S_ .f32 0x00000000#32) reducesTo_S50000x128_S128_d0 h_S_ (ix1 q)
      = ∑ r : Fin 50000, x (ix2 r q) := by
  refine (hostReduceAdd_apply x _ reducesTo_S50000x128_S128_d0 h_S_ (ix1 q)).trans ?_
  refine (Ideal.hostReduceAdd_single reducesTo_S50000x128_S128_d0 (by decide) x _ (ix1 q)).trans ?_
  show Ideal.ofBits .f32 0x00000000#32 + _ = _
  rw [Ideal.ofBits_zero_f32, zero_add]
  refine Finset.sum_congr rfl fun r _ => congrArg x (funext fun a => Fin.ext ?_)
  match a with
  | ⟨0, _⟩ => rfl
  | ⟨1, _⟩ => rfl

/-- The mean as the reference first computes it, a `[128]` vector. -/
theorem meanvec_apply (e : FVec Ideal S50000x128 .f32) (q : Fin 128) :
    Host.divf (Host.reduceAdd e (constant (F := Ideal) S_ .f32 0x00000000#32) reducesTo_S50000x128_S128_d0 h_S_)
        (broadcastInDim S128 ![] bcast_S_S128 (constant (F := Ideal) S_ .f32 0x47435000#32)) (ix1 q)
      = meanS e (ix2 0 q) := by
  refine (hostDivf_apply _ _ _).trans ?_
  exact congrArg₂ Ideal.div (colsum_apply e q) (const_apply _ _ _)

/-- The mean as the reference computes it again for the variance, kept as a `[1, 128]` row. -/
theorem meanrow_apply (e : FVec Ideal S50000x128 .f32) (q : Fin 128) :
    Host.divf (broadcastInDim S1x128 ![1] bcast_S128_S1x128_1 (Host.reduceAdd e (constant (F := Ideal) S_ .f32 0x00000000#32) reducesTo_S50000x128_S128_d0 h_S_))
        (broadcastInDim S1x128 ![] bcast_S_S1x128 (constant (F := Ideal) S_ .f32 0x47435000#32)) (ix2 0 q)
      = meanS e (ix2 0 q) := by
  refine (hostDivf_apply _ _ _).trans ?_
  exact congrArg₂ Ideal.div ((bcast_vec_apply _ _ 0 q).trans (colsum_apply e q)) (const_apply _ _ _)

/-- The centred entry inside the variance. -/
theorem centred_apply (e : FVec Ideal S50000x128 .f32) (r : Fin 50000) (q : Fin 128) :
    subf e (broadcastInDim S50000x128 ![0, 1] bcast_S1x128_S50000x128_0_1
        (Host.divf (broadcastInDim S1x128 ![1] bcast_S128_S1x128_1 (Host.reduceAdd e (constant (F := Ideal) S_ .f32 0x00000000#32) reducesTo_S50000x128_S128_d0 h_S_))
          (broadcastInDim S1x128 ![] bcast_S_S1x128 (constant (F := Ideal) S_ .f32 0x47435000#32)))) (ix2 r q)
      = e (ix2 r q) - meanS e (ix2 0 q) := by
  refine (subf_apply _ _ _).trans ?_
  refine congrArg₂ (· - ·) rfl ?_
  exact (bcast_row_apply _ _ r q).trans (meanrow_apply e q)

/-- The variance's divisor: 50000 less the integer one is 49999. -/
theorem count_eq : Ideal.ofBits .f32 0x47435000#32 - (((1#32 : BitVec 32).toInt : ℝ) : EReal) = ((49999 : ℝ) : EReal) := by
  rw [Cert.LibLiterals.ofBits_50000_f32, show (1#32 : BitVec 32).toInt = 1 by decide, ← EReal.coe_sub]
  norm_num

/-- The reference's guard on the divisor, `50000 - 1 > 0`, holds. -/
theorem guard_eq :
    (cmpf .ogt (subf (constant (F := Ideal) S_ .f32 0x47435000#32) (sitofp .f32 (constantI S_ 32 1#32)))
      (constant (F := Ideal) S_ .f32 0x00000000#32) : IVec S_ 1) ix0 = 1#1 := by
  show Ideal.cmp .ogt (Ideal.ofBits .f32 0x47435000#32 - (((1#32 : BitVec 32).toInt : ℝ) : EReal)) (Ideal.ofBits .f32 0x00000000#32) = 1#1
  rw [count_eq, Ideal.ofBits_zero_f32]
  exact (Cert.LibElu.cmp_ogt_eq_one_iff _ _).mpr (EReal.coe_pos.mpr (by norm_num))

/-- A selection whose test is true picks its first operand. -/
theorem select_true {α : Type} (c : BitVec 1) (a b : α) (h : c = 1#1) : Scalar.select c a b = a := by
  subst h; exact select_one a b

/-- The host's square root at an entry. -/
theorem hostSqrt_apply {s : Shape} {φ : FTy} (x : FVec Ideal s φ) (i : s.Idx) : Host.sqrt x i = Ideal.sqrt (x i) := rfl

/-- (E) The column standardization: the centred entry divided by the unbiased standard deviation is the centred entry
    times the reciprocal standard deviation, wherever no column's variance is zero. -/
theorem res_eq (e : FVec Ideal S50000x128 .f32)
    (hv : ∀ q : Fin 128, Ideal.div (Cert.Spec.sumSq e (meanS e) (ix2 0 q)) (Ideal.ofBits .f32 0x47434F00#32) ≠ 0) :
    resR e = Cert.Spec.normed e (meanS e) (invS e) := by
  funext i
  obtain ⟨r, q, rfl⟩ : ∃ (r : Fin 50000) (q : Fin 128), i = ix2 r q := ⟨i 0, i 1, eq_ix2 i⟩
  have h0 : 0 ≤ Ideal.div (Cert.Spec.sumSq e (meanS e) (ix2 0 q)) (Ideal.ofBits .f32 0x47434F00#32) := by
    rw [Cert.LibLiterals.ofBits_49999_f32]
    exact Cert.LibStandardize.div_pos_real_nonneg _ 49999 (by norm_num) (Cert.LibStandardize.sum_mul_self_nonneg _ _)
  unfold resR
  refine (hostDivf_apply _ _ _).trans ?_
  refine (congrArg₂ Ideal.div (?_ : _ = e (ix2 r q) - meanS e (ix2 0 q))
    (?_ : _ = Ideal.sqrt (Ideal.div (Cert.Spec.sumSq e (meanS e) (ix2 0 q)) (Ideal.ofBits .f32 0x47434F00#32)))).trans ?_
  · refine (subf_apply _ _ _).trans ?_
    refine congrArg₂ (· - ·) rfl ?_
    exact (bias_apply _ _ _ r q).trans (meanvec_apply e q)
  · refine (bias_apply _ _ _ r q).trans ?_
    refine (hostSqrt_apply _ _).trans (congrArg Ideal.sqrt ?_)
    refine (select_true _ _ _ ((broadcastInDim_scalar_apply _ _ _).trans guard_eq)).trans ?_
    refine (hostDivf_apply _ _ _).trans ?_
    refine congrArg₂ Ideal.div ?_ ?_
    · refine (colsum_apply _ q).trans ?_
      show _ = ∑ r : Fin 50000, (e (ix2 r q) - meanS e (ix2 0 q)) * (e (ix2 r q) - meanS e (ix2 0 q))
      refine Finset.sum_congr rfl fun r _ => ?_
      refine (mulf_apply _ _ _).trans ?_
      exact congrArg₂ (· * ·) (centred_apply e r q) (centred_apply e r q)
    · exact (broadcastInDim_scalar_apply _ _ _).trans (count_eq.trans Cert.LibLiterals.ofBits_49999_f32.symm)
  · show _ = (e (ix2 r q) - meanS e (ix2 0 q)) * Ideal.rsqrt (Ideal.div (Cert.Spec.sumSq e (meanS e) (ix2 0 q)) (Ideal.ofBits .f32 0x47434F00#32))
    exact (Cert.LibStandardize.mul_rsqrt_eq_div_sqrt _ _ h0 (hv q)).symm

end Cert.ReferenceIdeal.RRead

end
-- ==== Proof.Bridge.lean ====
/-
  The two programs compute one function. One graph's embedding: the kernel program's composition (regions read as
  the specification's stages, host stretches as named functions) equals the reference's (its stages read as the same
  specification's stages), the degree normalisers and the aggregation along the edges being the same host
  operations in both and a bias row the bias. The standardized embedding: the kernel program multiplies the centred
  entry by the reciprocal square root of the variance, the reference divides it by the square root; they agree
  wherever the variance is not zero. The class scores: the kernel program's, over a classifier padded with zero
  columns and cut back to two, are the reference's over the two-column classifier.
-/
import proofs.«148151_j29411936043366_2_alg».proof.Proof.KValue
import proofs.«148151_j29411936043366_2_alg».proof.Proof.KRead
import proofs.«148151_j29411936043366_2_alg».proof.Proof.RValue
import proofs.«148151_j29411936043366_2_alg».proof.Proof.RRead

set_option maxRecDepth 16384

noncomputable section

namespace Cert.Bridge

open Idealize.ShloMosaic Idealize.ShloMosaic.ValueIdx
open Cert.KernelIdeal (S50000x128 S50000x1 S128x128 S128 S1x128 S128x2 S2 S600000)
open Cert.KernelIdeal.KStage Cert.KernelIdeal.KValue Cert.KernelIdeal.KRead
open Cert.ReferenceIdeal.RStage Cert.ReferenceIdeal.RValue Cert.ReferenceIdeal.RRead

/-- A bias kept as a row, in either program's spelling. -/
theorem rowOf_eq (b : FVec Ideal S128 .f32) : rowOf (F := Ideal) b = rowB b :=
  funext fun j => rowOf_apply b j

/-- One graph's embedding is the same function of the arguments in both programs. -/
theorem emb_eq (x mask : FVec Ideal S50000x128 .f32) (src dst : IVec S600000 32) (w1 : FVec Ideal S128x128 .f32)
    (b1 : FVec Ideal S128 .f32) (w2 : FVec Ideal S128x128 .f32) (b2 : FVec Ideal S128 .f32) (w3 : FVec Ideal S128x128 .f32)
    (b3 : FVec Ideal S128 .f32) (wl : FVec Ideal S128x128 .f32) (bl : FVec Ideal S128 .f32) :
    embK x mask src dst w1 b1 w2 b2 w3 b3 wl bl = Cert.ReferenceIdeal.RValue.embR (F := Ideal) x mask src dst w1 b1 w2 b2 w3 b3 wl bl := by
  unfold embK l3 l2 l1 Cert.ReferenceIdeal.RValue.embR layer3R layer2R layer1R
  rw [head_eq, pre_eq, pre_eq, h1_eq]
  rw [normOf_eq, normOf_eq, aggOf_eq, aggOf_eq, aggOf_eq, rowOf_eq, rowOf_eq, rowOf_eq, rowOf_eq]

/-- The column means. -/
theorem mean_eq (e : FVec Ideal S50000x128 .f32) : meanK e = meanS e :=
  funext fun j => by unfold meanK meanS; rw [divN_apply]

/-- The reciprocal standard deviations. -/
theorem invstd_eq (e : FVec Ideal S50000x128 .f32) : invstdK e = invS e :=
  funext fun j => by unfold invstdK invS; rw [invstdOf_apply, mean_eq]

/-- The standardized embedding, wherever no column's variance is zero. -/
theorem normed_eq (e : FVec Ideal S50000x128 .f32)
    (hv : ∀ q : Fin 128, Ideal.div (Cert.Spec.sumSq e (meanS e) (ix2 0 q)) (Ideal.ofBits .f32 0x47434F00#32) ≠ 0) :
    normedK e = resR (F := Ideal) e := by
  unfold normedK
  rw [mean_eq, invstd_eq, res_eq e hv]

/-- The class scores, wherever no column's variance is zero. -/
theorem scores_eq (e : FVec Ideal S50000x128 .f32) (wc : FVec Ideal S128x2 .f32) (bc : FVec Ideal S2 .f32)
    (hv : ∀ q : Fin 128, Ideal.div (Cert.Spec.sumSq e (meanS e) (ix2 0 q)) (Ideal.ofBits .f32 0x47434F00#32) ≠ 0) :
    scoresK e wc bc = scoreR (F := Ideal) (resR (F := Ideal) e) wc bc := by
  unfold scoresK
  rw [sliceC_scores, score_eq, normed_eq e hv]

end Cert.Bridge

end
-- ==== Proof.PStage.lean ====
/-
  The precondition, read. Besides "every float input is finite", it asks that no column of either graph's embedding
  be constant: it recomputes the embedding the reference standardizes — dropout, three graph convolutions with ELU,
  the head, spelt with the reference's own operations — and requires each column's unbiased standard deviation (the
  square root of the centred sum of squares over 49999) to be positive. Its stages are named here as the reference's
  are; the predicate is the conjunction of the finiteness tests and the two positivity tests, and from its holding
  the deviation of every column of either embedding is positive.
-/
import proofs.«148151_j29411936043366_2_alg».proof.Proof.Gen.Pre_finite_inputs
import proofs.«148151_j29411936043366_2_alg».proof.Proof.LibElu
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.Pre_finite_inputs.PStage

open Cert.Pre_finite_inputs Cert.Pre_finite_inputs.Facts

local instance : Cert.Pre_finite_inputs.Facts := Cert.Pre_finite_inputs.Gen.facts
open Idealize.ShloMosaic Idealize.ShloMosaic.ValueIdx

variable {F : FTy → Type} [FloatOps F]

/-- A degree normaliser as a column. -/
def normOfP (idx : IVec S600000 32) : FVec F S50000x1 .f32 :=
  ((broadcastInDim S50000x1 ![0] bcast_S50000_S50000x1_0) (Host.rsqrt (maximumf ((fun x i u => Host.scatterAdd scatter_S50000_S600000x1_S600000_n_0_0_1 x i u) ((broadcastInDim S50000 ![] bcast_S_S50000) (constant (F := F) S_ .f32 0x00000000#32)) ((broadcastInDim S600000x1 ![0] bcast_S600000_S600000x1_0) idx) ((broadcastInDim S600000 ![] bcast_S_S600000) (constant (F := F) S_ .f32 0x3F800000#32))) ((broadcastInDim S50000 ![] bcast_S_S50000) (constant (F := F) S_ .f32 0x3F800000#32)))))

/-- Dropout: keep where the mask exceeds 0.2, rescale by 1.25. -/
def dropP (x mask : FVec F S50000x128 .f32) : FVec F S50000x128 .f32 :=
  (mulf (mulf x ((uitofp .f32) ((cmpf .ogt) mask ((broadcastInDim S50000x128 ![] bcast_S_S50000x128) (constant (F := F) S_ .f32 0x3E4CCCCD#32))))) ((broadcastInDim S50000x128 ![] bcast_S_S50000x128) (constant (F := F) S_ .f32 0x3FA00000#32)))

/-- Source-normalise and multiply by a layer's weights. -/
def h1P (xd : FVec F S50000x128 .f32) (ns : FVec F S50000x1 .f32) (w : FVec F S128x128 .f32) : FVec F S50000x128 .f32 :=
  ((fun l r => Host.dotGeneral dot_S50000x128_S128x128_S50000x128_1_0_0_1_n_n none l r) (mulf xd ((broadcastInDim S50000x128 ![0, 1] bcast_S50000x1_S50000x128_0_1) ns)) w)

/-- The aggregation along the edges. -/
def aggP (h : FVec F S50000x128 .f32) (src dst : IVec S600000 32) : FVec F S50000x128 .f32 :=
  ((fun x i u => Host.scatterAdd scatter_S50000x128_S600000x1_S600000x128_1_0_0_1 x i u) ((broadcastInDim S50000x128 ![] bcast_S_S50000x128) (constant (F := F) S_ .f32 0x00000000#32)) ((broadcastInDim S600000x1 ![0] bcast_S600000_S600000x1_0) dst) ((fun x i => Host.gather gather_S50000x128_S600000x1_S600000x128_1_0_n_n_0_1_1128 x i) h ((broadcastInDim S600000x1 ![0] bcast_S600000_S600000x1_0) (select ((cmpi .slt) src ((broadcastInDim S600000 ![] bcast_S_S600000) (constantI S_ 32 0#32))) (addi src ((broadcastInDim S600000 ![] bcast_S_S600000) (constantI S_ 32 50000#32))) src))))

/-- Target-normalise and add the bias. -/
def postP (agg : FVec F S50000x128 .f32) (nd : FVec F S50000x1 .f32) (b : FVec F S128 .f32) : FVec F S50000x128 .f32 :=
  (addf (mulf agg ((broadcastInDim S50000x128 ![0, 1] bcast_S50000x1_S50000x128_0_1) nd)) ((broadcastInDim S50000x128 ![0, 1] bcast_S1x128_S50000x128_0_1) ((broadcastInDim S1x128 ![1] bcast_S128_S1x128_1) b)))

/-- Source-normalise. -/
def scaleP (a : FVec F S50000x128 .f32) (ns : FVec F S50000x1 .f32) : FVec F S50000x128 .f32 :=
  (mulf a ((broadcastInDim S50000x128 ![0, 1] bcast_S50000x1_S50000x128_0_1) ns))

/-- Multiply by a layer's weights. -/
def dotP (z : FVec F S50000x128 .f32) (w : FVec F S128x128 .f32) : FVec F S50000x128 .f32 :=
  ((fun l r => Host.dotGeneral dot_S50000x128_S128x128_S50000x128_1_0_0_1_n_n none l r) z w)

/-- The linear head. -/
def headP (a : FVec F S50000x128 .f32) (wl : FVec F S128x128 .f32) (bl : FVec F S128 .f32) : FVec F S50000x128 .f32 :=
  (addf ((fun l r => Host.dotGeneral dot_S50000x128_S128x128_S50000x128_1_0_0_1_n_n none l r) a wl) ((broadcastInDim S50000x128 ![0, 1] bcast_S1x128_S50000x128_0_1) ((broadcastInDim S1x128 ![1] bcast_S128_S1x128_1) bl)))

/-- ELU as the precondition spells it: the value where positive, elsewhere expm1 of the value (zero on the branch not taken). -/
def eluP (y : FVec F S50000x128 .f32) : FVec F S50000x128 .f32 :=
  (select (cmpf .ogt y (broadcastInDim S50000x128 ![] bcast_S_S50000x128 (constant (F := F) S_ .f32 0x00000000#32))) y (Host.expm1 (select (cmpf .ogt y (broadcastInDim S50000x128 ![] bcast_S_S50000x128 (constant (F := F) S_ .f32 0x00000000#32))) (broadcastInDim S50000x128 ![] bcast_S_S50000x128 (constant (F := F) S_ .f32 0x00000000#32)) y)))

/-- The unbiased standard deviation of every column. -/
def stdP (e : FVec F S50000x128 .f32) : FVec F S128 .f32 :=
  (Host.sqrt (Host.divf ((fun x v => Host.reduceAdd x v reducesTo_S50000x128_S128_d0 h_S_) (mulf (subf e (broadcastInDim S50000x128 ![0, 1] bcast_S1x128_S50000x128_0_1 (Host.divf (broadcastInDim S1x128 ![1] bcast_S128_S1x128_1 ((fun x v => Host.reduceAdd x v reducesTo_S50000x128_S128_d0 h_S_) e (constant (F := F) S_ .f32 0x00000000#32))) (broadcastInDim S1x128 ![] bcast_S_S1x128 (constant (F := F) S_ .f32 0x47435000#32))))) (subf e (broadcastInDim S50000x128 ![0, 1] bcast_S1x128_S50000x128_0_1 (Host.divf (broadcastInDim S1x128 ![1] bcast_S128_S1x128_1 ((fun x v => Host.reduceAdd x v reducesTo_S50000x128_S128_d0 h_S_) e (constant (F := F) S_ .f32 0x00000000#32))) (broadcastInDim S1x128 ![] bcast_S_S1x128 (constant (F := F) S_ .f32 0x47435000#32)))))) (constant (F := F) S_ .f32 0x00000000#32)) (broadcastInDim S128 ![] bcast_S_S128 (constant (F := F) S_ .f32 0x47434F00#32))))

/-- "Every entry is positive", as a bit. -/
def posP (s : FVec F S128 .f32) : IVec S_ 1 :=
  ((fun x v => Host.reduce IntOp.andi x v reducesTo_S128_S_d0 h_S_) (cmpf .ogt s (broadcastInDim S128 ![] bcast_S_S128 (constant (F := F) S_ .f32 0x00000000#32))) (constantI S_ 1 1#1))

/-- "Every float input is finite", as a bit. -/
def finP (arg0 : FVec F S50000x128 .f32) (arg1 : FVec F S50000x128 .f32) (arg2 : FVec F S50000x128 .f32) (arg3 : FVec F S50000x128 .f32) (arg4 : IVec S600000 32) (arg5 : IVec S600000 32) (arg6 : IVec S600000 32) (arg7 : IVec S600000 32) (arg8 : FVec F S128x128 .f32) (arg9 : FVec F S128 .f32) (arg10 : FVec F S128x128 .f32) (arg11 : FVec F S128 .f32) (arg12 : FVec F S128x128 .f32) (arg13 : FVec F S128 .f32) (arg14 : FVec F S128x128 .f32) (arg15 : FVec F S128 .f32) (arg16 : FVec F S128x2 .f32) (arg17 : FVec F S2 .f32) : IVec S_ 1 :=
  (andi (andi (andi (andi (andi (andi (andi (andi (andi (andi (andi (andi (andi ((fun x v => Host.reduce IntOp.andi x v reducesTo_S50000x128_S_d0_1 h_S_) (cmpf .olt (Host.absf arg0) (broadcastInDim S50000x128 ![] bcast_S_S50000x128 (constant (F := F) S_ .f32 0x7F800000#32))) (constantI S_ 1 1#1)) ((fun x v => Host.reduce IntOp.andi x v reducesTo_S50000x128_S_d0_1 h_S_) (cmpf .olt (Host.absf arg1) (broadcastInDim S50000x128 ![] bcast_S_S50000x128 (constant (F := F) S_ .f32 0x7F800000#32))) (constantI S_ 1 1#1))) ((fun x v => Host.reduce IntOp.andi x v reducesTo_S50000x128_S_d0_1 h_S_) (cmpf .olt (Host.absf arg2) (broadcastInDim S50000x128 ![] bcast_S_S50000x128 (constant (F := F) S_ .f32 0x7F800000#32))) (constantI S_ 1 1#1))) ((fun x v => Host.reduce IntOp.andi x v reducesTo_S50000x128_S_d0_1 h_S_) (cmpf .olt (Host.absf arg3) (broadcastInDim S50000x128 ![] bcast_S_S50000x128 (constant (F := F) S_ .f32 0x7F800000#32))) (constantI S_ 1 1#1))) ((fun x v => Host.reduce IntOp.andi x v reducesTo_S128x128_S_d0_1 h_S_) (cmpf .olt (Host.absf arg8) (broadcastInDim S128x128 ![] bcast_S_S128x128 (constant (F := F) S_ .f32 0x7F800000#32))) (constantI S_ 1 1#1))) ((fun x v => Host.reduce IntOp.andi x v reducesTo_S128_S_d0 h_S_) (cmpf .olt (Host.absf arg9) (broadcastInDim S128 ![] bcast_S_S128 (constant (F := F) S_ .f32 0x7F800000#32))) (constantI S_ 1 1#1))) ((fun x v => Host.reduce IntOp.andi x v reducesTo_S128x128_S_d0_1 h_S_) (cmpf .olt (Host.absf arg10) (broadcastInDim S128x128 ![] bcast_S_S128x128 (constant (F := F) S_ .f32 0x7F800000#32))) (constantI S_ 1 1#1))) ((fun x v => Host.reduce IntOp.andi x v reducesTo_S128_S_d0 h_S_) (cmpf .olt (Host.absf arg11) (broadcastInDim S128 ![] bcast_S_S128 (constant (F := F) S_ .f32 0x7F800000#32))) (constantI S_ 1 1#1))) ((fun x v => Host.reduce IntOp.andi x v reducesTo_S128x128_S_d0_1 h_S_) (cmpf .olt (Host.absf arg12) (broadcastInDim S128x128 ![] bcast_S_S128x128 (constant (F := F) S_ .f32 0x7F800000#32))) (constantI S_ 1 1#1))) ((fun x v => Host.reduce IntOp.andi x v reducesTo_S128_S_d0 h_S_) (cmpf .olt (Host.absf arg13) (broadcastInDim S128 ![] bcast_S_S128 (constant (F := F) S_ .f32 0x7F800000#32))) (constantI S_ 1 1#1))) ((fun x v => Host.reduce IntOp.andi x v reducesTo_S128x128_S_d0_1 h_S_) (cmpf .olt (Host.absf arg14) (broadcastInDim S128x128 ![] bcast_S_S128x128 (constant (F := F) S_ .f32 0x7F800000#32))) (constantI S_ 1 1#1))) ((fun x v => Host.reduce IntOp.andi x v reducesTo_S128_S_d0 h_S_) (cmpf .olt (Host.absf arg15) (broadcastInDim S128 ![] bcast_S_S128 (constant (F := F) S_ .f32 0x7F800000#32))) (constantI S_ 1 1#1))) ((fun x v => Host.reduce IntOp.andi x v reducesTo_S128x2_S_d0_1 h_S_) (cmpf .olt (Host.absf arg16) (broadcastInDim S128x2 ![] bcast_S_S128x2 (constant (F := F) S_ .f32 0x7F800000#32))) (constantI S_ 1 1#1))) ((fun x v => Host.reduce IntOp.andi x v reducesTo_S2_S_d0 h_S_) (cmpf .olt (Host.absf arg17) (broadcastInDim S2 ![] bcast_S_S2 (constant (F := F) S_ .f32 0x7F800000#32))) (constantI S_ 1 1#1)))

def layer1P (x mask : FVec F S50000x128 .f32) (src dst : IVec S600000 32) (w1 : FVec F S128x128 .f32) (b1 : FVec F S128 .f32) :
    FVec F S50000x128 .f32 :=
  eluP (postP (aggP (h1P (dropP x mask) (normOfP src) w1) src dst) (normOfP dst) b1)

def layer2P (x mask : FVec F S50000x128 .f32) (src dst : IVec S600000 32) (w1 : FVec F S128x128 .f32) (b1 : FVec F S128 .f32)
    (w2 : FVec F S128x128 .f32) (b2 : FVec F S128 .f32) : FVec F S50000x128 .f32 :=
  eluP (postP (aggP (dotP (scaleP (layer1P x mask src dst w1 b1) (normOfP src)) w2) src dst) (normOfP dst) b2)

def layer3P (x mask : FVec F S50000x128 .f32) (src dst : IVec S600000 32) (w1 : FVec F S128x128 .f32) (b1 : FVec F S128 .f32)
    (w2 : FVec F S128x128 .f32) (b2 : FVec F S128 .f32) (w3 : FVec F S128x128 .f32) (b3 : FVec F S128 .f32) : FVec F S50000x128 .f32 :=
  eluP (postP (aggP (dotP (scaleP (layer2P x mask src dst w1 b1 w2 b2) (normOfP src)) w3) src dst) (normOfP dst) b3)

/-- One graph's embedding, as the precondition recomputes it. -/
def embP (x mask : FVec F S50000x128 .f32) (src dst : IVec S600000 32) (w1 : FVec F S128x128 .f32) (b1 : FVec F S128 .f32)
    (w2 : FVec F S128x128 .f32) (b2 : FVec F S128 .f32) (w3 : FVec F S128x128 .f32) (b3 : FVec F S128 .f32)
    (wl : FVec F S128x128 .f32) (bl : FVec F S128 .f32) : FVec F S50000x128 .f32 :=
  headP (layer3P x mask src dst w1 b1 w2 b2 w3 b3) wl bl

set_option maxHeartbeats 4000000 in
/-- The predicate is the finiteness tests and the two positivity tests, conjoined. -/
theorem fn_eq (arg0 : FVec F S50000x128 .f32) (arg1 : FVec F S50000x128 .f32) (arg2 : FVec F S50000x128 .f32) (arg3 : FVec F S50000x128 .f32) (arg4 : IVec S600000 32) (arg5 : IVec S600000 32) (arg6 : IVec S600000 32) (arg7 : IVec S600000 32) (arg8 : FVec F S128x128 .f32) (arg9 : FVec F S128 .f32) (arg10 : FVec F S128x128 .f32) (arg11 : FVec F S128 .f32) (arg12 : FVec F S128x128 .f32) (arg13 : FVec F S128 .f32) (arg14 : FVec F S128x128 .f32) (arg15 : FVec F S128 .f32) (arg16 : FVec F S128x2 .f32) (arg17 : FVec F S2 .f32) :
    fn (F := F) arg0 arg1 arg2 arg3 arg4 arg5 arg6 arg7 arg8 arg9 arg10 arg11 arg12 arg13 arg14 arg15 arg16 arg17
      = andi (andi (finP arg0 arg1 arg2 arg3 arg4 arg5 arg6 arg7 arg8 arg9 arg10 arg11 arg12 arg13 arg14 arg15 arg16 arg17) (posP (stdP (embP arg0 arg2 arg4 arg5 arg8 arg9 arg10 arg11 arg12 arg13 arg14 arg15)))) (posP (stdP (embP arg1 arg3 arg6 arg7 arg8 arg9 arg10 arg11 arg12 arg13 arg14 arg15))) := by
  unfold fn fn_part1 fn_part2 fn_part3 fn_part4 fn_part5 fn_part6 fn_part7 fn_part8 fn_part9 fn_part10 fn_part11 fn_part12 fn_part13 fn_part14 fn_part15
  rfl

end Cert.Pre_finite_inputs.PStage

end
-- ==== Proof.PRead.lean ====
/-
  The precondition's extra conjunct, read against the reference.

  Besides finiteness the precondition recomputes one graph's embedding with the reference's own operations and asks
  that every column's unbiased standard deviation be positive. The recomputation is the reference's, stage by stage:
  the same host operations over the same shapes; only its ELU is spelt without the factor one in front of `expm1`,
  and `1 * z = z`. The standard deviation of column `q` is the square root of the column's centred sum of squares
  divided by 49999; the square root of zero is zero, so a positive deviation means that quotient is not zero — the
  hypothesis under which dividing by the deviation equals multiplying by its reciprocal. The predicate itself is a
  conjunction of bits; when it is one, each conjunct is one, and a `jnp.all` that is one has a one at every entry.
-/
import proofs.«148151_j29411936043366_2_alg».proof.Proof.PStage
import proofs.«148151_j29411936043366_2_alg».proof.Proof.RValue
import proofs.«148151_j29411936043366_2_alg».proof.Proof.RRead
import proofs.«148151_j29411936043366_2_alg».proof.Proof.LibElu
import proofs.«148151_j29411936043366_2_alg».proof.Proof.LibLiterals
import Idealize.ShloMosaic.Lib.ReduceAll
import Idealize.ShloMosaic.Lib.Affine
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

namespace Cert.Pre_finite_inputs.PRead

open Cert.Pre_finite_inputs Cert.Pre_finite_inputs.Facts Cert.Pre_finite_inputs.PStage
open Idealize.ShloMosaic Idealize.ShloMosaic.ValueIdx

local instance : Cert.Pre_finite_inputs.Facts := Cert.Pre_finite_inputs.Gen.facts

/-- The scalar shape has one index. -/
local instance : Subsingleton S_.Idx := ⟨fun a b => funext fun d => d.elim0⟩

/-! ## ELU without the factor one -/

/-- The precondition's ELU at an entry: `y` on the positives, `exp y - 1` elsewhere. -/
theorem eluP_apply (y : FVec Ideal S50000x128 .f32) (i : S50000x128.Idx) : eluP y i = Cert.Spec.elu (y i) := by
  unfold eluP
  show Scalar.select (Ideal.cmp .ogt (y i) (broadcastInDim S50000x128 ![] bcast_S_S50000x128 (constant (F := Ideal) S_ .f32 0x00000000#32) i)) (y i)
      (Ideal.exp (Scalar.select (Ideal.cmp .ogt (y i) (broadcastInDim S50000x128 ![] bcast_S_S50000x128 (constant (F := Ideal) S_ .f32 0x00000000#32) i))
          (broadcastInDim S50000x128 ![] bcast_S_S50000x128 (constant (F := Ideal) S_ .f32 0x00000000#32) i) (y i)) - 1) = _
  rw [show broadcastInDim S50000x128 ![] bcast_S_S50000x128 (constant (F := Ideal) S_ .f32 0x00000000#32) i = Ideal.ofBits .f32 0x00000000#32
      from broadcastInDim_scalar_apply _ _ i, Ideal.ofBits_zero_f32, Cert.LibElu.select_cmp_ogt_zero, Cert.LibElu.select_cmp_ogt_zero]
  unfold Cert.Spec.elu
  by_cases h : (0 : EReal) < y i
  · rw [if_pos h, if_pos h]
  · rw [if_neg h, if_neg h, if_neg h]

/-- (F) The two spellings of ELU are one function. -/
theorem eluP_eq (y : FVec Ideal S50000x128 .f32) : eluP y = Cert.ReferenceIdeal.RStage.eluR y :=
  funext fun i => (eluP_apply y i).trans (Cert.ReferenceIdeal.RRead.elu_apply y i).symm

/-! ## The recomputed embedding is the reference's -/

theorem normOfP_eq (idx : IVec S600000 32) : normOfP (F := Ideal) idx = Cert.ReferenceIdeal.RStage.normOfR idx := rfl
theorem dropP_eq (x mask : FVec Ideal S50000x128 .f32) : dropP x mask = Cert.ReferenceIdeal.RStage.dropR x mask := rfl
theorem h1P_eq (xd : FVec Ideal S50000x128 .f32) (ns : FVec Ideal S50000x1 .f32) (w : FVec Ideal S128x128 .f32) :
    h1P xd ns w = Cert.ReferenceIdeal.RStage.h1R xd ns w := rfl
theorem aggP_eq (h : FVec Ideal S50000x128 .f32) (src dst : IVec S600000 32) : aggP h src dst = Cert.ReferenceIdeal.RStage.aggR h src dst := rfl
theorem postP_eq (agg : FVec Ideal S50000x128 .f32) (nd : FVec Ideal S50000x1 .f32) (b : FVec Ideal S128 .f32) :
    postP agg nd b = Cert.ReferenceIdeal.RStage.postR agg nd b := rfl
theorem scaleP_eq (a : FVec Ideal S50000x128 .f32) (ns : FVec Ideal S50000x1 .f32) : scaleP a ns = Cert.ReferenceIdeal.RStage.scaleR a ns := rfl
theorem dotP_eq (z : FVec Ideal S50000x128 .f32) (w : FVec Ideal S128x128 .f32) : dotP z w = Cert.ReferenceIdeal.RStage.dotR z w := rfl
theorem headP_eq (a : FVec Ideal S50000x128 .f32) (wl : FVec Ideal S128x128 .f32) (bl : FVec Ideal S128 .f32) :
    headP a wl bl = Cert.ReferenceIdeal.RStage.headR a wl bl := rfl

theorem layer1P_eq (x mask : FVec Ideal S50000x128 .f32) (src dst : IVec S600000 32) (w1 : FVec Ideal S128x128 .f32) (b1 : FVec Ideal S128 .f32) :
    layer1P x mask src dst w1 b1 = Cert.ReferenceIdeal.RValue.layer1R x mask src dst w1 b1 := by
  unfold layer1P Cert.ReferenceIdeal.RValue.layer1R
  rw [eluP_eq, postP_eq, aggP_eq, h1P_eq, dropP_eq, normOfP_eq src, normOfP_eq dst]

theorem layer2P_eq (x mask : FVec Ideal S50000x128 .f32) (src dst : IVec S600000 32) (w1 : FVec Ideal S128x128 .f32) (b1 : FVec Ideal S128 .f32) (w2 : FVec Ideal S128x128 .f32) (b2 : FVec Ideal S128 .f32) :
    layer2P x mask src dst w1 b1 w2 b2 = Cert.ReferenceIdeal.RValue.layer2R x mask src dst w1 b1 w2 b2 := by
  unfold layer2P Cert.ReferenceIdeal.RValue.layer2R
  rw [eluP_eq, postP_eq, aggP_eq, dotP_eq, scaleP_eq, layer1P_eq, normOfP_eq src, normOfP_eq dst]

theorem layer3P_eq (x mask : FVec Ideal S50000x128 .f32) (src dst : IVec S600000 32) (w1 : FVec Ideal S128x128 .f32) (b1 : FVec Ideal S128 .f32) (w2 : FVec Ideal S128x128 .f32) (b2 : FVec Ideal S128 .f32) (w3 : FVec Ideal S128x128 .f32) (b3 : FVec Ideal S128 .f32) :
    layer3P x mask src dst w1 b1 w2 b2 w3 b3 = Cert.ReferenceIdeal.RValue.layer3R x mask src dst w1 b1 w2 b2 w3 b3 := by
  unfold layer3P Cert.ReferenceIdeal.RValue.layer3R
  rw [eluP_eq, postP_eq, aggP_eq, dotP_eq, scaleP_eq, layer2P_eq, normOfP_eq src, normOfP_eq dst]

/-- (G) The embedding the precondition recomputes is the embedding the reference standardizes. -/
theorem embP_eq (x mask : FVec Ideal S50000x128 .f32) (src dst : IVec S600000 32) (w1 : FVec Ideal S128x128 .f32) (b1 : FVec Ideal S128 .f32) (w2 : FVec Ideal S128x128 .f32) (b2 : FVec Ideal S128 .f32) (w3 : FVec Ideal S128x128 .f32) (b3 : FVec Ideal S128 .f32) (wl : FVec Ideal S128x128 .f32) (bl : FVec Ideal S128 .f32) :
    embP x mask src dst w1 b1 w2 b2 w3 b3 wl bl = Cert.ReferenceIdeal.RValue.embR x mask src dst w1 b1 w2 b2 w3 b3 wl bl := by
  unfold embP Cert.ReferenceIdeal.RValue.embR
  rw [headP_eq, layer3P_eq]

/-! ## A positive deviation is a variance that is not zero -/

/-- The deviation of column `q`: the square root of the centred sum of squares over 49999. -/
theorem std_apply (e : FVec Ideal S50000x128 .f32) (q : Fin 128) :
    stdP e (ix1 q) = Ideal.sqrt (Ideal.div (Cert.Spec.sumSq e (Cert.ReferenceIdeal.RRead.meanS e) (ix2 0 q)) (Ideal.ofBits .f32 0x47434F00#32)) := by
  unfold stdP
  refine (Cert.ReferenceIdeal.RRead.hostSqrt_apply _ _).trans (congrArg Ideal.sqrt ?_)
  refine (hostDivf_apply _ _ _).trans ?_
  refine congrArg₂ Ideal.div ?_ (broadcastInDim_scalar_apply _ _ _)
  refine (Cert.ReferenceIdeal.RRead.colsum_apply _ q).trans ?_
  show _ = ∑ r : Fin 50000, (e (ix2 r q) - Cert.ReferenceIdeal.RRead.meanS e (ix2 0 q)) * (e (ix2 r q) - Cert.ReferenceIdeal.RRead.meanS e (ix2 0 q))
  refine Finset.sum_congr rfl fun r _ => ?_
  refine (mulf_apply _ _ _).trans ?_
  exact congrArg₂ (· * ·) (Cert.ReferenceIdeal.RRead.centred_apply e r q) (Cert.ReferenceIdeal.RRead.centred_apply e r q)

/-- The square root of zero is zero. -/
theorem sqrt_zero : Ideal.sqrt 0 = 0 := by
  rw [show (0 : EReal) = ((0 : ℝ) : EReal) from rfl, Ideal.sqrt_coe, if_neg (lt_irrefl 0), Real.sqrt_zero]

/-- (H) A column whose deviation is positive has a variance that is not zero. -/
theorem var_ne_zero (e : FVec Ideal S50000x128 .f32) (q : Fin 128) (h : 0 < stdP e (ix1 q)) :
    Ideal.div (Cert.Spec.sumSq e (Cert.ReferenceIdeal.RRead.meanS e) (ix2 0 q)) (Ideal.ofBits .f32 0x47434F00#32) ≠ 0 := by
  intro h0
  rw [std_apply, h0, sqrt_zero] at h
  exact lt_irrefl _ h

/-! ## The predicate, decoded -/

/-- A `jnp.all (s > 0)` that is one: every entry of `s` is positive. -/
theorem pos_of (s : FVec Ideal S128 .f32) (h : posP s ix0 = 1#1) (q : Fin 128) : 0 < s (ix1 q) := by
  unfold posP at h
  have hq := Host.reduce_andi_all (cmpf .ogt s (broadcastInDim S128 ![] bcast_S_S128 (constant (F := Ideal) S_ .f32 0x00000000#32)))
    (constantI S_ 1 1#1) reducesTo_S128_S_d0 h_S_ ix0 h (ix1 q)
  have hc : Ideal.cmp .ogt (s (ix1 q)) (Ideal.ofBits .f32 0x00000000#32) = 1 :=
    (congrArg (Ideal.cmp .ogt (s (ix1 q))) (broadcastInDim_scalar_apply _ _ _).symm).trans hq
  rw [Ideal.ofBits_zero_f32] at hc
  exact (Cert.LibElu.cmp_ogt_eq_one_iff _ _).mp hc

/-- (I) When the predicate holds, every column of either graph's recomputed embedding has a positive deviation. -/
theorem decode (a0 a1 a2 a3 : FVec Ideal S50000x128 .f32) (a4 a5 a6 a7 : IVec S600000 32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S128x128 .f32) (a15 : FVec Ideal S128 .f32) (a16 : FVec Ideal S128x2 .f32) (a17 : FVec Ideal S2 .f32)
    (h : fn (F := Ideal) a0 a1 a2 a3 a4 a5 a6 a7 a8 a9 a10 a11 a12 a13 a14 a15 a16 a17 = fun _ => 1#1) :
    (∀ q : Fin 128, 0 < stdP (embP a0 a2 a4 a5 a8 a9 a10 a11 a12 a13 a14 a15) (ix1 q))
      ∧ (∀ q : Fin 128, 0 < stdP (embP a1 a3 a6 a7 a8 a9 a10 a11 a12 a13 a14 a15) (ix1 q)) := by
  have h1 := congrFun h ix0
  rw [PStage.fn_eq] at h1
  have h2 : IntOp.andi (IntOp.andi (finP a0 a1 a2 a3 a4 a5 a6 a7 a8 a9 a10 a11 a12 a13 a14 a15 a16 a17 ix0) (posP (stdP (embP a0 a2 a4 a5 a8 a9 a10 a11 a12 a13 a14 a15)) ix0))
      (posP (stdP (embP a1 a3 a6 a7 a8 a9 a10 a11 a12 a13 a14 a15)) ix0) = 1#1 := h1
  obtain ⟨h3, hp1⟩ := IntOp.andi_eq_one.mp h2
  obtain ⟨-, hp0⟩ := IntOp.andi_eq_one.mp h3
  exact ⟨fun q => pos_of _ hp0 q, fun q => pos_of _ hp1 q⟩

end Cert.Pre_finite_inputs.PRead

end
-- ==== Proof.Algebraic.lean ====
/-
  The value claim. From memories that agree on the arguments, the idealized kernel program and the idealized
  reference both run; the kernel program's four results are its composition of the arguments (dropout, three graph
  convolutions, head, column standardization, padded classifier cut back to two columns), the reference's are its
  own; the two compositions are one function wherever no embedding column has zero variance, and the precondition
  says exactly that no column has: it recomputes the reference's embedding and asks every column's standard
  deviation to be positive.
-/
import proofs.«148151_j29411936043366_2_alg».proof.Defs
import proofs.«148151_j29411936043366_2_alg».proof.Proof.KRun
import proofs.«148151_j29411936043366_2_alg».proof.Proof.KValue
import proofs.«148151_j29411936043366_2_alg».proof.Proof.RefFrame
import proofs.«148151_j29411936043366_2_alg».proof.Proof.RValue
import proofs.«148151_j29411936043366_2_alg».proof.Proof.Bridge
import proofs.«148151_j29411936043366_2_alg».proof.Proof.PRead

set_option maxRecDepth 16384

noncomputable section

namespace Cert.Proof

open Idealize.ShloMosaic Idealize.ShloMosaic.TcCoe Idealize.SL.Sem Idealize.ShloMosaic.ValueIdx

local instance : Cert.Pre_finite_inputs.Facts := Cert.Pre_finite_inputs.Gen.facts

/-- Under the precondition no column of the first graph's embedding (as the kernel program computes it) has zero variance. -/
theorem var_a (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (q : Fin 128) :
    Ideal.div (Cert.Spec.sumSq (Cert.KernelIdeal.KValue.embK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (Cert.ReferenceIdeal.RRead.meanS (Cert.KernelIdeal.KValue.embK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))) (ix2 0 q)) (Ideal.ofBits .f32 0x47434F00#32) ≠ 0 := by
  have h := (Cert.Pre_finite_inputs.PRead.decode _ _ _ _ _ _ _ _ _ _ _ _ _ _ _ _ _ _ (hpre c)).1 q
  rw [Cert.Pre_finite_inputs.PRead.embP_eq, ← Cert.Bridge.emb_eq] at h
  exact Cert.Pre_finite_inputs.PRead.var_ne_zero _ q h

/-- Nor has any column of the second graph's. -/
theorem var_b (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (q : Fin 128) :
    Ideal.div (Cert.Spec.sumSq (Cert.KernelIdeal.KValue.embK (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (Cert.ReferenceIdeal.RRead.meanS (Cert.KernelIdeal.KValue.embK (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))) (ix2 0 q)) (Ideal.ofBits .f32 0x47434F00#32) ≠ 0 := by
  have h := (Cert.Pre_finite_inputs.PRead.decode _ _ _ _ _ _ _ _ _ _ _ _ _ _ _ _ _ _ (hpre c)).2 q
  rw [Cert.Pre_finite_inputs.PRead.embP_eq, ← Cert.Bridge.emb_eq] at h
  exact Cert.Pre_finite_inputs.PRead.var_ne_zero _ q h

/-- The first graph's embedding, as the kernel program composes it from its arguments. -/
def EA (m : (ℓ : Loc Cert.KernelIdeal.nD Cert.KernelIdeal.τ Cert.KernelIdeal.sig) → Buf (Elt Ideal) ℓ) (c : Dev Cert.KernelIdeal.nD) : FVec Ideal Cert.KernelIdeal.S50000x128 .f32 :=
  Cert.KernelIdeal.KValue.embK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

/-- The second graph's. -/
def EB (m : (ℓ : Loc Cert.KernelIdeal.nD Cert.KernelIdeal.τ Cert.KernelIdeal.sig) → Buf (Elt Ideal) ℓ) (c : Dev Cert.KernelIdeal.nD) : FVec Ideal Cert.KernelIdeal.S50000x128 .f32 :=
  Cert.KernelIdeal.KValue.embK (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))

/-- The first graph's embedding, as the reference composes it from its arguments. -/
def RA (m' : (ℓ : Loc Cert.ReferenceIdeal.nD Cert.ReferenceIdeal.τ Cert.ReferenceIdeal.sig) → Buf (Elt Ideal) ℓ) (c : Dev Cert.ReferenceIdeal.nD) : FVec Ideal Cert.ReferenceIdeal.S50000x128 .f32 :=
  Cert.ReferenceIdeal.RValue.embR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))

/-- The second graph's. -/
def RB (m' : (ℓ : Loc Cert.ReferenceIdeal.nD Cert.ReferenceIdeal.τ Cert.ReferenceIdeal.sig) → Buf (Elt Ideal) ℓ) (c : Dev Cert.ReferenceIdeal.nD) : FVec Ideal Cert.ReferenceIdeal.S50000x128 .f32 :=
  Cert.ReferenceIdeal.RValue.embR (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))

set_option maxHeartbeats 2000000 in
/-- The kernel program's run with its four results as functions of the arguments. -/
theorem krun (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v129_0) = Cert.KernelIdeal.KValue.normedK (EA m c)
        ∧ r.2.mem ((c.tc : Thread Cert.KernelIdeal.nD Cert.KernelIdeal.τ).loc Cert.KernelIdeal.main_v130_0) = Cert.KernelIdeal.KValue.normedK (EB m c)
        ∧ r.2.mem ((c.tc : Thread Cert.KernelIdeal.nD Cert.KernelIdeal.τ).loc Cert.KernelIdeal.main_v131) = Cert.KernelIdeal.KValue.scoresK (EA m c) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
        ∧ r.2.mem ((c.tc : Thread Cert.KernelIdeal.nD Cert.KernelIdeal.τ).loc Cert.KernelIdeal.main_v132) = Cert.KernelIdeal.KValue.scoresK (EB m c) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) := by
  refine (θ_run (Cert.KernelIdeal.defs (F := Ideal)) _ _).mono ?_ (Cert.KernelIdeal.KRun.run_results m ρ)
  intro r h c
  obtain ⟨h0, h1, h2, h3, hargs⟩ := h c
  exact ⟨h0.trans (Cert.KernelIdeal.KValue.res_main_v129_0 m ρ c), h1.trans (Cert.KernelIdeal.KValue.res_main_v130_0 m ρ c),
    h2.trans (Cert.KernelIdeal.KValue.res_main_v131 m ρ c), h3.trans (Cert.KernelIdeal.KValue.res_main_v132 m ρ c), hargs⟩

set_option maxHeartbeats 2000000 in
/-- The reference's run with its four results as functions of the arguments. -/
theorem rrun (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v173) = Cert.ReferenceIdeal.RStage.resR (RA m' c)
        ∧ r.2.mem ((c.tc : Thread Cert.ReferenceIdeal.nD Cert.ReferenceIdeal.τ).loc Cert.ReferenceIdeal.main_v183) = Cert.ReferenceIdeal.RStage.resR (RB m' c)
        ∧ r.2.mem ((c.tc : Thread Cert.ReferenceIdeal.nD Cert.ReferenceIdeal.τ).loc Cert.ReferenceIdeal.main_v187) = Cert.ReferenceIdeal.RStage.scoreR (Cert.ReferenceIdeal.RStage.resR (RA m' c)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
        ∧ r.2.mem ((c.tc : Thread Cert.ReferenceIdeal.nD Cert.ReferenceIdeal.τ).loc Cert.ReferenceIdeal.main_v191) = Cert.ReferenceIdeal.RStage.scoreR (Cert.ReferenceIdeal.RStage.resR (RB m' c)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) := by
  refine (θ_run (Cert.ReferenceIdeal.defs (F := Ideal)) _ _).mono ?_ (Cert.ReferenceIdeal.RefRun.run_all (F := Ideal) m' ρ')
  intro r h c
  exact ⟨(h c Cert.ReferenceIdeal.main_v173).trans (Cert.ReferenceIdeal.RValue.res0 _),
    (h c Cert.ReferenceIdeal.main_v183).trans (Cert.ReferenceIdeal.RValue.res1 _),
    (h c Cert.ReferenceIdeal.main_v187).trans (Cert.ReferenceIdeal.RValue.res2 _),
    (h c Cert.ReferenceIdeal.main_v191).trans (Cert.ReferenceIdeal.RValue.res3 _),
    (h c Cert.ReferenceIdeal.main_arg0).trans (Cert.ReferenceIdeal.RefRun.kept_main_arg0 _),
    (h c Cert.ReferenceIdeal.main_arg1).trans (Cert.ReferenceIdeal.RefRun.kept_main_arg1 _),
    (h c Cert.ReferenceIdeal.main_arg2).trans (Cert.ReferenceIdeal.RefRun.kept_main_arg2 _),
    (h c Cert.ReferenceIdeal.main_arg3).trans (Cert.ReferenceIdeal.RefRun.kept_main_arg3 _),
    (h c Cert.ReferenceIdeal.main_arg4).trans (Cert.ReferenceIdeal.RefRun.kept_main_arg4 _),
    (h c Cert.ReferenceIdeal.main_arg5).trans (Cert.ReferenceIdeal.RefRun.kept_main_arg5 _),
    (h c Cert.ReferenceIdeal.main_arg6).trans (Cert.ReferenceIdeal.RefRun.kept_main_arg6 _),
    (h c Cert.ReferenceIdeal.main_arg7).trans (Cert.ReferenceIdeal.RefRun.kept_main_arg7 _),
    (h c Cert.ReferenceIdeal.main_arg8).trans (Cert.ReferenceIdeal.RefRun.kept_main_arg8 _),
    (h c Cert.ReferenceIdeal.main_arg9).trans (Cert.ReferenceIdeal.RefRun.kept_main_arg9 _),
    (h c Cert.ReferenceIdeal.main_arg10).trans (Cert.ReferenceIdeal.RefRun.kept_main_arg10 _),
    (h c Cert.ReferenceIdeal.main_arg11).trans (Cert.ReferenceIdeal.RefRun.kept_main_arg11 _),
    (h c Cert.ReferenceIdeal.main_arg12).trans (Cert.ReferenceIdeal.RefRun.kept_main_arg12 _),
    (h c Cert.ReferenceIdeal.main_arg13).trans (Cert.ReferenceIdeal.RefRun.kept_main_arg13 _),
    (h c Cert.ReferenceIdeal.main_arg14).trans (Cert.ReferenceIdeal.RefRun.kept_main_arg14 _),
    (h c Cert.ReferenceIdeal.main_arg15).trans (Cert.ReferenceIdeal.RefRun.kept_main_arg15 _),
    (h c Cert.ReferenceIdeal.main_arg16).trans (Cert.ReferenceIdeal.RefRun.kept_main_arg16 _),
    (h c Cert.ReferenceIdeal.main_arg17).trans (Cert.ReferenceIdeal.RefRun.kept_main_arg17 _)⟩

/-- From memories that agree on the arguments the reference composes the kernel program's embedding. -/
theorem RA_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    RA m' c = EA m c ∧ RB m' c = EB m c := by
  obtain ⟨g0, g1, g2, g3, g4, g5, g6, g7, g8, g9, g10, g11, g12, g13, g14, g15, g16, g17⟩ := hagree
  unfold RA RB EA EB
  rw [g0, g1, g2, g3, g4, g5, g6, g7, g8, g9, g10, g11, g12, g13, g14, g15]
  exact ⟨(Cert.Bridge.emb_eq _ _ _ _ _ _ _ _ _ _ _ _).symm, (Cert.Bridge.emb_eq _ _ _ _ _ _ _ _ _ _ _ _).symm⟩

set_option maxHeartbeats 2000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.normedK (EA m c), fun c => Cert.KernelIdeal.KValue.normedK (EB m c),
    fun c => Cert.KernelIdeal.KValue.scoresK (EA m c) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.KernelIdeal.KValue.scoresK (EB m c) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), krun m ρ, ?_⟩
  refine (θ_run (Cert.ReferenceIdeal.defs (F := Ideal)) _ _).mono ?_ (rrun m' ρ')
  intro r h c
  obtain ⟨h0, h1, h2, h3, hargs⟩ := h c
  obtain ⟨ea, eb⟩ := RA_eq m m' c (hagree c)
  have e16 := (hagree c).2.2.2.2.2.2.2.2.2.2.2.2.2.2.2.2.1
  have e17 := (hagree c).2.2.2.2.2.2.2.2.2.2.2.2.2.2.2.2.2
  have va := var_a m hpre c
  have vb := var_b m hpre c
  refine ⟨h0.trans ?_, h1.trans ?_, h2.trans ?_, h3.trans ?_, hargs⟩
  · rw [ea]; exact (Cert.Bridge.normed_eq _ va).symm
  · rw [eb]; exact (Cert.Bridge.normed_eq _ vb).symm
  · rw [ea, e16, e17]; exact (Cert.Bridge.scores_eq _ _ _ va).symm
  · rw [eb, e16, e17]; exact (Cert.Bridge.scores_eq _ _ _ vb).symm

end Cert.Proof

end
-- ==== Proof.lean ====
/-
  The proof of `Cert.Claim` for the graph-convolution embedding kernel against its jnp reference: two graphs, each
  through dropout, three symmetric-normalized graph convolutions with ELU, a linear head, a column standardization
  (mean and unbiased standard deviation over the 50000 nodes) and a two-class linear classifier.

  The three frames: the two kernel programs run through their twelve regions with the argument arrays untouched; the
  reference is a straight line of host operations none of which writes an argument. The idealization rewrote no
  operation, so nothing is owed for it. The value claim is that the standardized embeddings and the class scores of
  the two programs agree entry by entry on the extended reals, wherever no embedding column is constant — there the
  reference divides zero by zero.
-/
import proofs.«148151_j29411936043366_2_alg».proof.Defs
import proofs.«148151_j29411936043366_2_alg».proof.Proof.Gen.Kernel
import proofs.«148151_j29411936043366_2_alg».proof.Proof.Gen.Kernel.Frame
import proofs.«148151_j29411936043366_2_alg».proof.Proof.Gen.KernelIdeal
import proofs.«148151_j29411936043366_2_alg».proof.Proof.Gen.KernelIdeal.Frame
import proofs.«148151_j29411936043366_2_alg».proof.Proof.Gen.ReferenceIdeal
import proofs.«148151_j29411936043366_2_alg».proof.Proof.Gen.Pre_finite_inputs
import proofs.«148151_j29411936043366_2_alg».proof.Proof.RefFrame
import proofs.«148151_j29411936043366_2_alg».proof.Proof.KRun
import proofs.«148151_j29411936043366_2_alg».proof.Proof.Algebraic
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  fun m ρ _ => Cert.ReferenceIdeal.RefRun.run_args (F := Ideal) m ρ

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
